-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x4096x1024 : Shape := ⟨3, ![4, 4096, 1024]⟩
abbrev S4x32 : Shape := ⟨2, ![4, 32]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg1 : IVec S4x32 32) (main_v13 : IVec S_ 1) (main_v15 : IVec S4x32 1) (main_c_5 : IVec S_ 32) : IVec S_ 1 :=
  let main_v16 : IVec S4x32 32 := broadcastInDim S4x32 ![] bcast_S_S4x32 main_c_5
  let main_v17 : IVec S4x32 1 := cmpi .sle main_arg1 main_v16
  let main_v18 : IVec S4x32 1 := andi main_v15 main_v17
  let main_c_6 : IVec S_ 1 := constantI S_ 1 1#1
  let main_v19 : IVec S_ 1 := (fun x v => Host.reduce IntOp.andi x v reducesTo_S4x32_S_d0_1 h_S_) main_v18 main_c_6
  let main_v20 : IVec S_ 1 := andi main_v13 main_v19
  main_v20

def fn {F : FTy → Type} [FloatOps F] (main_arg0 : FVec F S4x4096x1024 .f32) (main_arg1 : IVec S4x32 32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S4x32 32 := broadcastInDim S4x32 ![] bcast_S_S4x32 main_c_4
  let main_v15 : IVec S4x32 1 := cmpi .sge main_arg1 main_v14
  let main_c_5 : IVec S_ 32 := constantI S_ 32 4095#32
  fn_part1 (F := F) main_arg1 main_v13 main_v15 main_c_5
-- ==== Kernel.lean ====
abbrev S4x4096x1024 : Shape := ⟨3, ![4, 4096, 1024]⟩
abbrev S4x32 : Shape := ⟨2, ![4, 32]⟩
abbrev S1024x1024 : Shape := ⟨2, ![1024, 1024]⟩
abbrev S1024 : Shape := ⟨1, ![1024]⟩
abbrev S16384x1024 : Shape := ⟨2, ![16384, 1024]⟩
abbrev S4 : Shape := ⟨1, ![4]⟩
abbrev S4x1 : Shape := ⟨2, ![4, 1]⟩
abbrev S_ : Shape := ⟨0, ![]⟩
abbrev S4x1024 : Shape := ⟨2, ![4, 1024]⟩
abbrev S32 : Shape := ⟨1, ![32]⟩
abbrev S32x128 : Shape := ⟨2, ![32, 128]⟩
abbrev S128 : Shape := ⟨1, ![128]⟩
abbrev S1x32 : Shape := ⟨2, ![1, 32]⟩
abbrev S16384x128 : Shape := ⟨2, ![16384, 128]⟩
abbrev S16 : Shape := ⟨1, ![16]⟩
abbrev S1 : Shape := ⟨1, ![1]⟩
abbrev S1x16 : Shape := ⟨2, ![1, 16]⟩
abbrev S1x128 : Shape := ⟨2, ![1, 128]⟩
abbrev S1x1024 : Shape := ⟨2, ![1, 1024]⟩

abbrev nBuf : Table → Nat
  | .hbm => 15
  | .local .tc .vmem => 4
  | .local .scVector .vmem => 3
  | _ => 0

abbrev bufTy : (tb : Table) → Fin (nBuf tb) → BufTy
  | .hbm, ⟨0, _⟩ => ⟨S4x4096x1024, .f32⟩
  | .hbm, ⟨1, _⟩ => ⟨S4x32, .i32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S4, .i32⟩
  | .hbm, ⟨6, _⟩ => ⟨S4x1, .i32⟩
  | .hbm, ⟨7, _⟩ => ⟨S_, .i32⟩
  | .hbm, ⟨8, _⟩ => ⟨S4x1, .i32⟩
  | .hbm, ⟨9, _⟩ => ⟨S4x1, .i32⟩
  | .hbm, ⟨10, _⟩ => ⟨S4x32, .i32⟩
  | .hbm, ⟨11, _⟩ => ⟨S4x32, .i32⟩
  | .hbm, ⟨12, _⟩ => ⟨S4x1024, .f32⟩
  | .hbm, ⟨13, _⟩ => ⟨S1x1024, .f32⟩
  | .hbm, ⟨14, _⟩ => ⟨S4x1024, .f32⟩
  | .local .tc .vmem, ⟨0, _⟩ => ⟨S4x1024, .f32⟩
  | .local .tc .vmem, ⟨1, _⟩ => ⟨S1024x1024, .f32⟩
  | .local .tc .vmem, ⟨2, _⟩ => ⟨S1x1024, .f32⟩
  | .local .tc .vmem, ⟨3, _⟩ => ⟨S4x1024, .f32⟩
  | .local .scVector .vmem, ⟨0, _⟩ => ⟨S32, .i32⟩
  | .local .scVector .vmem, ⟨1, _⟩ => ⟨S32x128, .f32⟩
  | .local .scVector .vmem, ⟨2, _⟩ => ⟨S128, .f32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v0_scv : Ref sig .scVector := ⟨.hbm, 4, rfl⟩
abbrev main_v6_scv : Ref sig .scVector := ⟨.hbm, 11, rfl⟩
abbrev main_v7_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_531_r0 : BitVec 32 := 0#32
  ![v18.toNat, 0]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let v19 : BitVec 32 := Scalar.remsi v1 c8_i32_4
  let c128_i32 : BitVec 32 := 128#32
  let v20 : BitVec 32 := Scalar.muli v19 c128_i32
  v20
def k0_off2 (i : grid0.Coords) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let v19 : BitVec 32 := Scalar.remsi v1 c8_i32_4
  let c128_i32 : BitVec 32 := 128#32
  let v20 : BitVec 32 := Scalar.muli v19 c128_i32
  let v21 : BitVec 32 := v20
  ![0, v21.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.remsi v1 c8_i32_4
  let c128_i32_530 : BitVec 32 := 128#32
  let v2000 : BitVec 32 := Scalar.muli v19 c128_i32_530
  ![v18.toNat, v2000.toNat]
abbrev grid1 : Pipeline.Grid := .none

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096x1024_S16384x1024 : S4x4096x1024.ShapeCasts S16384x1024
  bcast_S4_S4x1_0 : S4.BroadcastsInDim S4x1 (![0] : Fin 1 → Fin S4x1.rank)
  bcast_S_S4x1 : S_.BroadcastsInDim S4x1 (![] : Fin 0 → Fin S4x1.rank)
  bcast_S4x1_S4x32_0_1 : S4x1.BroadcastsInDim S4x32 (![0, 1] : Fin 2 → Fin S4x32.rank)
  squeezes_S1x32_S32 : S1x32.Squeezes S32
  gathers_S16384x128_S32x128 : S16384x128.Gathers 0 S32x128
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  iota_S16_d0_w32_scVector : S16.Iotas .scVector 32 [0]
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S32x128_S1x16_0_0 : ∀ a, (![0, 0] : Fin 2 → Nat) a + S1x16.size a ≤ S32x128.size a
  h_S1x16 : 0 < S1x16.numel
  shapeCasts_S1x16_S16 : S1x16.ShapeCasts S16
  inb_S32x128_S1x16_1_0 : ∀ a, (![1, 0] : Fin 2 → Nat) a + S1x16.size a ≤ S32x128.size a
  inb_S32x128_S1x16_2_0 : ∀ a, (![2, 0] : Fin 2 → Nat) a + S1x16.size a ≤ S32x128.size a
  inb_S32x128_S1x16_3_0 : ∀ a, (![3, 0] : Fin 2 → Nat) a + S1x16.size a ≤ S32x128.size a
  inb_S32x128_S1x16_4_0 : ∀ a, (![4, 0] : Fin 2 → Nat) a + S1x16.size a ≤ S32x128.size a
  inb_S32x128_S1x16_5_0 : ∀ a, (![5, 0] : Fin 2 → Nat) a + S1x16.size a ≤ S32x128.size a
  inb_S32x128_S1x16_6_0 : ∀ a, (![6, 0] : Fin 2 → Nat) a + S1x16.size a ≤ S32x128.size a
  inb_S32x128_S1x16_7_0 : ∀ a, (![7, 0] : Fin 2 → Nat) a + S1x16.size a ≤ S32x128.size a
  inb_S32x128_S1x16_8_0 : ∀ a, (![8, 0] : Fin 2 → Nat) a + S1x16.size a ≤ S32x128.size a
  inb_S32x128_S1x16_9_0 : ∀ a, (![9, 0] : Fin 2 → Nat) a + S1x16.size a ≤ S32x128.size a
  inb_S32x128_S1x16_10_0 : ∀ a, (![10, 0] : Fin 2 → Nat) a + S1x16.size a ≤ S32x128.size a
  inb_S32x128_S1x16_11_0 : ∀ a, (![11, 0] : Fin 2 → Nat) a + S1x16.size a ≤ S32x128.size a
  inb_S32x128_S1x16_12_0 : ∀ a, (![12, 0] : Fin 2 → Nat) a + S1x16.size a ≤ S32x128.size a
  inb_S32x128_S1x16_13_0 : ∀ a, (![13, 0] : Fin 2 → Nat) a + S1x16.size a ≤ S32x128.size a
  inb_S32x128_S1x16_14_0 : ∀ a, (![14, 0] : Fin 2 → Nat) a + S1x16.size a ≤ S32x128.size a
  inb_S32x128_S1x16_15_0 : ∀ a, (![15, 0] : Fin 2 → Nat) a + S1x16.size a ≤ S32x128.size a
  inb_S32x128_S1x16_16_0 : ∀ a, (![16, 0] : Fin 2 → Nat) a + S1x16.size a ≤ S32x128.size a
  inb_S32x128_S1x16_17_0 : ∀ a, (![17, 0] : Fin 2 → Nat) a + S1x16.size a ≤ S32x128.size a
  inb_S32x128_S1x16_18_0 : ∀ a, (![18, 0] : Fin 2 → Nat) a + S1x16.size a ≤ S32x128.size a
  inb_S32x128_S1x16_19_0 : ∀ a, (![19, 0] : Fin 2 → Nat) a + S1x16.size a ≤ S32x128.size a
  inb_S32x128_S1x16_20_0 : ∀ a, (![20, 0] : Fin 2 → Nat) a + S1x16.size a ≤ S32x128.size a
  inb_S32x128_S1x16_21_0 : ∀ a, (![21, 0] : Fin 2 → Nat) a + S1x16.size a ≤ S32x128.size a
  inb_S32x128_S1x16_22_0 : ∀ a, (![22, 0] : Fin 2 → Nat) a + S1x16.size a ≤ S32x128.size a
  inb_S32x128_S1x16_23_0 : ∀ a, (![23, 0] : Fin 2 → Nat) a + S1x16.size a ≤ S32x128.size a
  inb_S32x128_S1x16_24_0 : ∀ a, (![24, 0] : Fin 2 → Nat) a + S1x16.size a ≤ S32x128.size a
  inb_S32x128_S1x16_25_0 : ∀ a, (![25, 0] : Fin 2 → Nat) a + S1x16.size a ≤ S32x128.size a
  inb_S32x128_S1x16_26_0 : ∀ a, (![26, 0] : Fin 2 → Nat) a + S1x16.size a ≤ S32x128.size a
  inb_S32x128_S1x16_27_0 : ∀ a, (![27, 0] : Fin 2 → Nat) a + S1x16.size a ≤ S32x128.size a
  inb_S32x128_S1x16_28_0 : ∀ a, (![28, 0] : Fin 2 → Nat) a + S1x16.size a ≤ S32x128.size a
  inb_S32x128_S1x16_29_0 : ∀ a, (![29, 0] : Fin 2 → Nat) a + S1x16.size a ≤ S32x128.size a
  inb_S32x128_S1x16_30_0 : ∀ a, (![30, 0] : Fin 2 → Nat) a + S1x16.size a ≤ S32x128.size a
  inb_S32x128_S1x16_31_0 : ∀ a, (![31, 0] : Fin 2 → Nat) a + S1x16.size a ≤ S32x128.size a
  inb_S128_S16_0 : ∀ a, (![0] : Fin 1 → Nat) a + S16.size a ≤ S128.size a
  inb_S32x128_S1x16_0_16 : ∀ a, (![0, 16] : Fin 2 → Nat) a + S1x16.size a ≤ S32x128.size a
  inb_S32x128_S1x16_1_16 : ∀ a, (![1, 16] : Fin 2 → Nat) a + S1x16.size a ≤ S32x128.size a
  inb_S32x128_S1x16_2_16 : ∀ a, (![2, 16] : Fin 2 → Nat) a + S1x16.size a ≤ S32x128.size a
  inb_S32x128_S1x16_3_16 : ∀ a, (![3, 16] : Fin 2 → Nat) a + S1x16.size a ≤ S32x128.size a
  inb_S32x128_S1x16_4_16 : ∀ a, (![4, 16] : Fin 2 → Nat) a + S1x16.size a ≤ S32x128.size a
  inb_S32x128_S1x16_5_16 : ∀ a, (![5, 16] : Fin 2 → Nat) a + S1x16.size a ≤ S32x128.size a
  inb_S32x128_S1x16_6_16 : ∀ a, (![6, 16] : Fin 2 → Nat) a + S1x16.size a ≤ S32x128.size a
  inb_S32x128_S1x16_7_16 : ∀ a, (![7, 16] : Fin 2 → Nat) a + S1x16.size a ≤ S32x128.size a
  inb_S32x128_S1x16_8_16 : ∀ a, (![8, 16] : Fin 2 → Nat) a + S1x16.size a ≤ S32x128.size a
  inb_S32x128_S1x16_9_16 : ∀ a, (![9, 16] : Fin 2 → Nat) a + S1x16.size a ≤ S32x128.size a
  inb_S32x128_S1x16_10_16 : ∀ a, (![10, 16] : Fin 2 → Nat) a + S1x16.size a ≤ S32x128.size a
  inb_S32x128_S1x16_11_16 : ∀ a, (![11, 16] : Fin 2 → Nat) a + S1x16.size a ≤ S32x128.size a
  inb_S32x128_S1x16_12_16 : ∀ a, (![12, 16] : Fin 2 → Nat) a + S1x16.size a ≤ S32x128.size a
  inb_S32x128_S1x16_13_16 : ∀ a, (![13, 16] : Fin 2 → Nat) a + S1x16.size a ≤ S32x128.size a
  inb_S32x128_S1x16_14_16 : ∀ a, (![14, 16] : Fin 2 → Nat) a + S1x16.size a ≤ S32x128.size a
  inb_S32x128_S1x16_15_16 : ∀ a, (![15, 16] : Fin 2 → Nat) a + S1x16.size a ≤ S32x128.size a
  inb_S32x128_S1x16_16_16 : ∀ a, (![16, 16] : Fin 2 → Nat) a + S1x16.size a ≤ S32x128.size a
  inb_S32x128_S1x16_17_16 : ∀ a, (![17, 16] : Fin 2 → Nat) a + S1x16.size a ≤ S32x128.size a
  inb_S32x128_S1x16_18_16 : ∀ a, (![18, 16] : Fin 2 → Nat) a + S1x16.size a ≤ S32x128.size a
  inb_S32x128_S1x16_19_16 : ∀ a, (![19, 16] : Fin 2 → Nat) a + S1x16.size a ≤ S32x128.size a
  inb_S32x128_S1x16_20_16 : ∀ a, (![20, 16] : Fin 2 → Nat) a + S1x16.size a ≤ S32x128.size a
  inb_S32x128_S1x16_21_16 : ∀ a, (![21, 16] : Fin 2 → Nat) a + S1x16.size a ≤ S32x128.size a
  inb_S32x128_S1x16_22_16 : ∀ a, (![22, 16] : Fin 2 → Nat) a + S1x16.size a ≤ S32x128.size a
  inb_S32x128_S1x16_23_16 : ∀ a, (![23, 16] : Fin 2 → Nat) a + S1x16.size a ≤ S32x128.size a
  inb_S32x128_S1x16_24_16 : ∀ a, (![24, 16] : Fin 2 → Nat) a + S1x16.size a ≤ S32x128.size a
  inb_S32x128_S1x16_25_16 : ∀ a, (![25, 16] : Fin 2 → Nat) a + S1x16.size a ≤ S32x128.size a
  inb_S32x128_S1x16_26_16 : ∀ a, (![26, 16] : Fin 2 → Nat) a + S1x16.size a ≤ S32x128.size a
  inb_S32x128_S1x16_27_16 : ∀ a, (![27, 16] : Fin 2 → Nat) a + S1x16.size a ≤ S32x128.size a
  inb_S32x128_S1x16_28_16 : ∀ a, (![28, 16] : Fin 2 → Nat) a + S1x16.size a ≤ S32x128.size a
  inb_S32x128_S1x16_29_16 : ∀ a, (![29, 16] : Fin 2 → Nat) a + S1x16.size a ≤ S32x128.size a
  inb_S32x128_S1x16_30_16 : ∀ a, (![30, 16] : Fin 2 → Nat) a + S1x16.size a ≤ S32x128.size a
  inb_S32x128_S1x16_31_16 : ∀ a, (![31, 16] : Fin 2 → Nat) a + S1x16.size a ≤ S32x128.size a
  inb_S128_S16_16 : ∀ a, (![16] : Fin 1 → Nat) a + S16.size a ≤ S128.size a
  inb_S32x128_S1x16_0_32 : ∀ a, (![0, 32] : Fin 2 → Nat) a + S1x16.size a ≤ S32x128.size a
  inb_S32x128_S1x16_1_32 : ∀ a, (![1, 32] : Fin 2 → Nat) a + S1x16.size a ≤ S32x128.size a
  inb_S32x128_S1x16_2_32 : ∀ a, (![2, 32] : Fin 2 → Nat) a + S1x16.size a ≤ S32x128.size a
  inb_S32x128_S1x16_3_32 : ∀ a, (![3, 32] : Fin 2 → Nat) a + S1x16.size a ≤ S32x128.size a
  inb_S32x128_S1x16_4_32 : ∀ a, (![4, 32] : Fin 2 → Nat) a + S1x16.size a ≤ S32x128.size a
  inb_S32x128_S1x16_5_32 : ∀ a, (![5, 32] : Fin 2 → Nat) a + S1x16.size a ≤ S32x128.size a
  inb_S32x128_S1x16_6_32 : ∀ a, (![6, 32] : Fin 2 → Nat) a + S1x16.size a ≤ S32x128.size a
  inb_S32x128_S1x16_7_32 : ∀ a, (![7, 32] : Fin 2 → Nat) a + S1x16.size a ≤ S32x128.size a
  inb_S32x128_S1x16_8_32 : ∀ a, (![8, 32] : Fin 2 → Nat) a + S1x16.size a ≤ S32x128.size a
  inb_S32x128_S1x16_9_32 : ∀ a, (![9, 32] : Fin 2 → Nat) a + S1x16.size a ≤ S32x128.size a
  inb_S32x128_S1x16_10_32 : ∀ a, (![10, 32] : Fin 2 → Nat) a + S1x16.size a ≤ S32x128.size a
  inb_S32x128_S1x16_11_32 : ∀ a, (![11, 32] : Fin 2 → Nat) a + S1x16.size a ≤ S32x128.size a
  inb_S32x128_S1x16_12_32 : ∀ a, (![12, 32] : Fin 2 → Nat) a + S1x16.size a ≤ S32x128.size a
  inb_S32x128_S1x16_13_32 : ∀ a, (![13, 32] : Fin 2 → Nat) a + S1x16.size a ≤ S32x128.size a
  inb_S32x128_S1x16_14_32 : ∀ a, (![14, 32] : Fin 2 → Nat) a + S1x16.size a ≤ S32x128.size a
  inb_S32x128_S1x16_15_32 : ∀ a, (![15, 32] : Fin 2 → Nat) a + S1x16.size a ≤ S32x128.size a
  inb_S32x128_S1x16_16_32 : ∀ a, (![16, 32] : Fin 2 → Nat) a + S1x16.size a ≤ S32x128.size a
  inb_S32x128_S1x16_17_32 : ∀ a, (![17, 32] : Fin 2 → Nat) a + S1x16.size a ≤ S32x128.size a
  inb_S32x128_S1x16_18_32 : ∀ a, (![18, 32] : Fin 2 → Nat) a + S1x16.size a ≤ S32x128.size a
  inb_S32x128_S1x16_19_32 : ∀ a, (![19, 32] : Fin 2 → Nat) a + S1x16.size a ≤ S32x128.size a
  inb_S32x128_S1x16_20_32 : ∀ a, (![20, 32] : Fin 2 → Nat) a + S1x16.size a ≤ S32x128.size a
  inb_S32x128_S1x16_21_32 : ∀ a, (![21, 32] : Fin 2 → Nat) a + S1x16.size a ≤ S32x128.size a
  inb_S32x128_S1x16_22_32 : ∀ a, (![22, 32] : Fin 2 → Nat) a + S1x16.size a ≤ S32x128.size a
  inb_S32x128_S1x16_23_32 : ∀ a, (![23, 32] : Fin 2 → Nat) a + S1x16.size a ≤ S32x128.size a
  inb_S32x128_S1x16_24_32 : ∀ a, (![24, 32] : Fin 2 → Nat) a + S1x16.size a ≤ S32x128.size a
  inb_S32x128_S1x16_25_32 : ∀ a, (![25, 32] : Fin 2 → Nat) a + S1x16.size a ≤ S32x128.size a
  inb_S32x128_S1x16_26_32 : ∀ a, (![26, 32] : Fin 2 → Nat) a + S1x16.size a ≤ S32x128.size a
  inb_S32x128_S1x16_27_32 : ∀ a, (![27, 32] : Fin 2 → Nat) a + S1x16.size a ≤ S32x128.size a
  inb_S32x128_S1x16_28_32 : ∀ a, (![28, 32] : Fin 2 → Nat) a + S1x16.size a ≤ S32x128.size a
  inb_S32x128_S1x16_29_32 : ∀ a, (![29, 32] : Fin 2 → Nat) a + S1x16.size a ≤ S32x128.size a
  inb_S32x128_S1x16_30_32 : ∀ a, (![30, 32] : Fin 2 → Nat) a + S1x16.size a ≤ S32x128.size a
  inb_S32x128_S1x16_31_32 : ∀ a, (![31, 32] : Fin 2 → Nat) a + S1x16.size a ≤ S32x128.size a
  inb_S128_S16_32 : ∀ a, (![32] : Fin 1 → Nat) a + S16.size a ≤ S128.size a
  inb_S32x128_S1x16_0_48 : ∀ a, (![0, 48] : Fin 2 → Nat) a + S1x16.size a ≤ S32x128.size a
  inb_S32x128_S1x16_1_48 : ∀ a, (![1, 48] : Fin 2 → Nat) a + S1x16.size a ≤ S32x128.size a
  inb_S32x128_S1x16_2_48 : ∀ a, (![2, 48] : Fin 2 → Nat) a + S1x16.size a ≤ S32x128.size a
  inb_S32x128_S1x16_3_48 : ∀ a, (![3, 48] : Fin 2 → Nat) a + S1x16.size a ≤ S32x128.size a
  inb_S32x128_S1x16_4_48 : ∀ a, (![4, 48] : Fin 2 → Nat) a + S1x16.size a ≤ S32x128.size a
  inb_S32x128_S1x16_5_48 : ∀ a, (![5, 48] : Fin 2 → Nat) a + S1x16.size a ≤ S32x128.size a
  inb_S32x128_S1x16_6_48 : ∀ a, (![6, 48] : Fin 2 → Nat) a + S1x16.size a ≤ S32x128.size a
  inb_S32x128_S1x16_7_48 : ∀ a, (![7, 48] : Fin 2 → Nat) a + S1x16.size a ≤ S32x128.size a
  inb_S32x128_S1x16_8_48 : ∀ a, (![8, 48] : Fin 2 → Nat) a + S1x16.size a ≤ S32x128.size a
  inb_S32x128_S1x16_9_48 : ∀ a, (![9, 48] : Fin 2 → Nat) a + S1x16.size a ≤ S32x128.size a
  inb_S32x128_S1x16_10_48 : ∀ a, (![10, 48] : Fin 2 → Nat) a + S1x16.size a ≤ S32x128.size a
  inb_S32x128_S1x16_11_48 : ∀ a, (![11, 48] : Fin 2 → Nat) a + S1x16.size a ≤ S32x128.size a
  inb_S32x128_S1x16_12_48 : ∀ a, (![12, 48] : Fin 2 → Nat) a + S1x16.size a ≤ S32x128.size a
  inb_S32x128_S1x16_13_48 : ∀ a, (![13, 48] : Fin 2 → Nat) a + S1x16.size a ≤ S32x128.size a
  inb_S32x128_S1x16_14_48 : ∀ a, (![14, 48] : Fin 2 → Nat) a + S1x16.size a ≤ S32x128.size a
  inb_S32x128_S1x16_15_48 : ∀ a, (![15, 48] : Fin 2 → Nat) a + S1x16.size a ≤ S32x128.size a
  inb_S32x128_S1x16_16_48 : ∀ a, (![16, 48] : Fin 2 → Nat) a + S1x16.size a ≤ S32x128.size a
  inb_S32x128_S1x16_17_48 : ∀ a, (![17, 48] : Fin 2 → Nat) a + S1x16.size a ≤ S32x128.size a
  inb_S32x128_S1x16_18_48 : ∀ a, (![18, 48] : Fin 2 → Nat) a + S1x16.size a ≤ S32x128.size a
  inb_S32x128_S1x16_19_48 : ∀ a, (![19, 48] : Fin 2 → Nat) a + S1x16.size a ≤ S32x128.size a
  inb_S32x128_S1x16_20_48 : ∀ a, (![20, 48] : Fin 2 → Nat) a + S1x16.size a ≤ S32x128.size a
  inb_S32x128_S1x16_21_48 : ∀ a, (![21, 48] : Fin 2 → Nat) a + S1x16.size a ≤ S32x128.size a
  inb_S32x128_S1x16_22_48 : ∀ a, (![22, 48] : Fin 2 → Nat) a + S1x16.size a ≤ S32x128.size a
  inb_S32x128_S1x16_23_48 : ∀ a, (![23, 48] : Fin 2 → Nat) a + S1x16.size a ≤ S32x128.size a
  inb_S32x128_S1x16_24_48 : ∀ a, (![24, 48] : Fin 2 → Nat) a + S1x16.size a ≤ S32x128.size a
  inb_S32x128_S1x16_25_48 : ∀ a, (![25, 48] : Fin 2 → Nat) a + S1x16.size a ≤ S32x128.size a
  inb_S32x128_S1x16_26_48 : ∀ a, (![26, 48] : Fin 2 → Nat) a + S1x16.size a ≤ S32x128.size a
  inb_S32x128_S1x16_27_48 : ∀ a, (![27, 48] : Fin 2 → Nat) a + S1x16.size a ≤ S32x128.size a
  inb_S32x128_S1x16_28_48 : ∀ a, (![28, 48] : Fin 2 → Nat) a + S1x16.size a ≤ S32x128.size a
  inb_S32x128_S1x16_29_48 : ∀ a, (![29, 48] : Fin 2 → Nat) a + S1x16.size a ≤ S32x128.size a
  inb_S32x128_S1x16_30_48 : ∀ a, (![30, 48] : Fin 2 → Nat) a + S1x16.size a ≤ S32x128.size a
  inb_S32x128_S1x16_31_48 : ∀ a, (![31, 48] : Fin 2 → Nat) a + S1x16.size a ≤ S32x128.size a
  inb_S128_S16_48 : ∀ a, (![48] : Fin 1 → Nat) a + S16.size a ≤ S128.size a
  inb_S32x128_S1x16_0_64 : ∀ a, (![0, 64] : Fin 2 → Nat) a + S1x16.size a ≤ S32x128.size a
  inb_S32x128_S1x16_1_64 : ∀ a, (![1, 64] : Fin 2 → Nat) a + S1x16.size a ≤ S32x128.size a
  inb_S32x128_S1x16_2_64 : ∀ a, (![2, 64] : Fin 2 → Nat) a + S1x16.size a ≤ S32x128.size a
  inb_S32x128_S1x16_3_64 : ∀ a, (![3, 64] : Fin 2 → Nat) a + S1x16.size a ≤ S32x128.size a
  inb_S32x128_S1x16_4_64 : ∀ a, (![4, 64] : Fin 2 → Nat) a + S1x16.size a ≤ S32x128.size a
  inb_S32x128_S1x16_5_64 : ∀ a, (![5, 64] : Fin 2 → Nat) a + S1x16.size a ≤ S32x128.size a
  inb_S32x128_S1x16_6_64 : ∀ a, (![6, 64] : Fin 2 → Nat) a + S1x16.size a ≤ S32x128.size a
  inb_S32x128_S1x16_7_64 : ∀ a, (![7, 64] : Fin 2 → Nat) a + S1x16.size a ≤ S32x128.size a
  inb_S32x128_S1x16_8_64 : ∀ a, (![8, 64] : Fin 2 → Nat) a + S1x16.size a ≤ S32x128.size a
  inb_S32x128_S1x16_9_64 : ∀ a, (![9, 64] : Fin 2 → Nat) a + S1x16.size a ≤ S32x128.size a
  inb_S32x128_S1x16_10_64 : ∀ a, (![10, 64] : Fin 2 → Nat) a + S1x16.size a ≤ S32x128.size a
  inb_S32x128_S1x16_11_64 : ∀ a, (![11, 64] : Fin 2 → Nat) a + S1x16.size a ≤ S32x128.size a
  inb_S32x128_S1x16_12_64 : ∀ a, (![12, 64] : Fin 2 → Nat) a + S1x16.size a ≤ S32x128.size a
  inb_S32x128_S1x16_13_64 : ∀ a, (![13, 64] : Fin 2 → Nat) a + S1x16.size a ≤ S32x128.size a
  inb_S32x128_S1x16_14_64 : ∀ a, (![14, 64] : Fin 2 → Nat) a + S1x16.size a ≤ S32x128.size a
  inb_S32x128_S1x16_15_64 : ∀ a, (![15, 64] : Fin 2 → Nat) a + S1x16.size a ≤ S32x128.size a
  inb_S32x128_S1x16_16_64 : ∀ a, (![16, 64] : Fin 2 → Nat) a + S1x16.size a ≤ S32x128.size a
  inb_S32x128_S1x16_17_64 : ∀ a, (![17, 64] : Fin 2 → Nat) a + S1x16.size a ≤ S32x128.size a
  inb_S32x128_S1x16_18_64 : ∀ a, (![18, 64] : Fin 2 → Nat) a + S1x16.size a ≤ S32x128.size a
  inb_S32x128_S1x16_19_64 : ∀ a, (![19, 64] : Fin 2 → Nat) a + S1x16.size a ≤ S32x128.size a
  inb_S32x128_S1x16_20_64 : ∀ a, (![20, 64] : Fin 2 → Nat) a + S1x16.size a ≤ S32x128.size a
  inb_S32x128_S1x16_21_64 : ∀ a, (![21, 64] : Fin 2 → Nat) a + S1x16.size a ≤ S32x128.size a
  inb_S32x128_S1x16_22_64 : ∀ a, (![22, 64] : Fin 2 → Nat) a + S1x16.size a ≤ S32x128.size a
  inb_S32x128_S1x16_23_64 : ∀ a, (![23, 64] : Fin 2 → Nat) a + S1x16.size a ≤ S32x128.size a
  inb_S32x128_S1x16_24_64 : ∀ a, (![24, 64] : Fin 2 → Nat) a + S1x16.size a ≤ S32x128.size a
  inb_S32x128_S1x16_25_64 : ∀ a, (![25, 64] : Fin 2 → Nat) a + S1x16.size a ≤ S32x128.size a
  inb_S32x128_S1x16_26_64 : ∀ a, (![26, 64] : Fin 2 → Nat) a + S1x16.size a ≤ S32x128.size a
  inb_S32x128_S1x16_27_64 : ∀ a, (![27, 64] : Fin 2 → Nat) a + S1x16.size a ≤ S32x128.size a
  inb_S32x128_S1x16_28_64 : ∀ a, (![28, 64] : Fin 2 → Nat) a + S1x16.size a ≤ S32x128.size a
  inb_S32x128_S1x16_29_64 : ∀ a, (![29, 64] : Fin 2 → Nat) a + S1x16.size a ≤ S32x128.size a
  inb_S32x128_S1x16_30_64 : ∀ a, (![30, 64] : Fin 2 → Nat) a + S1x16.size a ≤ S32x128.size a
  inb_S32x128_S1x16_31_64 : ∀ a, (![31, 64] : Fin 2 → Nat) a + S1x16.size a ≤ S32x128.size a
  inb_S128_S16_64 : ∀ a, (![64] : Fin 1 → Nat) a + S16.size a ≤ S128.size a
  inb_S32x128_S1x16_0_80 : ∀ a, (![0, 80] : Fin 2 → Nat) a + S1x16.size a ≤ S32x128.size a
  inb_S32x128_S1x16_1_80 : ∀ a, (![1, 80] : Fin 2 → Nat) a + S1x16.size a ≤ S32x128.size a
  inb_S32x128_S1x16_2_80 : ∀ a, (![2, 80] : Fin 2 → Nat) a + S1x16.size a ≤ S32x128.size a
  inb_S32x128_S1x16_3_80 : ∀ a, (![3, 80] : Fin 2 → Nat) a + S1x16.size a ≤ S32x128.size a
  inb_S32x128_S1x16_4_80 : ∀ a, (![4, 80] : Fin 2 → Nat) a + S1x16.size a ≤ S32x128.size a
  inb_S32x128_S1x16_5_80 : ∀ a, (![5, 80] : Fin 2 → Nat) a + S1x16.size a ≤ S32x128.size a
  inb_S32x128_S1x16_6_80 : ∀ a, (![6, 80] : Fin 2 → Nat) a + S1x16.size a ≤ S32x128.size a
  inb_S32x128_S1x16_7_80 : ∀ a, (![7, 80] : Fin 2 → Nat) a + S1x16.size a ≤ S32x128.size a
  inb_S32x128_S1x16_8_80 : ∀ a, (![8, 80] : Fin 2 → Nat) a + S1x16.size a ≤ S32x128.size a
  inb_S32x128_S1x16_9_80 : ∀ a, (![9, 80] : Fin 2 → Nat) a + S1x16.size a ≤ S32x128.size a
  inb_S32x128_S1x16_10_80 : ∀ a, (![10, 80] : Fin 2 → Nat) a + S1x16.size a ≤ S32x128.size a
  inb_S32x128_S1x16_11_80 : ∀ a, (![11, 80] : Fin 2 → Nat) a + S1x16.size a ≤ S32x128.size a
  inb_S32x128_S1x16_12_80 : ∀ a, (![12, 80] : Fin 2 → Nat) a + S1x16.size a ≤ S32x128.size a
  inb_S32x128_S1x16_13_80 : ∀ a, (![13, 80] : Fin 2 → Nat) a + S1x16.size a ≤ S32x128.size a
  inb_S32x128_S1x16_14_80 : ∀ a, (![14, 80] : Fin 2 → Nat) a + S1x16.size a ≤ S32x128.size a
  inb_S32x128_S1x16_15_80 : ∀ a, (![15, 80] : Fin 2 → Nat) a + S1x16.size a ≤ S32x128.size a
  inb_S32x128_S1x16_16_80 : ∀ a, (![16, 80] : Fin 2 → Nat) a + S1x16.size a ≤ S32x128.size a
  inb_S32x128_S1x16_17_80 : ∀ a, (![17, 80] : Fin 2 → Nat) a + S1x16.size a ≤ S32x128.size a
  inb_S32x128_S1x16_18_80 : ∀ a, (![18, 80] : Fin 2 → Nat) a + S1x16.size a ≤ S32x128.size a
  inb_S32x128_S1x16_19_80 : ∀ a, (![19, 80] : Fin 2 → Nat) a + S1x16.size a ≤ S32x128.size a
  inb_S32x128_S1x16_20_80 : ∀ a, (![20, 80] : Fin 2 → Nat) a + S1x16.size a ≤ S32x128.size a
  inb_S32x128_S1x16_21_80 : ∀ a, (![21, 80] : Fin 2 → Nat) a + S1x16.size a ≤ S32x128.size a
  inb_S32x128_S1x16_22_80 : ∀ a, (![22, 80] : Fin 2 → Nat) a + S1x16.size a ≤ S32x128.size a
  inb_S32x128_S1x16_23_80 : ∀ a, (![23, 80] : Fin 2 → Nat) a + S1x16.size a ≤ S32x128.size a
  inb_S32x128_S1x16_24_80 : ∀ a, (![24, 80] : Fin 2 → Nat) a + S1x16.size a ≤ S32x128.size a
  inb_S32x128_S1x16_25_80 : ∀ a, (![25, 80] : Fin 2 → Nat) a + S1x16.size a ≤ S32x128.size a
  inb_S32x128_S1x16_26_80 : ∀ a, (![26, 80] : Fin 2 → Nat) a + S1x16.size a ≤ S32x128.size a
  inb_S32x128_S1x16_27_80 : ∀ a, (![27, 80] : Fin 2 → Nat) a + S1x16.size a ≤ S32x128.size a
  inb_S32x128_S1x16_28_80 : ∀ a, (![28, 80] : Fin 2 → Nat) a + S1x16.size a ≤ S32x128.size a
  inb_S32x128_S1x16_29_80 : ∀ a, (![29, 80] : Fin 2 → Nat) a + S1x16.size a ≤ S32x128.size a
  inb_S32x128_S1x16_30_80 : ∀ a, (![30, 80] : Fin 2 → Nat) a + S1x16.size a ≤ S32x128.size a
  inb_S32x128_S1x16_31_80 : ∀ a, (![31, 80] : Fin 2 → Nat) a + S1x16.size a ≤ S32x128.size a
  inb_S128_S16_80 : ∀ a, (![80] : Fin 1 → Nat) a + S16.size a ≤ S128.size a
  inb_S32x128_S1x16_0_96 : ∀ a, (![0, 96] : Fin 2 → Nat) a + S1x16.size a ≤ S32x128.size a
  inb_S32x128_S1x16_1_96 : ∀ a, (![1, 96] : Fin 2 → Nat) a + S1x16.size a ≤ S32x128.size a
  inb_S32x128_S1x16_2_96 : ∀ a, (![2, 96] : Fin 2 → Nat) a + S1x16.size a ≤ S32x128.size a
  inb_S32x128_S1x16_3_96 : ∀ a, (![3, 96] : Fin 2 → Nat) a + S1x16.size a ≤ S32x128.size a
  inb_S32x128_S1x16_4_96 : ∀ a, (![4, 96] : Fin 2 → Nat) a + S1x16.size a ≤ S32x128.size a
  inb_S32x128_S1x16_5_96 : ∀ a, (![5, 96] : Fin 2 → Nat) a + S1x16.size a ≤ S32x128.size a
  inb_S32x128_S1x16_6_96 : ∀ a, (![6, 96] : Fin 2 → Nat) a + S1x16.size a ≤ S32x128.size a
  inb_S32x128_S1x16_7_96 : ∀ a, (![7, 96] : Fin 2 → Nat) a + S1x16.size a ≤ S32x128.size a
  inb_S32x128_S1x16_8_96 : ∀ a, (![8, 96] : Fin 2 → Nat) a + S1x16.size a ≤ S32x128.size a
  inb_S32x128_S1x16_9_96 : ∀ a, (![9, 96] : Fin 2 → Nat) a + S1x16.size a ≤ S32x128.size a
  inb_S32x128_S1x16_10_96 : ∀ a, (![10, 96] : Fin 2 → Nat) a + S1x16.size a ≤ S32x128.size a
  inb_S32x128_S1x16_11_96 : ∀ a, (![11, 96] : Fin 2 → Nat) a + S1x16.size a ≤ S32x128.size a
  inb_S32x128_S1x16_12_96 : ∀ a, (![12, 96] : Fin 2 → Nat) a + S1x16.size a ≤ S32x128.size a
  inb_S32x128_S1x16_13_96 : ∀ a, (![13, 96] : Fin 2 → Nat) a + S1x16.size a ≤ S32x128.size a
  inb_S32x128_S1x16_14_96 : ∀ a, (![14, 96] : Fin 2 → Nat) a + S1x16.size a ≤ S32x128.size a
  inb_S32x128_S1x16_15_96 : ∀ a, (![15, 96] : Fin 2 → Nat) a + S1x16.size a ≤ S32x128.size a
  inb_S32x128_S1x16_16_96 : ∀ a, (![16, 96] : Fin 2 → Nat) a + S1x16.size a ≤ S32x128.size a
  inb_S32x128_S1x16_17_96 : ∀ a, (![17, 96] : Fin 2 → Nat) a + S1x16.size a ≤ S32x128.size a
  inb_S32x128_S1x16_18_96 : ∀ a, (![18, 96] : Fin 2 → Nat) a + S1x16.size a ≤ S32x128.size a
  inb_S32x128_S1x16_19_96 : ∀ a, (![19, 96] : Fin 2 → Nat) a + S1x16.size a ≤ S32x128.size a
  inb_S32x128_S1x16_20_96 : ∀ a, (![20, 96] : Fin 2 → Nat) a + S1x16.size a ≤ S32x128.size a
  inb_S32x128_S1x16_21_96 : ∀ a, (![21, 96] : Fin 2 → Nat) a + S1x16.size a ≤ S32x128.size a
  inb_S32x128_S1x16_22_96 : ∀ a, (![22, 96] : Fin 2 → Nat) a + S1x16.size a ≤ S32x128.size a
  inb_S32x128_S1x16_23_96 : ∀ a, (![23, 96] : Fin 2 → Nat) a + S1x16.size a ≤ S32x128.size a
  inb_S32x128_S1x16_24_96 : ∀ a, (![24, 96] : Fin 2 → Nat) a + S1x16.size a ≤ S32x128.size a
  inb_S32x128_S1x16_25_96 : ∀ a, (![25, 96] : Fin 2 → Nat) a + S1x16.size a ≤ S32x128.size a
  inb_S32x128_S1x16_26_96 : ∀ a, (![26, 96] : Fin 2 → Nat) a + S1x16.size a ≤ S32x128.size a
  inb_S32x128_S1x16_27_96 : ∀ a, (![27, 96] : Fin 2 → Nat) a + S1x16.size a ≤ S32x128.size a
  inb_S32x128_S1x16_28_96 : ∀ a, (![28, 96] : Fin 2 → Nat) a + S1x16.size a ≤ S32x128.size a
  inb_S32x128_S1x16_29_96 : ∀ a, (![29, 96] : Fin 2 → Nat) a + S1x16.size a ≤ S32x128.size a
  inb_S32x128_S1x16_30_96 : ∀ a, (![30, 96] : Fin 2 → Nat) a + S1x16.size a ≤ S32x128.size a
  inb_S32x128_S1x16_31_96 : ∀ a, (![31, 96] : Fin 2 → Nat) a + S1x16.size a ≤ S32x128.size a
  inb_S128_S16_96 : ∀ a, (![96] : Fin 1 → Nat) a + S16.size a ≤ S128.size a
  inb_S32x128_S1x16_0_112 : ∀ a, (![0, 112] : Fin 2 → Nat) a + S1x16.size a ≤ S32x128.size a
  inb_S32x128_S1x16_1_112 : ∀ a, (![1, 112] : Fin 2 → Nat) a + S1x16.size a ≤ S32x128.size a
  inb_S32x128_S1x16_2_112 : ∀ a, (![2, 112] : Fin 2 → Nat) a + S1x16.size a ≤ S32x128.size a
  inb_S32x128_S1x16_3_112 : ∀ a, (![3, 112] : Fin 2 → Nat) a + S1x16.size a ≤ S32x128.size a
  inb_S32x128_S1x16_4_112 : ∀ a, (![4, 112] : Fin 2 → Nat) a + S1x16.size a ≤ S32x128.size a
  inb_S32x128_S1x16_5_112 : ∀ a, (![5, 112] : Fin 2 → Nat) a + S1x16.size a ≤ S32x128.size a
  inb_S32x128_S1x16_6_112 : ∀ a, (![6, 112] : Fin 2 → Nat) a + S1x16.size a ≤ S32x128.size a
  inb_S32x128_S1x16_7_112 : ∀ a, (![7, 112] : Fin 2 → Nat) a + S1x16.size a ≤ S32x128.size a
  inb_S32x128_S1x16_8_112 : ∀ a, (![8, 112] : Fin 2 → Nat) a + S1x16.size a ≤ S32x128.size a
  inb_S32x128_S1x16_9_112 : ∀ a, (![9, 112] : Fin 2 → Nat) a + S1x16.size a ≤ S32x128.size a
  inb_S32x128_S1x16_10_112 : ∀ a, (![10, 112] : Fin 2 → Nat) a + S1x16.size a ≤ S32x128.size a
  inb_S32x128_S1x16_11_112 : ∀ a, (![11, 112] : Fin 2 → Nat) a + S1x16.size a ≤ S32x128.size a
  inb_S32x128_S1x16_12_112 : ∀ a, (![12, 112] : Fin 2 → Nat) a + S1x16.size a ≤ S32x128.size a
  inb_S32x128_S1x16_13_112 : ∀ a, (![13, 112] : Fin 2 → Nat) a + S1x16.size a ≤ S32x128.size a
  inb_S32x128_S1x16_14_112 : ∀ a, (![14, 112] : Fin 2 → Nat) a + S1x16.size a ≤ S32x128.size a
  inb_S32x128_S1x16_15_112 : ∀ a, (![15, 112] : Fin 2 → Nat) a + S1x16.size a ≤ S32x128.size a
  inb_S32x128_S1x16_16_112 : ∀ a, (![16, 112] : Fin 2 → Nat) a + S1x16.size a ≤ S32x128.size a
  inb_S32x128_S1x16_17_112 : ∀ a, (![17, 112] : Fin 2 → Nat) a + S1x16.size a ≤ S32x128.size a
  inb_S32x128_S1x16_18_112 : ∀ a, (![18, 112] : Fin 2 → Nat) a + S1x16.size a ≤ S32x128.size a
  inb_S32x128_S1x16_19_112 : ∀ a, (![19, 112] : Fin 2 → Nat) a + S1x16.size a ≤ S32x128.size a
  inb_S32x128_S1x16_20_112 : ∀ a, (![20, 112] : Fin 2 → Nat) a + S1x16.size a ≤ S32x128.size a
  inb_S32x128_S1x16_21_112 : ∀ a, (![21, 112] : Fin 2 → Nat) a + S1x16.size a ≤ S32x128.size a
  inb_S32x128_S1x16_22_112 : ∀ a, (![22, 112] : Fin 2 → Nat) a + S1x16.size a ≤ S32x128.size a
  inb_S32x128_S1x16_23_112 : ∀ a, (![23, 112] : Fin 2 → Nat) a + S1x16.size a ≤ S32x128.size a
  inb_S32x128_S1x16_24_112 : ∀ a, (![24, 112] : Fin 2 → Nat) a + S1x16.size a ≤ S32x128.size a
  inb_S32x128_S1x16_25_112 : ∀ a, (![25, 112] : Fin 2 → Nat) a + S1x16.size a ≤ S32x128.size a
  inb_S32x128_S1x16_26_112 : ∀ a, (![26, 112] : Fin 2 → Nat) a + S1x16.size a ≤ S32x128.size a
  inb_S32x128_S1x16_27_112 : ∀ a, (![27, 112] : Fin 2 → Nat) a + S1x16.size a ≤ S32x128.size a
  inb_S32x128_S1x16_28_112 : ∀ a, (![28, 112] : Fin 2 → Nat) a + S1x16.size a ≤ S32x128.size a
  inb_S32x128_S1x16_29_112 : ∀ a, (![29, 112] : Fin 2 → Nat) a + S1x16.size a ≤ S32x128.size a
  inb_S32x128_S1x16_30_112 : ∀ a, (![30, 112] : Fin 2 → Nat) a + S1x16.size a ≤ S32x128.size a
  inb_S32x128_S1x16_31_112 : ∀ a, (![31, 112] : Fin 2 → Nat) a + S1x16.size a ≤ S32x128.size a
  inb_S128_S16_112 : ∀ a, (![112] : Fin 1 → Nat) a + S16.size a ≤ S128.size a
  squeezes_S1x128_S128 : S1x128.Squeezes S128
  shapeCasts_S1024_S1x1024 : S1024.ShapeCasts S1x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4x1024 : S1x1024.Broadcasts S4x1024
  dot_S4x1024_S1024x1024_S4x1024_1_0_0_1_n_n_wf : DotDims.WF S4x1024 S1024x1024 S4x1024 [1] [0] [0] [1] [] []
  hcc0_scratch3 : 0 + S_.numel ≤ 7
  hcc0_scoped0 : 1 + S_.numel ≤ 7
  hcc0_scoped1 : 2 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x32.size a ≤ S4x32.size a
  k0_mult1_dvd : ∀ i : grid0.Coords, 128 ∣ (k0_mult1 i).toNat
  k0_off2_inb : ∀ i : grid0.Coords, ∀ a, (k0_off2 i) a + S16384x128.size a ≤ S16384x1024.size a
  k0_off3_inb : ∀ i : grid0.Coords, ∀ a, (k0_off3 i) a + S1x128.size a ≤ S4x1024.size a
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

abbrev win1_0 : Pipeline.Window sig grid1 :=
  Pipeline.Window.whole (Memref.whole main_v7) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v8) false false (stage1_2 0) (sem1_2 0) (Memref.isWhole_whole _) (hstage1_2 0)

abbrev win1_3 : Pipeline.Window sig grid1 :=
  Pipeline.Window.whole (Memref.whole main_v9) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S4x32 : Shape := ⟨2, ![4, 32]⟩
abbrev S1024x1024 : Shape := ⟨2, ![1024, 1024]⟩
abbrev S1024 : Shape := ⟨1, ![1024]⟩
abbrev S4 : Shape := ⟨1, ![4]⟩
abbrev S4x1 : Shape := ⟨2, ![4, 1]⟩
abbrev S_ : Shape := ⟨0, ![]⟩
abbrev S4x32x1 : Shape := ⟨3, ![4, 32, 1]⟩
abbrev S4x32x2 : Shape := ⟨3, ![4, 32, 2]⟩
abbrev S4x32x1024 : Shape := ⟨3, ![4, 32, 1024]⟩
abbrev S4x1024 : Shape := ⟨2, ![4, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x32, .i32⟩
  | .hbm, ⟨2, _⟩ => ⟨S1024x1024, .f32⟩
  | .hbm, ⟨3, _⟩ => ⟨S1024, .f32⟩
  | .hbm, ⟨4, _⟩ => ⟨S4, .i32⟩
  | .hbm, ⟨5, _⟩ => ⟨S4x1, .i32⟩
  | .hbm, ⟨6, _⟩ => ⟨S_, .f32⟩
  | .hbm, ⟨7, _⟩ => ⟨S4x4096x1024, .f32⟩
  | .hbm, ⟨8, _⟩ => ⟨S_, .i32⟩
  | .hbm, ⟨9, _⟩ => ⟨S4x1, .i32⟩
  | .hbm, ⟨10, _⟩ => ⟨S4x1, .i1⟩
  | .hbm, ⟨11, _⟩ => ⟨S_, .i32⟩
  | .hbm, ⟨12, _⟩ => ⟨S4x1, .i32⟩
  | .hbm, ⟨13, _⟩ => ⟨S4x1, .i32⟩
  | .hbm, ⟨14, _⟩ => ⟨S4x1, .i32⟩
  | .hbm, ⟨15, _⟩ => ⟨S_, .i32⟩
  | .hbm, ⟨16, _⟩ => ⟨S4x32, .i32⟩
  | .hbm, ⟨17, _⟩ => ⟨S4x32, .i1⟩
  | .hbm, ⟨18, _⟩ => ⟨S_, .i32⟩
  | .hbm, ⟨19, _⟩ => ⟨S4x32, .i32⟩
  | .hbm, ⟨20, _⟩ => ⟨S4x32, .i32⟩
  | .hbm, ⟨21, _⟩ => ⟨S4x32, .i32⟩
  | .hbm, ⟨22, _⟩ => ⟨S4x32, .i32⟩
  | .hbm, ⟨23, _⟩ => ⟨S4x32x1, .i32⟩
  | .hbm, ⟨24, _⟩ => ⟨S4x32x1, .i32⟩
  | .hbm, ⟨25, _⟩ => ⟨S4x32x2, .i32⟩
  | .hbm, ⟨26, _⟩ => ⟨S_, .f32⟩
  | .hbm, ⟨27, _⟩ => ⟨S4x32x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .i1⟩
  | .hbm, ⟨36, _⟩ => ⟨S_, .f32⟩
  | .hbm, ⟨37, _⟩ => ⟨S4x1024, .f32⟩
  | .hbm, ⟨38, _⟩ => ⟨S4x1024, .f32⟩
  | .hbm, ⟨39, _⟩ => ⟨S_, .f32⟩
  | .hbm, ⟨40, _⟩ => ⟨S4x1024, .f32⟩
  | .hbm, ⟨41, _⟩ => ⟨S4x1024, .i1⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S4x1024, .f32⟩
  | .hbm, ⟨47, _⟩ => ⟨S4x1024, .i1⟩
  | .hbm, ⟨48, _⟩ => ⟨S_, .f32⟩
  | .hbm, ⟨49, _⟩ => ⟨S4x1024, .f32⟩
  | .hbm, ⟨50, _⟩ => ⟨S4x1024, .f32⟩
  | .hbm, ⟨51, _⟩ => ⟨S4x1024, .f32⟩
  | .hbm, ⟨52, _⟩ => ⟨S1x1024, .f32⟩
  | .hbm, ⟨53, _⟩ => ⟨S4x1024, .f32⟩
  | .hbm, ⟨54, _⟩ => ⟨S4x1024, .f32⟩
  | .hbm, ⟨55, _⟩ => ⟨S4x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_cst : Ref sig .tc := ⟨.hbm, 36, rfl⟩
abbrev main_call0_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_cst_1 : Ref sig .tc := ⟨.hbm, 42, rfl⟩
abbrev main_call0_call1_v0 : Ref sig .tc := ⟨.hbm, 43, rfl⟩
abbrev main_call0_v4 : Ref sig .tc := ⟨.hbm, 44, rfl⟩
abbrev main_call0_cst_2 : Ref sig .tc := ⟨.hbm, 45, rfl⟩
abbrev main_call0_v5 : Ref sig .tc := ⟨.hbm, 46, rfl⟩
abbrev main_call0_v6 : Ref sig .tc := ⟨.hbm, 47, rfl⟩
abbrev main_call0_cst_3 : Ref sig .tc := ⟨.hbm, 48, rfl⟩
abbrev main_call0_call2_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  bcast_S_S4x4096x1024 : S_.BroadcastsInDim S4x4096x1024 (![] : Fin 0 → Fin S4x4096x1024.rank)
  bcast_S_S4x1 : S_.BroadcastsInDim S4x1 (![] : Fin 0 → Fin S4x1.rank)
  bcast_S_S4x32 : S_.BroadcastsInDim S4x32 (![] : Fin 0 → Fin S4x32.rank)
  bcast_S4x1_S4x32_0_1 : S4x1.BroadcastsInDim S4x32 (![0, 1] : Fin 2 → Fin S4x32.rank)
  bcast_S4x32_S4x32x1_0_1 : S4x32.BroadcastsInDim S4x32x1 (![0, 1] : Fin 2 → Fin S4x32x1.rank)
  concatenates_S4x32x1_S4x32x1_S4x32x2_d2 : Shape.Concatenates [S4x32x1, S4x32x1] S4x32x2 2
  bcast_S_S4x32x1024 : S_.BroadcastsInDim S4x32x1024 (![] : Fin 0 → Fin S4x32x1024.rank)
  reducesTo_S4x4096x1024_S4x1024_d1 : S4x4096x1024.ReducesTo [1] S4x1024
  h_S_ : 0 < S_.numel
  bcast_S_S4x1024 : S_.BroadcastsInDim S4x1024 (![] : Fin 0 → Fin S4x1024.rank)
  bcast_S1024_S1x1024_1 : S1024.BroadcastsInDim S1x1024 (![1] : Fin 1 → Fin S1x1024.rank)
  bcast_S1x1024_S4x1024_0_1 : S1x1024.BroadcastsInDim S4x1024 (![0, 1] : Fin 2 → Fin S4x1024.rank)
  scatter_S4x4096x1024_S4x32x2_S4x32x1024_2_01_01_2_wf : ScatterDims.WF S4x4096x1024 S4x32x2 S4x32x1024 [2] [0, 1] [0, 1] 2
  dot_S4x1024_S1024x1024_S4x1024_1_0_0_1_n_n_wf : DotDims.WF S4x1024 S1024x1024 S4x1024 [1] [0] [0] [1] [] []

variable [Facts₀]

def scatter_S4x4096x1024_S4x32x2_S4x32x1024_2_01_01_2 : ScatterDims S4x4096x1024 S4x32x2 S4x32x1024 where
  updateWindowDims := [2]
  insertedWindowDims := [0, 1]
  scatterDimsToOperandDims := [0, 1]
  indexVectorDim := 2
  wf := scatter_S4x4096x1024_S4x32x2_S4x32x1024_2_01_01_2_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

class Facts : Prop extends Facts₀ where

variable [Facts]
-- ==== Proof.KSetup.lean ====
/-
  The kernel program as the SparseCore launch theorem sees it, and the ghost state its proof uses: the launch
  handshakes' rounds, the TensorCore pipeline's rounds (the staging cells of the output layer's call), and the
  counters of the tiles' local copies. Shared by the modules that prove the tile's task, the launch and @main.
-/
import proofs.«217236_g4415226380944_cont_8to1_c_873_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«217236_g4415226380944_cont_8to1_c_873_25_alg».proof.Proof.Gen.KernelIdeal
import proofs.«217236_g4415226380944_cont_8to1_c_873_25_alg».proof.Proof.Gen.KernelIdeal.Launch
import proofs.«217236_g4415226380944_cont_8to1_c_873_25_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The launch handshakes' rounds: the left factor. -/
abbrev EH : Emb UH (MT nD τ sig (HIx 1) (Elt F) ℕ UU ℕ) := embL

/-- The TensorCore pipeline's rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays the SparseCore call works on, as locations of device `d` -/

/-- The row table (the hidden states, one row per position of every batch), the row ids, the pooled result. -/
abbrev tLoc (d : Dev nD) : Loc nD τ sig := (SparseCore.T d).loc main_v0
abbrev gLoc (d : Dev nD) : Loc nD τ sig := (SparseCore.T d).loc main_v6
abbrev oLoc (d : Dev nD) : Loc nD τ sig := (SparseCore.T d).loc main_v7

/-- Every row id the tiles read names a row of the table. -/
def IdsOK (d : Dev nD) (gid : Buf (Elt F) (gLoc d)) : Prop := ∀ j, (gid j).toNat < 16384

end Cert.Proof.KI

end
-- ==== Proof.KHost.lean ====
/-
  @main of the kernel program as two host lines around the pooling call, then the output layer's call; the TensorCore's
  unscoped buffers one by one; the contents of the table, the row ids and the result array when the pooling call starts.
-/
import proofs.«217236_g4415226380944_cont_8to1_c_873_25_alg».proof.Proof.KSetup
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (ucRefs unscopedBufs_held sub_ucRefs)

variable (m : (ℓ : Loc nD τ sig) → Buf (Elt F) ℓ) (ρ : Dev nD → PrngReg)

variable [FloatOps F]
/-! ## @main as two host lines around the pooling call, then the output layer's call -/

/-- The host line before the pooling call: the table (a reshape of the hidden states) and the row ids
    (`token position + 4096 · batch`). -/
abbrev ops0 : List (HloOp τ sig (Elt F)) :=
  [StableHlo.reshape main_arg0 main_v0 rfl shapeCasts_S4x4096x1024_S16384x1024,
   StableHlo.nullary main_v1 (iotaInDim S4 32 0),
   StableHlo.unary main_v1 main_v2 (broadcastInDim S4x1 ![0] bcast_S4_S4x1_0 : (⟨S4, .i32⟩ : BufTy).Contents (Elt F) → (⟨S4x1, .i32⟩ : BufTy).Contents (Elt F)),
   StableHlo.nullary main_c (constantI S_ 32 4096#32),
   StableHlo.unary main_c main_v3 (broadcastInDim S4x1 ![] bcast_S_S4x1 : (⟨S_, .i32⟩ : BufTy).Contents (Elt F) → (⟨S4x1, .i32⟩ : BufTy).Contents (Elt F)),
   StableHlo.binary main_v2 main_v3 main_v4 (muli : (⟨S4x1, .i32⟩ : BufTy).Contents (Elt F) → (⟨S4x1, .i32⟩ : BufTy).Contents (Elt F) → (⟨S4x1, .i32⟩ : BufTy).Contents (Elt F)),
   StableHlo.unary main_v4 main_v5 (broadcastInDim S4x32 ![0, 1] bcast_S4x1_S4x32_0_1 : (⟨S4x1, .i32⟩ : BufTy).Contents (Elt F) → (⟨S4x32, .i32⟩ : BufTy).Contents (Elt F)),
   StableHlo.binary main_arg1 main_v5 main_v6 (addi : (⟨S4x32, .i32⟩ : BufTy).Contents (Elt F) → (⟨S4x32, .i32⟩ : BufTy).Contents (Elt F) → (⟨S4x32, .i32⟩ : BufTy).Contents (Elt F))]

/-- The host line after it: the bias as a one-row matrix. -/
abbrev ops1 : List (HloOp τ sig (Elt F)) :=
  [StableHlo.reshape main_arg3 main_v8 rfl shapeCasts_S1024_S1x1024]

set_option maxRecDepth 4096 in
theorem main_eq (d : Dev nD) :
    main (F := F) d = (StableHlo.seq (ops0 (F := F)) >>= fun _ => ((K (F := F)).run d 0 >>= fun _ =>
      (StableHlo.seq (ops1 (F := F)) >>= fun _ => (Prog.lift (.customCall (SparseCore.inner (Pipeline.entry 0)) ()) >>= fun _ => pure ⟨⟩)))) := rfl

/-! ## The TensorCore's unscoped buffers, one by one -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)
abbrev bc' : DevRef τ sig := Proc.devRef .tc (main_c : Ref sig .tc)
abbrev b3' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)
abbrev b6' : DevRef τ sig := Proc.devRef .tc (main_v6 : Ref sig .tc)
abbrev b7' : DevRef τ sig := Proc.devRef .tc (main_v7 : Ref sig .tc)
abbrev b8' : DevRef τ sig := Proc.devRef .tc (main_v8 : Ref sig .tc)
abbrev b9' : DevRef τ sig := Proc.devRef .tc (main_v9 : Ref sig .tc)

/-- Buffer `b` of device `d` held whole at the valuation's contents. -/
abbrev pt (d : Dev nD) (W : Valuation τ sig (Elt F)) (b : DevRef τ sig) : sProp 𝕄 := ((d, b) : Loc nD τ sig) ↦{fullShare} W b

omit [FloatOps F] in
theorem held_all (d : Dev nD) (W : Valuation τ sig (Elt F)) :
    (held (SparseCore.T d) (ucRefs τ sig) W : sProp 𝕄)
      = iprop(pt d W a0' ∗ pt d W a1' ∗ pt d W a2' ∗ pt d W a3' ∗ pt d W b0' ∗ pt d W b1' ∗ pt d W b2' ∗ pt d W bc' ∗ pt d W b3'
          ∗ pt d W b4' ∗ pt d W b5' ∗ pt d W b6' ∗ pt d W b7' ∗ pt d W b8' ∗ pt d W b9') :=
  bigSep_eq_bigSepL_of_eq [a0', a1', a2', a3', b0', b1', b2', bc', b3', b4', b5', b6', b7', b8', b9'] (by decide) (by decide) _

/-- The launch valuation, and the one after the first host line. -/
def V0 (d : Dev nD) : Valuation τ sig (Elt F) := fun b => m (d, b)
abbrev V1 (d : Dev nD) : Valuation τ sig (Elt F) := StableHlo.after (ops0 (F := F)) (V0 m d)

/-- The table, the row ids and the result array's contents when the pooling call starts. -/
abbrev tbV (d : Dev nD) : Buf (Elt F) (tLoc d) := V1 m d b0'
abbrev gdV (d : Dev nD) : Buf (Elt F) (gLoc d) := V1 m d b6'
abbrev o0V (d : Dev nD) : Buf (Elt F) (oLoc d) := V1 m d b7'

theorem ops0_sub : (ops0 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub ..,
    StableHlo.binary_bufs_sub .., StableHlo.unary_bufs_sub .., StableHlo.binary_bufs_sub ..⟩
theorem ops1_sub : (ops1 : List (HloOp τ sig (Elt F))).Forall fun op => op.bufs ⊆ StableHlo.tcRefs τ sig :=
  StableHlo.reshape_bufs_sub ..
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h

end Cert.Proof.KI

end
-- ==== Proof.KBody.lean ====
/-
  One tile's task of the pooling call, at a symbolic tile. Tile (core, subcore) has number `2 · subcore + core`; it
  serves batch `number / 8` and the 128 columns starting at `128 · (number mod 8)`. Its task reads the id row of its
  batch and the table (read shares suffice), uses three scratch buffers and three DMA semaphores of its own, and
  writes one 128-column strip of the result.
-/
import proofs.«217236_g4415226380944_cont_8to1_c_873_25_alg».proof.Proof.KSetup
import proofs.«217236_g4415226380944_cont_8to1_c_873_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The tile's number among the thirty-two: `2 · subcore + core`. -/
def wid (L : grid0.Coords) : Fin 32 := ⟨2 * (L 1).val + (L 0).val, by
  have h0 : (L 0).val < 2 := (L 0).isLt
  have h1 : (L 1).val < 16 := (L 1).isLt
  omega⟩

/-- The tile's strip of the result: 128 columns of one batch row, as the body slices it for the copy-out. -/
abbrev oRowK (L : grid0.Coords) : Memref sig .scVector .hbm S128 .f32 :=
  ((outV).slice (Rect.unit (s := S4x1024) (k0_off3 L) S1x128.size (k0_off3_inb L)) (fun _ => rfl)).squeeze S128 squeezes_S1x128_S128

/-- The tile's id row: the thirty-two row ids of its batch, as the body slices it for the copy-in. -/
abbrev gRowK (L : grid0.Coords) : Memref sig .scVector .hbm S32 .i32 :=
  ((gidV).slice (Rect.unit (s := S4x32) (k0_off1 L) S1x32.size (k0_off1_inb L)) (fun _ => rfl)).squeeze S32 squeezes_S1x32_S32

/-- The tile's read share of an array every tile reads: the full share dealt first among the SparseCores, each
    SparseCore's part then among its tiles. -/
abbrev tShare (L : grid0.Coords) : PosShare TreeShare :=
  Transfers.shareTokN (Transfers.shareTokN fullShare (L 0).val) (L 1).val

abbrev tPts (q : PosShare TreeShare) (f : Buf (Elt F) (tLoc d)) : sProp 𝕄 := tLoc d ↦{q} f
abbrev gPts (q : PosShare TreeShare) (f : Buf (Elt F) (gLoc d)) : sProp 𝕄 := gLoc d ↦{q} f
abbrev oRowPts (f : Buf (Elt F) (oLoc d)) : sProp 𝕄 := oLoc d ↦[(oRowK L).view.set]{fullShare} f

abbrev cGcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_t (q : PosShare TreeShare) (f : Buf (Elt F) (tLoc d)) :
    ((tblV).view.loc (V d (cV L) (jV L)) ↦{q} f : sProp 𝕄) = tLoc d ↦{q} f := by
  simp only [Memref.view_whole, View.set_whole]
omit [FloatOps F] in
theorem pts_g (q : PosShare TreeShare) (f : Buf (Elt F) (gLoc d)) :
    ((gidV).view.loc (V d (cV L) (jV L)) ↦{q} f : sProp 𝕄) = gLoc d ↦{q} f := by
  simp only [Memref.view_whole, View.set_whole]
omit [FloatOps F] in
theorem pts_o (f : Buf (Elt F) (oLoc d)) :
    ((oRowK L).view.loc (V d (cV L) (jV L)) ↦[(oRowK L).view.set]{fullShare} f : sProp 𝕄) = oLoc d ↦[(oRowK L).view.set]{fullShare} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- What the id scratch holds once the id row has been copied in is that row, so every word of it names a row of the
    table. -/
theorem ids_in_range (gid : Buf (Elt F) (gLoc d)) (hpre : IdsOK d gid) (fi : Buf (Elt F) ((V d (cV L) (jV L)).loc cc0_scratch0)) (x : S32.Idx) :
    ((sI).view.read (Elt F) (View.write (Elt F) (sI).view fi (ReadAs.same.apply ((gRowK L).view.read (Elt F) gid)) Finset.univ) x).toNat < 16384 := by
  have hw : View.write (Elt F) (sI).view fi (ReadAs.same.apply ((gRowK L).view.read (Elt F) gid)) Finset.univ = ReadAs.same.apply ((gRowK L).view.read (Elt F) gid) := View.write_whole_univ _ _ _
  rw [hw]
  have e : ReadAs.same.apply ((gRowK L).view.read (Elt F) gid) x = gid ((gRowK L).view.emb x) := (View.read_apply _ _).trans (cast_eq _ _)
  simp only [Memref.view_whole, View.read_whole]
  exact lt_of_eq_of_lt (congrArg BitVec.toNat e) (hpre _)

/-- One tile's task, at a symbolic tile: the id row copied in and waited for; the gather issued on one share of the id
    scratch while the other share serves the two index loads; the weights, the gather's wait, the 256 row loads and eight
    stores; the copy-out of the 128-lane result strip and its wait. The table and the id array are only read (the tile's
    read shares come back), the three scratch buffers and the three DMA semaphores come back (the semaphores at zero),
    and the tile's strip of the result comes back at what the copy-out wrote. -/
theorem tile_body (hF : (K (F := F)).Facts) (tbl : Buf (Elt F) (tLoc d)) (gid : Buf (Elt F) (gLoc d)) (o0 : Buf (Elt F) (oLoc d))
    (hpre : IdsOK d gid)
    (O : CellTallies nD τ sig (HIx 1)) (W : Waits sig (HIx 1)) (hO : ∀ g, O g none = 0) :
    iprop(levAts (K (F := F)).L (K (F := F)).lev ∗ emp
        ∗ (tPts d (tShare L) tbl ∗ gPts d (tShare L) gid ∗ oRowPts d L o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) tbl ∗ gPts d (tShare L) gid ∗ ∃ f, oRowPts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Ht, Hg, Ho⟩, ⟨⟨%fi, Hi⟩, ⟨%fr, Hr⟩, ⟨%fo, Hso⟩, Hbufs⟩, ⟨HsemG, HsemA, HsemB, Hsems⟩, HO⟩
  ihave Hmw := ((K (F := F)).mayWaits_none (thr := V d (cV L) (jV L)) hO) $$ Hlv
  ihave Ht' := (Entails.of_eq (pts_t (F := F) d L _ _).symm) $$ Ht
  ihave Hg' := (Entails.of_eq (pts_g (F := F) d L _ _).symm) $$ Hg
  ihave Ho' := (Entails.of_eq (pts_o (F := F) d L _).symm) $$ Ho
  ihave Hi' := (Entails.of_eq (pts_sI (F := F) d L _).symm) $$ Hi
  ihave Hr' := (Entails.of_eq (pts_sR (F := F) d L _).symm) $$ Hr
  ihave Hso' := (Entails.of_eq (pts_sO (F := F) d L _).symm) $$ Hso
  sl_exec_parts
  -- the ids the gather reads are the id row just copied in: in range by the precondition
  have hin : ∀ x, ((sI).view.read (Elt F) (View.write (Elt F) (sI).view fi (tile_body.sl.dma0 d L gid) Finset.univ) x).toNat < S16384x128.size (gathers_S16384x128_S32x128).axis :=
    fun x => ids_in_range d L gid hpre fi x
  -- one share of the id scratch goes with the gather, the other serves the index loads while it is in flight
  ihave Hsp := ((pointsTo_share (PosShare.mem_left_op_right fullShare)).1) $$ Hi'
  icases Hsp with ⟨HiL, HiR⟩
  sl_exec_parts
  sl_step
  isplitl [Ht' Hg' Ho']
  · isplitl [Ht']; · iapply (Entails.of_eq (pts_t (F := F) d L _ _)); iexact Ht'
    isplitl [Hg']; · iapply (Entails.of_eq (pts_g (F := F) d L _ _)); iexact Hg'
    iexists _; iapply (Entails.of_eq (pts_o (F := F) d L _)); iexact Ho'
  isplitl [HiL HiR Hr' Hso' Hbufs]
  · isplitl [HiL HiR]
    · iexists _; iapply (Entails.of_eq (pts_sI (F := F) d L _))
      iapply ((pointsTo_share (PosShare.mem_left_op_right fullShare)).2)
      isplitl [HiL]; · iexact HiL
      iexact HiR
    isplitl [Hr']; · iexists _; iapply (Entails.of_eq (pts_sR (F := F) d L _)); iexact Hr'
    isplitl [Hso']; · iexists _; iapply (Entails.of_eq (pts_sO (F := F) d L _)); iexact Hso'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, none) (insert (SemLoc.dma cc0_scratch3.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI

end
-- ==== Proof.KLaunch.lean ====
/-
  The pooling call's obligations to the SparseCore launch theorem: what the call hands each SparseCore and each tile and
  takes back (every tile a read share of the table and of the id array, and its own strip of the result), the tile
  obligation from the tile's task, the split of a SparseCore's operands among its tiles (the SparseCore's operands
  ARE its tiles' operands side by side), and the launch element of the ghost state: the handshakes' rounds and the
  output layer's pipeline cells; the tiles' copies need nothing of it.
-/
import proofs.«217236_g4415226380944_cont_8to1_c_873_25_alg».proof.Proof.KBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (tb : (d : Dev nD) → Buf (Elt F) (tLoc d)) (gd : (d : Dev nD) → Buf (Elt F) (gLoc d)) (o0 po : (d : Dev nD) → Buf (Elt F) (oLoc d))

variable [FloatOps F]

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

/-! ## Tiles by coordinates -/

def coordsV (c : Fin (grid0.bound 0)) (s : Fin (grid0.bound 1)) : grid0.Coords :=
  fun | 0 => c | 1 => s | ⟨_ + 2, h⟩ => absurd h (Nat.not_lt.2 (Nat.le_add_left _ _))

/-- Tile `i` of SparseCore `c` of the call, as grid coordinates. -/
abbrev LK (c : Fin ((K (F := F)).nCore 0)) (i : Fin ((K (F := F)).nSub 0)) : grid0.Coords := coordsV ⟨c.val, c.isLt⟩ ⟨i.val, i.isLt⟩

theorem defs₀_vector (c : Fin τ.nSC) (s : Fin τ.nSub) :
    defs₀ (F := F) (.scVector c s) 0 ()
      = SparseCore.onTile hcore0 hsub0 (fun c s => cc0_body (coordsV c s)
          tblV (Memref.isWhole_whole _) gidV (Memref.isWhole_whole _) outV (Memref.isWhole_whole _)
          sI (Memref.isWhole_whole _) sR (Memref.isWhole_whole _) sO (Memref.isWhole_whole _) cc0_scratch3 cc0_scoped0 cc0_scoped1) ⟨⟩ c s := rfl

/-! ## What the call carries -/

/-- A tile's operands: its read shares of the table and of the id array, its strip of the result as the call found it. -/
def tileIn (d : Dev nD) (L : grid0.Coords) : sProp 𝕄 :=
  iprop(tPts d (tShare L) (tb d) ∗ gPts d (tShare L) (gd d) ∗ oRowPts d L (o0 d))
/-- What it hands back: the two read shares, its strip at the pooled values `po` (one function of the whole array,
    of which every tile writes its own strip). -/
def tileOut (d : Dev nD) (L : grid0.Coords) : sProp 𝕄 :=
  iprop(tPts d (tShare L) (tb d) ∗ gPts d (tShare L) (gd d) ∗ oRowPts d L (po d))

/-- The tile's task with its result named: from its operands, its scratch and semaphores and what it owes, tile `L`
    of device `d` runs to the end and leaves its strip at `po d`. -/
def TileTask : Prop :=
  ∀ (d : Dev nD) (L : grid0.Coords) (O : CellTallies nD τ sig (HIx 1)) (W : Waits sig (HIx 1)), (∀ g, O g none = 0) →
    iprop(levAts (K (F := F)).L (K (F := F)).lev ∗ emp
        ∗ (tPts d (tShare L) (tb d) ∗ gPts d (tShare L) (gd d) ∗ oRowPts d L (o0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) (tb d) ∗ gPts d (tShare L) (gd d) ∗ oRowPts d L (po d))
            ∗ scopedBufs (V d (cV L) (jV L)) ∗ scopedSems0 (V d (cV L) (jV L))
            ∗ ∃ W', ⌜∀ p ∈ W', p ∈ W ∨ p.2 = none⌝ ∗ owes (V d (cV L) (jV L)) O W')

/-- A SparseCore's operands are its sixteen tiles' side by side, and so are its results. -/
def P : (K (F := F)).Pay (nD := nD) (Val := Elt F) (Name := ℕ) (U := UU) where
  st := fun q d c => match q with | 0 => bigSep Finset.univ fun i : Fin ((K (F := F)).nSub 0) => tileIn tb gd o0 d (LK c i)
  dn := fun q d c => match q with | 0 => bigSep Finset.univ fun i : Fin ((K (F := F)).nSub 0) => tileOut tb gd po d (LK c i)
  go := fun q d c i => match q with | 0 => tileIn tb gd o0 d (LK c i)
  td := fun q d c i => match q with | 0 => tileOut tb gd po d (LK c i)
  x := fun _ _ => iprop(emp)

instance tileIn_storable (d : Dev nD) (L : grid0.Coords) : BI.Storable (upEmb : UEmb _ 𝕄) (tileIn tb gd o0 d L) := by
  unfold tileIn; infer_instance
instance tileOut_storable (d : Dev nD) (L : grid0.Coords) : BI.Storable (upEmb : UEmb _ 𝕄) (tileOut tb gd po d L) := by
  unfold tileOut; infer_instance

instance P_storable : (P (F := F) tb gd o0 po).IsStorable where
  st q d c := match q with
    | 0 => (inferInstance : BI.Storable (upEmb : UEmb _ 𝕄) (bigSep Finset.univ fun i : Fin ((K (F := F)).nSub 0) => tileIn tb gd o0 d (LK c i)))
  dn q d c := match q with
    | 0 => (inferInstance : BI.Storable (upEmb : UEmb _ 𝕄) (bigSep Finset.univ fun i : Fin ((K (F := F)).nSub 0) => tileOut tb gd po d (LK c i)))
  go q d c i := match q with
    | 0 => (inferInstance : BI.Storable (upEmb : UEmb _ 𝕄) (tileIn tb gd o0 d (LK c i)))
  td q d c i := match q with
    | 0 => (inferInstance : BI.Storable (upEmb : UEmb _ 𝕄) (tileOut tb gd po d (LK c i)))

/-! ## The launch theorem's obligations -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hT : TileTask tb gd o0 po) : (K (F := F)).TileObl (D (F := F)) 𝒱 (P tb gd o0 po) v₀ 0 := by
  intro d c i O W hO _ _
  -- the tiles owe nothing for a protocol of their own
  simp only [show (P tb gd o0 po).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT d (coordsV ⟨_, hc.1⟩ ⟨_, hc.2⟩) O W hO).trans (wp_mono frame _ _ fun _ => obl_post)

theorem vecSplit : (K (F := F)).VecSplit' (P tb gd o0 po) 0 := by
  intro d c
  show (bigSep Finset.univ fun i : Fin ((K (F := F)).nSub 0) => tileIn tb gd o0 d (LK c i)) ⊢ |={Set.univ}=> iprop(
      (bigSep Finset.univ fun i : Fin ((K (F := F)).nSub 0) => tileIn tb gd o0 d (LK c i))
      ∗ ((bigSep Finset.univ fun i : Fin ((K (F := F)).nSub 0) => tileOut tb gd po d (LK c i))
          -∗ bigSep Finset.univ fun i : Fin ((K (F := F)).nSub 0) => tileOut tb gd po d (LK c i)))
  iintro H; imodintro
  isplitl [H]; · iexact H
  iintro H; iexact H

/-! ## The launch element: the handshakes' rounds and the output layer's pipeline cells -/

/-- What every device's TensorCore is dealt besides the launch's own: the ghost state of the output layer's staging
    cells. -/
def G (d : Dev nD) : sProp 𝕄 := iprop(Pipeline.cellsGhost cfgs EP 0 d ∗ Pipeline.toksInit cfgs EP 0 d)

def u₀ : UU := (initOf (K (F := F)).hsCells (K (F := F)).hsToks, (initOf (Pipeline.cells (nD := nD) cfgs cellOf_inj) (Pipeline.launchToks (nD := nD) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tb gd o0 po).x q thr) := by
  unfold u₀
  iintro Hu
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans embR) (initOf (Pipeline.cells (nD := nD) cfgs cellOf_inj) (Pipeline.launchToks (nD := nD) cfgs cellOf_inj))) : sProp 𝕄)
      = BI.own (EP (initOf (Pipeline.cells (nD := nD) cfgs cellOf_inj) (Pipeline.launchToks (nD := nD) cfgs cellOf_inj))) from rfl)) $$ HP
  imod (Pipeline.fund_ghost (nD := nD) cfgs EP cellOf_inj) $$ HP' with ⟨Hg, Ht⟩
  imodintro
  isplitl [HH]; · iexact HH
  have e1 : (bigSep Finset.univ fun c : Dev nD => bigSep Finset.univ fun p : Fin 1 => (Pipeline.cellsGhost cfgs EP p c : sProp 𝕄))
      = bigSep Finset.univ fun c : Dev nD => (Pipeline.cellsGhost cfgs EP 0 c : sProp 𝕄) :=
    bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => (Pipeline.toksInit cfgs EP 0 c : sProp 𝕄) :=
    bigSep_congr fun c _ => bigSep_univ_of_subsingleton (0 : Fin 1)
  isplitl [Hg Ht]
  · unfold G
    rw [bigSep_sep']
    isplitl [Hg]
    · iapply (Entails.of_eq e1); iexact Hg
    · iapply (Entails.of_eq e2); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KStrips.lean ====
/-
  The thirty-two strips of the result. Tile number `w = 2 · subcore + core` writes row `w / 8`, columns
  `128 · (w mod 8)` to `128 · (w mod 8) + 127`: as `w` runs over 0..31 the pair (`w / 8`, `w mod 8`) runs over all of
  4 × 8, so the strips are pairwise disjoint and cover the 4 × 1024 array.
-/
import proofs.«217236_g4415226380944_cont_8to1_c_873_25_alg».proof.Proof.KLaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

/-- The copy-out's offsets in closed form: row `w / 8`, column `128 · (w mod 8)`, `w` the tile's number. -/
theorem k0_off3_eq : ∀ i : grid0.Coords, k0_off3 i = ![(2 * (i 1).val + (i 0).val) / 8, 128 * ((2 * (i 1).val + (i 0).val) % 8)] := by
  decide +kernel

theorem set_oRowK (L : grid0.Coords) :
    (oRowK L).view.set = (Rect.unit (s := S4x1024) (k0_off3 L) S1x128.size (k0_off3_inb L)).set := by
  show (((outV).view.slice (Rect.unit (s := S4x1024) (k0_off3 L) S1x128.size (k0_off3_inb L))).reshape S128 squeezes_S1x128_S128.numel_eq).set = _
  rw [View.set_reshape]
  show ((View.whole (main_v7_scv : Ref sig .scVector)).slice (Rect.unit (s := S4x1024) (k0_off3 L) S1x128.size (k0_off3_inb L))).set = _
  rw [View.set_slice]; exact Finset.map_refl

/-- An index lies in tile `L`'s strip exactly when its row is `w / 8` and its column is in the 128 from `128 · (w mod 8)`. -/
theorem mem_strip (L : grid0.Coords) (j : S4x1024.Idx) :
    j ∈ (oRowK L).view.set ↔ (j 0).val = (wid L).val / 8 ∧ 128 * ((wid L).val % 8) ≤ (j 1).val ∧ (j 1).val < 128 * ((wid L).val % 8) + 128 := by
  rw [set_oRowK, Rect.mem_set_unit, k0_off3_eq]
  have hw : (wid L).val = 2 * (L 1).val + (L 0).val := rfl
  rw [hw]
  constructor
  · intro h
    have h0 := h 0; have h1 := h 1
    simp only [Matrix.cons_val_zero, Matrix.cons_val_one, Matrix.head_cons, S1x128] at h0 h1
    exact ⟨by omega, h1⟩
  · intro h a
    fin_cases a <;> simp [S1x128] <;> omega

/-- The strip of tile (core `c`, subcore `i`). -/
def strip (ci : Fin 2 × Fin 16) : Finset S4x1024.Idx := (oRowK (coordsV ci.1 ci.2)).view.set

theorem wid_coordsV (c : Fin 2) (i : Fin 16) : (wid (coordsV c i)).val = 2 * i.val + c.val := rfl

theorem strips_disjoint : ∀ a ∈ (Finset.univ : Finset (Fin 2 × Fin 16)), ∀ b ∈ (Finset.univ : Finset (Fin 2 × Fin 16)), a ≠ b → Disjoint (strip a) (strip b) := by
  intro a _ b _ hab
  refine Finset.disjoint_left.mpr fun j ha hb => hab ?_
  unfold strip at ha hb
  rw [mem_strip, wid_coordsV] at ha hb
  have ha1 := a.1.isLt; have ha2 := a.2.isLt; have hb1 := b.1.isLt; have hb2 := b.2.isLt
  exact Prod.ext (Fin.ext (by omega)) (Fin.ext (by omega))

theorem strips_cover : (Finset.univ : Finset (Fin 2 × Fin 16)).biUnion strip = Finset.univ := by
  refine Finset.eq_univ_of_forall fun j => Finset.mem_biUnion.mpr ?_
  have h0 : (j 0).val < 4 := (j 0).isLt
  have h1 : (j 1).val < 1024 := (j 1).isLt
  refine ⟨(⟨(8 * (j 0).val + (j 1).val / 128) % 2, by omega⟩, ⟨(8 * (j 0).val + (j 1).val / 128) / 2, by omega⟩), Finset.mem_univ _, ?_⟩
  unfold strip
  rw [mem_strip, wid_coordsV]
  dsimp only
  omega

/-! ## The whole array as its strips, and a read share for every tile -/

variable [FloatOps F]

/-- The result array held whole is its thirty-two strips held side by side. -/
theorem oPts_strips (d : Dev nD) (f : Buf (Elt F) (oLoc d)) :
    (oLoc d ↦{fullShare} f : sProp 𝕄)
      = bigSep Finset.univ fun c : Fin 2 => bigSep Finset.univ fun i : Fin 16 => (oLoc d ↦[strip (c, i)]{fullShare} f : sProp 𝕄) := by
  rw [← bigSep_univ_prod (fun ci : Fin 2 × Fin 16 => (oLoc d ↦[strip ci]{fullShare} f : sProp 𝕄)),
    ← pointsTo_biUnion Finset.univ (ℓ := oLoc d) strip strips_disjoint, strips_cover]; try rfl

/-- What is left of a full share once every tile has its read share: kept aside during the call. -/
def Rem (ℓ : Loc nD τ sig) (f : Buf (Elt F) ℓ) : sProp 𝕄 :=
  iprop((ℓ ↦{Transfers.shareDrop fullShare 2} f)
    ∗ bigSep Finset.univ fun c : Fin 2 => (ℓ ↦{Transfers.shareDrop (Transfers.shareTok fullShare 2 c) 16} f : sProp 𝕄))

/-- A full share dealt: first among the two SparseCores, each part then among its sixteen tiles. -/
theorem deal_split (ℓ : Loc nD τ sig) (f : Buf (Elt F) ℓ) :
    (ℓ ↦{fullShare} f : sProp 𝕄) ⊢ iprop(Rem ℓ f
      ∗ bigSep Finset.univ fun c : Fin 2 => bigSep Finset.univ fun i : Fin 16 => (ℓ ↦{Transfers.shareTok (Transfers.shareTok fullShare 2 c) 16 i} f : sProp 𝕄)) := by
  refine (Transfers.pointsTo_toks_split fullShare 2).trans ?_
  refine (sep_mono .rfl (bigSep_mono fun c _ => Transfers.pointsTo_toks_split (Transfers.shareTok fullShare 2 c) 16)).trans ?_
  rw [bigSep_sep']
  unfold Rem
  iintro ⟨H0, H1, H2⟩
  isplitl [H0 H1]; · isplitl [H0] <;> iassumption
  iexact H2

/-- and gathered again. -/
theorem deal_join (ℓ : Loc nD τ sig) (f : Buf (Elt F) ℓ) :
    iprop(Rem ℓ f
      ∗ bigSep Finset.univ fun c : Fin 2 => bigSep Finset.univ fun i : Fin 16 => (ℓ ↦{Transfers.shareTok (Transfers.shareTok fullShare 2 c) 16 i} f : sProp 𝕄))
      ⊢ (ℓ ↦{fullShare} f : sProp 𝕄) := by
  have h1 : iprop((bigSep Finset.univ fun c : Fin 2 => (ℓ ↦{Transfers.shareDrop (Transfers.shareTok fullShare 2 c) 16} f : sProp 𝕄))
        ∗ (bigSep Finset.univ fun c : Fin 2 => bigSep Finset.univ fun i : Fin 16 => (ℓ ↦{Transfers.shareTok (Transfers.shareTok fullShare 2 c) 16 i} f : sProp 𝕄)))
      ⊢ (bigSep Finset.univ fun c : Fin 2 => (ℓ ↦{Transfers.shareTok fullShare 2 c} f : sProp 𝕄)) := by
    rw [← bigSep_sep']
    exact bigSep_mono fun c _ => Transfers.pointsTo_toks_join (Transfers.shareTok fullShare 2 c) 16
  unfold Rem
  iintro ⟨⟨H0, H1⟩, H2⟩
  iapply (Transfers.pointsTo_toks_join fullShare 2)
  isplitl [H0]; · iexact H0
  iapply h1
  isplitl [H1] <;> iassumption

omit [FloatOps F] in
/-- Three families over the tiles, side by side tile by tile, are the three families side by side. -/
theorem nest3 (A B C : Fin 2 → Fin 16 → sProp 𝕄) :
    (bigSep Finset.univ fun c : Fin 2 => bigSep Finset.univ fun i : Fin 16 => iprop(A c i ∗ B c i ∗ C c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)) := by
  rw [← bigSep_sep', ← bigSep_sep']
  exact bigSep_congr fun c _ => by rw [← bigSep_sep', ← bigSep_sep']

end Cert.Proof.KI

end
-- ==== Proof.KRegion.lean ====
/-
  The output layer's call of the kernel program: one pass of the pipeline over four whole arrays. The body loads the
  pooled values, the weight matrix and the bias row, multiplies, adds the bias along the rows, applies tanh and stores
  the result. This module gives the result as one pure term of the three operands' contents, runs the body, and states
  the rule of the call inside a larger program: from the three operands held at given contents and the result's
  array held at anything, the call runs to the continuation holding the operands unchanged and the result at that term.
-/
import proofs.«217236_g4415226380944_cont_8to1_c_873_25_alg».proof.Proof.KSetup
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses and its result -/

/-- The whole-buffer rectangles the body loads and stores through. -/
abbrev rP : Rect S4x1024 := Rect.unit (s := S4x1024) ![0, 0] S4x1024.size inb_S4x1024_S4x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body stores, from the three values it loads: tanh (x · w + b), the bias row repeated down the rows. -/
def headPay (v0 : Vec F S4x1024 .f32) (v2 : Vec F S1024x1024 .f32) (v4 : Vec F S1x1024 .f32) : FVec F S4x1024 .f32 :=
  tanh (addf
    (matmul dot_S4x1024_S1024x1024_S4x1024_1_0_0_1_n_n none (shapeCast S4x1024 v0 shapeCasts_S4x1024_S4x1024) v2 (constant S4x1024 .f32 0x00000000#32))
    (broadcastTo S4x1024 (shapeCast S1x1024 v4 shapeCasts_S1x1024_S1x1024) broadcasts_S1x1024_S4x1024))

/-- The result's staging buffer after the body, from the three operands' buffers: its one store as a piece. -/
def headVal (x0 : Vec F S4x1024 .f32) (x1 : Vec F S1024x1024 .f32) (x2 : Vec F S1x1024 .f32) : Vec F S4x1024 .f32 :=
  View.canon [⟨rP, headPay (View.ld x0 rP) (View.ld x1 rW) (View.ld x2 rB)⟩]

/-- The one store covers the buffer. -/
theorem headCover (p0 : Vec F S4x1024 .f32) (y : S4x1024.Idx) :
    ∃ pc ∈ ([⟨rP, p0⟩] : List (View.Piece (Elt F) S4x1024 .f32)), y ∈ pc.1.set :=
  View.cover_of_tiled [⟨rP, p0⟩] S4x1024.size (by rfl) y

/-! ## The body's triple -/

set_option maxHeartbeats 1000000 in
/-- The body on whole staging memrefs, the operands' at read contents `x0 x1 x2` and the result's at anything, runs to
    the continuation holding the operands' as they were and the result's at `headVal` of them. -/
theorem sound_head (c : Dev nD) (E : Set ℕ) (arg0 : Memref sig .tc .vmem S4x1024 .f32) (harg0 : arg0.IsWhole)
    (arg1 : Memref sig .tc .vmem S1024x1024 .f32) (harg1 : arg1.IsWhole) (arg2 : Memref sig .tc .vmem S1x1024 .f32) (harg2 : arg2.IsWhole)
    (arg3 : Memref sig .tc .vmem S4x1024 .f32) (harg3 : arg3.IsWhole)
    (x0 : Vec F S4x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (headVal x0 x1 x2)) -∗ K ⟨⟩))
      ⊢ wp frame (wpE (defs₀ (F := F)) Variants.none c none) E (cc1__tc_head arg0 harg0 arg1 harg1 arg2 harg2 arg3 harg3) K := by
  unfold cc1__tc_head
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (headCover _)

/-! ## The windows' blocks: each window is its whole array -/

/-- A window's block, read off its array, is the array's contents: the one block is the whole array. -/
theorem blk_read0 (t : Fin cfg1.N) (f : Vec F S4x1024 .f32) : ((cfg1.win 0).blk t).view.read (Elt F) f = f := by
  funext y
  rw [View.read_apply, cast_eq]
  refine congrArg f (funext fun a => Fin.ext ?_)
  show 0 * _ + 1 * (y a).val = (y a).val
  omega
theorem blk_read1 (t : Fin cfg1.N) (f : Vec F S1024x1024 .f32) : ((cfg1.win 1).blk t).view.read (Elt F) f = f := by
  funext y
  rw [View.read_apply, cast_eq]
  refine congrArg f (funext fun a => Fin.ext ?_)
  show 0 * _ + 1 * (y a).val = (y a).val
  omega
theorem blk_read2 (t : Fin cfg1.N) (f : Vec F S1x1024 .f32) : ((cfg1.win 2).blk t).view.read (Elt F) f = f := by
  funext y
  rw [View.read_apply, cast_eq]
  refine congrArg f (funext fun a => Fin.ext ?_)
  show 0 * _ + 1 * (y a).val = (y a).val
  omega
theorem blk_read3 (t : Fin cfg1.N) (f : Vec F S4x1024 .f32) : ((cfg1.win 3).blk t).view.read (Elt F) f = f := by
  funext y
  rw [View.read_apply, cast_eq]
  refine congrArg f (funext fun a => Fin.ext ?_)
  show 0 * _ + 1 * (y a).val = (y a).val
  omega

/-- Every element of the result's array is in its one block. -/
theorem blk_cover3 (t : Fin cfg1.N) (i : S4x1024.Idx) : i ∈ ((cfg1.win 3).blk t).view.set := by
  rw [View.set_slice_whole, Rect.mem_set_unit]
  intro a
  have := (i a).isLt
  refine ⟨?_, ?_⟩
  · show 0 * _ ≤ (i a).val
    omega
  · show (i a).val < 0 * _ + S4x1024.size a
    omega

/-- One store through the whole buffer leaves its payload, the loads reading the operands' buffers whole. -/
theorem headVal_eq (x0 : Vec F S4x1024 .f32) (x1 : Vec F S1024x1024 .f32) (x2 : Vec F S1x1024 .f32) :
    headVal x0 x1 x2 = headPay x0 x1 x2 := by
  have hz2 : (![0, 0] : Fin 2 → Nat) = fun _ => 0 := by funext a; match a with | ⟨0, _⟩ => rfl | ⟨1, _⟩ => rfl
  unfold headVal
  rw [View.canon_unit_zero hz2]
  simp only [View.ld_unit_zero (S := S4x1024) hz2, View.ld_unit_zero (S := S1024x1024) hz2, View.ld_unit_zero (S := S1x1024) hz2]

/-! ## The pipeline's proof data -/

/-- The proof data on core `c`: the operands' arrays at `pv wv bv` and the result's at `ov` on entry; after the body
    each operand's buffer at its array and the result's at `headVal` of them; the invariant the scoped buffers no
    window stages; nothing owed; full shares; the pairs recorded before the call within `W`. -/
def dat (c : Dev nD) (W : Waits sig (HIx 1)) (pv : Vec F S4x1024 .f32) (wv : Vec F S1024x1024 .f32) (bv : Vec F S1x1024 .f32) (ov : Vec F S4x1024 .f32) :
    Dat τ (Elt F) (HIx 1) ℕ UU ℕ cfg1 c where
  A w := match w with
    | ⟨0, _⟩ => pv
    | ⟨1, _⟩ => wv
    | ⟨2, _⟩ => bv
    | ⟨3, _⟩ => ov
  after w _ := match w with
    | ⟨0, _⟩ => pv
    | ⟨1, _⟩ => wv
    | ⟨2, _⟩ => bv
    | ⟨3, _⟩ => headVal pv wv bv
  Φ _ := Pipeline.scopedRest (Ix := HIx 1) (Name := ℕ) (U := UU) (Lvl := ℕ) (Val := Elt F) spec1 c
  q _ := fullShare
  owed _ := 0
  recorded _ := ↑W

section Data

variable (c : Dev nD) (W : Waits sig (HIx 1)) (pv : Vec F S4x1024 .f32) (wv : Vec F S1024x1024 .f32) (bv : Vec F S1x1024 .f32) (ov : Vec F S4x1024 .f32)

theorem A0 : (dat c W pv wv bv ov).A 0 = pv := by dsimp only [dat]
theorem A1 : (dat c W pv wv bv ov).A 1 = wv := by dsimp only [dat]
theorem A2 : (dat c W pv wv bv ov).A 2 = bv := by dsimp only [dat]
theorem A3 : (dat c W pv wv bv ov).A 3 = ov := by dsimp only [dat]
theorem after0 (t : Fin cfg1.N) : (dat c W pv wv bv ov).after 0 t = pv := by dsimp only [dat]
theorem after1 (t : Fin cfg1.N) : (dat c W pv wv bv ov).after 1 t = wv := by dsimp only [dat]
theorem after2 (t : Fin cfg1.N) : (dat c W pv wv bv ov).after 2 t = bv := by dsimp only [dat]
theorem after3 (t : Fin cfg1.N) : (dat c W pv wv bv ov).after 3 t = headVal pv wv bv := by dsimp only [dat]

/-- Each operand's staging buffer holds its array when the body runs: the window is fetched at the point. -/
theorem before0 (t : Fin cfg1.N) (d) : (dat c W pv wv bv ov).before 0 t d = pv :=
  ((dat c W pv wv bv ov).before_fetched 0 t (fetch1_0 t) d).trans
    (by unfold Dat.fetched Dat.blockOf; rw [A0]; exact blk_read0 t pv)
theorem before1 (t : Fin cfg1.N) (d) : (dat c W pv wv bv ov).before 1 t d = wv :=
  ((dat c W pv wv bv ov).before_fetched 1 t (fetch1_1 t) d).trans
    (by unfold Dat.fetched Dat.blockOf; rw [A1]; exact blk_read1 t wv)
theorem before2 (t : Fin cfg1.N) (d) : (dat c W pv wv bv ov).before 2 t d = bv :=
  ((dat c W pv wv bv ov).before_fetched 2 t (fetch1_2 t) d).trans
    (by unfold Dat.fetched Dat.blockOf; rw [A2]; exact blk_read2 t bv)

end Data

/-! ## The body obligation -/

section Body

variable (c : Dev nD) (W : Waits sig (HIx 1)) (pv : Vec F S4x1024 .f32) (wv : Vec F S1024x1024 .f32) (bv : Vec F S1x1024 .f32) (ov : Vec F S4x1024 .f32)

/-- What the body is called with at point `t`, the windows one by one, -/
def bodyPre (t : Fin cfg1.N) : sProp 𝕄 :=
  iprop((dat c W pv wv bv ov).Φ t.castSucc ∗ (dat c W pv wv bv ov).owesAt none t.castSucc
    ∗ (∃ d, owns (c : Thread nD τ) (st1_0 t) fullShare ((dat c W pv wv bv ov).before 0 t d))
    ∗ (∃ d, owns (c : Thread nD τ) (st1_1 t) fullShare ((dat c W pv wv bv ov).before 1 t d))
    ∗ (∃ d, owns (c : Thread nD τ) (st1_2 t) fullShare ((dat c W pv wv bv ov).before 2 t d))
    ∗ (∃ d, owns (c : Thread nD τ) (st1_3 t) fullShare ((dat c W pv wv bv ov).before 3 t d)))

/-- and what it returns. -/
def bodyPost (t : Fin cfg1.N) : sProp 𝕄 :=
  iprop((dat c W pv wv bv ov).Φ t.succ ∗ (dat c W pv wv bv ov).owesAt none t.succ
    ∗ owns (c : Thread nD τ) (st1_0 t) fullShare ((dat c W pv wv bv ov).after 0 t)
    ∗ owns (c : Thread nD τ) (st1_1 t) fullShare ((dat c W pv wv bv ov).after 1 t)
    ∗ owns (c : Thread nD τ) (st1_2 t) fullShare ((dat c W pv wv bv ov).after 2 t)
    ∗ owns (c : Thread nD τ) (st1_3 t) fullShare ((dat c W pv wv bv ov).after 3 t))

/-- The body at the point: the operands' buffers hold their arrays, so `sound_head` applies; the invariant and the
    core's `owes` pass through unread. -/
theorem sound_body (t : Fin cfg1.N) :
    bodyPre c W pv wv bv ov t ⊢ wp frame (wpE (defs₀ (F := F)) Variants.none c none) Set.univ (bodyAt1 t) (fun _ => bodyPost c W pv wv bv ov t) := by
  unfold bodyPre bodyPost bodyAt1
  simp only [before0, before1, before2]
  rw [show (dat c W pv wv bv ov).Φ t.succ = (dat c W pv wv bv ov).Φ t.castSucc from rfl,
    show (dat c W pv wv bv ov).owesAt none t.succ = (dat c W pv wv bv ov).owesAt none t.castSucc from rfl,
    after0, after1, after2, after3]
  iintro ⟨HΦ, Ho, ⟨%d0, H0⟩, ⟨%d1, H1⟩, ⟨%d2, H2⟩, ⟨%d3, H3⟩⟩
  iapply (sound_head c Set.univ _ _ _ _ _ _ _ _ pv wv bv _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation : BodyObligation (dat (F := F) c W pv wv bv ov) (defs₀ (F := F)) Variants.none (none : HIx 1) Set.univ := fun t => by
  rw [bigSep_W1, bigSep_W1]
  exact sound_body c W pv wv bv ov t

end Body

/-! ## The arrays before and after the call -/

section Arrays

variable (c : Dev nD) (W : Waits sig (HIx 1)) (pv : Vec F S4x1024 .f32) (wv : Vec F S1024x1024 .f32) (bv : Vec F S1x1024 .f32) (ov : Vec F S4x1024 .f32)

/-- The pipeline's arrays at contents `G` are the four buffers behind them, each whole at the full share. -/
theorem arrays_chain (G : (w : Fin cfg1.W) → Buf (Elt F) ((cfg1.win w).arr.view.loc (c : Thread nD τ))) :
    ((dat c W pv wv bv ov).arrays G : sProp 𝕄)
      = iprop((((c : Thread nD τ).loc main_v7) ↦{fullShare} G 0) ∗ (((c : Thread nD τ).loc main_arg2) ↦{fullShare} G 1)
          ∗ (((c : Thread nD τ).loc main_v8) ↦{fullShare} G 2) ∗ (((c : Thread nD τ).loc main_v9) ↦{fullShare} G 3)) := by
  rw [Pipeline.arrays_eq cfgs (fun _ c => dat c W pv wv bv ov) 0 c arr_whole1
    (fun w => (dat c W pv wv bv ov).share_full (fun _ => rfl) w) G, bigSep_W1]

/-- The operands' arrays are never written; -/
theorem arrAt0 (n : Nat) : (dat c W pv wv bv ov).arrAt 0 n = pv := ((dat c W pv wv bv ov).arrAt_in 0 rfl n).trans (A0 c W pv wv bv ov)
theorem arrAt1 (n : Nat) : (dat c W pv wv bv ov).arrAt 1 n = wv := ((dat c W pv wv bv ov).arrAt_in 1 rfl n).trans (A1 c W pv wv bv ov)
theorem arrAt2 (n : Nat) : (dat c W pv wv bv ov).arrAt 2 n = bv := ((dat c W pv wv bv ov).arrAt_in 2 rfl n).trans (A2 c W pv wv bv ov)

/-- the result's array ends holding the body's result, whatever it held: its one block, written back, is all of it. -/
theorem arrAt3 : (dat c W pv wv bv ov).arrAt 3 cfg1.N = headPay pv wv bv :=
  (dat c W pv wv bv ov).arrAt_eq_of_cover 3 (headPay pv wv bv)
    (fun t _ => by
      show (dat c W pv wv bv ov).after 3 t = _
      rw [after3, headVal_eq]; exact (blk_read3 t _).symm)
    (fun i => ⟨t1_0, flush1_3 t1_0, blk_cover3 t1_0 i⟩)

end Arrays

/-! ## The call as a region of the program -/

/-- The prefetched tables' admissible contents: no table. -/
abbrev adm : (p : Fin 1) → (pcfgs (F := F) p).Adm := fun p => (cfgs p).toPCfg_adm

/-- The result of the call as one pure term of its three operands' contents: tanh (x · w + b). -/
def headOut (d : Dev nD) (pv : Buf (Elt F) ((SparseCore.T d : Thread nD τ).loc main_v7)) (wv : Buf (Elt F) ((SparseCore.T d : Thread nD τ).loc main_arg2)) (bv : Buf (Elt F) ((SparseCore.T d : Thread nD τ).loc main_v8)) :
    Buf (Elt F) ((SparseCore.T d : Thread nD τ).loc main_v9) := headPay pv wv bv

section Region

variable (W : Waits sig (HIx 1)) (pv : Vec F S4x1024 .f32) (wv : Vec F S1024x1024 .f32) (bv : Vec F S1x1024 .f32) (ov : Vec F S4x1024 .f32)

/-- The proof data of the program's one pipeline, on every core. -/
abbrev dats : (p : Fin 1) → (c : Dev nD) → Dat τ (Elt F) (HIx 1) ℕ UU ℕ (Pipeline.pin (pcfgs (F := F)) adm p) c :=
  fun _ c => dat c W pv wv bv ov

/-- What the call is entered with: the four arrays, the result's at `ov`, and the core owing nothing. -/
def regPre (c : Dev nD) : sProp 𝕄 :=
  iprop((((c : Thread nD τ).loc main_v7) ↦{fullShare} pv) ∗ (((c : Thread nD τ).loc main_arg2) ↦{fullShare} wv)
    ∗ (((c : Thread nD τ).loc main_v8) ↦{fullShare} bv) ∗ (((c : Thread nD τ).loc main_v9) ↦{fullShare} ov)
    ∗ owes (c : Thread nD τ) (0 : CellTallies nD τ sig (HIx 1)) W)

/-- What it leaves: the operands as they were, the result at the body's, the core owing nothing, its recorded pairs
    those it had and pairs of the pipeline's own waits. -/
def regPost (c : Dev nD) : sProp 𝕄 :=
  iprop((((c : Thread nD τ).loc main_v7) ↦{fullShare} pv) ∗ (((c : Thread nD τ).loc main_arg2) ↦{fullShare} wv)
    ∗ (((c : Thread nD τ).loc main_v8) ↦{fullShare} bv) ∗ (((c : Thread nD τ).loc main_v9) ↦{fullShare} headPay pv wv bv)
    ∗ ∃ W', ⌜∀ p ∈ W', p ∈ W ∨ p.2 = none⌝ ∗ owes (c : Thread nD τ) (0 : CellTallies nD τ sig (HIx 1)) W')

set_option maxHeartbeats 1000000 in
set_option backward.isDefEq.respectTransparency.types false in
/-- THE REGION: the decided layout, no semaphore of the kernel's own, the body obligation; entered with the four arrays
    handed to the pipeline, left with them at their final contents. -/
def reg : Pipeline.RegionSeg (pcfgs (F := F)) adm (dats W pv wv bv ov) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation c W pv wv bv ov).loose
  hwaits := Pipeline.hwaits_of_owed_zero _ _ _ _ _ _ 0 fun _ _ => rfl
  pre := regPre W pv wv bv ov
  post := regPost W pv wv bv
  X _ := iprop(emp)
  Y _ := iprop(emp)
  Z _ := iprop(emp)
  hentry c := by
    rw [arrays_chain]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitl []; · iempintro
    iempintro
  hin c := by
    rw [show (dats W pv wv bv ov 0 c).Φ 0 = Pipeline.scopedRest (Pipeline.pin (pcfgs (F := F)) adm 0).spec c from rfl]
    iintro ⟨-, -, Hr⟩
    iexact Hr
  hout c := by
    rw [Pipeline.ownSems0_none,
      show (dats W pv wv bv ov 0 c).Φ (Fin.last (Pipeline.pin (pcfgs (F := F)) adm 0).N) = Pipeline.scopedRest (Pipeline.pin (pcfgs (F := F)) adm 0).spec c from rfl]
    iintro Hr
    isplitl []; · iempintro
    isplitl []; · iempintro
    iexact Hr
  hexit c := by
    rw [arrays_chain,
      show (dats W pv wv bv ov 0 c).arrAt 0 (Pipeline.pin (pcfgs (F := F)) adm 0).N = pv from arrAt0 c W pv wv bv ov _,
      show (dats W pv wv bv ov 0 c).arrAt 1 (Pipeline.pin (pcfgs (F := F)) adm 0).N = wv from arrAt1 c W pv wv bv ov _,
      show (dats W pv wv bv ov 0 c).arrAt 2 (Pipeline.pin (pcfgs (F := F)) adm 0).N = bv from arrAt2 c W pv wv bv ov _,
      show (dats W pv wv bv ov 0 c).arrAt 3 (Pipeline.pin (pcfgs (F := F)) adm 0).N = headPay pv wv bv from arrAt3 c W pv wv bv ov]
    unfold regPost
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

theorem reg_pre (c : Dev nD) : (reg W pv wv bv ov).pre c = regPre W pv wv bv ov c := rfl
theorem reg_post (c : Dev nD) : (reg W pv wv bv ov).post c = regPost W pv wv bv c := rfl

end Region

/-! ## The rule of the call -/

set_option maxHeartbeats 1000000 in
set_option backward.isDefEq.respectTransparency.types false in
/-- THE CALL inside the program, on device `d`'s TensorCore: from the region boundary, the three operands' arrays at
    `pv wv bv`, the result's array at anything, the core owing nothing with recorded pairs `W`, the level facts and the
    pipeline's ghost state as the launch deals it, the call runs to the continuation, which finds the boundary, the
    operands unchanged, the result at `headOut` of them, and the core owing nothing, its recorded pairs those of `W` and
    pairs at the index `none` (the pipeline's own waits). -/
theorem tc_region (d : Dev nD) (pv : Buf (Elt F) ((SparseCore.T d : Thread nD τ).loc main_v7))
    (wv : Buf (Elt F) ((SparseCore.T d : Thread nD τ).loc main_arg2)) (bv : Buf (Elt F) ((SparseCore.T d : Thread nD τ).loc main_v8))
    (W : Waits sig (HIx 1)) {α : Type} (k : PUnit → Prog (TpuEff nD τ sig (Elt F) (ΛP (F := F)) .tc) α) (Q : α → sProp 𝕄) :
    iprop((iprop(boundary (SparseCore.T d : Thread nD τ)
            ∗ (((SparseCore.T d : Thread nD τ).loc main_v7) ↦{fullShare} pv) ∗ (((SparseCore.T d : Thread nD τ).loc main_arg2) ↦{fullShare} wv)
            ∗ (((SparseCore.T d : Thread nD τ).loc main_v8) ↦{fullShare} bv) ∗ (((SparseCore.T d : Thread nD τ).loc main_v9) ↦{fullShare} headOut d pv wv bv)
            ∗ ∃ W', ⌜∀ p ∈ W', p ∈ W ∨ p.2 = none⌝ ∗ owes (SparseCore.T d : Thread nD τ) (0 : CellTallies nD τ sig (HIx 1)) W')
          -∗ wp frame (wpE (D (F := F)) 𝒱 (SparseCore.T d : Thread nD τ) none) Set.univ (k ⟨⟩) Q)
        ∗ boundary (SparseCore.T d : Thread nD τ)
        ∗ (((SparseCore.T d : Thread nD τ).loc main_v7) ↦{fullShare} pv) ∗ (((SparseCore.T d : Thread nD τ).loc main_arg2) ↦{fullShare} wv)
        ∗ (((SparseCore.T d : Thread nD τ).loc main_v8) ↦{fullShare} bv)
        ∗ (∃ f : Buf (Elt F) ((SparseCore.T d : Thread nD τ).loc main_v9), ((SparseCore.T d : Thread nD τ).loc main_v9) ↦{fullShare} f)
        ∗ owes (SparseCore.T d : Thread nD τ) (0 : CellTallies nD τ sig (HIx 1)) W
        ∗ levAts (K (F := F)).L (K (F := F)).lev
        ∗ Pipeline.cellsGhost (nD := nD) (τ := τ) cfgs (EP (F := F)) 0 d ∗ Pipeline.toksInit (nD := nD) (τ := τ) cfgs (EP (F := F)) 0 d)
      ⊢ wp frame (wpE (D (F := F)) 𝒱 (SparseCore.T d : Thread nD τ) none) Set.univ (.op (.customCall (Pipeline.entry 0) ()) k) Q := by
  iintro ⟨Hk, Hb, H0, H1, H2, ⟨%f, H3⟩, HO, Hlev, Hg, Ht⟩
  have hreg := Pipeline.RegionSeg.wp (pcfgs (F := F)) adm (dats W pv wv bv f) (none : HIx 1) cellOf_inj EP defs₀ 𝒱₀ (K (F := F)).L (K (F := F)).lev
    (reg W pv wv bv f) d none (fun _ h => nomatch h) k Q
  rw [reg_pre, reg_post] at hreg
  unfold regPre regPost at hreg
  unfold headOut
  iapply hreg
  isplitl [Hk]
  · iintro ⟨Hb, Hp⟩
    iapply Hk
    isplitl [Hb]; · iexact Hb
    iexact Hp
  isplitl [Hb]; · iexact Hb
  isplitl [H0 H1 H2 H3 HO]
  · isplitl [H0]; · iexact H0
    isplitl [H1]; · iexact H1
    isplitl [H2]; · iexact H2
    isplitl [H3]; · iexact H3
    iexact HO
  isplitl [Hlev]; · iexact Hlev
  isplitl [Hg]; · iexact Hg
  iexact Ht

/-- info: 'Cert.Proof.KI.tc_region' depends on axioms: [propext, Classical.choice, Quot.sound] -/
#guard_msgs in #print axioms tc_region

end Cert.Proof.KI

end
-- ==== Proof.KCall.lean ====
/-
  The output layer's call as @main spells it (the call lifted to the extended body table, then the return).
-/
import proofs.«217236_g4415226380944_cont_8to1_c_873_25_alg».proof.Proof.KRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The call in the certificate's own signature, then the return. -/
abbrev callP : Prog (TpuEff nD τ sig (Elt F) (ΛP (F := F)) .tc) PUnit :=
  .op (.customCall (Pipeline.entry (0 : Fin 1)) ()) fun _ => .ret ⟨⟩

/-- @main's spelling of it is that program lifted to the launch's signature. -/
theorem call_eq :
    (Prog.lift (.customCall (SparseCore.inner (Pipeline.entry 0)) ()) >>= fun _ => (pure ⟨⟩ : Prog (TpuEff nD τ sig (Elt F) (SparseCore.Sig (ΛP (F := F)) 1) .tc) PUnit))
      = SparseCore.liftProg (Q := 1) (callP (F := F)) := rfl

/-- The output layer's call as @main's last statement: the rule of the call, lifted to the launch's body table, with the
    return after it. -/
theorem tc_call (d : Dev nD) (pv : Buf (Elt F) ((SparseCore.T d : Thread nD τ).loc main_v7))
    (wv : Buf (Elt F) ((SparseCore.T d : Thread nD τ).loc main_arg2)) (bv : Buf (Elt F) ((SparseCore.T d : Thread nD τ).loc main_v8))
    (W : Waits sig (HIx 1)) (Φ : PUnit → sProp 𝕄) :
    iprop((iprop(boundary (SparseCore.T d : Thread nD τ)
            ∗ (((SparseCore.T d : Thread nD τ).loc main_v7) ↦{fullShare} pv) ∗ (((SparseCore.T d : Thread nD τ).loc main_arg2) ↦{fullShare} wv)
            ∗ (((SparseCore.T d : Thread nD τ).loc main_v8) ↦{fullShare} bv) ∗ (((SparseCore.T d : Thread nD τ).loc main_v9) ↦{fullShare} headOut d pv wv bv)
            ∗ ∃ W', ⌜∀ p ∈ W', p ∈ W ∨ p.2 = none⌝ ∗ owes (SparseCore.T d : Thread nD τ) (0 : CellTallies nD τ sig (HIx 1)) W')
          -∗ Φ ⟨⟩)
        ∗ boundary (SparseCore.T d : Thread nD τ)
        ∗ (((SparseCore.T d : Thread nD τ).loc main_v7) ↦{fullShare} pv) ∗ (((SparseCore.T d : Thread nD τ).loc main_arg2) ↦{fullShare} wv)
        ∗ (((SparseCore.T d : Thread nD τ).loc main_v8) ↦{fullShare} bv)
        ∗ (∃ f : Buf (Elt F) ((SparseCore.T d : Thread nD τ).loc main_v9), ((SparseCore.T d : Thread nD τ).loc main_v9) ↦{fullShare} f)
        ∗ owes (SparseCore.T d : Thread nD τ) (0 : CellTallies nD τ sig (HIx 1)) W
        ∗ levAts (K (F := F)).L (K (F := F)).lev
        ∗ Pipeline.cellsGhost (nD := nD) (τ := τ) cfgs (EP (F := F)) 0 d ∗ Pipeline.toksInit (nD := nD) (τ := τ) cfgs (EP (F := F)) 0 d)
      ⊢ wp frame (wpE ((K (F := F)).defs (D (F := F))) 𝒱 (SparseCore.T d : Thread nD τ) none) Set.univ
          (Prog.lift (.customCall (SparseCore.inner (Pipeline.entry 0)) ()) >>= fun _ => (pure ⟨⟩ : Prog (TpuEff nD τ sig (Elt F) (SparseCore.Sig (ΛP (F := F)) 1) .tc) PUnit)) Φ := by
  rw [call_eq]
  have h := (K (F := F)).wp_liftProg (D (F := F)) 𝒱 (SparseCore.T d) Set.univ none (callP (F := F)) Φ
  have hr := tc_region d pv wv bv W (fun _ => (.ret ⟨⟩ : Prog (TpuEff nD τ sig (Elt F) (ΛP (F := F)) .tc) PUnit)) Φ
  iintro ⟨Hk, Hrest⟩
  iapply h
  iapply hr
  isplitl [Hk]
  · iintro H
    rw [wp_ret]; imodintro
    iapply Hk; iexact H
  iexact Hrest

end Cert.Proof.KI

end
-- ==== Proof.KMain.lean ====
/-
  @main on the TensorCore, run: the first host line, the pooling call (the table and the row ids dealt to the tiles as
  read shares, the result as strips, all gathered again after it), the second host line, the output layer's call.
-/
import proofs.«217236_g4415226380944_cont_8to1_c_873_25_alg».proof.Proof.KHost
import proofs.«217236_g4415226380944_cont_8to1_c_873_25_alg».proof.Proof.KStrips
import proofs.«217236_g4415226380944_cont_8to1_c_873_25_alg».proof.Proof.KCall

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (ucRefs unscopedBufs_held sub_ucRefs)

variable (m : (ℓ : Loc nD τ sig) → Buf (Elt F) ℓ) (ρ : Dev nD → PrngReg)

variable [FloatOps F]

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

omit [FloatOps F] in
theorem held_S2 (d : Dev nD) (W : Valuation τ sig (Elt F)) :
    (held (SparseCore.T d) ({a3', b8'} : Finset (DevRef τ sig)) W : sProp 𝕄) = iprop(pt d W a3' ∗ pt d W b8') := by
  unfold held
  rw [SparseCore.bigSep_insert' (by decide), bigSep_singleton]

theorem ops1_in : ∀ op ∈ (ops1 : List (HloOp τ sig (Elt F))), op.bufs ⊆ ({a3', b8'} : Finset (DevRef τ sig)) := by
  intro op h
  cases h with
  | head => rw [StableHlo.reshape_bufs]; try decide
  | tail _ h => exact nomatch h

/-- The valuation after the second host line. -/
abbrev V3 (d : Dev nD) : Valuation τ sig (Elt F) := StableHlo.after (ops1 (F := F)) (V1 m d)

variable (tb : (d : Dev nD) → Buf (Elt F) (tLoc d)) (gd : (d : Dev nD) → Buf (Elt F) (gLoc d)) (o0 po : (d : Dev nD) → Buf (Elt F) (oLoc d))

/-- What the call takes for the two SparseCores: every tile's read shares and its strip, tile by tile. -/
theorem st_all (d : Dev nD) :
    (bigSep Finset.univ fun c : Fin ((K (F := F)).nCore 0) => (P tb gd o0 po).st 0 d c)
      = bigSep (Finset.univ : Finset (Fin 2)) fun c => bigSep (Finset.univ : Finset (Fin 16)) fun i =>
          iprop((tLoc d ↦{Transfers.shareTok (Transfers.shareTok fullShare 2 c) 16 i} tb d : sProp 𝕄)
            ∗ (gLoc d ↦{Transfers.shareTok (Transfers.shareTok fullShare 2 c) 16 i} gd d : sProp 𝕄)
            ∗ (oLoc d ↦[strip (c, i)]{fullShare} o0 d : sProp 𝕄)) := by
  unfold P tileIn strip; rfl
/-- What it hands back. -/
theorem dn_all (d : Dev nD) :
    (bigSep Finset.univ fun c : Fin ((K (F := F)).nCore 0) => (P tb gd o0 po).dn 0 d c)
      = bigSep (Finset.univ : Finset (Fin 2)) fun c => bigSep (Finset.univ : Finset (Fin 16)) fun i =>
          iprop((tLoc d ↦{Transfers.shareTok (Transfers.shareTok fullShare 2 c) 16 i} tb d : sProp 𝕄)
            ∗ (gLoc d ↦{Transfers.shareTok (Transfers.shareTok fullShare 2 c) 16 i} gd d : sProp 𝕄)
            ∗ (oLoc d ↦[strip (c, i)]{fullShare} po d : sProp 𝕄)) := by
  unfold P tileOut strip; rfl

/-! ## What @main leaves, read at the end -/

variable (res : (d : Dev nD) → Buf (Elt F) ((d, b9') : Loc nD τ sig))

/-- What @main leaves the claim: the four argument arrays and the result, each whole. -/
def FIN (d : Dev nD) : sProp 𝕄 :=
  iprop(pt d (V1 m d) a0' ∗ pt d (V1 m d) a1' ∗ pt d (V1 m d) a2' ∗ pt d (V3 m d) a3' ∗ (((d, b9') : Loc nD τ sig) ↦{fullShare} res d))

/-- No host operation writes an argument array. -/
theorem V1_a0 (d : Dev nD) : V1 m d a0' = m (d, a0') := by
  show StableHlo.after (ops0 (F := F)) (fun b => m (d, b)) a0' = m (d, a0'); after_results
theorem V1_a1 (d : Dev nD) : V1 m d a1' = m (d, a1') := by
  show StableHlo.after (ops0 (F := F)) (fun b => m (d, b)) a1' = m (d, a1'); after_results
theorem V1_a2 (d : Dev nD) : V1 m d a2' = m (d, a2') := by
  show StableHlo.after (ops0 (F := F)) (fun b => m (d, b)) a2' = m (d, a2'); after_results
theorem V3_a3 (d : Dev nD) : V3 m d a3' = m (d, a3') := by
  show StableHlo.after (ops1 (F := F)) (StableHlo.after (ops0 (F := F)) (fun b => m (d, b))) a3' = m (d, a3'); after_results

def fq (d : Dev nD) (s' : Phys nD τ sig (Elt F)) : Prop :=
  s'.mem.mem (d, b9') = res d ∧ s'.mem.mem (d, a0') = m (d, a0') ∧ s'.mem.mem (d, a1') = m (d, a1')
    ∧ s'.mem.mem (d, a2') = m (d, a2') ∧ s'.mem.mem (d, a3') = m (d, a3')

omit [FloatOps F] in
/-- A buffer held whole beside the state's interpretation is what the state's memory holds there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

theorem hfin (d : Dev nD) (s' : Phys nD τ sig (Elt F)) : iprop(FIN m res d ∗ SI s') ⊢ (⌜fq m res d s'⌝ : sProp 𝕄) := by
  unfold FIN
  iintro ⟨⟨H0, H1, H2, H3, H9⟩, HSI⟩
  ihave R0 := (read_one (F := F) _ _ s') $$ [H0 HSI]
  · isplitl [H0] <;> iassumption
  icases R0 with ⟨%h0, HSI⟩
  ihave R1 := (read_one (F := F) _ _ s') $$ [H1 HSI]
  · isplitl [H1] <;> iassumption
  icases R1 with ⟨%h1, HSI⟩
  ihave R2 := (read_one (F := F) _ _ s') $$ [H2 HSI]
  · isplitl [H2] <;> iassumption
  icases R2 with ⟨%h2, HSI⟩
  ihave R3 := (read_one (F := F) _ _ s') $$ [H3 HSI]
  · isplitl [H3] <;> iassumption
  icases R3 with ⟨%h3, HSI⟩
  ihave R9 := (read_one (F := F) _ _ s') $$ [H9 HSI]
  · isplitl [H9] <;> iassumption
  icases R9 with ⟨%h9, -⟩
  ipureintro
  exact ⟨h9, h0.trans (V1_a0 m d), h1.trans (V1_a1 m d), h2.trans (V1_a2 m d), h3.trans (V3_a3 m d)⟩

/-- The claim's reading of a final state: the result named, the four arguments unchanged. -/
def QC : PUnit × MemSt nD τ sig (Elt F) → Prop := fun r => ∀ c : Dev nD,
  r.2.mem (c, b9') = res c ∧ r.2.mem (c, a0') = m (c, a0') ∧ r.2.mem (c, a1') = m (c, a1') ∧ r.2.mem (c, a2') = m (c, a2') ∧ r.2.mem (c, a3') = m (c, a3')

variable (po : (d : Dev nD) → Buf (Elt F) (oLoc d))

/-- The program's result: the output layer's term of the pooled values, the weights and the bias row. -/
abbrev resV (d : Dev nD) : Buf (Elt F) ((d, b9') : Loc nD τ sig) := headOut d (po d) (V1 m d a2') (V3 m d b8')

set_option backward.isDefEq.respectTransparency.types false in
/-- @main on device `d`'s TensorCore. -/
theorem hmain (κ : GSem nD τ sig → ℕ) (d : Dev nD) :
    iprop((K (F := F)).ctx EH (P (tbV m) (gdV m) (o0V m) po) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (resV m po) d) := by
  unfold SparseCore.Cfg.tcRes
  rw [main_eq, show (unscopedBufs d (fun b => m ((SparseCore.T d).loc b)) : sProp 𝕄) = held (SparseCore.T d) (ucRefs τ sig) (V0 m d)
    from unscopedBufs_held (Ix := HIx 1) (Name := ℕ) (U := UU) (Lvl := ℕ) d (V0 m d)]
  iintro ⟨#Hctx, Hst, ⟨Hb, Hheld, Hsems, Hprng⟩, HG⟩
  -- the first host line
  iapply (StableHlo.wp_seq 𝒱 none Set.univ d (ucRefs τ sig) _ (ops0 (F := F))
    (fun op h => sub_ucRefs op ((List.forall_iff_forall_mem.mp ops0_sub) op h)) ops0_fresh (V0 m d)) $$ [Hb Hheld]
  · isplitl [Hb] <;> iassumption
  iintro ⟨Hb, Hheld⟩
  ihave Hall := (Entails.of_eq (held_all (F := F) d _)) $$ Hheld
  icases Hall with ⟨Ha0, Ha1, Ha2, Ha3, Hb0, Hb1, Hb2, Hbc, Hb3, Hb4, Hb5, Hb6, Hb7, Hb8, Hb9⟩
  -- the pooling call: the table and the ids dealt as read shares, the result as strips
  ihave Ht2 := (deal_split (F := F) (tLoc d) (tbV m d)) $$ Hb0
  icases Ht2 with ⟨HRt, Htt⟩
  ihave Hg2 := (deal_split (F := F) (gLoc d) (gdV m d)) $$ Hb6
  icases Hg2 with ⟨HRg, Hgg⟩
  ihave Hoo := (Entails.of_eq (oPts_strips (F := F) d (o0V m d))) $$ Hb7
  rw [wp_bind]
  iapply ((K (F := F)).wp_run (D (F := F)) 𝒱 (EH := EH) (P := P (tbV m) (gdV m) (o0V m) po) κ d 0) $$ [Hst Htt Hgg Hoo HRt HRg Hb Ha0 Ha1 Ha2 Ha3 Hb8 Hb9 HG]
  isplitr; · iexact Hctx
  isplitl [Hst]; · iexact Hst
  isplitl [Htt Hgg Hoo]
  · rw [st_all, nest3]
    isplitl [Htt]; · iexact Htt
    isplitl [Hgg]; · iexact Hgg
    iexact Hoo
  iintro ⟨Hst, Hdn⟩
  ihave Hdn' := (Entails.of_eq ((dn_all (F := F) (tbV m) (gdV m) (o0V m) po d).trans (nest3 _ _ _))) $$ Hdn
  icases Hdn' with ⟨Htt, Hgg, Hoo⟩
  ihave Hb7 := (Entails.of_eq (oPts_strips (F := F) d (po d)).symm) $$ Hoo
  -- the second host line: the bias as a one-row matrix
  iapply (StableHlo.wp_seq 𝒱 none Set.univ d ({a3', b8'} : Finset (DevRef τ sig)) _ (ops1 (F := F)) ops1_in ops1_fresh (V1 m d)) $$ [Hb Ha3 Hb8]
  · isplitl [Hb]; · iexact Hb
    rw [held_S2]; isplitl [Ha3] <;> iassumption
  iintro ⟨Hb, Hheld⟩
  ihave Hh := (Entails.of_eq (held_S2 (F := F) d _)) $$ Hheld
  icases Hh with ⟨Ha3, Hb8⟩
  -- the output layer's call: nothing is owed after the one SparseCore call
  unfold SparseCore.Cfg.tcSt
  icases Hst with ⟨⟨%W, %hW, HO⟩, Hat, Hrd, Hrs, Htoks⟩
  ihave HO' := (Entails.of_eq (congrArg (fun O => (owes (SparseCore.T d) O W : sProp 𝕄)) ((K (F := F)).Otc_end d (n := (0 : Fin 1).val + 1) le_rfl))) $$ HO
  ihave Hlev := ((K (F := F)).ctx_levAts κ) $$ Hctx
  unfold G
  icases HG with ⟨Hcg, Hti⟩
  iapply (tc_call (F := F) d (po d) (V1 m d a2') (V3 m d b8') W _) $$ [Hb Hb7 Ha2 Hb8 Hb9 HO' Hlev Hcg Hti Hat Hrd Hrs Htoks Ha0 Ha1 Ha3]
  isplitl [Hat Hrd Hrs Htoks Ha0 Ha1 Ha3]
  · iintro ⟨Hb, Hb7, Ha2, Hb8, Hb9, %W', %hW', HO⟩
    isplitl [HO Hat Hrd Hrs Htoks]
    · isplitl [HO]
      · iexists W'; isplitr
        · ipureintro; intro p hp
          rcases hW' p hp with h | h
          · exact hW p h
          · show (K (F := F)).lev (SparseCore.T d, p.1) p.2 ≤ _
            rw [h]; exact Nat.zero_le _
        · iapply (Entails.of_eq (congrArg (fun O => (owes (SparseCore.T d) O W' : sProp 𝕄)) ((K (F := F)).Otc_end d (n := 1) le_rfl).symm)); iexact HO
      isplitl [Hat]; · iexact Hat
      isplitl [Hrd]; · iexact Hrd
      isplitl [Hrs]; · iexact Hrs
      iexact Htoks
    · unfold FIN
      isplitl [Ha0]; · iexact Ha0
      isplitl [Ha1]; · iexact Ha1
      isplitl [Ha2]; · iexact Ha2
      isplitl [Ha3]; · iexact Ha3
      iexact Hb9
  isplitl [Hb]; · iexact Hb
  isplitl [Hb7]; · iexact Hb7
  isplitl [Ha2]; · iexact Ha2
  isplitl [Hb8]; · iexact Hb8
  isplitl [Hb9]; · iexists _; iexact Hb9
  isplitl [HO']; · iexact HO'
  isplitl [Hlev]; · iexact Hlev
  isplitl [Hcg]; · iexact Hcg
  iexact Hti

end Cert.Proof.KI

end
-- ==== Proof.TileFn.lean ====
/-
  One tile's dataflow, as pure functions of what the tile loads.

  A tile loads thirty-two words in two 16-lane vectors `i0`, `i1` (entries 0 … 15 and 16 … 31) and, for each entry
  `k` and each of the eight 16-lane groups `v` of its 128 columns, the vector `ld k v` of row `k`, lanes
  `16 v … 16 v + 15`. From the words it computes, lane by lane, a flag "an earlier entry holds the same word"
  (sixteen compare-and-accumulate steps for the first vector, thirty-two for the second), the weight vectors
  (0 where the flag is set, 1 elsewhere), their thirty-two lanes as scalars `w k`, the count
  `w 0 + w 1 + … + w 31` and the vector `1 / (1 · count)`; for each lane group it stores
  `(ld 0 v · w 0 + ld 1 v · w 1 + … + ld 31 v · w 31) · (1 / (1 · count))`.

  Each definition below is one value `%N` of the printed body, named `tN`, written as the generated payload of that
  value applied to the values it reads, in the order the printed body threads them; `stored v` is the value of the
  store into lanes `16 v … 16 v + 15` of the tile's 128-lane result.
-/
import proofs.«217236_g4415226380944_cont_8to1_c_873_25_alg».proof.Proof.Gen.KernelIdeal.Skeleton

noncomputable section

namespace Cert.KernelIdeal.Tile

open Idealize.ShloMosaic Idealize.SL.Sem Cert.KernelIdeal Cert.KernelIdeal.Gen

variable {F : FTy → Type} [FloatOps F]

/-! ## The words, the lane numbers, and the flags "an earlier entry holds the same word"

`t24`, `t26`: the two word vectors. `t28`: the all-clear flag vector both chains start from. `t80`, `t135`, `t190`,
`t201`: the first vector's flags after comparing with entries 0 … 4, … 9, … 14, … 15 (each step: same word AND
lane number greater than the entry's). `t83`, `t138`, `t193`: the second vector's flags after comparing with
entries 0 … 4, … 9, … 14 (same word, any lane); `t244`: after entry 15 and entries 16 … 20; `t300`: after
entries 21 … 27 (from entry 16 on: same word AND lane number greater than the entry's lane). `t29`, `t84`,
`t139`, `t194`, `t301`: one-lane slices the next step compares with; `t248`: a comparison carried to the next
step. -/

noncomputable def t24 (i0 i1 : Vec F S16 .i32) : IVec S16 32 :=
  k0_pay1 i0
noncomputable def t26 (i0 i1 : Vec F S16 .i32) : IVec S16 32 :=
  k0_pay2 i1
/-- `%27`: the lane numbers 0 … 15. -/
noncomputable def t27 : IVec S16 32 := iota .scVector S16 32 [0] Facts₀.iota_S16_d0_w32_scVector
noncomputable def t28 (i0 i1 : Vec F S16 .i32) : IVec S16 1 :=
  k0_pay3 i0
noncomputable def t29 (i0 i1 : Vec F S16 .i32) : IVec S1 32 :=
  k0_pay4 i0
noncomputable def t80 (i0 i1 : Vec F S16 .i32) : IVec S16 1 :=
  k0_pay5 (t24 i0 i1) t27 (t28 i0 i1) (t29 i0 i1)
noncomputable def t83 (i0 i1 : Vec F S16 .i32) : IVec S16 1 :=
  k0_pay6 (t24 i0 i1) (t26 i0 i1) (t28 i0 i1) (t29 i0 i1)
noncomputable def t84 (i0 i1 : Vec F S16 .i32) : IVec S1 32 :=
  k0_pay7 (t24 i0 i1)
noncomputable def t135 (i0 i1 : Vec F S16 .i32) : IVec S16 1 :=
  k0_pay8 (t24 i0 i1) t27 (t80 i0 i1) (t84 i0 i1)
noncomputable def t138 (i0 i1 : Vec F S16 .i32) : IVec S16 1 :=
  k0_pay9 (t24 i0 i1) (t26 i0 i1) (t83 i0 i1) (t84 i0 i1)
noncomputable def t139 (i0 i1 : Vec F S16 .i32) : IVec S1 32 :=
  k0_pay10 (t24 i0 i1)
noncomputable def t190 (i0 i1 : Vec F S16 .i32) : IVec S16 1 :=
  k0_pay11 (t24 i0 i1) t27 (t135 i0 i1) (t139 i0 i1)
noncomputable def t193 (i0 i1 : Vec F S16 .i32) : IVec S16 1 :=
  k0_pay12 (t24 i0 i1) (t26 i0 i1) (t138 i0 i1) (t139 i0 i1)
noncomputable def t194 (i0 i1 : Vec F S16 .i32) : IVec S1 32 :=
  k0_pay13 (t24 i0 i1)
noncomputable def t201 (i0 i1 : Vec F S16 .i32) : IVec S16 1 :=
  k0_pay14 (t24 i0 i1) t27 (t190 i0 i1) (t194 i0 i1)
noncomputable def t244 (i0 i1 : Vec F S16 .i32) : IVec S16 1 :=
  k0_pay15 (t26 i0 i1) t27 (t193 i0 i1) (t194 i0 i1)
noncomputable def t248 (i0 i1 : Vec F S16 .i32) : IVec S16 1 :=
  k0_pay16 (t26 i0 i1)
noncomputable def t300 (i0 i1 : Vec F S16 .i32) : IVec S16 1 :=
  k0_pay17 (t26 i0 i1) t27 (t244 i0 i1) (t248 i0 i1)
noncomputable def t301 (i0 i1 : Vec F S16 .i32) : IVec S1 32 :=
  k0_pay18 (t26 i0 i1)

/-! ## The weight vectors and their lanes

`t335`, `t338`: 0 where the flag is set and 1 elsewhere, for entries 0 … 15 and 16 … 31 (the second vector's last
four comparison steps happen inside `t338`). `t340`, `t342`, …, `t402`: the thirty-two lanes as scalars, entry `k`
being `t(340 + 2k)`. -/

noncomputable def t335 (i0 i1 : Vec F S16 .i32) : FVec F S16 .f32 :=
  k0_pay19 (F := F) (t201 i0 i1)
noncomputable def t338 (i0 i1 : Vec F S16 .i32) : FVec F S16 .f32 :=
  k0_pay20 (F := F) (t26 i0 i1) t27 (t300 i0 i1) (t301 i0 i1)
noncomputable def t340 (i0 i1 : Vec F S16 .i32) : F .f32 :=
  k0_pay21 (F := F) (t201 i0 i1)
noncomputable def t342 (i0 i1 : Vec F S16 .i32) : F .f32 :=
  k0_pay22 (F := F) (t201 i0 i1)
noncomputable def t344 (i0 i1 : Vec F S16 .i32) : F .f32 :=
  k0_pay23 (F := F) (t201 i0 i1)
noncomputable def t346 (i0 i1 : Vec F S16 .i32) : F .f32 :=
  k0_pay24 (F := F) (t201 i0 i1)
noncomputable def t348 (i0 i1 : Vec F S16 .i32) : F .f32 :=
  k0_pay25 (F := F) (t201 i0 i1)
noncomputable def t350 (i0 i1 : Vec F S16 .i32) : F .f32 :=
  k0_pay26 (F := F) (t201 i0 i1)
noncomputable def t352 (i0 i1 : Vec F S16 .i32) : F .f32 :=
  k0_pay27 (F := F) (t201 i0 i1)
noncomputable def t353 (i0 i1 : Vec F S16 .i32) : FVec F S1 .f32 :=
  k0_pay28 (F := F) (t201 i0 i1)
noncomputable def t354 (i0 i1 : Vec F S16 .i32) : F .f32 :=
  k0_pay29 (t353 i0 i1)
noncomputable def t356 (i0 i1 : Vec F S16 .i32) : F .f32 :=
  k0_pay30 (t335 i0 i1)
noncomputable def t358 (i0 i1 : Vec F S16 .i32) : F .f32 :=
  k0_pay31 (t335 i0 i1)
noncomputable def t360 (i0 i1 : Vec F S16 .i32) : F .f32 :=
  k0_pay32 (t335 i0 i1)
noncomputable def t362 (i0 i1 : Vec F S16 .i32) : F .f32 :=
  k0_pay33 (t335 i0 i1)
noncomputable def t364 (i0 i1 : Vec F S16 .i32) : F .f32 :=
  k0_pay34 (t335 i0 i1)
noncomputable def t366 (i0 i1 : Vec F S16 .i32) : F .f32 :=
  k0_pay35 (t335 i0 i1)
noncomputable def t368 (i0 i1 : Vec F S16 .i32) : F .f32 :=
  k0_pay36 (t335 i0 i1)
noncomputable def t370 (i0 i1 : Vec F S16 .i32) : F .f32 :=
  k0_pay37 (t335 i0 i1)
noncomputable def t372 (i0 i1 : Vec F S16 .i32) : F .f32 :=
  k0_pay38 (t338 i0 i1)
noncomputable def t374 (i0 i1 : Vec F S16 .i32) : F .f32 :=
  k0_pay39 (t338 i0 i1)
noncomputable def t376 (i0 i1 : Vec F S16 .i32) : F .f32 :=
  k0_pay40 (t338 i0 i1)
noncomputable def t378 (i0 i1 : Vec F S16 .i32) : F .f32 :=
  k0_pay41 (t338 i0 i1)
noncomputable def t380 (i0 i1 : Vec F S16 .i32) : F .f32 :=
  k0_pay42 (t338 i0 i1)
noncomputable def t382 (i0 i1 : Vec F S16 .i32) : F .f32 :=
  k0_pay43 (t338 i0 i1)
noncomputable def t384 (i0 i1 : Vec F S16 .i32) : F .f32 :=
  k0_pay44 (t338 i0 i1)
noncomputable def t386 (i0 i1 : Vec F S16 .i32) : F .f32 :=
  k0_pay45 (t338 i0 i1)
noncomputable def t388 (i0 i1 : Vec F S16 .i32) : F .f32 :=
  k0_pay46 (t338 i0 i1)
noncomputable def t390 (i0 i1 : Vec F S16 .i32) : F .f32 :=
  k0_pay47 (t338 i0 i1)
noncomputable def t392 (i0 i1 : Vec F S16 .i32) : F .f32 :=
  k0_pay48 (t338 i0 i1)
noncomputable def t394 (i0 i1 : Vec F S16 .i32) : F .f32 :=
  k0_pay49 (t338 i0 i1)
noncomputable def t396 (i0 i1 : Vec F S16 .i32) : F .f32 :=
  k0_pay50 (t338 i0 i1)
noncomputable def t398 (i0 i1 : Vec F S16 .i32) : F .f32 :=
  k0_pay51 (t338 i0 i1)
noncomputable def t400 (i0 i1 : Vec F S16 .i32) : F .f32 :=
  k0_pay52 (t338 i0 i1)
noncomputable def t402 (i0 i1 : Vec F S16 .i32) : F .f32 :=
  k0_pay53 (t338 i0 i1)

/-! ## The count and its reciprocal

`t413`: the sum of the weights of entries 0 … 11, from the left. `t438`: the vector `1 / (1 · count)`, the count
being `t413` plus the weights of entries 12 … 31, from the left. -/

noncomputable def t413 (i0 i1 : Vec F S16 .i32) : F .f32 :=
  k0_pay54 (t335 i0 i1) (t340 i0 i1) (t342 i0 i1) (t344 i0 i1) (t346 i0 i1) (t348 i0 i1) (t350 i0 i1) (t352 i0 i1) (t353 i0 i1)
noncomputable def t438 (i0 i1 : Vec F S16 .i32) : FVec F S16 .f32 :=
  k0_pay55 (t364 i0 i1) (t366 i0 i1) (t368 i0 i1) (t370 i0 i1) (t372 i0 i1) (t374 i0 i1) (t376 i0 i1) (t378 i0 i1) (t380 i0 i1) (t382 i0 i1) (t384 i0 i1) (t386 i0 i1) (t388 i0 i1) (t390 i0 i1) (t392 i0 i1) (t394 i0 i1) (t396 i0 i1) (t398 i0 i1) (t400 i0 i1) (t402 i0 i1) (t413 i0 i1)

/-! ## The weighted sums, lane group by lane group

For each lane group the running sum `ld 0 v · w 0 + ld 1 v · w 1 + …` (from the left) is carried through several
values; a value may also be a single product, a single reshaped row or a single broadcast weight that the next
value adds in. The value stored for the group is the finished sum times `t438`. -/

noncomputable def t456 (i0 i1 : Vec F S16 .i32) (ld : Fin 32 → Fin 8 → Vec F S1x16 .f32) : FVec F S16 .f32 :=
  k0_pay56 (t340 i0 i1) (t342 i0 i1) (t344 i0 i1) (ld 0 0) (ld 1 0) (ld 2 0)
noncomputable def t461 (i0 i1 : Vec F S16 .i32) (ld : Fin 32 → Fin 8 → Vec F S1x16 .f32) : FVec F S16 .f32 :=
  k0_pay57 (t346 i0 i1) (ld 3 0)
noncomputable def t504 (i0 i1 : Vec F S16 .i32) (ld : Fin 32 → Fin 8 → Vec F S1x16 .f32) : FVec F S16 .f32 :=
  k0_pay58 (t348 i0 i1) (t350 i0 i1) (t352 i0 i1) (t354 i0 i1) (t356 i0 i1) (t358 i0 i1) (t360 i0 i1) (t456 i0 i1 ld) (t461 i0 i1 ld) (ld 4 0) (ld 5 0) (ld 6 0) (ld 7 0) (ld 8 0) (ld 9 0) (ld 10 0)
noncomputable def t546 (i0 i1 : Vec F S16 .i32) (ld : Fin 32 → Fin 8 → Vec F S1x16 .f32) : FVec F S16 .f32 :=
  k0_pay59 (t362 i0 i1) (t364 i0 i1) (t366 i0 i1) (t368 i0 i1) (t370 i0 i1) (t372 i0 i1) (t374 i0 i1) (t504 i0 i1 ld) (ld 11 0) (ld 12 0) (ld 13 0) (ld 14 0) (ld 15 0) (ld 16 0) (ld 17 0)
noncomputable def t551 (i0 i1 : Vec F S16 .i32) (ld : Fin 32 → Fin 8 → Vec F S1x16 .f32) : FVec F S16 .f32 :=
  k0_pay60 (t376 i0 i1) (ld 18 0)
noncomputable def t594 (i0 i1 : Vec F S16 .i32) (ld : Fin 32 → Fin 8 → Vec F S1x16 .f32) : FVec F S16 .f32 :=
  k0_pay61 (t378 i0 i1) (t380 i0 i1) (t382 i0 i1) (t384 i0 i1) (t386 i0 i1) (t388 i0 i1) (t390 i0 i1) (t546 i0 i1 ld) (t551 i0 i1 ld) (ld 19 0) (ld 20 0) (ld 21 0) (ld 22 0) (ld 23 0) (ld 24 0) (ld 25 0)
noncomputable def t639 (i0 i1 : Vec F S16 .i32) (ld : Fin 32 → Fin 8 → Vec F S1x16 .f32) : FVec F S16 .f32 :=
  k0_pay63 (t340 i0 i1) (ld 0 1)
noncomputable def t681 (i0 i1 : Vec F S16 .i32) (ld : Fin 32 → Fin 8 → Vec F S1x16 .f32) : FVec F S16 .f32 :=
  k0_pay64 (t342 i0 i1) (t344 i0 i1) (t346 i0 i1) (t348 i0 i1) (t350 i0 i1) (t352 i0 i1) (t354 i0 i1) (t639 i0 i1 ld) (ld 1 1) (ld 2 1) (ld 3 1) (ld 4 1) (ld 5 1) (ld 6 1) (ld 7 1)
noncomputable def t684 (i0 i1 : Vec F S16 .i32) (ld : Fin 32 → Fin 8 → Vec F S1x16 .f32) : FVec F S16 .f32 :=
  k0_pay65 (ld 8 1)
noncomputable def t685 (i0 i1 : Vec F S16 .i32) : FVec F S16 .f32 :=
  k0_pay66 (t356 i0 i1)
noncomputable def t729 (i0 i1 : Vec F S16 .i32) (ld : Fin 32 → Fin 8 → Vec F S1x16 .f32) : FVec F S16 .f32 :=
  k0_pay67 (t358 i0 i1) (t360 i0 i1) (t362 i0 i1) (t364 i0 i1) (t366 i0 i1) (t368 i0 i1) (t370 i0 i1) (t681 i0 i1 ld) (t684 i0 i1 ld) (t685 i0 i1) (ld 9 1) (ld 10 1) (ld 11 1) (ld 12 1) (ld 13 1) (ld 14 1) (ld 15 1)
noncomputable def t771 (i0 i1 : Vec F S16 .i32) (ld : Fin 32 → Fin 8 → Vec F S1x16 .f32) : FVec F S16 .f32 :=
  k0_pay68 (t372 i0 i1) (t374 i0 i1) (t376 i0 i1) (t378 i0 i1) (t380 i0 i1) (t382 i0 i1) (t384 i0 i1) (t729 i0 i1 ld) (ld 16 1) (ld 17 1) (ld 18 1) (ld 19 1) (ld 20 1) (ld 21 1) (ld 22 1)
noncomputable def t774 (i0 i1 : Vec F S16 .i32) (ld : Fin 32 → Fin 8 → Vec F S1x16 .f32) : FVec F S16 .f32 :=
  k0_pay69 (ld 23 1)
noncomputable def t775 (i0 i1 : Vec F S16 .i32) : FVec F S16 .f32 :=
  k0_pay70 (t386 i0 i1)
noncomputable def t819 (i0 i1 : Vec F S16 .i32) (ld : Fin 32 → Fin 8 → Vec F S1x16 .f32) : FVec F S16 .f32 :=
  k0_pay71 (t388 i0 i1) (t390 i0 i1) (t392 i0 i1) (t394 i0 i1) (t396 i0 i1) (t398 i0 i1) (t400 i0 i1) (t771 i0 i1 ld) (t774 i0 i1 ld) (t775 i0 i1) (ld 24 1) (ld 25 1) (ld 26 1) (ld 27 1) (ld 28 1) (ld 29 1) (ld 30 1)
noncomputable def t864 (i0 i1 : Vec F S16 .i32) (ld : Fin 32 → Fin 8 → Vec F S1x16 .f32) : FVec F S16 .f32 :=
  k0_pay73 (t340 i0 i1) (t342 i0 i1) (t344 i0 i1) (t346 i0 i1) (t348 i0 i1) (t350 i0 i1) (ld 0 2) (ld 1 2) (ld 2 2) (ld 3 2) (ld 4 2) (ld 5 2)
noncomputable def t906 (i0 i1 : Vec F S16 .i32) (ld : Fin 32 → Fin 8 → Vec F S1x16 .f32) : FVec F S16 .f32 :=
  k0_pay74 (t352 i0 i1) (t354 i0 i1) (t356 i0 i1) (t358 i0 i1) (t360 i0 i1) (t362 i0 i1) (t364 i0 i1) (t864 i0 i1 ld) (ld 6 2) (ld 7 2) (ld 8 2) (ld 9 2) (ld 10 2) (ld 11 2) (ld 12 2)
noncomputable def t909 (i0 i1 : Vec F S16 .i32) (ld : Fin 32 → Fin 8 → Vec F S1x16 .f32) : FVec F S16 .f32 :=
  k0_pay75 (ld 13 2)
noncomputable def t954 (i0 i1 : Vec F S16 .i32) (ld : Fin 32 → Fin 8 → Vec F S1x16 .f32) : FVec F S16 .f32 :=
  k0_pay76 (t366 i0 i1) (t368 i0 i1) (t370 i0 i1) (t372 i0 i1) (t374 i0 i1) (t376 i0 i1) (t378 i0 i1) (t380 i0 i1) (t906 i0 i1 ld) (t909 i0 i1 ld) (ld 14 2) (ld 15 2) (ld 16 2) (ld 17 2) (ld 18 2) (ld 19 2) (ld 20 2)
noncomputable def t996 (i0 i1 : Vec F S16 .i32) (ld : Fin 32 → Fin 8 → Vec F S1x16 .f32) : FVec F S16 .f32 :=
  k0_pay77 (t382 i0 i1) (t384 i0 i1) (t386 i0 i1) (t388 i0 i1) (t390 i0 i1) (t392 i0 i1) (t394 i0 i1) (t954 i0 i1 ld) (ld 21 2) (ld 22 2) (ld 23 2) (ld 24 2) (ld 25 2) (ld 26 2) (ld 27 2)
noncomputable def t999 (i0 i1 : Vec F S16 .i32) (ld : Fin 32 → Fin 8 → Vec F S1x16 .f32) : FVec F S16 .f32 :=
  k0_pay78 (ld 28 2)
noncomputable def t1041 (i0 i1 : Vec F S16 .i32) (ld : Fin 32 → Fin 8 → Vec F S1x16 .f32) : FVec F S16 .f32 :=
  k0_pay80 (t340 i0 i1) (t342 i0 i1) (t344 i0 i1) (ld 0 3) (ld 1 3) (ld 2 3)
noncomputable def t1089 (i0 i1 : Vec F S16 .i32) (ld : Fin 32 → Fin 8 → Vec F S1x16 .f32) : FVec F S16 .f32 :=
  k0_pay81 (t346 i0 i1) (t348 i0 i1) (t350 i0 i1) (t352 i0 i1) (t354 i0 i1) (t356 i0 i1) (t358 i0 i1) (t360 i0 i1) (t1041 i0 i1 ld) (ld 3 3) (ld 4 3) (ld 5 3) (ld 6 3) (ld 7 3) (ld 8 3) (ld 9 3) (ld 10 3)
noncomputable def t1131 (i0 i1 : Vec F S16 .i32) (ld : Fin 32 → Fin 8 → Vec F S1x16 .f32) : FVec F S16 .f32 :=
  k0_pay82 (t362 i0 i1) (t364 i0 i1) (t366 i0 i1) (t368 i0 i1) (t370 i0 i1) (t372 i0 i1) (t374 i0 i1) (t1089 i0 i1 ld) (ld 11 3) (ld 12 3) (ld 13 3) (ld 14 3) (ld 15 3) (ld 16 3) (ld 17 3)
noncomputable def t1179 (i0 i1 : Vec F S16 .i32) (ld : Fin 32 → Fin 8 → Vec F S1x16 .f32) : FVec F S16 .f32 :=
  k0_pay83 (t376 i0 i1) (t378 i0 i1) (t380 i0 i1) (t382 i0 i1) (t384 i0 i1) (t386 i0 i1) (t388 i0 i1) (t390 i0 i1) (t1131 i0 i1 ld) (ld 18 3) (ld 19 3) (ld 20 3) (ld 21 3) (ld 22 3) (ld 23 3) (ld 24 3) (ld 25 3)
noncomputable def t1222 (i0 i1 : Vec F S16 .i32) (ld : Fin 32 → Fin 8 → Vec F S1x16 .f32) : FVec F S16 .f32 :=
  k0_pay85 (ld 0 4)
noncomputable def t1223 (i0 i1 : Vec F S16 .i32) : FVec F S16 .f32 :=
  k0_pay86 (t340 i0 i1)
noncomputable def t1266 (i0 i1 : Vec F S16 .i32) (ld : Fin 32 → Fin 8 → Vec F S1x16 .f32) : FVec F S16 .f32 :=
  k0_pay87 (t342 i0 i1) (t344 i0 i1) (t346 i0 i1) (t348 i0 i1) (t350 i0 i1) (t352 i0 i1) (t354 i0 i1) (t1222 i0 i1 ld) (t1223 i0 i1) (ld 1 4) (ld 2 4) (ld 3 4) (ld 4 4) (ld 5 4) (ld 6 4) (ld 7 4)
noncomputable def t1308 (i0 i1 : Vec F S16 .i32) (ld : Fin 32 → Fin 8 → Vec F S1x16 .f32) : FVec F S16 .f32 :=
  k0_pay88 (t356 i0 i1) (t358 i0 i1) (t360 i0 i1) (t362 i0 i1) (t364 i0 i1) (t366 i0 i1) (t368 i0 i1) (t1266 i0 i1 ld) (ld 8 4) (ld 9 4) (ld 10 4) (ld 11 4) (ld 12 4) (ld 13 4) (ld 14 4)
noncomputable def t1313 (i0 i1 : Vec F S16 .i32) (ld : Fin 32 → Fin 8 → Vec F S1x16 .f32) : FVec F S16 .f32 :=
  k0_pay89 (t370 i0 i1) (ld 15 4)
noncomputable def t1356 (i0 i1 : Vec F S16 .i32) (ld : Fin 32 → Fin 8 → Vec F S1x16 .f32) : FVec F S16 .f32 :=
  k0_pay90 (t372 i0 i1) (t374 i0 i1) (t376 i0 i1) (t378 i0 i1) (t380 i0 i1) (t382 i0 i1) (t384 i0 i1) (t1308 i0 i1 ld) (t1313 i0 i1 ld) (ld 16 4) (ld 17 4) (ld 18 4) (ld 19 4) (ld 20 4) (ld 21 4) (ld 22 4)
noncomputable def t1398 (i0 i1 : Vec F S16 .i32) (ld : Fin 32 → Fin 8 → Vec F S1x16 .f32) : FVec F S16 .f32 :=
  k0_pay91 (t386 i0 i1) (t388 i0 i1) (t390 i0 i1) (t392 i0 i1) (t394 i0 i1) (t396 i0 i1) (t398 i0 i1) (t1356 i0 i1 ld) (ld 23 4) (ld 24 4) (ld 25 4) (ld 26 4) (ld 27 4) (ld 28 4) (ld 29 4)
noncomputable def t1403 (i0 i1 : Vec F S16 .i32) (ld : Fin 32 → Fin 8 → Vec F S1x16 .f32) : FVec F S16 .f32 :=
  k0_pay92 (t400 i0 i1) (ld 30 4)
noncomputable def t1443 (i0 i1 : Vec F S16 .i32) (ld : Fin 32 → Fin 8 → Vec F S1x16 .f32) : FVec F S16 .f32 :=
  k0_pay94 (t340 i0 i1) (t342 i0 i1) (t344 i0 i1) (t346 i0 i1) (t348 i0 i1) (ld 0 5) (ld 1 5) (ld 2 5) (ld 3 5) (ld 4 5)
noncomputable def t1446 (i0 i1 : Vec F S16 .i32) (ld : Fin 32 → Fin 8 → Vec F S1x16 .f32) : FVec F S16 .f32 :=
  k0_pay95 (ld 5 5)
noncomputable def t1447 (i0 i1 : Vec F S16 .i32) : FVec F S16 .f32 :=
  k0_pay96 (t350 i0 i1)
noncomputable def t1491 (i0 i1 : Vec F S16 .i32) (ld : Fin 32 → Fin 8 → Vec F S1x16 .f32) : FVec F S16 .f32 :=
  k0_pay97 (t352 i0 i1) (t354 i0 i1) (t356 i0 i1) (t358 i0 i1) (t360 i0 i1) (t362 i0 i1) (t364 i0 i1) (t1443 i0 i1 ld) (t1446 i0 i1 ld) (t1447 i0 i1) (ld 6 5) (ld 7 5) (ld 8 5) (ld 9 5) (ld 10 5) (ld 11 5) (ld 12 5)
noncomputable def t1533 (i0 i1 : Vec F S16 .i32) (ld : Fin 32 → Fin 8 → Vec F S1x16 .f32) : FVec F S16 .f32 :=
  k0_pay98 (t366 i0 i1) (t368 i0 i1) (t370 i0 i1) (t372 i0 i1) (t374 i0 i1) (t376 i0 i1) (t378 i0 i1) (t1491 i0 i1 ld) (ld 13 5) (ld 14 5) (ld 15 5) (ld 16 5) (ld 17 5) (ld 18 5) (ld 19 5)
noncomputable def t1536 (i0 i1 : Vec F S16 .i32) (ld : Fin 32 → Fin 8 → Vec F S1x16 .f32) : FVec F S16 .f32 :=
  k0_pay99 (ld 20 5)
noncomputable def t1537 (i0 i1 : Vec F S16 .i32) : FVec F S16 .f32 :=
  k0_pay100 (t380 i0 i1)
noncomputable def t1581 (i0 i1 : Vec F S16 .i32) (ld : Fin 32 → Fin 8 → Vec F S1x16 .f32) : FVec F S16 .f32 :=
  k0_pay101 (t382 i0 i1) (t384 i0 i1) (t386 i0 i1) (t388 i0 i1) (t390 i0 i1) (t392 i0 i1) (t394 i0 i1) (t1533 i0 i1 ld) (t1536 i0 i1 ld) (t1537 i0 i1) (ld 21 5) (ld 22 5) (ld 23 5) (ld 24 5) (ld 25 5) (ld 26 5) (ld 27 5)
noncomputable def t1626 (i0 i1 : Vec F S16 .i32) (ld : Fin 32 → Fin 8 → Vec F S1x16 .f32) : FVec F S16 .f32 :=
  k0_pay103 (t340 i0 i1) (t342 i0 i1) (t344 i0 i1) (ld 0 6) (ld 1 6) (ld 2 6)
noncomputable def t1668 (i0 i1 : Vec F S16 .i32) (ld : Fin 32 → Fin 8 → Vec F S1x16 .f32) : FVec F S16 .f32 :=
  k0_pay104 (t346 i0 i1) (t348 i0 i1) (t350 i0 i1) (t352 i0 i1) (t354 i0 i1) (t356 i0 i1) (t358 i0 i1) (t1626 i0 i1 ld) (ld 3 6) (ld 4 6) (ld 5 6) (ld 6 6) (ld 7 6) (ld 8 6) (ld 9 6)
noncomputable def t1671 (i0 i1 : Vec F S16 .i32) (ld : Fin 32 → Fin 8 → Vec F S1x16 .f32) : FVec F S16 .f32 :=
  k0_pay105 (ld 10 6)
noncomputable def t1716 (i0 i1 : Vec F S16 .i32) (ld : Fin 32 → Fin 8 → Vec F S1x16 .f32) : FVec F S16 .f32 :=
  k0_pay106 (t360 i0 i1) (t362 i0 i1) (t364 i0 i1) (t366 i0 i1) (t368 i0 i1) (t370 i0 i1) (t372 i0 i1) (t374 i0 i1) (t1668 i0 i1 ld) (t1671 i0 i1 ld) (ld 11 6) (ld 12 6) (ld 13 6) (ld 14 6) (ld 15 6) (ld 16 6) (ld 17 6)
noncomputable def t1758 (i0 i1 : Vec F S16 .i32) (ld : Fin 32 → Fin 8 → Vec F S1x16 .f32) : FVec F S16 .f32 :=
  k0_pay107 (t376 i0 i1) (t378 i0 i1) (t380 i0 i1) (t382 i0 i1) (t384 i0 i1) (t386 i0 i1) (t388 i0 i1) (t1716 i0 i1 ld) (ld 18 6) (ld 19 6) (ld 20 6) (ld 21 6) (ld 22 6) (ld 23 6) (ld 24 6)
noncomputable def t1761 (i0 i1 : Vec F S16 .i32) (ld : Fin 32 → Fin 8 → Vec F S1x16 .f32) : FVec F S16 .f32 :=
  k0_pay108 (ld 25 6)
noncomputable def t1851 (i0 i1 : Vec F S16 .i32) (ld : Fin 32 → Fin 8 → Vec F S1x16 .f32) : FVec F S16 .f32 :=
  k0_pay110 (t340 i0 i1) (t342 i0 i1) (t344 i0 i1) (t346 i0 i1) (t348 i0 i1) (t350 i0 i1) (t352 i0 i1) (t354 i0 i1) (ld 0 7) (ld 1 7) (ld 2 7) (ld 3 7) (ld 4 7) (ld 5 7) (ld 6 7) (ld 7 7)
noncomputable def t1893 (i0 i1 : Vec F S16 .i32) (ld : Fin 32 → Fin 8 → Vec F S1x16 .f32) : FVec F S16 .f32 :=
  k0_pay111 (t356 i0 i1) (t358 i0 i1) (t360 i0 i1) (t362 i0 i1) (t364 i0 i1) (t366 i0 i1) (t368 i0 i1) (t1851 i0 i1 ld) (ld 8 7) (ld 9 7) (ld 10 7) (ld 11 7) (ld 12 7) (ld 13 7) (ld 14 7)
noncomputable def t1941 (i0 i1 : Vec F S16 .i32) (ld : Fin 32 → Fin 8 → Vec F S1x16 .f32) : FVec F S16 .f32 :=
  k0_pay112 (t370 i0 i1) (t372 i0 i1) (t374 i0 i1) (t376 i0 i1) (t378 i0 i1) (t380 i0 i1) (t382 i0 i1) (t384 i0 i1) (t1893 i0 i1 ld) (ld 15 7) (ld 16 7) (ld 17 7) (ld 18 7) (ld 19 7) (ld 20 7) (ld 21 7) (ld 22 7)
noncomputable def t1983 (i0 i1 : Vec F S16 .i32) (ld : Fin 32 → Fin 8 → Vec F S1x16 .f32) : FVec F S16 .f32 :=
  k0_pay113 (t386 i0 i1) (t388 i0 i1) (t390 i0 i1) (t392 i0 i1) (t394 i0 i1) (t396 i0 i1) (t398 i0 i1) (t1941 i0 i1 ld) (ld 23 7) (ld 24 7) (ld 25 7) (ld 26 7) (ld 27 7) (ld 28 7) (ld 29 7)
noncomputable def t1999 (i0 i1 : Vec F S16 .i32) (ld : Fin 32 → Fin 8 → Vec F S1x16 .f32) : FVec F S16 .f32 :=
  k0_pay114 (t400 i0 i1) (t402 i0 i1) (t438 i0 i1) (t1983 i0 i1 ld) (ld 30 7) (ld 31 7)

/-! ## The eight stored vectors -/

noncomputable def stored0 (i0 i1 : Vec F S16 .i32) (ld : Fin 32 → Fin 8 → Vec F S1x16 .f32) : FVec F S16 .f32 :=
  k0_pay62 (t392 i0 i1) (t394 i0 i1) (t396 i0 i1) (t398 i0 i1) (t400 i0 i1) (t402 i0 i1) (t438 i0 i1) (t594 i0 i1 ld) (ld 26 0) (ld 27 0) (ld 28 0) (ld 29 0) (ld 30 0) (ld 31 0)
noncomputable def stored1 (i0 i1 : Vec F S16 .i32) (ld : Fin 32 → Fin 8 → Vec F S1x16 .f32) : FVec F S16 .f32 :=
  k0_pay72 (t402 i0 i1) (t438 i0 i1) (t819 i0 i1 ld) (ld 31 1)
noncomputable def stored2 (i0 i1 : Vec F S16 .i32) (ld : Fin 32 → Fin 8 → Vec F S1x16 .f32) : FVec F S16 .f32 :=
  k0_pay79 (t396 i0 i1) (t398 i0 i1) (t400 i0 i1) (t402 i0 i1) (t438 i0 i1) (t996 i0 i1 ld) (t999 i0 i1 ld) (ld 29 2) (ld 30 2) (ld 31 2)
noncomputable def stored3 (i0 i1 : Vec F S16 .i32) (ld : Fin 32 → Fin 8 → Vec F S1x16 .f32) : FVec F S16 .f32 :=
  k0_pay84 (t392 i0 i1) (t394 i0 i1) (t396 i0 i1) (t398 i0 i1) (t400 i0 i1) (t402 i0 i1) (t438 i0 i1) (t1179 i0 i1 ld) (ld 26 3) (ld 27 3) (ld 28 3) (ld 29 3) (ld 30 3) (ld 31 3)
noncomputable def stored4 (i0 i1 : Vec F S16 .i32) (ld : Fin 32 → Fin 8 → Vec F S1x16 .f32) : FVec F S16 .f32 :=
  k0_pay93 (t402 i0 i1) (t438 i0 i1) (t1398 i0 i1 ld) (t1403 i0 i1 ld) (ld 31 4)
noncomputable def stored5 (i0 i1 : Vec F S16 .i32) (ld : Fin 32 → Fin 8 → Vec F S1x16 .f32) : FVec F S16 .f32 :=
  k0_pay102 (t396 i0 i1) (t398 i0 i1) (t400 i0 i1) (t402 i0 i1) (t438 i0 i1) (t1581 i0 i1 ld) (ld 28 5) (ld 29 5) (ld 30 5) (ld 31 5)
noncomputable def stored6 (i0 i1 : Vec F S16 .i32) (ld : Fin 32 → Fin 8 → Vec F S1x16 .f32) : FVec F S16 .f32 :=
  k0_pay109 (t390 i0 i1) (t392 i0 i1) (t394 i0 i1) (t396 i0 i1) (t398 i0 i1) (t400 i0 i1) (t402 i0 i1) (t438 i0 i1) (t1758 i0 i1 ld) (t1761 i0 i1 ld) (ld 26 6) (ld 27 6) (ld 28 6) (ld 29 6) (ld 30 6) (ld 31 6)
noncomputable def stored7 (i0 i1 : Vec F S16 .i32) (ld : Fin 32 → Fin 8 → Vec F S1x16 .f32) : FVec F S16 .f32 :=
  t1999 i0 i1 ld

/-- The vector stored into lanes `16 v … 16 v + 15` of the tile's result. -/
noncomputable def stored (v : Fin 8) (i0 i1 : Vec F S16 .i32) (ld : Fin 32 → Fin 8 → Vec F S1x16 .f32) :
    FVec F S16 .f32 :=
  match v with
  | 0 => stored0 i0 i1 ld
  | 1 => stored1 i0 i1 ld
  | 2 => stored2 i0 i1 ld
  | 3 => stored3 i0 i1 ld
  | 4 => stored4 i0 i1 ld
  | 5 => stored5 i0 i1 ld
  | 6 => stored6 i0 i1 ld
  | 7 => stored7 i0 i1 ld

end Cert.KernelIdeal.Tile

end
-- ==== Proof.KBodyVal.lean ====
/-
  One tile's task of the pooling call with the value it leaves: the tile's 128-lane strip of the result holds, lane
  by lane, the tile's dataflow applied to what the tile loads, the loads being functions of the id array and the
  table alone (the id row of the tile's batch, and the rows of the tile's 128-column slice of the table that the id
  row names).
-/
import proofs.«217236_g4415226380944_cont_8to1_c_873_25_alg».proof.Proof.KBody
import proofs.«217236_g4415226380944_cont_8to1_c_873_25_alg».proof.Proof.TileFn
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

section Tile

variable (d : Dev nD) (L : grid0.Coords)

/-! ## The tile's loads as functions of the arrays -/

/-- The tile's id row, as the id scratch holds it after the copy-in. -/
def idRow (gid : Buf (Elt F) (gLoc d)) : Buf (Elt F) ((V d (cV L) (jV L)).loc cc0_scratch0) :=
  ReadAs.same.apply ((gRowK L).view.read (Elt F) gid)

omit [FloatOps F] in
/-- Every word of the id row names a row of the table. -/
theorem idRow_in_range (gid : Buf (Elt F) (gLoc d)) (hpre : IdsOK d gid) (x : S32.Idx) :
    ((sI).view.read (Elt F) (idRow d L gid) x).toNat < 16384 := by
  have e : idRow d L gid x = gid ((gRowK L).view.emb x) := (View.read_apply _ _).trans (cast_eq _ _)
  simp only [Memref.view_whole, View.read_whole]
  exact lt_of_eq_of_lt (congrArg BitVec.toNat e) (hpre _)

/-- The two index vectors the tile loads: entries 0 … 15 and 16 … 31 of its id row. -/
def tI0 (gid : Buf (Elt F) (gLoc d)) : Vec F S16 .i32 :=
  View.readAt (Elt F) (sI).view (Rect.unit (s := S32) ![0] S16.size inb_S32_S16_0).toLoadRect (idRow d L gid)
def tI1 (gid : Buf (Elt F) (gLoc d)) : Vec F S16 .i32 :=
  View.readAt (Elt F) (sI).view (Rect.unit (s := S32) ![16] S16.size inb_S32_S16_16).toLoadRect (idRow d L gid)

/-- What the gather leaves in the row scratch: row `k` is the row of the tile's 128-column slice of the table that
    entry `k` of the id row names. -/
def tRows (tbl : Buf (Elt F) (tLoc d)) (gid : Buf (Elt F) (gLoc d)) (hpre : IdsOK d gid) : S32x128.Idx → Elt F .f32 :=
  SparseCore.gatherPayload gathers_S16384x128_S32x128
    (((tblV).slice (Rect.unit (s := S16384x1024) (k0_off2 L) S16384x128.size (k0_off2_inb L)) (fun _ => rfl)).view.read (Elt F) tbl)
    (SparseCore.rows ((sI).view.read (Elt F) (idRow d L gid)) (by decide) (fun x => idRow_in_range d L gid hpre x))

theorem inb_ld (k : Fin 32) (v : Fin 8) : ∀ a, (![k.val, 16 * v.val] : Fin 2 → ℕ) a + S1x16.size a ≤ S32x128.size a := by
  intro a
  have hk := k.isLt
  have hv := v.isLt
  match a with
  | ⟨0, _⟩ => show k.val + 1 ≤ 32; omega
  | ⟨1, _⟩ => show 16 * v.val + 16 ≤ 128; omega

/-- The 256 pieces the tile loads from the row scratch: row `k`, lanes `16 v … 16 v + 15`. -/
def tLd (tbl : Buf (Elt F) (tLoc d)) (gid : Buf (Elt F) (gLoc d)) (hpre : IdsOK d gid) (k : Fin 32) (v : Fin 8) :
    Vec F S1x16 .f32 :=
  (sR).view.readCov [⟨Rect.whole S32x128, tRows d L tbl gid hpre⟩]
    (Rect.unit (s := S32x128) ![k.val, 16 * v.val] S1x16.size (inb_ld k v)).toLoadRect

/-- The tile's 128 result lanes as a function of the arrays: lane `j` is lane `j mod 16` of the vector stored for lane
    group `j / 16`. -/
def tileVal (tbl : Buf (Elt F) (tLoc d)) (gid : Buf (Elt F) (gLoc d)) (hpre : IdsOK d gid) (j : S128.Idx) : Elt F .f32 :=
  Tile.stored ⟨(j 0).val / 16, by have h : (j 0).val < 128 := (j 0).isLt; show (j 0).val / 16 < 8; omega⟩ (tI0 d L gid) (tI1 d L gid)
    (tLd d L tbl gid hpre) (ValueIdx.ix1 ⟨(j 0).val % 16, Nat.mod_lt _ (by norm_num)⟩)

/-- At the lanes of one store: lane group `v`'s stored vector. -/
theorem tileVal_unit (tbl : Buf (Elt F) (tLoc d)) (gid : Buf (Elt F) (gLoc d)) (hpre : IdsOK d gid) (v : Fin 8) (off : ℕ)
    (hoff : off = 16 * v.val) (inb : ∀ a, (![off] : Fin 1 → ℕ) a + S16.size a ≤ S128.size a)
    (x : (Rect.unit (s := S128) ![off] S16.size inb).shape.Idx) :
    tileVal d L tbl gid hpre ((Rect.unit (s := S128) ![off] S16.size inb).emb x)
      = Tile.stored v (tI0 d L gid) (tI1 d L gid) (tLd d L tbl gid hpre) x := by
  subst hoff
  have hx : (x 0).val < 16 := (x 0).isLt
  have h0 : (((Rect.unit (s := S128) ![16 * v.val] S16.size inb).emb x) 0).val = 16 * v.val + (x 0).val := by
    rw [Rect.emb_apply]
    show 16 * v.val + 1 * (x 0).val = _
    omega
  unfold tileVal
  congr 1
  · exact Fin.ext (by show _ / 16 = v.val; rw [h0]; omega)
  · funext a
    match a with
    | ⟨0, _⟩ => exact Fin.ext (by show _ % 16 = (x 0).val; rw [h0]; omega)

/-- One tile's task, at a symbolic tile, with its value: as the frame-strength statement, and the tile's strip of the
    result comes back holding the one whole-array function `po` that is the tile's value on the strip. -/
theorem tile_body_val (hF : (K (F := F)).Facts) (tbl : Buf (Elt F) (tLoc d)) (gid : Buf (Elt F) (gLoc d)) (o0 : Buf (Elt F) (oLoc d))
    (hpre : IdsOK d gid) (po : Buf (Elt F) (oLoc d))
    (hpo : ∀ j : S128.Idx, po ((oRowK L).view.emb j) = tileVal d L tbl gid hpre j)
    (O : CellTallies nD τ sig (HIx 1)) (W : Waits sig (HIx 1)) (hO : ∀ g, O g none = 0) :
    iprop(levAts (K (F := F)).L (K (F := F)).lev ∗ emp
        ∗ (tPts d (tShare L) tbl ∗ gPts d (tShare L) gid ∗ oRowPts d L o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) tbl ∗ gPts d (tShare L) gid ∗ oRowPts d L po)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Ht, Hg, Ho⟩, ⟨⟨%fi, Hi⟩, ⟨%fr, Hr⟩, ⟨%fo, Hso⟩, Hbufs⟩, ⟨HsemG, HsemA, HsemB, Hsems⟩, HO⟩
  ihave Hmw := ((K (F := F)).mayWaits_none (thr := V d (cV L) (jV L)) hO) $$ Hlv
  ihave Ht' := (Entails.of_eq (pts_t (F := F) d L _ _).symm) $$ Ht
  ihave Hg' := (Entails.of_eq (pts_g (F := F) d L _ _).symm) $$ Hg
  ihave Ho' := (Entails.of_eq (pts_o (F := F) d L _).symm) $$ Ho
  ihave Hi' := (Entails.of_eq (pts_sI (F := F) d L _).symm) $$ Hi
  ihave Hr' := (Entails.of_eq (pts_sR (F := F) d L _).symm) $$ Hr
  ihave Hso' := (Entails.of_eq (pts_sO (F := F) d L _).symm) $$ Hso
  sl_exec_parts
  -- the id scratch now holds the tile's id row, whatever it held before
  have hw : View.write (Elt F) (sI).view fi (tile_body_val.sl.dma0 d L gid) Finset.univ = idRow d L gid :=
    View.write_whole_univ _ _ _
  ihave Hi2 := (Entails.of_eq (congrArg (fun f => (((sI).view.loc (V d (cV L) (jV L)) ↦{fullShare} f : sProp 𝕄))) hw)) $$ Hi'
  -- the ids the gather reads are the id row just copied in: in range by the precondition
  have hin : ∀ x, ((sI).view.read (Elt F) (idRow d L gid) x).toNat < S16384x128.size (gathers_S16384x128_S32x128).axis :=
    fun x => idRow_in_range d L gid hpre x
  -- one share of the id scratch goes with the gather, the other serves the index loads while it is in flight
  ihave Hsp := ((pointsTo_share (PosShare.mem_left_op_right fullShare)).1) $$ Hi2
  icases Hsp with ⟨HiL, HiR⟩
  sl_exec_parts
  -- what the copy-out wrote on the strip is the tile's value there
  have hval : ∀ i ∈ (oRowK L).view.set,
      ((oRowK L).view.writes (Elt F) o0 [⟨Rect.whole S128, tile_body_val.sl.dma274 d L tbl gid fo hin⟩]) i = po i := by
    intro i hi
    obtain ⟨j, -, rfl⟩ := Finset.mem_map.mp hi
    rw [hpo j]
    -- the strip's element under lane `j` holds what the copy-out's payload has at `j`
    have h1 : ((oRowK L).view.writes (Elt F) o0 [⟨Rect.whole S128, tile_body_val.sl.dma274 d L tbl gid fo hin⟩])
          ((oRowK L).view.emb j)
        = tile_body_val.sl.dma274 d L tbl gid fo hin j := by
      have e := View.read_writes_cons_emb (oRowK L).view o0 (Rect.whole S128) (tile_body_val.sl.dma274 d L tbl gid fo hin) [] j
      rw [Rect.emb_whole_apply] at e
      exact ((View.read_apply _ _).trans (cast_eq _ _)).symm.trans e
    rw [h1]
    -- the payload is the output scratch read back after the eight stores: one function of the lane
    show (sO).view.read (Elt F) ((sO).view.writes (Elt F) fo (tile_body_val.sl.Hso'_8 d L tbl gid hin)) j = _
    unfold tile_body_val.sl.Hso'_8 tile_body_val.sl.Hso'_7 tile_body_val.sl.Hso'_6 tile_body_val.sl.Hso'_5
      tile_body_val.sl.Hso'_4 tile_body_val.sl.Hso'_3 tile_body_val.sl.Hso'_2 tile_body_val.sl.Hso'_1
    refine View.read_writes_apply_of_pieces (sO).view fo (tileVal d L tbl gid hpre) _ ?_ j ?_
    · intro p hp
      simp only [List.mem_cons, List.not_mem_nil, or_false] at hp
      rcases hp with rfl | rfl | rfl | rfl | rfl | rfl | rfl | rfl
      · intro x
        refine Eq.trans ?_ (tileVal_unit d L tbl gid hpre 7 112 rfl inb_S128_S16_112 x).symm
        rfl
      · intro x
        refine Eq.trans ?_ (tileVal_unit d L tbl gid hpre 6 96 rfl inb_S128_S16_96 x).symm
        rfl
      · intro x
        refine Eq.trans ?_ (tileVal_unit d L tbl gid hpre 5 80 rfl inb_S128_S16_80 x).symm
        rfl
      · intro x
        refine Eq.trans ?_ (tileVal_unit d L tbl gid hpre 4 64 rfl inb_S128_S16_64 x).symm
        rfl
      · intro x
        refine Eq.trans ?_ (tileVal_unit d L tbl gid hpre 3 48 rfl inb_S128_S16_48 x).symm
        rfl
      · intro x
        refine Eq.trans ?_ (tileVal_unit d L tbl gid hpre 2 32 rfl inb_S128_S16_32 x).symm
        rfl
      · intro x
        refine Eq.trans ?_ (tileVal_unit d L tbl gid hpre 1 16 rfl inb_S128_S16_16 x).symm
        rfl
      · intro x
        refine Eq.trans ?_ (tileVal_unit d L tbl gid hpre 0 0 rfl inb_S128_S16_0 x).symm
        rfl
    · exact View.cover_of_tiled _ ![16] rfl j
  ihave Ho2 := (Entails.of_eq (pointsTo_congr (q := fullShare) hval)) $$ Ho'
  sl_step
  isplitl [Ht' Hg' Ho2]
  · isplitl [Ht']; · iapply (Entails.of_eq (pts_t (F := F) d L _ _)); iexact Ht'
    isplitl [Hg']; · iapply (Entails.of_eq (pts_g (F := F) d L _ _)); iexact Hg'
    iapply (Entails.of_eq (pts_o (F := F) d L _)); iexact Ho2
  isplitl [HiL HiR Hr' Hso' Hbufs]
  · isplitl [HiL HiR]
    · iexists _; iapply (Entails.of_eq (pts_sI (F := F) d L _))
      iapply ((pointsTo_share (PosShare.mem_left_op_right fullShare)).2)
      isplitl [HiL]; · iexact HiL
      iexact HiR
    isplitl [Hr']; · iexists _; iapply (Entails.of_eq (pts_sR (F := F) d L _)); iexact Hr'
    isplitl [Hso']; · iexists _; iapply (Entails.of_eq (pts_sO (F := F) d L _)); iexact Hso'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, none) (insert (SemLoc.dma cc0_scratch3.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI

end
-- ==== Proof.KPooled.lean ====
/-
  The one whole-array function every tile writes a strip of. Index `(r, c)` of the 4 × 1024 result lies in the strip
  of the tile with number `8 r + c / 128`, at lane `c mod 128` of that tile's 128 lanes; the function's value there is
  that tile's value at that lane. On the strip of tile `L` it is `L`'s value lane by lane: lane `j` of the strip is the
  index (`w / 8`, `128 · (w mod 8) + j`), `w` the tile's number, and the tile recovered from that index is `L`.
-/
import proofs.«217236_g4415226380944_cont_8to1_c_873_25_alg».proof.Proof.KBodyVal
import proofs.«217236_g4415226380944_cont_8to1_c_873_25_alg».proof.Proof.KStrips
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

open Idealize.ShloMosaic.ValueIdx

/-- The tile whose strip holds index `i` of the result. -/
def tileOf (i : S4x1024.Idx) : grid0.Coords :=
  coordsV ⟨(8 * (i 0).val + (i 1).val / 128) % 2, Nat.mod_lt _ (by norm_num)⟩
    ⟨(8 * (i 0).val + (i 1).val / 128) / 2, by
      have h0 : (i 0).val < 4 := (i 0).isLt
      have h1 : (i 1).val < 1024 := (i 1).isLt
      show (8 * (i 0).val + (i 1).val / 128) / 2 < 16
      omega⟩

/-- Lane `j` of tile `L`'s strip, as an index of the result: row `w / 8`, column `128 · (w mod 8) + j`. -/
theorem oRow_emb (L : grid0.Coords) (j : S128.Idx) :
    (((oRowK L).view.emb j : S4x1024.Idx) 0).val = (wid L).val / 8
      ∧ (((oRowK L).view.emb j : S4x1024.Idx) 1).val = 128 * ((wid L).val % 8) + (j 0).val := by
  have hr : Shape.reshapeEquiv (squeezes_S1x128_S128).numel_eq j = (ix2 (0 : Fin 1) (j 0) : S1x128.Idx) :=
    Shape.reshapeEquiv_eq_of_rowMajor _ (by
      rw [Shape.rowMajor_val_two, Shape.rowMajor_val_one]
      show 0 * 128 + (j 0).val = (j 0).val
      omega)
  have he : ((oRowK L).view.emb j : S4x1024.Idx)
      = (Rect.unit (s := S4x1024) (k0_off3 L) S1x128.size (k0_off3_inb L)).emb (Shape.reshapeEquiv (squeezes_S1x128_S128).numel_eq j) := rfl
  rw [he, hr]
  have hw : (wid L).val = 2 * (L 1).val + (L 0).val := rfl
  constructor
  · rw [Rect.emb_apply]
    show k0_off3 L 0 + 1 * 0 = (wid L).val / 8
    rw [k0_off3_eq, hw]
    show (2 * (L 1).val + (L 0).val) / 8 + 1 * 0 = _
    omega
  · rw [Rect.emb_apply]
    show k0_off3 L 1 + 1 * (j 0).val = 128 * ((wid L).val % 8) + (j 0).val
    rw [k0_off3_eq, hw]
    show 128 * ((2 * (L 1).val + (L 0).val) % 8) + 1 * (j 0).val = _
    omega

/-- The tile recovered from an index of tile `L`'s strip is `L`. -/
theorem tileOf_emb (L : grid0.Coords) (j : S128.Idx) : tileOf ((oRowK L).view.emb j) = L := by
  obtain ⟨h0, h1⟩ := oRow_emb L j
  have hw : (wid L).val = 2 * (L 1).val + (L 0).val := rfl
  have hL0 : (L 0).val < 2 := (L 0).isLt
  have hL1 : (L 1).val < 16 := (L 1).isLt
  have hj : (j 0).val < 128 := (j 0).isLt
  funext a
  match a with
  | ⟨0, _⟩ =>
    refine Fin.ext ?_
    show (8 * (((oRowK L).view.emb j : S4x1024.Idx) 0).val + (((oRowK L).view.emb j : S4x1024.Idx) 1).val / 128) % 2 = (L 0).val
    rw [h0, h1, hw]
    omega
  | ⟨1, _⟩ =>
    refine Fin.ext ?_
    show (8 * (((oRowK L).view.emb j : S4x1024.Idx) 0).val + (((oRowK L).view.emb j : S4x1024.Idx) 1).val / 128) / 2 = (L 1).val
    rw [h0, h1, hw]
    omega

variable [FloatOps F]

/-- The whole result as one function of the table and the id array: at each index, the value of the tile whose strip
    holds it, at the index's lane of that strip. -/
noncomputable def poK (d : Dev nD) (tbl : Buf (Elt F) (tLoc d)) (gid : Buf (Elt F) (gLoc d)) (hpre : IdsOK d gid) :
    Buf (Elt F) (oLoc d) :=
  fun i => tileVal d (tileOf i) tbl gid hpre (ix1 ⟨((i : S4x1024.Idx) 1).val % 128, Nat.mod_lt _ (by norm_num)⟩)

/-- On tile `L`'s strip it is `L`'s value, lane by lane. -/
theorem poK_strip (d : Dev nD) (L : grid0.Coords) (tbl : Buf (Elt F) (tLoc d)) (gid : Buf (Elt F) (gLoc d))
    (hpre : IdsOK d gid) (j : S128.Idx) :
    poK d tbl gid hpre ((oRowK L).view.emb j) = tileVal d L tbl gid hpre j := by
  obtain ⟨h0, h1⟩ := oRow_emb L j
  have hj : (j 0).val < 128 := (j 0).isLt
  have hlane : (ix1 ⟨(((oRowK L).view.emb j : S4x1024.Idx) 1).val % 128, Nat.mod_lt _ (by norm_num)⟩ : S128.Idx) = j := by
    funext a
    match a with
    | ⟨0, _⟩ => exact Fin.ext (by show (((oRowK L).view.emb j : S4x1024.Idx) 1).val % 128 = (j 0).val; rw [h1]; omega)
  show tileVal d (tileOf ((oRowK L).view.emb j)) tbl gid hpre _ = _
  rw [tileOf_emb L j, hlane]

/-- Every tile's task leaves its strip of that one function. -/
theorem tileTask_poK (hF : (K (F := F)).Facts) (tb : (d : Dev nD) → Buf (Elt F) (tLoc d)) (gd : (d : Dev nD) → Buf (Elt F) (gLoc d))
    (o0 : (d : Dev nD) → Buf (Elt F) (oLoc d)) (hpre : ∀ d, IdsOK d (gd d)) :
    TileTask tb gd o0 (fun d => poK d (tb d) (gd d) (hpre d)) :=
  fun d L O W hO => tile_body_val d L hF (tb d) (gd d) (o0 d) (hpre d) _ (poK_strip d L (tb d) (gd d) (hpre d)) O W hO

end Cert.Proof.KI

end
-- ==== Proof.KHostVal.lean ====
/- The kernel program's host values read at an index: the row table is the hidden states with the batch and the
   position folded into one row number, a row id is the token id plus 4096 times the batch, the bias row is the
   bias; and the integer half of the precondition (every token id below 4096) at any float instance. -/
import proofs.«217236_g4415226380944_cont_8to1_c_873_25_alg».proof.Proof.KHost
import proofs.«217236_g4415226380944_cont_8to1_c_873_25_alg».proof.Proof.Gen.Pre_input_domain
import Idealize.ShloMosaic.Lib.ValueIdx
import Idealize.ShloMosaic.Lib.IdealHost
import Idealize.ShloMosaic.Lib.Pipeline.Value
import Idealize.ShloMosaic.Lib.ReduceAll
import Idealize.ShloMosaic.Lib.Affine

noncomputable section

namespace Cert.Proof.KI

open Cert.KernelIdeal Cert.KernelIdeal.Gen

open Idealize.ShloMosaic Idealize.ShloMosaic.ValueIdx Idealize.ShloMosaic.StableHlo Idealize.SL.Sem

variable {F : FTy → Type} [FloatOps F]

variable (m : (ℓ : Loc nD τ sig) → Buf (Elt F) ℓ)

/-! ## The row table -/

/-- The table is the hidden states reshaped. -/
theorem tbV_eq (d : Dev nD) :
    tbV m d = fun i => shapeCast S16384x1024 (m (d, a0')) shapeCasts_S4x4096x1024_S16384x1024 i := by
  show StableHlo.after (ops0 (F := F)) (V0 m d) b0' = _
  after_results
  rfl

/-- Row `4096 · b + s` of the table is position `s` of batch `b`. -/
theorem tbV_apply (d : Dev nD) (b : Fin 4) (s : Fin 4096) (c : Fin 1024) :
    tbV m d (ix2 (⟨4096 * b.val + s.val, by have := b.isLt; have := s.isLt; omega⟩ : Fin 16384) c) = m (d, a0') (ix3 b s c) := by
  rw [tbV_eq]
  refine shapeCast_apply _ _ _ (ix3 b s c) ?_
  rw [Shape.rowMajor_val_three, Shape.rowMajor_val_two]
  show (b.val * 4096 + s.val) * 1024 + c.val = (4096 * b.val + s.val) * 1024 + c.val
  omega

/-! ## The row ids -/

/-- The offset column: 4096 times the batch number, as a word. -/
def offCol : IVec S4x1 32 :=
  muli (broadcastInDim S4x1 ![0] bcast_S4_S4x1_0 (iotaInDim S4 32 0)) (broadcastInDim S4x1 ![] bcast_S_S4x1 (constantI S_ 32 4096#32))

theorem offCol_apply (b : Fin 4) : offCol (ix2 b (0 : Fin 1)) = BitVec.ofNat 32 (4096 * b.val) := by
  fin_cases b <;> decide

/-- The row ids are the token ids plus the offset column broadcast along the entries. -/
theorem gdV_eq (d : Dev nD) :
    gdV m d = addi (m (d, a1')) (broadcastInDim S4x32 ![0, 1] bcast_S4x1_S4x32_0_1 offCol) := by
  show StableHlo.after (ops0 (F := F)) (V0 m d) b6' = _
  after_results
  rfl

/-- The row id of entry (b, k), for a token id below 4096: the token id plus 4096 times the batch, without wrapping. -/
theorem gdV_toNat (d : Dev nD) (hr : ∀ j, (m (d, a1') j).toNat < 4096) (b : Fin 4) (k : Fin 32) :
    (gdV m d (ix2 b k)).toNat = (m (d, a1') (ix2 b k)).toNat + 4096 * b.val := by
  rw [gdV_eq]
  show (IntOp.addi (m (d, a1') (ix2 b k)) (broadcastInDim S4x32 ![0, 1] bcast_S4x1_S4x32_0_1 offCol (ix2 b k))).toNat = _
  rw [broadcastInDim_apply _ _ _ _ (ix2 b (0 : Fin 1)) (fun a => by match a with | ⟨0, _⟩ => rfl | ⟨1, _⟩ => rfl),
    offCol_apply]
  have hb := b.isLt
  have h1 := hr (ix2 b k)
  unfold IntOp.addi
  rw [BitVec.toNat_add, BitVec.toNat_ofNat]
  omega

/-- Every row id names a row of the table. -/
theorem idsOK (d : Dev nD) (hr : ∀ j, (m (d, a1') j).toNat < 4096) : IdsOK d (gdV m d) := by
  intro j
  obtain ⟨b, k, rfl⟩ : ∃ (b : Fin 4) (k : Fin 32), j = ix2 b k := ⟨j 0, j 1, eq_ix2 j⟩
  have := gdV_toNat m d hr b k
  have hb := b.isLt
  have h1 := hr (ix2 b k)
  omega

/-! ## The bias row -/

/-- After the second host line the one-row matrix holds the bias. -/
theorem bias_apply (d : Dev nD) (c : Fin 1024) :
    StableHlo.after (ops1 (F := F)) (V1 m d) b8' (ix2 (0 : Fin 1) c) = m (d, a3') (ix1 c) := by
  have e : StableHlo.after (ops1 (F := F)) (V1 m d) b8'
      = fun i => shapeCast S1x1024 (m (d, a3')) shapeCasts_S1024_S1x1024 i := by
    after_results
    rfl
  rw [e]
  refine shapeCast_apply _ _ _ (ix1 c) ?_
  rw [Shape.rowMajor_val_one, Shape.rowMajor_val_two]
  show c.val = 0 * 1024 + c.val
  omega

/-! ## The integer half of the precondition -/

instance : Subsingleton Cert.Pre_input_domain.S_.Idx := ⟨fun _ _ => funext fun d => d.elim0⟩

/-- A 32-bit word between 0 and 4095 as a signed integer is below 4096 as an unsigned one. -/
theorem toNat_lt_of_toInt (x : BitVec 32) (h0 : (0 : Int) ≤ x.toInt) (h1 : x.toInt ≤ 4095) : x.toNat < 4096 := by
  rw [BitVec.toInt_eq_toNat_cond] at h0 h1
  have := x.isLt
  split_ifs at h0 h1 <;> omega

/-- At any float instance the precondition says every token id is below 4096. -/
theorem pre_range (a0 : FVec F Cert.Pre_input_domain.S4x4096x1024 .f32) (a1 : IVec Cert.Pre_input_domain.S4x32 32)
    (a2 : FVec F Cert.Pre_input_domain.S1024x1024 .f32) (a3 : FVec F Cert.Pre_input_domain.S1024 .f32)
    (h : Cert.Pre_input_domain.fn (F := F) a0 a1 a2 a3 = fun _ => 1#1) : ∀ j, (a1 j).toNat < 4096 := by
  have h0 := congrFun h ix0
  dsimp only [Cert.Pre_input_domain.fn, Cert.Pre_input_domain.fn_part1] at h0
  obtain ⟨-, h19⟩ := IntOp.andi_eq_one.1 h0
  intro j
  have e := Host.reduce_andi_all _ _ _ _ ix0 h19 j
  obtain ⟨e1, e2⟩ := IntOp.andi_eq_one.1 e
  have f1 : (0#32 : BitVec 32).toInt ≤ (a1 j).toInt := IntOp.cmpi_sge.1 e1
  have f2 : (a1 j).toInt ≤ (4095#32 : BitVec 32).toInt := IntOp.cmpi_sle.1 e2
  exact toNat_lt_of_toInt _ (by simpa using f1) (by
    have : (4095#32 : BitVec 32).toInt = 4095 := by decide
    omega)

end Cert.Proof.KI

end
-- ==== Proof.KRun.lean ====
/-
  The kernel program's run, for any float instance: from any memory whose row ids name rows of the table, every weakly
  fair execution of all the device's threads terminates, the four argument arrays end unchanged, and the result array
  ends at the output layer's term of the pooled values every tile wrote a strip of. The frame is that run with the
  result's value dropped.
-/
import proofs.«217236_g4415226380944_cont_8to1_c_873_25_alg».proof.Proof.KMain
import proofs.«217236_g4415226380944_cont_8to1_c_873_25_alg».proof.Proof.KPooled
import proofs.«217236_g4415226380944_cont_8to1_c_873_25_alg».proof.Proof.KHostVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The pooled values when the row ids are in range: every tile's strip of one whole-array function. -/
abbrev poV (hpre : ∀ d, IdsOK d (gdV m d)) (d : Dev nD) : Buf (Elt F) (oLoc d) := poK d (tbV m d) (gdV m d) (hpre d)

theorem run_main [∀ e, Nonempty (Elt F e)] (hpre : ∀ d, IdsOK d (gdV m d)) :
    θ_run (Cert.KernelIdeal.defs (F := F)) (Cert.KernelIdeal.threads (F := F)) ⟨m, fun _ => 0, ρ⟩ (QC m (resV m (poV m hpre))) :=
  SparseCore.Cfg.θ_run_sc (K := K (F := F)) (D := D (F := F)) (𝒱 := 𝒱) (EH := EH) (P := P (tbV m) (gdV m) (o0V m) (poV m hpre)) facts v₀
    (fun q hq => match q with | 0 => nomatch hq)
    (fun q _ => match q with | 0 => tileObl (tbV m) (gdV m) (o0V m) (poV m hpre) (tileTask_poK facts (tbV m) (gdV m) (o0V m) hpre))
    (fun q _ => match q with | 0 => SparseCore.Cfg.VecSplit.of_plain (vecSplit (tbV m) (gdV m) (o0V m) (poV m hpre)))
    m ρ main (G (F := F)) (FIN m (resV m (poV m hpre))) (u₀ (F := F)) (sep_elim_left.trans (hu₀ (tbV m) (gdV m) (o0V m) (poV m hpre)))
    (hmain m ρ (poV m hpre)) (fq m (resV m (poV m hpre))) (hfin m (resV m (poV m hpre))) (QC m (resV m (poV m hpre))) (fun _ h => h)

/-- The precondition's integer half gives the tiles' row ids in range, on every device. -/
theorem ids_of_pre (hp : ∀ c : Dev nD, Cert.Pre_input_domain.fn (F := F) (m (c, a0')) (m (c, a1')) (m (c, a2')) (m (c, a3')) = fun _ => 1#1) :
    ∀ d, IdsOK d (gdV m d) :=
  fun d => idsOK m d (pre_range _ _ _ _ (hp d))

/-- The frame: the run with the result's value dropped. -/
theorem frame [∀ e, Nonempty (Elt F e)]
    (hp : ∀ c : Dev nD, Cert.Pre_input_domain.fn (F := F) (m (c, a0')) (m (c, a1')) (m (c, a2')) (m (c, a3')) = fun _ => 1#1) :
    θ_run (Cert.KernelIdeal.defs (F := F)) (Cert.KernelIdeal.threads (F := F)) ⟨m, fun _ => 0, ρ⟩ (fun r => ∀ c : Dev nD,
      r.2.mem (c, a0') = m (c, a0') ∧ r.2.mem (c, a1') = m (c, a1') ∧ r.2.mem (c, a2') = m (c, a2') ∧ r.2.mem (c, a3') = m (c, a3')) :=
  (θ_run Cert.KernelIdeal.defs _ _).mono (fun _ h c => (h c).2) (run_main m ρ (ids_of_pre m hp))

end Cert.Proof.KI

end
-- ==== Proof.TileValue.lean ====
/-
  One tile's stored vectors read at the extended reals, lane by lane.

  The thirty-two words of a tile are the lanes of its two index vectors, in order. Entry `k` is a FIRST OCCURRENCE
  when no earlier entry holds the same word; `wT k` is its 0/1 indicator. The tile's flag chains compute, for every
  lane, "an earlier entry holds the same word": for the first vector by sixteen steps "same word as lane `j`, and a
  later lane than `j`"; for the second vector by sixteen steps "same word as lane `j` of the first vector" and
  sixteen steps "same word as lane `j` of the second vector, and a later lane than `j`". Each chain is a left fold of
  one step over the lanes 0 … 15, and what a fold marks is proved once by induction on the list of lanes. The
  weight of an entry is 0 where its flag is set and 1 elsewhere, which is `wT`. The count is the sum of the
  thirty-two weights from the left, and every stored lane is the sum, from the left, of the thirty-two products
  "row entry times weight", times `1 / (1 · count)`. A sum of thirty-two extended reals taken from the left is the
  sum over the thirty-two entries; addition and multiplication are used only as written, so no finiteness is needed.
-/
import proofs.«217236_g4415226380944_cont_8to1_c_873_25_alg».proof.Proof.TileFn
import Idealize.ShloMosaic.Lib.ValueIdx
import Idealize.ShloMosaic.Lib.ValueLayout
import Idealize.ShloMosaic.Lib.Pipeline.Value
import Idealize.ShloMosaic.Lib.WordArith
import Idealize.ShloMosaic.Lib.IdealHost
import Idealize.ShloMosaic.PureOps.Ideal.Laws
import Mathlib

noncomputable section

open scoped BigOperators

namespace Cert.KernelIdeal.Tile

open Idealize.ShloMosaic Idealize.ShloMosaic.ValueIdx Idealize.SL.Sem Cert.KernelIdeal Cert.KernelIdeal.Gen

/-! ## Reading the vector operations at a lane -/

theorem ori_apply {s : Shape} {w : ℕ} (x y : IVec s w) (i : s.Idx) : ori x y i = IntOp.ori (x i) (y i) := rfl
theorem andi_apply {s : Shape} {w : ℕ} (x y : IVec s w) (i : s.Idx) : andi x y i = IntOp.andi (x i) (y i) := rfl
theorem cmpi_apply {s : Shape} {w : ℕ} (p : CmpIPredicate) (x y : IVec s w) (i : s.Idx) :
    cmpi p x y i = IntOp.cmpi p (x i) (y i) := rfl

theorem lt_of_slices {j : ℕ} (h : S16.Slices ![j] S1) : j < 16 := by
  obtain ⟨_, h2⟩ := h
  have h3 := h2 0
  simp at h3
  omega

/-- Lane `j` of a 16-lane vector, taken as a one-lane slice and then extracted, is that lane. -/
theorem extract_slice {α : Type} (x : S16.Idx → α) (j : ℕ) (h1 : S16.Slices ![j] S1)
    (h2 : ∀ a, (![0] : Fin 1 → ℕ) a < S1.size a) :
    extractAt ![0] (extractStridedSlice S1 ![j] x h1) h2 = x (ix1 ⟨j, lt_of_slices h1⟩) := by
  unfold extractAt extractStridedSlice
  congr 1
  funext d
  match d with
  | ⟨0, _⟩ => exact Fin.ext (by simp)

/-- The lane numbers: lane `p` holds the word `p`. -/
theorem t27_apply (p : Fin 16) : t27 (ix1 p) = BitVec.ofNat 32 p.val := by
  unfold t27
  rw [iota_single_apply]

/-- Signed "greater than" between two lane numbers is the order of the lanes. -/
theorem sgt_lane : ∀ j p : Fin 16,
    IntOp.cmpi .sgt (BitVec.ofNat 32 p.val) (BitVec.ofNat 32 j.val) = 1#1 ↔ j < p := by decide

theorem ori_eq_one (x y : BitVec 1) : IntOp.ori x y = 1#1 ↔ x = 1#1 ∨ y = 1#1 := by
  revert x y; decide
theorem andi_eq_one (x y : BitVec 1) : IntOp.andi x y = 1#1 ↔ x = 1#1 ∧ y = 1#1 := by
  revert x y; decide
theorem cmpi_eq_eq_one {w : ℕ} (x y : BitVec w) : IntOp.cmpi .eq x y = 1#1 ↔ x = y := by
  unfold IntOp.cmpi
  rw [WordArith.ofBool_eq_one_iff]
  simp
theorem cmpi_ne_self {w : ℕ} (x : BitVec w) : IntOp.cmpi .ne x x = 0#1 := by
  unfold IntOp.cmpi
  simp

/-! ## The flag chains as folds

One step of the first kind marks lane `p` when it holds the word of lane `j` of `a` and `p` is a later lane than
`j`; one step of the second kind marks it when it holds that word, whatever the lane. -/

/-- A step "same word as lane `j` of `a`, in a later lane". -/
def stepLater (a b lane : IVec S16 32) (acc : IVec S16 1) (j : Fin 16) : IVec S16 1 :=
  ori acc (andi (cmpi .eq b (broadcast S16 (a (ix1 j)))) (cmpi .sgt lane (broadcast S16 (BitVec.ofNat 32 j.val))))

/-- A step "same word as lane `j` of `a`". -/
def stepAny (a b : IVec S16 32) (acc : IVec S16 1) (j : Fin 16) : IVec S16 1 :=
  ori acc (cmpi .eq b (broadcast S16 (a (ix1 j))))

theorem foldl_stepLater (a b : IVec S16 32) (p : Fin 16) (js : List (Fin 16)) :
    ∀ acc : IVec S16 1, (js.foldl (stepLater a b t27) acc) (ix1 p) = 1#1 ↔
      acc (ix1 p) = 1#1 ∨ ∃ j ∈ js, b (ix1 p) = a (ix1 j) ∧ j < p := by
  induction js with
  | nil => intro acc; simp
  | cons j js ih =>
    intro acc
    rw [List.foldl_cons, ih]
    unfold stepLater
    rw [ori_apply, andi_apply, cmpi_apply, cmpi_apply, broadcast_apply, broadcast_apply, t27_apply,
      ori_eq_one, andi_eq_one, cmpi_eq_eq_one, sgt_lane]
    simp only [List.mem_cons, exists_eq_or_imp]
    tauto

theorem foldl_stepAny (a b : IVec S16 32) (p : Fin 16) (js : List (Fin 16)) :
    ∀ acc : IVec S16 1, (js.foldl (stepAny a b) acc) (ix1 p) = 1#1 ↔
      acc (ix1 p) = 1#1 ∨ ∃ j ∈ js, b (ix1 p) = a (ix1 j) := by
  induction js with
  | nil => intro acc; simp
  | cons j js ih =>
    intro acc
    rw [List.foldl_cons, ih]
    unfold stepAny
    rw [ori_apply, cmpi_apply, broadcast_apply, ori_eq_one, cmpi_eq_eq_one]
    simp only [List.mem_cons, exists_eq_or_imp]
    tauto

/-- All sixteen lanes. -/
def lanes16 : List (Fin 16) := [0, 1, 2, 3, 4, 5, 6, 7, 8, 9, 10, 11, 12, 13, 14, 15]

theorem mem_lanes16 : ∀ j : Fin 16, j ∈ lanes16 := by decide

variable {F : FTy → Type} [FloatOps F]

/-- The first vector's flags are sixteen steps of the first kind from the all-clear vector. -/
theorem t201_eq (i0 i1 : Vec F S16 .i32) :
    t201 i0 i1 = lanes16.foldl (stepLater (k0_pay1 i0) (k0_pay1 i0) t27) (t28 i0 i1) := by
  simp only [t201, t190, t135, t80, t194, t139, t84, t29, t24, k0_pay14, k0_pay13, k0_pay11, k0_pay10, k0_pay8,
    k0_pay7, k0_pay5, k0_pay4, extract_slice]
  rfl

/-- The second vector's flags: sixteen steps of the second kind against the first vector, then sixteen of the first
    kind against the second vector itself. -/
def dupB (i0 i1 : Vec F S16 .i32) : IVec S16 1 :=
  lanes16.foldl (stepLater (k0_pay2 i1) (k0_pay2 i1) t27)
    (lanes16.foldl (stepAny (k0_pay1 i0) (k0_pay2 i1)) (t28 i0 i1))

/-- The second weight vector is 0 where the second vector's flag is set and 1 elsewhere. -/
theorem t338_eq (i0 i1 : Vec F S16 .i32) :
    t338 i0 i1 = select (dupB i0 i1) (broadcast S16 (Scalar.ofBits (F := F) .f32 0x00000000#32))
      (broadcast S16 (Scalar.ofBits (F := F) .f32 0x3F800000#32)) := by
  simp only [t338, t300, t301, t248, t244, t193, t194, t138, t139, t83, t84, t29, t24, t26, k0_pay20, k0_pay18,
    k0_pay17, k0_pay16, k0_pay15, k0_pay13, k0_pay12, k0_pay10, k0_pay9, k0_pay7, k0_pay6, k0_pay4, extract_slice]
  rfl

theorem pay1_eq (i0 : Vec F S16 .i32) : k0_pay1 i0 = i0 := by
  unfold k0_pay1
  exact shapeCast_self _ _

theorem pay2_eq (i1 : Vec F S16 .i32) : k0_pay2 i1 = i1 := by
  unfold k0_pay2
  exact shapeCast_self _ _

theorem t28_apply (i0 i1 : Vec F S16 .i32) (p : Fin 16) : t28 i0 i1 (ix1 p) = 0#1 := by
  simp only [t28, k0_pay3, cmpi_apply, cmpi_ne_self]

/-- The first vector's flag at lane `p`: an earlier lane of it holds the same word. -/
theorem t201_iff (i0 i1 : Vec F S16 .i32) (p : Fin 16) :
    t201 i0 i1 (ix1 p) = 1#1 ↔ ∃ j : Fin 16, j < p ∧ i0 (ix1 j) = i0 (ix1 p) := by
  rw [t201_eq, foldl_stepLater, t28_apply, pay1_eq]
  simp only [mem_lanes16, true_and]
  constructor
  · rintro (h | ⟨j, he, hj⟩)
    · exact absurd h (by decide)
    · exact ⟨j, hj, he.symm⟩
  · rintro ⟨j, hj, he⟩
    exact Or.inr ⟨j, he.symm, hj⟩

/-- The second vector's flag at lane `p`: some lane of the first vector, or an earlier lane of the second, holds the
    same word. -/
theorem dupB_iff (i0 i1 : Vec F S16 .i32) (p : Fin 16) :
    dupB i0 i1 (ix1 p) = 1#1 ↔
      (∃ j : Fin 16, i0 (ix1 j) = i1 (ix1 p)) ∨ ∃ j : Fin 16, j < p ∧ i1 (ix1 j) = i1 (ix1 p) := by
  unfold dupB
  rw [foldl_stepLater, foldl_stepAny, t28_apply, pay1_eq, pay2_eq]
  simp only [mem_lanes16, true_and]
  constructor
  · rintro ((h | ⟨j, he⟩) | ⟨j, he, hj⟩)
    · exact absurd h (by decide)
    · exact Or.inl ⟨j, he.symm⟩
    · exact Or.inr ⟨j, hj, he.symm⟩
  · rintro (⟨j, he⟩ | ⟨j, hj, he⟩)
    · exact Or.inl (Or.inr ⟨j, he.symm⟩)
    · exact Or.inr ⟨j, he.symm, hj⟩

/-! ## The thirty-two words, first occurrences, and the weights -/

/-- The thirty-two words: the first vector's lanes, then the second's. -/
def ids (i0 i1 : Vec F S16 .i32) (k : Fin 32) : BitVec 32 :=
  if h : k.val < 16 then i0 (ix1 ⟨k.val, h⟩) else i1 (ix1 ⟨k.val - 16, by omega⟩)

/-- Entry `k` is a first occurrence: no earlier entry holds the same word. -/
def firstT (i0 i1 : Vec F S16 .i32) (k : Fin 32) : Prop :=
  ∀ k' : Fin 32, k' < k → ids i0 i1 k' ≠ ids i0 i1 k

open Classical in
/-- The 0/1 indicator of a first occurrence. -/
def wT (i0 i1 : Vec F S16 .i32) (k : Fin 32) : EReal := if firstT i0 i1 k then 1 else 0

theorem ids_lo (i0 i1 : Vec F S16 .i32) (k : Fin 32) (h : k.val < 16) : ids i0 i1 k = i0 (ix1 ⟨k.val, h⟩) :=
  dif_pos h

theorem ids_hi (i0 i1 : Vec F S16 .i32) (k : Fin 32) (h : ¬ k.val < 16) :
    ids i0 i1 k = i1 (ix1 ⟨k.val - 16, by omega⟩) :=
  dif_neg h

/-- Entry `p` of the first sixteen. -/
def lo (p : Fin 16) : Fin 32 := ⟨p.val, by omega⟩
/-- Entry `16 + p`. -/
def hi (p : Fin 16) : Fin 32 := ⟨16 + p.val, by omega⟩

theorem firstT_lo (i0 i1 : Vec F S16 .i32) (p : Fin 16) :
    firstT i0 i1 (lo p) ↔ ¬ ∃ j : Fin 16, j < p ∧ i0 (ix1 j) = i0 (ix1 p) := by
  have hp : ids i0 i1 (lo p) = i0 (ix1 p) := ids_lo i0 i1 (lo p) p.isLt
  constructor
  · rintro h ⟨j, hj, he⟩
    have hj' : lo j < lo p := hj
    refine h (lo j) hj' ?_
    rw [hp, ids_lo i0 i1 (lo j) j.isLt]
    exact he
  · intro h k' hk' he
    have hk16 : k'.val < 16 := lt_trans (show k'.val < p.val from hk') p.isLt
    apply h
    refine ⟨⟨k'.val, hk16⟩, hk', ?_⟩
    rw [hp, ids_lo i0 i1 k' hk16] at he
    exact he

theorem firstT_hi (i0 i1 : Vec F S16 .i32) (p : Fin 16) :
    firstT i0 i1 (hi p) ↔
      ¬ ((∃ j : Fin 16, i0 (ix1 j) = i1 (ix1 p)) ∨ ∃ j : Fin 16, j < p ∧ i1 (ix1 j) = i1 (ix1 p)) := by
  have hnp : ¬ (hi p).val < 16 := by show ¬ (16 + p.val < 16); omega
  have hp : ids i0 i1 (hi p) = i1 (ix1 p) := by
    rw [ids_hi i0 i1 (hi p) hnp]
    congr 2
    exact Fin.ext (show 16 + p.val - 16 = p.val by omega)
  constructor
  · rintro h (⟨j, he⟩ | ⟨j, hj, he⟩)
    · have hj' : lo j < hi p := by show j.val < 16 + p.val; omega
      refine h (lo j) hj' ?_
      rw [hp, ids_lo i0 i1 (lo j) j.isLt]
      exact he
    · have hj' : hi j < hi p := by show 16 + j.val < 16 + p.val; have : j.val < p.val := hj; omega
      have hnj : ¬ (hi j).val < 16 := by show ¬ (16 + j.val < 16); omega
      refine h (hi j) hj' ?_
      rw [hp, ids_hi i0 i1 (hi j) hnj]
      have : (⟨(hi j).val - 16, by have := (hi j).isLt; omega⟩ : Fin 16) = j :=
        Fin.ext (show 16 + j.val - 16 = j.val by omega)
      rw [this]
      exact he
  · intro h k' hk' he
    apply h
    rw [hp] at he
    by_cases hk16 : k'.val < 16
    · rw [ids_lo i0 i1 k' hk16] at he
      exact Or.inl ⟨⟨k'.val, hk16⟩, he⟩
    · rw [ids_hi i0 i1 k' hk16] at he
      refine Or.inr ⟨⟨k'.val - 16, by have := k'.isLt; omega⟩, ?_, he⟩
      show k'.val - 16 < p.val
      have : k'.val < 16 + p.val := hk'
      omega

/-! ## At the extended reals

The weight of entry `k` is the 0/1 indicator of "first occurrence": the flag of its lane says an earlier entry holds
the same word, and the weight is 0 where the flag is set and 1 elsewhere. -/

theorem wa_apply (i0 i1 : Vec Ideal S16 .i32) (p : Fin 16) : t335 i0 i1 (ix1 p) = wT i0 i1 (lo p) := by
  simp only [t335, k0_pay19, select_apply, broadcast_apply]
  unfold wT Scalar.select
  rw [Ideal.ofBits_def, Ideal.ofBits_def, Ideal.ofBits_zero_f32, Ideal.ofBits_one_f32]
  by_cases h : t201 i0 i1 (ix1 p) = (1 : BitVec 1)
  · rw [if_pos h, if_neg]
    rw [firstT_lo]
    exact not_not.mpr ((t201_iff i0 i1 p).mp h)
  · rw [if_neg h, if_pos]
    rw [firstT_lo]
    exact fun hh => h ((t201_iff i0 i1 p).mpr hh)

theorem wb_apply (i0 i1 : Vec Ideal S16 .i32) (p : Fin 16) : t338 i0 i1 (ix1 p) = wT i0 i1 (hi p) := by
  rw [t338_eq, select_apply, broadcast_apply, broadcast_apply]
  unfold wT Scalar.select
  rw [Ideal.ofBits_def, Ideal.ofBits_def, Ideal.ofBits_zero_f32, Ideal.ofBits_one_f32]
  by_cases h : dupB i0 i1 (ix1 p) = (1 : BitVec 1)
  · rw [if_pos h, if_neg]
    rw [firstT_hi]
    exact not_not.mpr ((dupB_iff i0 i1 p).mp h)
  · rw [if_neg h, if_pos]
    rw [firstT_hi]
    exact fun hh => h ((dupB_iff i0 i1 p).mpr hh)

/-! The thirty-two scalar weights: each is one lane of a weight vector. -/

theorem t340_eq (i0 i1 : Vec Ideal S16 .i32) : t340 i0 i1 = wT i0 i1 0 := by
  simp only [t340, k0_pay21, extract_slice]
  exact wa_apply i0 i1 0
theorem t342_eq (i0 i1 : Vec Ideal S16 .i32) : t342 i0 i1 = wT i0 i1 1 := by
  simp only [t342, k0_pay22, extract_slice]
  exact wa_apply i0 i1 1
theorem t344_eq (i0 i1 : Vec Ideal S16 .i32) : t344 i0 i1 = wT i0 i1 2 := by
  simp only [t344, k0_pay23, extract_slice]
  exact wa_apply i0 i1 2
theorem t346_eq (i0 i1 : Vec Ideal S16 .i32) : t346 i0 i1 = wT i0 i1 3 := by
  simp only [t346, k0_pay24, extract_slice]
  exact wa_apply i0 i1 3
theorem t348_eq (i0 i1 : Vec Ideal S16 .i32) : t348 i0 i1 = wT i0 i1 4 := by
  simp only [t348, k0_pay25, extract_slice]
  exact wa_apply i0 i1 4
theorem t350_eq (i0 i1 : Vec Ideal S16 .i32) : t350 i0 i1 = wT i0 i1 5 := by
  simp only [t350, k0_pay26, extract_slice]
  exact wa_apply i0 i1 5
theorem t352_eq (i0 i1 : Vec Ideal S16 .i32) : t352 i0 i1 = wT i0 i1 6 := by
  simp only [t352, k0_pay27, extract_slice]
  exact wa_apply i0 i1 6
theorem t354_eq (i0 i1 : Vec Ideal S16 .i32) : t354 i0 i1 = wT i0 i1 7 := by
  simp only [t354, t353, k0_pay29, k0_pay28, extract_slice]
  exact wa_apply i0 i1 7
theorem t356_eq (i0 i1 : Vec Ideal S16 .i32) : t356 i0 i1 = wT i0 i1 8 := by
  simp only [t356, k0_pay30, extract_slice]
  exact wa_apply i0 i1 8
theorem t358_eq (i0 i1 : Vec Ideal S16 .i32) : t358 i0 i1 = wT i0 i1 9 := by
  simp only [t358, k0_pay31, extract_slice]
  exact wa_apply i0 i1 9
theorem t360_eq (i0 i1 : Vec Ideal S16 .i32) : t360 i0 i1 = wT i0 i1 10 := by
  simp only [t360, k0_pay32, extract_slice]
  exact wa_apply i0 i1 10
theorem t362_eq (i0 i1 : Vec Ideal S16 .i32) : t362 i0 i1 = wT i0 i1 11 := by
  simp only [t362, k0_pay33, extract_slice]
  exact wa_apply i0 i1 11
theorem t364_eq (i0 i1 : Vec Ideal S16 .i32) : t364 i0 i1 = wT i0 i1 12 := by
  simp only [t364, k0_pay34, extract_slice]
  exact wa_apply i0 i1 12
theorem t366_eq (i0 i1 : Vec Ideal S16 .i32) : t366 i0 i1 = wT i0 i1 13 := by
  simp only [t366, k0_pay35, extract_slice]
  exact wa_apply i0 i1 13
theorem t368_eq (i0 i1 : Vec Ideal S16 .i32) : t368 i0 i1 = wT i0 i1 14 := by
  simp only [t368, k0_pay36, extract_slice]
  exact wa_apply i0 i1 14
theorem t370_eq (i0 i1 : Vec Ideal S16 .i32) : t370 i0 i1 = wT i0 i1 15 := by
  simp only [t370, k0_pay37, extract_slice]
  exact wa_apply i0 i1 15
theorem t372_eq (i0 i1 : Vec Ideal S16 .i32) : t372 i0 i1 = wT i0 i1 16 := by
  simp only [t372, k0_pay38, extract_slice]
  exact wb_apply i0 i1 0
theorem t374_eq (i0 i1 : Vec Ideal S16 .i32) : t374 i0 i1 = wT i0 i1 17 := by
  simp only [t374, k0_pay39, extract_slice]
  exact wb_apply i0 i1 1
theorem t376_eq (i0 i1 : Vec Ideal S16 .i32) : t376 i0 i1 = wT i0 i1 18 := by
  simp only [t376, k0_pay40, extract_slice]
  exact wb_apply i0 i1 2
theorem t378_eq (i0 i1 : Vec Ideal S16 .i32) : t378 i0 i1 = wT i0 i1 19 := by
  simp only [t378, k0_pay41, extract_slice]
  exact wb_apply i0 i1 3
theorem t380_eq (i0 i1 : Vec Ideal S16 .i32) : t380 i0 i1 = wT i0 i1 20 := by
  simp only [t380, k0_pay42, extract_slice]
  exact wb_apply i0 i1 4
theorem t382_eq (i0 i1 : Vec Ideal S16 .i32) : t382 i0 i1 = wT i0 i1 21 := by
  simp only [t382, k0_pay43, extract_slice]
  exact wb_apply i0 i1 5
theorem t384_eq (i0 i1 : Vec Ideal S16 .i32) : t384 i0 i1 = wT i0 i1 22 := by
  simp only [t384, k0_pay44, extract_slice]
  exact wb_apply i0 i1 6
theorem t386_eq (i0 i1 : Vec Ideal S16 .i32) : t386 i0 i1 = wT i0 i1 23 := by
  simp only [t386, k0_pay45, extract_slice]
  exact wb_apply i0 i1 7
theorem t388_eq (i0 i1 : Vec Ideal S16 .i32) : t388 i0 i1 = wT i0 i1 24 := by
  simp only [t388, k0_pay46, extract_slice]
  exact wb_apply i0 i1 8
theorem t390_eq (i0 i1 : Vec Ideal S16 .i32) : t390 i0 i1 = wT i0 i1 25 := by
  simp only [t390, k0_pay47, extract_slice]
  exact wb_apply i0 i1 9
theorem t392_eq (i0 i1 : Vec Ideal S16 .i32) : t392 i0 i1 = wT i0 i1 26 := by
  simp only [t392, k0_pay48, extract_slice]
  exact wb_apply i0 i1 10
theorem t394_eq (i0 i1 : Vec Ideal S16 .i32) : t394 i0 i1 = wT i0 i1 27 := by
  simp only [t394, k0_pay49, extract_slice]
  exact wb_apply i0 i1 11
theorem t396_eq (i0 i1 : Vec Ideal S16 .i32) : t396 i0 i1 = wT i0 i1 28 := by
  simp only [t396, k0_pay50, extract_slice]
  exact wb_apply i0 i1 12
theorem t398_eq (i0 i1 : Vec Ideal S16 .i32) : t398 i0 i1 = wT i0 i1 29 := by
  simp only [t398, k0_pay51, extract_slice]
  exact wb_apply i0 i1 13
theorem t400_eq (i0 i1 : Vec Ideal S16 .i32) : t400 i0 i1 = wT i0 i1 30 := by
  simp only [t400, k0_pay52, extract_slice]
  exact wb_apply i0 i1 14
theorem t402_eq (i0 i1 : Vec Ideal S16 .i32) : t402 i0 i1 = wT i0 i1 31 := by
  simp only [t402, k0_pay53, extract_slice]
  exact wb_apply i0 i1 15

/-- A sum over thirty-two entries, written out from the left. -/
theorem sum32 (f : Fin 32 → EReal) : ∑ k : Fin 32, f k =
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero, zero_add]
  rfl

/-- The partial count: the weights of entries 0 … 11, from the left. -/
theorem t413_eq (i0 i1 : Vec Ideal S16 .i32) :
    t413 i0 i1 = wT i0 i1 0 + wT i0 i1 1 + wT i0 i1 2 + wT i0 i1 3 + wT i0 i1 4 + wT i0 i1 5 + wT i0 i1 6 + wT i0 i1 7 + wT i0 i1 8 + wT i0 i1 9 + wT i0 i1 10 + wT i0 i1 11 := by
  have e : t413 i0 i1 = t340 i0 i1 + t342 i0 i1 + t344 i0 i1 + t346 i0 i1 + t348 i0 i1 + t350 i0 i1 + t352 i0 i1 + t354 i0 i1 + t356 i0 i1 + t358 i0 i1 + t360 i0 i1 + t362 i0 i1 := rfl
  rw [e, t340_eq, t342_eq, t344_eq, t346_eq, t348_eq, t350_eq, t352_eq, t354_eq, t356_eq, t358_eq, t360_eq, t362_eq]

/-- Every lane of the reciprocal vector is `1 / (1 · count)`, the count being the sum of the thirty-two weights. -/
theorem t438_apply (i0 i1 : Vec Ideal S16 .i32) (l : Fin 16) :
    t438 i0 i1 (ix1 l) = Ideal.div 1 (1 * ∑ k : Fin 32, wT i0 i1 k) := by
  have e : t438 i0 i1 (ix1 l) = Ideal.div (Ideal.ofBits .f32 0x3F800000#32)
      (Ideal.ofBits .f32 0x3F800000#32 * (t413 i0 i1 + t364 i0 i1 + t366 i0 i1 + t368 i0 i1 + t370 i0 i1 + t372 i0 i1 + t374 i0 i1 + t376 i0 i1 + t378 i0 i1 + t380 i0 i1 + t382 i0 i1 + t384 i0 i1 + t386 i0 i1 + t388 i0 i1 + t390 i0 i1 + t392 i0 i1 + t394 i0 i1 + t396 i0 i1 + t398 i0 i1 + t400 i0 i1 + t402 i0 i1)) := rfl
  rw [e, Ideal.ofBits_one_f32, t413_eq, t364_eq, t366_eq, t368_eq, t370_eq, t372_eq, t374_eq, t376_eq, t378_eq, t380_eq, t382_eq, t384_eq, t386_eq, t388_eq, t390_eq, t392_eq, t394_eq, t396_eq, t398_eq, t400_eq, t402_eq,
    sum32 (fun k => wT i0 i1 k)]

/-! ## The stored vectors, lane by lane

Each lane of the vector stored for lane group `v` is the weighted sum over the thirty-two entries of that lane of the
entries' rows, times the reciprocal of the count. Sums and products on the extended reals are read from the left
exactly as the tile computes them; no finiteness is used. -/

theorem stored0_ideal (i0 i1 : Vec Ideal S16 .i32) (ld : Fin 32 → Fin 8 → Vec Ideal S1x16 .f32) (l : Fin 16) :
    stored0 i0 i1 ld (ix1 l) =
      (∑ k : Fin 32, ld k 0 (ix2 0 l) * wT i0 i1 k) * Ideal.div 1 (1 * ∑ k : Fin 32, wT i0 i1 k) := by
  rw [sum32 (fun k => ld k 0 (ix2 0 l) * wT i0 i1 k), ← t438_apply i0 i1 l]
  simp only [stored0, t456, t461, t504, t546, t551, t594, k0_pay56, k0_pay57, k0_pay58, k0_pay59, k0_pay60, k0_pay61, k0_pay62, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored1_ideal (i0 i1 : Vec Ideal S16 .i32) (ld : Fin 32 → Fin 8 → Vec Ideal S1x16 .f32) (l : Fin 16) :
    stored1 i0 i1 ld (ix1 l) =
      (∑ k : Fin 32, ld k 1 (ix2 0 l) * wT i0 i1 k) * Ideal.div 1 (1 * ∑ k : Fin 32, wT i0 i1 k) := by
  rw [sum32 (fun k => ld k 1 (ix2 0 l) * wT i0 i1 k), ← t438_apply i0 i1 l]
  simp only [stored1, t639, t681, t684, t685, t729, t771, t774, t775, t819, k0_pay63, k0_pay64, k0_pay65, k0_pay66, k0_pay67, k0_pay68, k0_pay69, k0_pay70, k0_pay71, k0_pay72, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored2_ideal (i0 i1 : Vec Ideal S16 .i32) (ld : Fin 32 → Fin 8 → Vec Ideal S1x16 .f32) (l : Fin 16) :
    stored2 i0 i1 ld (ix1 l) =
      (∑ k : Fin 32, ld k 2 (ix2 0 l) * wT i0 i1 k) * Ideal.div 1 (1 * ∑ k : Fin 32, wT i0 i1 k) := by
  rw [sum32 (fun k => ld k 2 (ix2 0 l) * wT i0 i1 k), ← t438_apply i0 i1 l]
  simp only [stored2, t864, t906, t909, t954, t996, t999, k0_pay73, k0_pay74, k0_pay75, k0_pay76, k0_pay77, k0_pay78, k0_pay79, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored3_ideal (i0 i1 : Vec Ideal S16 .i32) (ld : Fin 32 → Fin 8 → Vec Ideal S1x16 .f32) (l : Fin 16) :
    stored3 i0 i1 ld (ix1 l) =
      (∑ k : Fin 32, ld k 3 (ix2 0 l) * wT i0 i1 k) * Ideal.div 1 (1 * ∑ k : Fin 32, wT i0 i1 k) := by
  rw [sum32 (fun k => ld k 3 (ix2 0 l) * wT i0 i1 k), ← t438_apply i0 i1 l]
  simp only [stored3, t1041, t1089, t1131, t1179, k0_pay80, k0_pay81, k0_pay82, k0_pay83, k0_pay84, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored4_ideal (i0 i1 : Vec Ideal S16 .i32) (ld : Fin 32 → Fin 8 → Vec Ideal S1x16 .f32) (l : Fin 16) :
    stored4 i0 i1 ld (ix1 l) =
      (∑ k : Fin 32, ld k 4 (ix2 0 l) * wT i0 i1 k) * Ideal.div 1 (1 * ∑ k : Fin 32, wT i0 i1 k) := by
  rw [sum32 (fun k => ld k 4 (ix2 0 l) * wT i0 i1 k), ← t438_apply i0 i1 l]
  simp only [stored4, t1222, t1223, t1266, t1308, t1313, t1356, t1398, t1403, k0_pay85, k0_pay86, k0_pay87, k0_pay88, k0_pay89, k0_pay90, k0_pay91, k0_pay92, k0_pay93, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored5_ideal (i0 i1 : Vec Ideal S16 .i32) (ld : Fin 32 → Fin 8 → Vec Ideal S1x16 .f32) (l : Fin 16) :
    stored5 i0 i1 ld (ix1 l) =
      (∑ k : Fin 32, ld k 5 (ix2 0 l) * wT i0 i1 k) * Ideal.div 1 (1 * ∑ k : Fin 32, wT i0 i1 k) := by
  rw [sum32 (fun k => ld k 5 (ix2 0 l) * wT i0 i1 k), ← t438_apply i0 i1 l]
  simp only [stored5, t1443, t1446, t1447, t1491, t1533, t1536, t1537, t1581, k0_pay94, k0_pay95, k0_pay96, k0_pay97, k0_pay98, k0_pay99, k0_pay100, k0_pay101, k0_pay102, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored6_ideal (i0 i1 : Vec Ideal S16 .i32) (ld : Fin 32 → Fin 8 → Vec Ideal S1x16 .f32) (l : Fin 16) :
    stored6 i0 i1 ld (ix1 l) =
      (∑ k : Fin 32, ld k 6 (ix2 0 l) * wT i0 i1 k) * Ideal.div 1 (1 * ∑ k : Fin 32, wT i0 i1 k) := by
  rw [sum32 (fun k => ld k 6 (ix2 0 l) * wT i0 i1 k), ← t438_apply i0 i1 l]
  simp only [stored6, t1626, t1668, t1671, t1716, t1758, t1761, k0_pay103, k0_pay104, k0_pay105, k0_pay106, k0_pay107, k0_pay108, k0_pay109, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]
theorem stored7_ideal (i0 i1 : Vec Ideal S16 .i32) (ld : Fin 32 → Fin 8 → Vec Ideal S1x16 .f32) (l : Fin 16) :
    stored7 i0 i1 ld (ix1 l) =
      (∑ k : Fin 32, ld k 7 (ix2 0 l) * wT i0 i1 k) * Ideal.div 1 (1 * ∑ k : Fin 32, wT i0 i1 k) := by
  rw [sum32 (fun k => ld k 7 (ix2 0 l) * wT i0 i1 k), ← t438_apply i0 i1 l]
  simp only [stored7, t1851, t1893, t1941, t1983, t1999, k0_pay110, k0_pay111, k0_pay112, k0_pay113, k0_pay114, mulf_apply, addf_apply, broadcast_apply,
    shapeCast_1a_a_apply, shapeCast_self, t340_eq, t342_eq, t344_eq, t346_eq, t348_eq, t350_eq, t352_eq, t354_eq, t356_eq, t358_eq, t360_eq, t362_eq, t364_eq, t366_eq, t368_eq, t370_eq, t372_eq, t374_eq, t376_eq, t378_eq, t380_eq, t382_eq, t384_eq, t386_eq, t388_eq, t390_eq, t392_eq, t394_eq, t396_eq, t398_eq, t400_eq, t402_eq]

/-- The vector stored for lane group `v`, lane by lane. -/
theorem stored_ideal (v : Fin 8) (i0 i1 : Vec Ideal S16 .i32) (ld : Fin 32 → Fin 8 → Vec Ideal S1x16 .f32)
    (lane : Fin 16) :
    stored (F := Ideal) v i0 i1 ld (ix1 lane) =
      (∑ k : Fin 32, ld k v (ix2 0 lane) * wT i0 i1 k) * Ideal.div 1 (1 * ∑ k : Fin 32, wT i0 i1 k) := by
  fin_cases v
  · exact stored0_ideal i0 i1 ld lane
  · exact stored1_ideal i0 i1 ld lane
  · exact stored2_ideal i0 i1 ld lane
  · exact stored3_ideal i0 i1 ld lane
  · exact stored4_ideal i0 i1 ld lane
  · exact stored5_ideal i0 i1 ld lane
  · exact stored6_ideal i0 i1 ld lane
  · exact stored7_ideal i0 i1 ld lane

end Cert.KernelIdeal.Tile

end
-- ==== Proof.Spec.lean ====
/-
  The function both programs compute, stated once over literal shapes and importing no program.

  For batch `b` the thirty-two words `tok (b, ·)` name positions of the sequence axis. A position is SELECTED when some
  entry names it; entry `k` is a FIRST occurrence when no earlier entry names the same position. The pooled value of
  column `c` is the sum of the hidden states at the selected positions divided by the number of selected positions:
  written over all 4096 positions with the 0/1 indicator of "selected" (`pooledRef`), or over the thirty-two entries
  with the 0/1 indicator of "first occurrence" and the reciprocal of their count (`pooledKer`). The two indicators
  pick each selected position exactly once, so the two sums agree term by term after re-indexing; the quotient by a
  positive whole number is the product with its reciprocal. The output layer is the same on both sides:
  `tanh (pooled · W + bias)`.
-/
import Idealize.ShloMosaic.PureOps.Ideal
import Idealize.ShloMosaic.Lib.ValueIdx

noncomputable section

open scoped BigOperators

namespace Cert.Spec

open Idealize.ShloMosaic Idealize.ShloMosaic.ValueIdx

abbrev SHid : Shape := ⟨3, ![4, 4096, 1024]⟩
abbrev STok : Shape := ⟨2, ![4, 32]⟩
abbrev SW : Shape := ⟨2, ![1024, 1024]⟩
abbrev SBias : Shape := ⟨1, ![1024]⟩
abbrev SOut : Shape := ⟨2, ![4, 1024]⟩

/-- Position `s` of batch `b` is named by some entry of the batch's list. -/
def sel (tok : STok.Idx → BitVec 32) (b : Fin 4) (s : Fin 4096) : Prop :=
  ∃ k : Fin 32, (tok (ix2 b k)).toNat = s.val

/-- Entry `k` of batch `b`'s list is the first one naming its position. -/
def first (tok : STok.Idx → BitVec 32) (b : Fin 4) (k : Fin 32) : Prop :=
  ∀ k' : Fin 32, k' < k → tok (ix2 b k') ≠ tok (ix2 b k)

open Classical in
/-- The 0/1 indicator of a selected position. -/
def mask (tok : STok.Idx → BitVec 32) (b : Fin 4) (s : Fin 4096) : EReal := if sel tok b s then 1 else 0

open Classical in
/-- The 0/1 indicator of a first occurrence. -/
def wgt (tok : STok.Idx → BitVec 32) (b : Fin 4) (k : Fin 32) : EReal := if first tok b k then 1 else 0

/-- Mean over the selected positions, as a masked sum over the whole sequence axis divided by the mask's sum. -/
def pooledRef (hid : SHid.Idx → EReal) (tok : STok.Idx → BitVec 32) (b : Fin 4) (c : Fin 1024) : EReal :=
  Ideal.div (∑ s : Fin 4096, hid (ix3 b s c) * mask tok b s) (∑ s : Fin 4096, mask tok b s)

/-- The hidden state an entry names: row `tok (b, k)` of batch `b` (row 0 when the word is out of range, which the
    precondition excludes). -/
def row (hid : SHid.Idx → EReal) (tok : STok.Idx → BitVec 32) (b : Fin 4) (k : Fin 32) (c : Fin 1024) : EReal :=
  if h : (tok (ix2 b k)).toNat < 4096 then hid (ix3 b ⟨(tok (ix2 b k)).toNat, h⟩ c) else hid (ix3 b 0 c)

/-- Mean over the selected positions, as a sum over the first occurrences times the reciprocal of their number. -/
def pooledKer (hid : SHid.Idx → EReal) (tok : STok.Idx → BitVec 32) (b : Fin 4) (c : Fin 1024) : EReal :=
  (∑ k : Fin 32, row hid tok b k c * wgt tok b k) * Ideal.div 1 (1 * ∑ k : Fin 32, wgt tok b k)

/-- The output layer: `tanh (pooled · W + bias)`, one output element. -/
def out (pooled : Fin 4 → Fin 1024 → EReal) (W : SW.Idx → EReal) (bias : SBias.Idx → EReal) (i : SOut.Idx) : EReal :=
  Ideal.tanh ((0 + ∑ k : Fin 1024, pooled (i 0) k * W (ix2 k (i 1))) + bias (ix1 (i 1)))

end Cert.Spec

end
-- ==== Proof.TileSpec.lean ====
/-
  From one tile's stored lanes to the specification's pooled mean.

  When the tile's thirty-two words are the batch's thirty-two entries seen through an injective map (the batch's row
  offset added to every entry), "first occurrence" among the words is "first occurrence" among the entries, so the
  tile's weights are the specification's. When moreover the loaded row entries are the hidden states the entries
  name, a stored lane is the specification's sum over the first occurrences times the reciprocal of their number.
-/
import proofs.«217236_g4415226380944_cont_8to1_c_873_25_alg».proof.Proof.TileValue
import proofs.«217236_g4415226380944_cont_8to1_c_873_25_alg».proof.Proof.Spec

noncomputable section

open scoped BigOperators

namespace Cert.KernelIdeal.Tile

open Idealize.ShloMosaic Idealize.ShloMosaic.ValueIdx Cert.KernelIdeal Cert.Spec

variable {F : FTy → Type} [FloatOps F]

/-- First occurrences among the tile's words are first occurrences among the batch's entries. -/
theorem firstT_iff_first (i0 i1 : Vec F S16 .i32) (tok : STok.Idx → BitVec 32) (b : Fin 4)
    (g : BitVec 32 → BitVec 32) (hg : Function.Injective g)
    (hids : ∀ k, ids i0 i1 k = g (tok (ix2 b k))) (k : Fin 32) :
    firstT i0 i1 k ↔ Cert.Spec.first tok b k := by
  unfold firstT Cert.Spec.first
  constructor
  · intro h k' hk' he
    exact h k' hk' (by rw [hids, hids, he])
  · intro h k' hk' he
    rw [hids, hids] at he
    exact h k' hk' (hg he)

/-- The tile's weights are the specification's. -/
theorem wT_eq_wgt (i0 i1 : Vec F S16 .i32) (tok : STok.Idx → BitVec 32) (b : Fin 4)
    (g : BitVec 32 → BitVec 32) (hg : Function.Injective g)
    (hids : ∀ k, ids i0 i1 k = g (tok (ix2 b k))) (k : Fin 32) :
    wT i0 i1 k = Cert.Spec.wgt tok b k := by
  have hiff := firstT_iff_first i0 i1 tok b g hg hids k
  unfold wT Cert.Spec.wgt
  by_cases h : firstT i0 i1 k
  · rw [if_pos h, if_pos (hiff.mp h)]
  · rw [if_neg h, if_neg (fun h' => h (hiff.mpr h'))]

/-- A stored lane is the specification's pooled value of its column. -/
theorem stored_eq_pooledKer (v : Fin 8) (i0 i1 : Vec Ideal S16 .i32) (ld : Fin 32 → Fin 8 → Vec Ideal S1x16 .f32)
    (lane : Fin 16) (hid : SHid.Idx → EReal) (tok : STok.Idx → BitVec 32) (b : Fin 4) (c : Fin 1024)
    (g : BitVec 32 → BitVec 32) (hg : Function.Injective g)
    (hids : ∀ k, ids i0 i1 k = g (tok (ix2 b k)))
    (hld : ∀ k : Fin 32, ld k v (ix2 0 lane) = Cert.Spec.row hid tok b k c) :
    stored (F := Ideal) v i0 i1 ld (ix1 lane) = Cert.Spec.pooledKer hid tok b c := by
  rw [stored_ideal]
  unfold Cert.Spec.pooledKer
  simp only [hld, wT_eq_wgt i0 i1 tok b g hg hids]

end Cert.KernelIdeal.Tile

end
-- ==== Proof.KTileSpec.lean ====
/-
  One tile's value is the specification's pooled mean on the tile's strip.

  The tile with number `w` serves batch `w / 8` and the 128 columns from `128 · (w mod 8)`. Its id row is the
  batch's thirty-two row ids, each the batch's entry plus `4096 ·` the batch number; adding that offset is injective
  on words, so equal row ids are equal entries and the tile's first occurrences are the batch's. The row the gather
  brings for entry `k` is the row of the table that entry's row id names, which is the hidden state at the position
  the entry names; read at the tile's columns, lane by lane, it is the specification's `row`.
-/
import proofs.«217236_g4415226380944_cont_8to1_c_873_25_alg».proof.Proof.KBodyVal
import proofs.«217236_g4415226380944_cont_8to1_c_873_25_alg».proof.Proof.TileSpec
import proofs.«217236_g4415226380944_cont_8to1_c_873_25_alg».proof.Proof.KPooled
import Idealize.ShloMosaic.Lib.ValueIdx
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "tblV" => (Memref.whole Cert.KernelIdeal.main_v0_scv : Memref Cert.KernelIdeal.sig Kind.scVector Space.hbm Cert.KernelIdeal.S16384x1024 EltTy.f32)
local notation "gidV" => (Memref.whole Cert.KernelIdeal.main_v6_scv : Memref Cert.KernelIdeal.sig Kind.scVector Space.hbm Cert.KernelIdeal.S4x32 EltTy.i32)
local notation "outV" => (Memref.whole Cert.KernelIdeal.main_v7_scv : Memref Cert.KernelIdeal.sig Kind.scVector Space.hbm Cert.KernelIdeal.S4x1024 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)
local notation "sO" => (Memref.whole Cert.KernelIdeal.cc0_scratch2 : Memref Cert.KernelIdeal.sig Kind.scVector Space.vmem Cert.KernelIdeal.S128 EltTy.f32)

open Idealize.ShloMosaic.ValueIdx

section Tile

variable (d : Dev nD) (L : grid0.Coords)

/-- The id row's offsets in closed form: the row is the tile's number divided by eight. -/
theorem k0_off1_eq : ∀ i : grid0.Coords, k0_off1 i = ![(2 * (i 1).val + (i 0).val) / 8, 0] := by decide +kernel

/-- The batch the tile serves. -/
def tB (L : grid0.Coords) : Fin 4 := ⟨(wid L).val / 8, by have := (wid L).isLt; omega⟩

omit [FloatOps F] in
/-- The id row is the batch's row of the id array. -/
theorem idRow_apply (gid : Buf (Elt F) (gLoc d)) (y : S32.Idx) :
    idRow d L gid y = gid (ix2 (tB L) (y 0)) := by
  have e : idRow d L gid y = gid ((gRowK L).view.emb y) := (View.read_apply _ _).trans (cast_eq _ _)
  rw [e]
  congr 1
  have hr : Shape.reshapeEquiv (squeezes_S1x32_S32).numel_eq y = (ix2 (0 : Fin 1) (y 0) : S1x32.Idx) :=
    Shape.reshapeEquiv_eq_of_rowMajor _ (by
      rw [Shape.rowMajor_val_two, Shape.rowMajor_val_one]
      show 0 * 32 + (y 0).val = (y 0).val
      omega)
  show (Rect.unit (s := S4x32) (k0_off1 L) S1x32.size (k0_off1_inb L)).emb (Shape.reshapeEquiv (squeezes_S1x32_S32).numel_eq y) = _
  rw [hr]
  funext a
  match a with
  | ⟨0, _⟩ =>
    refine Fin.ext ?_
    rw [Rect.emb_apply]
    show k0_off1 L 0 + 1 * 0 = (wid L).val / 8
    rw [k0_off1_eq]
    show (2 * (L 1).val + (L 0).val) / 8 + 1 * 0 = (2 * (L 1).val + (L 0).val) / 8
    omega
  | ⟨1, _⟩ =>
    refine Fin.ext ?_
    rw [Rect.emb_apply]
    show k0_off1 L 1 + 1 * (y 0).val = (y 0).val
    rw [k0_off1_eq]
    show 0 + 1 * (y 0).val = (y 0).val
    omega

omit [FloatOps F] in
theorem tI0_apply (gid : Buf (Elt F) (gLoc d)) (p : Fin 16) :
    tI0 d L gid (ix1 p) = gid (ix2 (tB L) ⟨p.val, by have := p.isLt; omega⟩) := by
  have h : tI0 d L gid (ix1 p) = idRow d L gid (ix1 (⟨p.val, by have := p.isLt; omega⟩ : Fin 32)) := by
    show idRow d L gid _ = idRow d L gid _
    congr 1
    funext a
    match a with
    | ⟨0, _⟩ => exact Fin.ext (by show 0 + 1 * p.val = p.val; omega)
  rw [h, idRow_apply]

omit [FloatOps F] in
theorem tI1_apply (gid : Buf (Elt F) (gLoc d)) (p : Fin 16) :
    tI1 d L gid (ix1 p) = gid (ix2 (tB L) ⟨16 + p.val, by have := p.isLt; omega⟩) := by
  have h : tI1 d L gid (ix1 p) = idRow d L gid (ix1 (⟨16 + p.val, by have := p.isLt; omega⟩ : Fin 32)) := by
    show idRow d L gid _ = idRow d L gid _
    congr 1
    funext a
    match a with
    | ⟨0, _⟩ => exact Fin.ext (by show 16 + 1 * p.val = 16 + p.val; omega)
  rw [h, idRow_apply]

/-- The tile's thirty-two words are the batch's thirty-two row ids. -/
theorem ids_tile (gid : Buf (Elt F) (gLoc d)) (k : Fin 32) :
    Cert.KernelIdeal.Tile.ids (tI0 d L gid) (tI1 d L gid) k = gid (ix2 (tB L) k) := by
  by_cases h : k.val < 16
  · rw [Cert.KernelIdeal.Tile.ids_lo _ _ k h, tI0_apply]
  · rw [Cert.KernelIdeal.Tile.ids_hi _ _ k h, tI1_apply]
    congr 2
    exact Fin.ext (by show 16 + (k.val - 16) = k.val; omega)

/-- The column slice's offsets: row 0, column `128 · (w mod 8)` (the generated closed form, at the tile's number). -/
theorem off2_val (L : grid0.Coords) : k0_off2 L 0 = 0 ∧ k0_off2 L 1 = 128 * ((wid L).val % 8) := by
  rw [k0_off2_eq]
  exact ⟨rfl, rfl⟩

omit [FloatOps F] in
/-- Entry `k` of the row list is the batch's `k`-th row id. -/
theorem rows_val (gid : Buf (Elt F) (gLoc d)) (hpre : IdsOK d gid) (k : Fin 32) :
    (SparseCore.rows (si := S32) (o := 32) (z := 16384) ((sI).view.read (Elt F) (idRow d L gid)) (by decide)
        (fun x => idRow_in_range d L gid hpre x) k).val
      = (gid (ix2 (tB L) k)).toNat := by
  show ((sI).view.read (Elt F) (idRow d L gid) (S32.rowMajor.symm (k.cast _))).toNat = _
  have hk : S32.rowMajor.symm (k.cast (by decide : 32 = S32.numel)) = ix1 k := by
    rw [Equiv.symm_apply_eq]
    exact Fin.ext (by rw [Shape.rowMajor_val_one]; rfl)
  rw [hk]
  show (idRow d L gid (ix1 k)).toNat = _
  rw [idRow_apply]

/-- A loaded piece, lane by lane: the table's row that entry `k`'s row id names, at the tile's column `16 v + l`. -/
theorem tLd_apply (tbl : Buf (Elt F) (tLoc d)) (gid : Buf (Elt F) (gLoc d)) (hpre : IdsOK d gid) (k : Fin 32) (v : Fin 8)
    (l : Fin 16) :
    tLd d L tbl gid hpre k v (ix2 0 l)
      = tbl (ix2 ⟨(gid (ix2 (tB L) k)).toNat, hpre _⟩
          ⟨128 * ((wid L).val % 8) + (16 * v.val + l.val), by
            have := (wid L).isLt; have := v.isLt; have := l.isLt; omega⟩) := by
  have hv := v.isLt
  have hl := l.isLt
  -- the load reads the gathered rows at (k, 16 v + l)
  have h1 : tLd d L tbl gid hpre k v (ix2 0 l)
      = tRows d L tbl gid hpre (ix2 k ⟨16 * v.val + l.val, by omega⟩) := by
    unfold tLd
    rw [View.readCov_eq_canon']
    have hidx : (Rect.unit (s := S32x128) ![k.val, 16 * v.val] S1x16.size (inb_ld k v)).toLoadRect.idx (ix2 0 l)
        = (Rect.whole S32x128).emb (ix2 k ⟨16 * v.val + l.val, by omega⟩) := by
      rw [Rect.emb_whole_apply]
      funext a
      match a with
      | ⟨0, _⟩ => exact Fin.ext (by show k.val + 1 * 0 = k.val; omega)
      | ⟨1, _⟩ => exact Fin.ext (by show 16 * v.val + 1 * l.val = 16 * v.val + l.val; omega)
    show View.canon _ (_) = _
    rw [hidx]
    exact View.canon_cons_emb _ _ _ _
  rw [h1]
  -- the gathered row is the table slice's row that the id names
  unfold tRows SparseCore.gatherPayload
  rw [View.read_apply]
  refine (cast_eq _ _).trans ?_
  congr 1
  funext a
  match a with
  | ⟨0, _⟩ =>
    refine Fin.ext ?_
    show k0_off2 L 0 + 1 * _ = (gid (ix2 (tB L) k)).toNat
    rw [(off2_val L).1]
    have hX := congrArg Fin.val (Shape.Gathers.idx_axis gathers_S16384x128_S32x128
      (SparseCore.rows ((sI).view.read (Elt F) (idRow d L gid)) (by decide) (fun x => idRow_in_range d L gid hpre x)) (ix2 k ⟨16 * v.val + l.val, by omega⟩))
    have hR := rows_val d L gid hpre k
    exact (by intro a b h; omega : ∀ a b : ℕ, a = b → 0 + 1 * a = b) _ _ (hX.trans hR)
  | ⟨1, _⟩ =>
    refine Fin.ext ?_
    show k0_off2 L 1 + 1 * _ = 128 * ((wid L).val % 8) + (16 * v.val + l.val)
    rw [(off2_val L).2]
    have hX := Shape.Gathers.idx_of_ne gathers_S16384x128_S32x128
      (SparseCore.rows ((sI).view.read (Elt F) (idRow d L gid)) (by decide) (fun x => idRow_in_range d L gid hpre x)) (ix2 k ⟨16 * v.val + l.val, by omega⟩) ⟨1, by decide⟩ (by decide)
    exact (by intro a b c h; omega : ∀ a b c : ℕ, a = c → b + 1 * a = b + c) _ _ _ hX

end Tile

/-! ## At the extended reals -/

section Spec

variable (d : Dev nD) (L : grid0.Coords)

/-- One tile's value is the specification's pooled mean on the tile's strip: batch `w / 8`, column
    `128 · (w mod 8) + j`. -/
theorem tileVal_spec (tbl : Buf (Elt Ideal) (tLoc d)) (gid : Buf (Elt Ideal) (gLoc d)) (hpre : IdsOK d gid)
    (hid : Cert.Spec.SHid.Idx → EReal) (tok : Cert.Spec.STok.Idx → BitVec 32)
    (htbl : ∀ (b : Fin 4) (s : Fin 4096) (c : Fin 1024),
      tbl (ix2 ⟨4096 * b.val + s.val, by have := b.isLt; have := s.isLt; omega⟩ c) = hid (ix3 b s c))
    (hgid : ∀ (b : Fin 4) (k : Fin 32), (gid (ix2 b k)).toNat = (tok (ix2 b k)).toNat + 4096 * b.val)
    (hrange : ∀ j, (tok j).toNat < 4096) (j : S128.Idx) :
    tileVal (F := Ideal) d L tbl gid hpre j
      = Cert.Spec.pooledKer hid tok (tB L)
          ⟨128 * ((wid L).val % 8) + (j 0).val, by have := (j 0).isLt; have h : (j 0).val < 128 := (j 0).isLt; omega⟩ := by
  have hj : (j 0).val < 128 := (j 0).isLt
  unfold tileVal
  refine Cert.KernelIdeal.Tile.stored_eq_pooledKer _ (tI0 d L gid) (tI1 d L gid) (tLd d L tbl gid hpre) _ hid tok (tB L) _
    (fun x => x + BitVec.ofNat 32 (4096 * (tB L).val)) (add_left_injective _) ?_ ?_
  · intro k
    rw [ids_tile]
    apply BitVec.eq_of_toNat_eq
    rw [hgid, BitVec.toNat_add, BitVec.toNat_ofNat]
    have h1 := hrange (ix2 (tB L) k)
    have h2 := (tB L).isLt
    omega
  · intro k
    rw [tLd_apply]
    unfold Cert.Spec.row
    rw [dif_pos (hrange _)]
    rw [← htbl (tB L) ⟨(tok (ix2 (tB L) k)).toNat, hrange _⟩ _]
    congr 2
    · exact Fin.ext (by show (gid (ix2 (tB L) k)).toNat = 4096 * (tB L).val + (tok (ix2 (tB L) k)).toNat; rw [hgid]; omega)
    · exact Fin.ext (by show 128 * ((wid L).val % 8) + (16 * ((j 0).val / 16) + (j 0).val % 16) = 128 * ((wid L).val % 8) + (j 0).val; omega)

/-- The whole result is the specification's pooled mean, index by index. -/
theorem poK_spec (tbl : Buf (Elt Ideal) (tLoc d)) (gid : Buf (Elt Ideal) (gLoc d)) (hpre : IdsOK d gid)
    (hid : Cert.Spec.SHid.Idx → EReal) (tok : Cert.Spec.STok.Idx → BitVec 32)
    (htbl : ∀ (b : Fin 4) (s : Fin 4096) (c : Fin 1024),
      tbl (ix2 ⟨4096 * b.val + s.val, by have := b.isLt; have := s.isLt; omega⟩ c) = hid (ix3 b s c))
    (hgid : ∀ (b : Fin 4) (k : Fin 32), (gid (ix2 b k)).toNat = (tok (ix2 b k)).toNat + 4096 * b.val)
    (hrange : ∀ j, (tok j).toNat < 4096) (i : S4x1024.Idx) :
    poK (F := Ideal) d tbl gid hpre i = Cert.Spec.pooledKer hid tok (i 0) (i 1) := by
  have h0 : (i 0).val < 4 := (i 0).isLt
  have h1 : (i 1).val < 1024 := (i 1).isLt
  have hw : (wid (tileOf i)).val = 8 * (i 0).val + (i 1).val / 128 := by
    show 2 * ((8 * (i 0).val + (i 1).val / 128) / 2) + (8 * (i 0).val + (i 1).val / 128) % 2 = _
    omega
  show tileVal (F := Ideal) d (tileOf i) tbl gid hpre _ = _
  rw [tileVal_spec d (tileOf i) tbl gid hpre hid tok htbl hgid hrange]
  congr 1
  · exact Fin.ext (by show (wid (tileOf i)).val / 8 = (i 0).val; rw [hw]; omega)
  · exact Fin.ext (by show 128 * ((wid (tileOf i)).val % 8) + (i 1).val % 128 = (i 1).val; rw [hw]; omega)

end Spec

end Cert.Proof.KI

end
-- ==== Proof.SpecLaw.lean ====
/-
  The two arrangements of the pooled mean agree.

  For a fixed batch the thirty-two entries name positions of the sequence axis. Sending an entry to the position it
  names maps the first occurrences one-to-one onto the selected positions: two distinct first occurrences cannot name
  the same position (the later one would not be first), and every selected position is named by a least entry, which
  is a first occurrence. Hence for every `g` the sum of `g` over the first occurrences' positions equals the sum of
  `g` over the selected positions; with 0/1 indicators this is an identity between a sum over the entries and a sum
  over the whole sequence axis, valid on the extended reals without any finiteness (`x * 1 = x`, `x * 0 = 0`).
  Taking `g` constant one, the number of selected positions is the number of first occurrences: a whole number, at
  least one because entry 0 is always first. The quotient by a nonzero real is the product with its reciprocal.
-/
import Mathlib
import proofs.«217236_g4415226380944_cont_8to1_c_873_25_alg».proof.Proof.Spec

noncomputable section

open scoped BigOperators

namespace Cert.Spec

open Idealize.ShloMosaic Idealize.ShloMosaic.ValueIdx

/-- The position entry `k` of batch `b` names, as an index of the sequence axis. -/
def pos (tok : STok.Idx → BitVec 32) (hrange : ∀ j, (tok j).toNat < 4096) (b : Fin 4) (k : Fin 32) : Fin 4096 :=
  ⟨(tok (ix2 b k)).toNat, hrange _⟩

/-- A position named by some entry is named by a first occurrence (descend to earlier equal entries). -/
theorem exists_first (tok : STok.Idx → BitVec 32) (b : Fin 4) (s : Fin 4096) :
    ∀ (n : ℕ) (k : Fin 32), k.val = n → (tok (ix2 b k)).toNat = s.val →
      ∃ k0 : Fin 32, first tok b k0 ∧ (tok (ix2 b k0)).toNat = s.val := by
  intro n
  induction n using Nat.strong_induction_on with
  | _ n ih =>
    intro k hk hs
    by_cases hf : first tok b k
    · exact ⟨k, hf, hs⟩
    · have hf' : ∃ k' : Fin 32, k' < k ∧ tok (ix2 b k') = tok (ix2 b k) := by
        by_contra hcon
        exact hf (fun k' hk' he => hcon ⟨k', hk', he⟩)
      obtain ⟨k', hlt, heq⟩ := hf'
      have hlt' : k'.val < n := by have := Fin.lt_def.mp hlt; omega
      exact ih k'.val hlt' k' rfl (by rw [heq]; exact hs)

/-- Entry 0 is a first occurrence. -/
theorem first_zero (tok : STok.Idx → BitVec 32) (b : Fin 4) : first tok b 0 := by
  intro k' hk'
  exact absurd hk' (Fin.not_lt_zero k')

/-- Re-indexing: a sum over the entries weighted by "first occurrence" is the sum over the sequence axis weighted
    by "selected". -/
theorem sum_first_eq_sum_sel (tok : STok.Idx → BitVec 32) (hrange : ∀ j, (tok j).toNat < 4096) (b : Fin 4)
    (g : Fin 4096 → EReal) :
    ∑ k : Fin 32, g (pos tok hrange b k) * wgt tok b k = ∑ s : Fin 4096, g s * mask tok b s := by
  classical
  have hl : ∀ k, g (pos tok hrange b k) * wgt tok b k
      = if first tok b k then g (pos tok hrange b k) else 0 := by
    intro k; unfold wgt; split_ifs <;> simp
  have hr : ∀ s, g s * mask tok b s = if sel tok b s then g s else 0 := by
    intro s; unfold mask; split_ifs <;> simp
  simp only [hl, hr]
  rw [← Finset.sum_filter, ← Finset.sum_filter]
  refine Finset.sum_bij (fun k _ => pos tok hrange b k) ?_ ?_ ?_ ?_
  · intro k hk
    simp only [Finset.mem_filter, Finset.mem_univ, true_and] at hk ⊢
    exact ⟨k, rfl⟩
  · intro k1 h1 k2 h2 he
    simp only [Finset.mem_filter, Finset.mem_univ, true_and] at h1 h2
    have hv : (tok (ix2 b k1)).toNat = (tok (ix2 b k2)).toNat := by
      have h := congrArg (fun p : Fin 4096 => p.val) he
      exact h
    have ht : tok (ix2 b k1) = tok (ix2 b k2) := BitVec.eq_of_toNat_eq hv
    rcases lt_trichotomy k1 k2 with h | h | h
    · exact absurd ht (h2 k1 h)
    · exact h
    · exact absurd ht.symm (h1 k2 h)
  · intro s hs
    simp only [Finset.mem_filter, Finset.mem_univ, true_and] at hs
    obtain ⟨k, hk⟩ := hs
    obtain ⟨k0, hf, hk0⟩ := exists_first tok b s k.val k rfl hk
    exact ⟨k0, by simp [hf], Fin.ext hk0⟩
  · intro k _; rfl

/-- The real coercion of a finite sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The number of first occurrences is a nonzero real. -/
theorem count_real (tok : STok.Idx → BitVec 32) (b : Fin 4) :
    ∃ n : ℝ, n ≠ 0 ∧ ∑ k : Fin 32, wgt tok b k = (n : EReal) := by
  classical
  refine ⟨∑ k : Fin 32, (if first tok b k then (1 : ℝ) else 0), ?_, ?_⟩
  · have h1 : (1 : ℝ) ≤ ∑ k : Fin 32, (if first tok b k then (1 : ℝ) else 0) := by
      have h := Finset.single_le_sum (f := fun k : Fin 32 => if first tok b k then (1 : ℝ) else 0)
        (fun k _ => by split_ifs <;> norm_num) (Finset.mem_univ (0 : Fin 32))
      simpa [first_zero tok b] using h
    exact ne_of_gt (by linarith)
  · rw [coe_sum]
    refine Finset.sum_congr rfl ?_
    intro k _; unfold wgt; split_ifs <;> simp

/-- The sum over the first occurrences times the reciprocal of their number is the masked sum over the sequence
    axis divided by the mask's sum. -/
theorem pooledKer_eq_pooledRef (hid : SHid.Idx → EReal) (tok : STok.Idx → BitVec 32)
    (hfin : ∀ j, ∃ x : ℝ, hid j = (x : EReal)) (hrange : ∀ j, (tok j).toNat < 4096) (b : Fin 4) (c : Fin 1024) :
    pooledKer hid tok b c = pooledRef hid tok b c := by
  have hrow : ∀ k, row hid tok b k c = hid (ix3 b (pos tok hrange b k) c) := by
    intro k; unfold row; rw [dif_pos (hrange _)]; rfl
  have hA : ∑ k : Fin 32, hid (ix3 b (pos tok hrange b k) c) * wgt tok b k
      = ∑ s : Fin 4096, hid (ix3 b s c) * mask tok b s :=
    sum_first_eq_sum_sel tok hrange b (fun s => hid (ix3 b s c))
  have hN : ∑ k : Fin 32, wgt tok b k = ∑ s : Fin 4096, mask tok b s := by
    simpa using sum_first_eq_sum_sel tok hrange b (fun _ => 1)
  obtain ⟨n, hn, hcnt⟩ := count_real tok b
  unfold pooledKer pooledRef
  simp only [hrow]
  rw [hA, ← hN, hcnt, one_mul, Ideal.div_coe hn, Ideal.div_coe hn, one_mul]

end Cert.Spec

end
-- ==== Proof.KHeadVal.lean ====
/- The output layer's stored value at the ideal instance, read index by index: tanh of the pooled row times the weight
   matrix plus the bias, as the specification states it. -/
import proofs.«217236_g4415226380944_cont_8to1_c_873_25_alg».proof.Proof.KSetup
import proofs.«217236_g4415226380944_cont_8to1_c_873_25_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.Proof.KI

open Cert.KernelIdeal Cert.KernelIdeal.Gen

open Idealize.ShloMosaic Idealize.ShloMosaic.ValueIdx

/-- The matrix product's dimension numbers. -/
abbrev kd : DotDims S4x1024 S1024x1024 S4x1024 := dot_S4x1024_S1024x1024_S4x1024_1_0_0_1_n_n

theorem kd_lhs0 (i : S4x1024.Idx) (q : kd.contr.Idx) : (kd.lhsIdx i q 0).val = (i 0).val := by
  unfold DotDims.lhsIdx
  rw [dif_neg (show ¬(0 : Fin S4x1024.rank) ∈ kd.lhsBatch by decide), dif_pos (show (0 : Fin S4x1024.rank) ∈ kd.lhsNonContracting by decide)]
  rfl
theorem kd_lhs1 (i : S4x1024.Idx) (q : kd.contr.Idx) : (kd.lhsIdx i q 1).val = (q ⟨0, by decide⟩).val :=
  kd.lhsIdx_val_of_single rfl i q
theorem kd_rhs0 (i : S4x1024.Idx) (q : kd.contr.Idx) : (kd.rhsIdx i q 0).val = (q ⟨0, by decide⟩).val :=
  kd.rhsIdx_val_of_single rfl i q
theorem kd_rhs1 (i : S4x1024.Idx) (q : kd.contr.Idx) : (kd.rhsIdx i q 1).val = (i 1).val := by
  unfold DotDims.rhsIdx
  rw [dif_neg (show ¬(1 : Fin S1024x1024.rank) ∈ kd.rhsBatch by decide), dif_pos (show (1 : Fin S1024x1024.rank) ∈ kd.rhsNonContracting by decide)]
  rfl

/-- The matrix product into a zero accumulator at (p, q): the sum over the contracted axis. -/
theorem kd_matmul_apply (G : FVec Ideal S4x1024 .f32) (W : FVec Ideal S1024x1024 .f32) (p : Fin 4) (q : Fin 1024) :
    matmul kd none G W (constant S4x1024 .f32 0x00000000#32) (ix2 p q) = ∑ k : Fin 1024, G (ix2 p k) * W (ix2 k q) := by
  simp only [matmul]
  rw [Ideal.matmul_constant_zero_apply, ← Equiv.sum_comp (contrEquiv1 kd 1024 rfl rfl).symm]
  refine Finset.sum_congr rfl fun k _ => ?_
  have hk := contrEquiv1_symm_val kd 1024 rfl rfl k
  have el : kd.lhsIdx (ix2 p q) ((contrEquiv1 kd 1024 rfl rfl).symm k) = ix2 p k := funext fun a => Fin.ext (by
    match a with
    | ⟨0, _⟩ => exact kd_lhs0 _ _
    | ⟨1, _⟩ => exact (kd_lhs1 _ _).trans hk)
  have er : kd.rhsIdx (ix2 p q) ((contrEquiv1 kd 1024 rfl rfl).symm k) = ix2 k q := funext fun a => Fin.ext (by
    match a with
    | ⟨0, _⟩ => exact (kd_rhs0 _ _).trans hk
    | ⟨1, _⟩ => exact kd_rhs1 _ _)
  rw [el, er]

/-- The vector tanh at an index is the ideal instance's tanh of the element. -/
theorem tanh_apply {s : Shape} {φ : FTy} (x : FVec Ideal s φ) (i : s.Idx) : tanh x i = Ideal.tanh (x i) := rfl

/-- tanh of the product plus the bias row repeated down the rows, at the ideal instance, is the specification's output
    layer of the pooled values, the weights and the bias row. -/
theorem head_apply' (pv : FVec Ideal S4x1024 .f32) (wv : FVec Ideal S1024x1024 .f32) (bv : FVec Ideal S1x1024 .f32) (i : S4x1024.Idx) :
    tanh (F := Ideal) (addf
        (matmul kd none pv wv (constant S4x1024 .f32 0x00000000#32))
        (broadcastTo S4x1024 bv broadcasts_S1x1024_S4x1024)) i
      = Cert.Spec.out (fun b c => pv (ix2 b c)) wv (fun c => bv (ix2 (0 : Fin 1) (c 0))) i := by
  obtain ⟨p, q, rfl⟩ : ∃ (p : Fin 4) (q : Fin 1024), i = ix2 p q := ⟨i 0, i 1, eq_ix2 i⟩
  unfold Cert.Spec.out
  show _ = Ideal.tanh ((0 + ∑ k : Fin 1024, pv (ix2 p k) * wv (ix2 k q)) + bv (ix2 (0 : Fin 1) q))
  rw [tanh_apply, addf_apply, kd_matmul_apply, broadcastTo_1b_ab_apply, zero_add]

/-- The same with the two operands passed through shape casts to their own shapes, as the output layer's body
    spells them. -/
theorem head_apply (pv : FVec Ideal S4x1024 .f32) (wv : FVec Ideal S1024x1024 .f32) (bv : FVec Ideal S1x1024 .f32) (i : S4x1024.Idx) :
    tanh (F := Ideal) (addf
        (matmul kd none (shapeCast S4x1024 pv shapeCasts_S4x1024_S4x1024 : FVec Ideal S4x1024 .f32) wv
          (constant S4x1024 .f32 0x00000000#32))
        (broadcastTo S4x1024 (shapeCast S1x1024 bv shapeCasts_S1x1024_S1x1024 : FVec Ideal S1x1024 .f32) broadcasts_S1x1024_S4x1024)) i
      = Cert.Spec.out (fun b c => pv (ix2 b c)) wv (fun c => bv (ix2 (0 : Fin 1) (c 0))) i := by
  rw [shapeCast_self, shapeCast_self]
  exact head_apply' pv wv bv i

end Cert.Proof.KI

end
-- ==== Proof.RefTerm.lean ====
/- The reference's result as a pure term of its four argument arrays, at the ideal instance, in stages: the index
   tensor of the scatter, the 0/1 mask, the masked mean, the three guards of nan_to_num, the linear layer. -/
import proofs.«217236_g4415226380944_cont_8to1_c_873_25_alg».proof.Proof.Gen.ReferenceIdeal
import Idealize.ShloMosaic.PureOps.Ideal

noncomputable section

namespace Cert.ReferenceIdeal.RefRun

open Cert.ReferenceIdeal Cert.ReferenceIdeal.Gen Idealize.ShloMosaic

/-! ## The composed term, in stages -/

/-- The batch coordinate of every scatter index: the column 0,1,2,3 after the negative-index normalisation
    `x < 0 ? x + 4 : x`. -/
def batchCol : IVec S4x1 32 :=
  select
    (cmpi .slt (broadcastInDim S4x1 ![0] bcast_S4_S4x1_0 (iotaInDim S4 32 0)) (broadcastInDim S4x1 ![] bcast_S_S4x1 (constantI S_ 32 0#32)))
    (addi (broadcastInDim S4x1 ![0] bcast_S4_S4x1_0 (iotaInDim S4 32 0)) (broadcastInDim S4x1 ![] bcast_S_S4x1 (constantI S_ 32 4#32)))
    (broadcastInDim S4x1 ![0] bcast_S4_S4x1_0 (iotaInDim S4 32 0))

/-- The token coordinate of every scatter index: the token ids after the normalisation `t < 0 ? t + 4096 : t`. -/
def tokNorm (a1 : IVec S4x32 32) : IVec S4x32 32 :=
  select
    (cmpi .slt a1 (broadcastInDim S4x32 ![] bcast_S_S4x32 (constantI S_ 32 0#32)))
    (addi a1 (broadcastInDim S4x32 ![] bcast_S_S4x32 (constantI S_ 32 4096#32)))
    a1

/-- The scatter's index tensor [4,32,2]: at (b,k) the pair (batch coordinate, token coordinate). -/
def idxT (a1 : IVec S4x32 32) : IVec S4x32x2 32 :=
  concatenate S4x32x2 2
    [⟨S4x32x1, broadcastInDim S4x32x1 ![0, 1] bcast_S4x32_S4x32x1_0_1 (broadcastInDim S4x32 ![0, 1] bcast_S4x1_S4x32_0_1 batchCol)⟩,
     ⟨S4x32x1, broadcastInDim S4x32x1 ![0, 1] bcast_S4x32_S4x32x1_0_1 (tokNorm a1)⟩]
    concatenates_S4x32x1_S4x32x1_S4x32x2_d2

/-- The mask [4,4096,1024]: all zeros, overwritten by ones along the last axis at every indexed (batch, token). -/
def maskT (a1 : IVec S4x32 32) : FVec Ideal S4x4096x1024 .f32 :=
  Host.scatter scatter_S4x4096x1024_S4x32x2_S4x32x1024_2_01_01_2 (fun _ b => b)
    (broadcastInDim S4x4096x1024 ![] bcast_S_S4x4096x1024 (constant S_ .f32 0x00000000#32))
    (idxT a1)
    (broadcastInDim S4x32x1024 ![] bcast_S_S4x32x1024 (constant S_ .f32 0x3F800000#32))

/-- The masked sum over the token axis divided by the mask's sum over the token axis. -/
def meanT (a0 : FVec Ideal S4x4096x1024 .f32) (a1 : IVec S4x32 32) : FVec Ideal S4x1024 .f32 :=
  Host.divf
    (Host.reduceAdd (mulf a0 (maskT a1)) (constant S_ .f32 0x00000000#32) reducesTo_S4x4096x1024_S4x1024_d1 h_S_)
    (Host.reduceAdd (maskT a1) (constant S_ .f32 0x00000000#32) reducesTo_S4x4096x1024_S4x1024_d1 h_S_)

/-- nan_to_num's first guard: where x ≠ x, zero. -/
def guardNan (x : FVec Ideal S4x1024 .f32) : FVec Ideal S4x1024 .f32 :=
  select (cmpf .une x x) (broadcastInDim S4x1024 ![] bcast_S_S4x1024 (constant S_ .f32 0x00000000#32)) x

/-- nan_to_num's second guard: where the value is +∞, the largest finite float. -/
def guardPos (x : FVec Ideal S4x1024 .f32) : FVec Ideal S4x1024 .f32 :=
  select (cmpf .oeq x (broadcastInDim S4x1024 ![] bcast_S_S4x1024 (constant S_ .f32 0x7F800000#32)))
    (broadcastInDim S4x1024 ![] bcast_S_S4x1024 (constant S_ .f32 0x7F7FFFFF#32)) x

/-- nan_to_num's third guard: where the value is −∞, the least finite float. -/
def guardNeg (x : FVec Ideal S4x1024 .f32) : FVec Ideal S4x1024 .f32 :=
  select (cmpf .oeq x (broadcastInDim S4x1024 ![] bcast_S_S4x1024 (constant S_ .f32 0xFF800000#32)))
    (broadcastInDim S4x1024 ![] bcast_S_S4x1024 (constant S_ .f32 0xFF7FFFFF#32)) x

/-- The bias [1024] as a [4,1024] array. -/
def biasT (a3 : FVec Ideal S1024 .f32) : FVec Ideal S4x1024 .f32 :=
  broadcastInDim S4x1024 ![0, 1] bcast_S1x1024_S4x1024_0_1 (broadcastInDim S1x1024 ![1] bcast_S1024_S1x1024_1 a3)

/-- The reference's result as a pure term of its four arguments. -/
def refTerm (a0 : FVec Ideal S4x4096x1024 .f32) (a1 : IVec S4x32 32) (a2 : FVec Ideal S1024x1024 .f32) (a3 : FVec Ideal S1024 .f32) :
    FVec Ideal S4x1024 .f32 :=
  Host.tanh (addf
    (Host.dotGeneral dot_S4x1024_S1024x1024_S4x1024_1_0_0_1_n_n none (guardNeg (guardPos (guardNan (meanT a0 a1)))) a2)
    (biasT a3))

end Cert.ReferenceIdeal.RefRun

end
-- ==== Proof.RefMask.lean ====
/- The 0/1 mask the reference scatters, read at an index: under the range hypothesis on the token ids the entry at
   (b, s, c) is one when some entry of batch b's list names position s, else zero. -/
import proofs.«217236_g4415226380944_cont_8to1_c_873_25_alg».proof.Proof.RefTerm
import proofs.«217236_g4415226380944_cont_8to1_c_873_25_alg».proof.Proof.Spec
import Idealize.ShloMosaic.Lib.ValueIdx
import Idealize.ShloMosaic.Lib.IdealHost
import Idealize.ShloMosaic.Lib.Pipeline.Value

namespace Cert.ReferenceIdeal.RefValue

open Cert.ReferenceIdeal Cert.ReferenceIdeal.Gen Cert.ReferenceIdeal.RefRun Idealize.ShloMosaic Idealize.ShloMosaic.ValueIdx

/-- A left fold whose step, at a key naming an entry, overwrites that entry and, at a key naming none, changes
    nothing: an entry no key of the list names keeps its initial value. -/
theorem foldl_overwrite_of_not_mem {ι κ α : Type} [DecidableEq ι] (step : (ι → α) → κ → ι → α) (g : κ → Option ι) (c : α)
    (hsome : ∀ r n i, g n = some i → ∀ j, step r n j = if j = i then c else r j)
    (hnone : ∀ r n, g n = none → step r n = r) :
    ∀ (L : List κ) (x : ι → α) (i' : ι), (¬∃ n ∈ L, g n = some i') → (L.foldl step x) i' = x i'
  | [], _, _, _ => rfl
  | a :: L, x, i', h => by
    rw [List.foldl_cons, foldl_overwrite_of_not_mem step g c hsome hnone L _ i'
      (fun ⟨n, hn, e⟩ => h ⟨n, List.mem_cons_of_mem _ hn, e⟩)]
    cases hga : g a with
    | none => rw [hnone x a hga]
    | some i =>
      rw [hsome x a i hga, if_neg]
      intro hi
      exact h ⟨a, List.mem_cons_self, by rw [hga, hi]⟩

/-- The same fold: an entry some key of the list names ends at the value written. -/
theorem foldl_overwrite_of_mem {ι κ α : Type} [DecidableEq ι] (step : (ι → α) → κ → ι → α) (g : κ → Option ι) (c : α)
    (hsome : ∀ r n i, g n = some i → ∀ j, step r n j = if j = i then c else r j)
    (hnone : ∀ r n, g n = none → step r n = r) :
    ∀ (L : List κ) (x : ι → α) (i' : ι), (∃ n ∈ L, g n = some i') → (L.foldl step x) i' = c
  | [], _, _, h => by obtain ⟨n, hn, _⟩ := h; exact absurd hn (by simp)
  | a :: L, x, i', h => by
    rw [List.foldl_cons]
    by_cases hL : ∃ n ∈ L, g n = some i'
    · exact foldl_overwrite_of_mem step g c hsome hnone L _ i' hL
    · obtain ⟨n, hn, e⟩ := h
      rcases List.mem_cons.mp hn with rfl | hn
      · rw [foldl_overwrite_of_not_mem step g c hsome hnone L _ i' hL, hsome x n i' e, if_pos rfl]
      · exact absurd ⟨n, hn, e⟩ hL

/-- A scatter whose body returns the update, all of whose updates are `c`: an entry some update index lands on
    ends at `c`. -/
theorem scatter_set_of_mem {α : Type} {s si u : Shape} {w : Nat} (d : ScatterDims s si u) (x : s.Idx → α) (idx : IVec si w)
    (upd : u.Idx → α) (c : α) (hupd : ∀ j, upd j = c) (i' : s.Idx) (h : ∃ j : u.Idx, d.resultIdx? j idx = some i') :
    Host.scatter d (fun _ b => b) x idx upd i' = c := by
  unfold Host.scatter
  refine foldl_overwrite_of_mem _ (fun n => d.resultIdx? (u.rowMajor.symm n) idx) c ?_ ?_ _ _ _ ?_
  · intro r n i hg j
    dsimp only
    rw [hg]
    dsimp only
    rw [hupd]
  · intro r n hg
    dsimp only
    rw [hg]
  · obtain ⟨j, hj⟩ := h
    exact ⟨u.rowMajor j, List.mem_finRange _, by rw [Equiv.symm_apply_apply, hj]⟩

/-- The same scatter: an entry no update index lands on keeps the operand's value. -/
theorem scatter_set_of_not_mem {α : Type} {s si u : Shape} {w : Nat} (d : ScatterDims s si u) (x : s.Idx → α) (idx : IVec si w)
    (upd : u.Idx → α) (c : α) (hupd : ∀ j, upd j = c) (i' : s.Idx) (h : ∀ j : u.Idx, d.resultIdx? j idx ≠ some i') :
    Host.scatter d (fun _ b => b) x idx upd i' = x i' := by
  unfold Host.scatter
  refine foldl_overwrite_of_not_mem _ (fun n => d.resultIdx? (u.rowMajor.symm n) idx) c ?_ ?_ _ _ _ ?_
  · intro r n i hg j
    dsimp only
    rw [hg]
    dsimp only
    rw [hupd]
  · intro r n hg
    dsimp only
    rw [hg]
  · rintro ⟨n, -, e⟩
    exact h _ e

/-- The batch coordinate column holds 0, 1, 2, 3: the normalisation leaves a word that is not negative. -/
theorem batchCol_apply (b : Fin 4) : batchCol (ix2 b (0 : Fin 1)) = BitVec.ofNat 32 b.val := by
  fin_cases b <;> decide

/-- A token id below 4096 is not negative as a signed word, so the normalisation leaves it. -/
theorem tokNorm_apply (a1 : IVec S4x32 32) (j : S4x32.Idx) (h : (a1 j).toNat < 4096) : tokNorm a1 j = a1 j := by
  unfold tokNorm
  rw [select_apply]
  have hc : cmpi .slt a1 (broadcastInDim S4x32 ![] bcast_S_S4x32 (constantI S_ 32 0#32)) j = 0#1 := by
    show IntOp.cmpi .slt (a1 j) 0#32 = 0#1
    unfold IntOp.cmpi
    have : (a1 j).slt 0#32 = false := by
      rw [BitVec.slt]
      have h1 : (a1 j).toInt = ((a1 j).toNat : Int) := by
        rw [BitVec.toInt_eq_toNat_cond]; rw [if_pos (by omega)]
      simp only [BitVec.toInt_zero, h1]
      simp
    simp only [this]; rfl
  rw [hc, select_zero]

/-- The scatter's index tensor at (b, k, 0): the batch coordinate b. -/
theorem idxT_apply0 (a1 : IVec S4x32 32) (b : Fin 4) (k : Fin 32) :
    idxT a1 (ix3 b k (0 : Fin 2)) = BitVec.ofNat 32 b.val := by
  unfold idxT
  rw [concatenate_pair_apply_left (t := S4x32x2) (s₁ := S4x32x1) (s₂ := S4x32x1) (2 : Fin 3) _ _ concatenates_S4x32x1_S4x32x1_S4x32x2_d2 (ix3 b k (0 : Fin 2)) rfl
    (ix3 b k (0 : Fin 1)) (fun a => by match a with | ⟨0, _⟩ => rfl | ⟨1, _⟩ => rfl | ⟨2, _⟩ => rfl)]
  rw [broadcastInDim_apply _ _ _ _ (ix2 b k) (fun a => by match a with | ⟨0, _⟩ => rfl | ⟨1, _⟩ => rfl),
    broadcastInDim_apply _ _ _ _ (ix2 b (0 : Fin 1)) (fun a => by match a with | ⟨0, _⟩ => rfl | ⟨1, _⟩ => rfl),
    batchCol_apply]

/-- The scatter's index tensor at (b, k, 1): the normalised token id. -/
theorem idxT_apply1 (a1 : IVec S4x32 32) (b : Fin 4) (k : Fin 32) :
    idxT a1 (ix3 b k (1 : Fin 2)) = tokNorm a1 (ix2 b k) := by
  unfold idxT
  rw [concatenate_pair_apply_right (t := S4x32x2) (s₁ := S4x32x1) (s₂ := S4x32x1) (2 : Fin 3) _ _ concatenates_S4x32x1_S4x32x1_S4x32x2_d2 (ix3 b k (1 : Fin 2)) rfl rfl
    (ix3 b k (0 : Fin 1)) (fun a ha => by match a with | ⟨0, _⟩ => rfl | ⟨1, _⟩ => rfl | ⟨2, _⟩ => exact absurd rfl ha) rfl]
  rw [broadcastInDim_apply _ _ _ _ (ix2 b k) (fun a => by match a with | ⟨0, _⟩ => rfl | ⟨1, _⟩ => rfl)]

/-- The scatter's dimension numbers. -/
abbrev sd : ScatterDims S4x4096x1024 S4x32x2 S4x32x1024 := scatter_S4x4096x1024_S4x32x2_S4x32x1024_2_01_01_2

theorem start0 (idx : IVec S4x32x2 32) (p : Fin 4) (q : Fin 32) (r : Fin 1024) :
    sd.start (ix3 p q r) idx (0 : Fin 3) = (idx (ix3 p q (0 : Fin 2))).toInt := by
  unfold ScatterDims.start
  rw [dif_pos (by decide)]
  congr 2
  funext a
  match a with
  | ⟨0, _⟩ => rfl
  | ⟨1, _⟩ => rfl
  | ⟨2, _⟩ => rfl

theorem start1 (idx : IVec S4x32x2 32) (p : Fin 4) (q : Fin 32) (r : Fin 1024) :
    sd.start (ix3 p q r) idx (1 : Fin 3) = (idx (ix3 p q (1 : Fin 2))).toInt := by
  unfold ScatterDims.start
  rw [dif_pos (by decide)]
  congr 2
  funext a
  match a with
  | ⟨0, _⟩ => rfl
  | ⟨1, _⟩ => rfl
  | ⟨2, _⟩ => rfl

theorem start2 (idx : IVec S4x32x2 32) (j : S4x32x1024.Idx) : sd.start j idx (2 : Fin 3) = 0 := by
  unfold ScatterDims.start
  rw [dif_neg (by decide)]

theorem window0 (j : S4x32x1024.Idx) : sd.window j (0 : Fin 3) = 0 := by
  unfold ScatterDims.window
  rw [dif_neg (by decide)]
theorem window1 (j : S4x32x1024.Idx) : sd.window j (1 : Fin 3) = 0 := by
  unfold ScatterDims.window
  rw [dif_neg (by decide)]
theorem window2 (p : Fin 4) (q : Fin 32) (r : Fin 1024) : sd.window (ix3 p q r) (2 : Fin 3) = r.val := by
  unfold ScatterDims.window
  rw [dif_pos (by decide)]
  rfl

/-- Where update index (p, q, r) lands, when its batch word reads `p` and its token word reads `t`: at (p, t, r). -/
theorem resultIdx_eq (idx : IVec S4x32x2 32) (p : Fin 4) (q : Fin 32) (r : Fin 1024) (t : Fin 4096)
    (h0 : (idx (ix3 p q (0 : Fin 2))).toInt = (p.val : Int))
    (h1 : (idx (ix3 p q (1 : Fin 2))).toInt = (t.val : Int)) :
    sd.resultIdx? (ix3 p q r) idx = some (ix3 p t r) := by
  have hs : ∀ a : Fin 3, sd.start (ix3 p q r) idx a + (sd.window (ix3 p q r) a : Int) = ((ix3 p t r a).val : Int) := by
    intro a
    match a with
    | ⟨0, _⟩ => rw [show (⟨0, by omega⟩ : Fin 3) = 0 from rfl, start0, window0, h0]; simp
    | ⟨1, _⟩ => rw [show (⟨1, by omega⟩ : Fin 3) = 1 from rfl, start1, window1, h1]; simp
    | ⟨2, _⟩ => rw [show (⟨2, by omega⟩ : Fin 3) = 2 from rfl, start2, window2]; simp
  unfold ScatterDims.resultIdx?
  rw [dif_pos (fun a => by
    rw [hs a]; exact ⟨Int.natCast_nonneg _, by exact_mod_cast (ix3 p t r a).isLt⟩)]
  congr 1
  funext a
  apply Fin.ext
  show (sd.start (ix3 p q r) idx a + (sd.window (ix3 p q r) a : Int)).toNat = _
  rw [hs a]; simp

/-- A word below 2³¹ reads the same signed and unsigned. -/
theorem toInt_of_lt (x : BitVec 32) (h : x.toNat < 4096) : x.toInt = (x.toNat : Int) := by
  rw [BitVec.toInt_eq_toNat_cond, if_pos (by omega)]

/-- Under the range hypothesis update index (p, q, r) lands at (p, token id of (p, q), r). -/
theorem resultIdx_idxT (a1 : IVec S4x32 32) (hrange : ∀ j, (a1 j).toNat < 4096) (p : Fin 4) (q : Fin 32) (r : Fin 1024) :
    sd.resultIdx? (ix3 p q r) (idxT a1) = some (ix3 p ⟨(a1 (ix2 p q)).toNat, hrange _⟩ r) := by
  refine resultIdx_eq _ p q r _ ?_ ?_
  · have hp := p.isLt
    have hn : (BitVec.ofNat 32 p.val).toNat = p.val := by rw [BitVec.toNat_ofNat]; omega
    rw [idxT_apply0, toInt_of_lt _ (by rw [hn]; omega), hn]
  · rw [idxT_apply1, tokNorm_apply _ _ (hrange _), toInt_of_lt _ (hrange _)]

/-- The mask at (b, s, c): one when some entry of batch b's list names position s, else zero. -/
theorem maskT_apply (a1 : IVec S4x32 32) (hrange : ∀ j, (a1 j).toNat < 4096) (b : Fin 4) (s : Fin 4096) (c : Fin 1024) :
    maskT a1 (ix3 b s c) = Cert.Spec.mask a1 b s := by
  have hU : ∀ j : S4x32x1024.Idx,
      broadcastInDim S4x32x1024 ![] bcast_S_S4x32x1024 (constant (F := Ideal) S_ .f32 0x3F800000#32) j = (1 : EReal) := by
    intro j
    rw [broadcastInDim_scalar_apply, constant_apply, Ideal.ofBits_one_f32]
  have hX : broadcastInDim S4x4096x1024 ![] bcast_S_S4x4096x1024 (constant (F := Ideal) S_ .f32 0x00000000#32) (ix3 b s c) = (0 : EReal) := by
    rw [broadcastInDim_scalar_apply, constant_apply, Ideal.ofBits_zero_f32]
  unfold maskT Cert.Spec.mask
  by_cases h : Cert.Spec.sel a1 b s
  · rw [if_pos h]
    obtain ⟨k, hk⟩ := h
    refine scatter_set_of_mem sd _ _ _ (1 : EReal) hU _ ⟨ix3 b k c, ?_⟩
    rw [resultIdx_idxT a1 hrange]
    congr 2
    exact Fin.ext hk
  · rw [if_neg h]
    refine (scatter_set_of_not_mem sd _ _ _ (1 : EReal) hU _ ?_).trans hX
    intro j e
    obtain ⟨p, q, r, rfl⟩ : ∃ (p : Fin 4) (q : Fin 32) (r : Fin 1024), j = ix3 p q r := ⟨_, _, _, eq_ix3 _⟩
    rw [resultIdx_idxT a1 hrange] at e
    have e' := Option.some.inj e
    have e0 : p = b := congrFun e' (0 : Fin 3)
    have e1 := congrArg Fin.val (congrFun e' (1 : Fin 3))
    apply h
    refine ⟨q, ?_⟩
    rw [← e0]
    exact e1

end Cert.ReferenceIdeal.RefValue
-- ==== Proof.RefValue.lean ====
/- The reference's composed term read index by index at the ideal instance: the masked mean is the specification's
   (the mask read at an index, the two host sums as finite sums over the token axis, the host quotient), the three
   guards of nan_to_num leave a real number unchanged, the host product with one contracted axis is a finite sum,
   the bias is broadcast over the rows, and the host tanh is the ideal one. Last, what the precondition says of the
   hidden states (real numbers) and of the token ids (below 4096). -/
import proofs.«217236_g4415226380944_cont_8to1_c_873_25_alg».proof.Proof.RefMask
import proofs.«217236_g4415226380944_cont_8to1_c_873_25_alg».proof.Proof.Spec
import proofs.«217236_g4415226380944_cont_8to1_c_873_25_alg».proof.Proof.Gen.Pre_input_domain
import Idealize.ShloMosaic.Lib.ValueIdx
import Idealize.ShloMosaic.Lib.IdealHost
import Idealize.ShloMosaic.Lib.Pipeline.Value
import Idealize.ShloMosaic.Lib.ReduceAll
import Idealize.ShloMosaic.Lib.Affine
import Idealize.ShloMosaic.PureOps.Ideal.Laws

open scoped BigOperators

namespace Cert.ReferenceIdeal.RefValue

open Cert.ReferenceIdeal Cert.ReferenceIdeal.Gen Cert.ReferenceIdeal.RefRun Idealize.ShloMosaic Idealize.ShloMosaic.ValueIdx

/-! ## Sums of reals inside the extended reals -/

/-- A finite sum of real numbers, summed in the extended reals, is the real sum. -/
theorem sum_coe {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The mean over the selected positions is a real number: the numerator is a finite sum of reals, the denominator
    counts at least the position the batch's first entry names. -/
theorem pooledRef_real (hid : Cert.Spec.SHid.Idx → EReal) (tok : Cert.Spec.STok.Idx → BitVec 32)
    (hfin : ∀ j, ∃ x : ℝ, hid j = (x : EReal)) (hrange : ∀ j, (tok j).toNat < 4096) (b : Fin 4) (c : Fin 1024) :
    ∃ r : ℝ, Cert.Spec.pooledRef hid tok b c = (r : EReal) := by
  classical
  choose g hg using hfin
  have hm : ∀ s, Cert.Spec.mask tok b s = (((if Cert.Spec.sel tok b s then 1 else 0 : ℝ)) : EReal) := by
    intro s
    unfold Cert.Spec.mask
    by_cases h : Cert.Spec.sel tok b s
    · rw [if_pos h, if_pos h]; rfl
    · rw [if_neg h, if_neg h]; rfl
  have hnum : ∑ s : Fin 4096, hid (ix3 b s c) * Cert.Spec.mask tok b s
      = ((∑ s : Fin 4096, g (ix3 b s c) * (if Cert.Spec.sel tok b s then 1 else 0 : ℝ) : ℝ) : EReal) := by
    rw [← sum_coe]
    refine Finset.sum_congr rfl fun s _ => ?_
    rw [hg, hm, EReal.coe_mul]
  have hden : ∑ s : Fin 4096, Cert.Spec.mask tok b s
      = ((∑ s : Fin 4096, (if Cert.Spec.sel tok b s then 1 else 0 : ℝ) : ℝ) : EReal) := by
    rw [← sum_coe]
    exact Finset.sum_congr rfl fun s _ => hm s
  have hpos : (0 : ℝ) < ∑ s : Fin 4096, (if Cert.Spec.sel tok b s then 1 else 0 : ℝ) := by
    have hs0 : Cert.Spec.sel tok b ⟨(tok (ix2 b (0 : Fin 32))).toNat, hrange _⟩ := ⟨0, rfl⟩
    have h1 : (1 : ℝ) ≤ ∑ s : Fin 4096, (if Cert.Spec.sel tok b s then 1 else 0 : ℝ) := by
      have := Finset.single_le_sum (f := fun s : Fin 4096 => (if Cert.Spec.sel tok b s then 1 else 0 : ℝ))
        (fun s _ => by split_ifs <;> norm_num) (Finset.mem_univ (⟨(tok (ix2 b (0 : Fin 32))).toNat, hrange _⟩ : Fin 4096))
      simpa [hs0] using this
    linarith
  unfold Cert.Spec.pooledRef Ideal.div
  rw [hnum, hden, if_neg (by exact_mod_cast hpos.ne'), ← EReal.coe_inv, ← EReal.coe_mul]
  exact ⟨_, rfl⟩

/-! ## The two infinities' bit patterns -/

theorem ofBits_pos_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-! ## The guards of nan_to_num at a real number -/

theorem guardNan_apply (x : FVec Ideal S4x1024 .f32) (i : S4x1024.Idx) : guardNan x i = x i := by
  unfold guardNan
  rw [select_apply, cmpf_apply, Ideal.cmpf_def]
  have : Ideal.cmp .une (x i) (x i) = 0#1 := by simp [Ideal.cmp]
  rw [this, select_zero]

theorem guardPos_apply (x : FVec Ideal S4x1024 .f32) (i : S4x1024.Idx) (r : ℝ) (h : x i = (r : EReal)) : guardPos x i = x i := by
  unfold guardPos
  rw [select_apply, cmpf_apply, Ideal.cmpf_def, broadcastInDim_scalar_apply, constant_apply, ofBits_pos_inf, h]
  have : Ideal.cmp .oeq (r : EReal) ⊤ = 0#1 := by simp [Ideal.cmp]
  rw [this, select_zero]

theorem guardNeg_apply (x : FVec Ideal S4x1024 .f32) (i : S4x1024.Idx) (r : ℝ) (h : x i = (r : EReal)) : guardNeg x i = x i := by
  unfold guardNeg
  rw [select_apply, cmpf_apply, Ideal.cmpf_def, broadcastInDim_scalar_apply, constant_apply, ofBits_neg_inf, h]
  have : Ideal.cmp .oeq (r : EReal) ⊥ = 0#1 := by simp [Ideal.cmp]
  rw [this, select_zero]

/-! ## The masked mean at an index -/

/-- The reference's masked mean at (b, c), given the mask read at an index, is the specification's. -/
theorem meanT_apply (a0 : FVec Ideal S4x4096x1024 .f32) (a1 : IVec S4x32 32)
    (hmask : ∀ (b : Fin 4) (s : Fin 4096) (c : Fin 1024), maskT a1 (ix3 b s c) = Cert.Spec.mask a1 b s)
    (b : Fin 4) (c : Fin 1024) :
    meanT a0 a1 (ix2 b c) = Cert.Spec.pooledRef a0 a1 b c := by
  have hred : S4x4096x1024.Reduces [1] S4x1024 := by decide
  have hlift : ∀ k : Fin 4096, hred.lift (ix2 b c) k = ix3 b k c := fun k => funext fun a => by
    match a with
    | ⟨0, _⟩ => rfl
    | ⟨1, _⟩ => rfl
    | ⟨2, _⟩ => rfl
  unfold meanT Cert.Spec.pooledRef
  rw [hostDivf_apply, hostReduceAdd_apply, hostReduceAdd_apply, Ideal.hostReduceAdd_single _ hred,
    Ideal.hostReduceAdd_single _ hred, constant_apply, Ideal.ofBits_zero_f32, zero_add, zero_add]
  refine congrArg₂ Ideal.div ?_ ?_
  · refine Finset.sum_congr rfl fun k _ => ?_
    rw [hlift k, mulf_apply, hmask b k c]
  · refine Finset.sum_congr rfl fun k _ => ?_
    rw [hlift k, hmask b k c]

/-! ## The linear layer at an index -/

/-- The dot's dimension numbers. -/
abbrev dd : DotDims S4x1024 S1024x1024 S4x1024 := dot_S4x1024_S1024x1024_S4x1024_1_0_0_1_n_n

theorem lhs0 (i : S4x1024.Idx) (q : dd.contr.Idx) : (dd.lhsIdx i q 0).val = (i 0).val := by
  unfold DotDims.lhsIdx
  rw [dif_neg (show ¬(0 : Fin S4x1024.rank) ∈ dd.lhsBatch by decide), dif_pos (show (0 : Fin S4x1024.rank) ∈ dd.lhsNonContracting by decide)]
  rfl
theorem lhs1 (i : S4x1024.Idx) (q : dd.contr.Idx) : (dd.lhsIdx i q 1).val = (q ⟨0, by decide⟩).val :=
  dd.lhsIdx_val_of_single rfl i q
theorem rhs0 (i : S4x1024.Idx) (q : dd.contr.Idx) : (dd.rhsIdx i q 0).val = (q ⟨0, by decide⟩).val :=
  dd.rhsIdx_val_of_single rfl i q
theorem rhs1 (i : S4x1024.Idx) (q : dd.contr.Idx) : (dd.rhsIdx i q 1).val = (i 1).val := by
  unfold DotDims.rhsIdx
  rw [dif_neg (show ¬(1 : Fin S1024x1024.rank) ∈ dd.rhsBatch by decide), dif_pos (show (1 : Fin S1024x1024.rank) ∈ dd.rhsNonContracting by decide)]
  rfl

/-- The host's product at (p, q): the sum over the contracted axis. -/
theorem dot_apply (G : FVec Ideal S4x1024 .f32) (W : FVec Ideal S1024x1024 .f32) (p : Fin 4) (q : Fin 1024) :
    Host.dotGeneral dd none G W (ix2 p q) = ∑ k : Fin 1024, G (ix2 p k) * W (ix2 k q) := by
  simp only [Host.dotGeneral]
  rw [Ideal.dotGeneral_apply, ← Equiv.sum_comp (contrEquiv1 dd 1024 rfl rfl).symm]
  refine Finset.sum_congr rfl fun k _ => ?_
  have hk := contrEquiv1_symm_val dd 1024 rfl rfl k
  have el : dd.lhsIdx (ix2 p q) ((contrEquiv1 dd 1024 rfl rfl).symm k) = ix2 p k := funext fun a => Fin.ext (by
    match a with
    | ⟨0, _⟩ => exact lhs0 _ _
    | ⟨1, _⟩ => exact (lhs1 _ _).trans hk)
  have er : dd.rhsIdx (ix2 p q) ((contrEquiv1 dd 1024 rfl rfl).symm k) = ix2 k q := funext fun a => Fin.ext (by
    match a with
    | ⟨0, _⟩ => exact (rhs0 _ _).trans hk
    | ⟨1, _⟩ => exact rhs1 _ _)
  rw [el, er]

/-- The bias broadcast over the four rows, at (p, q). -/
theorem biasT_apply (a3 : FVec Ideal S1024 .f32) (p : Fin 4) (q : Fin 1024) : biasT a3 (ix2 p q) = a3 (ix1 q) := by
  unfold biasT
  rw [broadcastInDim_apply _ _ _ _ (ix2 (0 : Fin 1) q) (fun a => by match a with | ⟨0, _⟩ => rfl | ⟨1, _⟩ => rfl),
    broadcastInDim_apply _ _ _ _ (ix1 q) (fun a => by match a with | ⟨0, _⟩ => rfl)]

/-! ## The whole term -/

/-- The host's tanh at an index is the ideal instance's tanh of the element. -/
theorem hostTanh_apply {s : Shape} {φ : FTy} (x : FVec Ideal s φ) (i : s.Idx) : Host.tanh x i = Ideal.tanh (x i) := rfl

/-- The reference's composed term is the specification's output layer of the masked mean, given the mask read at an
    index, the hidden states real and the token ids in range. -/
theorem refTerm_eq_of_mask (a0 : FVec Ideal S4x4096x1024 .f32) (a1 : IVec S4x32 32) (a2 : FVec Ideal S1024x1024 .f32)
    (a3 : FVec Ideal S1024 .f32)
    (hmask : ∀ (b : Fin 4) (s : Fin 4096) (c : Fin 1024), maskT a1 (ix3 b s c) = Cert.Spec.mask a1 b s)
    (hfin : ∀ j, ∃ x : ℝ, a0 j = (x : EReal)) (hrange : ∀ j, (a1 j).toNat < 4096) :
    refTerm a0 a1 a2 a3 = fun i => Cert.Spec.out (Cert.Spec.pooledRef a0 a1) a2 a3 i := by
  have hG : ∀ (p : Fin 4) (k : Fin 1024),
      guardNeg (guardPos (guardNan (meanT a0 a1))) (ix2 p k) = Cert.Spec.pooledRef a0 a1 p k := by
    intro p k
    obtain ⟨r, hr⟩ := pooledRef_real a0 a1 hfin hrange p k
    have h1 : guardNan (meanT a0 a1) (ix2 p k) = (r : EReal) := by
      rw [guardNan_apply, meanT_apply a0 a1 hmask, hr]
    have h2 : guardPos (guardNan (meanT a0 a1)) (ix2 p k) = (r : EReal) := by
      rw [guardPos_apply _ _ r h1, h1]
    rw [guardNeg_apply _ _ r h2, h2, hr]
  funext i
  obtain ⟨p, q, rfl⟩ : ∃ (p : Fin 4) (q : Fin 1024), i = ix2 p q := ⟨i 0, i 1, eq_ix2 i⟩
  have hsum : ∑ k : Fin 1024, guardNeg (guardPos (guardNan (meanT a0 a1))) (ix2 p k) * a2 (ix2 k q)
      = ∑ k : Fin 1024, Cert.Spec.pooledRef a0 a1 p k * a2 (ix2 k q) :=
    Finset.sum_congr rfl fun k _ => by rw [hG]
  unfold refTerm Cert.Spec.out
  show _ = Ideal.tanh ((0 + ∑ k : Fin 1024, Cert.Spec.pooledRef a0 a1 p k * a2 (ix2 k q)) + a3 (ix1 q))
  rw [hostTanh_apply, addf_apply, dot_apply, biasT_apply, hsum, zero_add]

/-- The reference's composed term is the specification's output layer of the masked mean, when every hidden state
    is a real number and every token id is below 4096. -/
theorem refTerm_eq (a0 : FVec Ideal S4x4096x1024 .f32) (a1 : IVec S4x32 32) (a2 : FVec Ideal S1024x1024 .f32)
    (a3 : FVec Ideal S1024 .f32) (hfin : ∀ j, ∃ x : ℝ, a0 j = (x : EReal)) (hrange : ∀ j, (a1 j).toNat < 4096) :
    refTerm a0 a1 a2 a3 = fun i => Cert.Spec.out (Cert.Spec.pooledRef a0 a1) a2 a3 i :=
  refTerm_eq_of_mask a0 a1 a2 a3 (maskT_apply a1 hrange) hfin hrange

/-! ## What the precondition gives -/

instance : Subsingleton Cert.Pre_input_domain.S_.Idx := ⟨fun _ _ => funext fun d => d.elim0⟩

theorem ofBool_eq_one' {b : Bool} : BitVec.ofBool b = 1#1 ↔ b = true := by cases b <;> decide

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A 32-bit word between 0 and 4095 as a signed integer is below 4096 as an unsigned one. -/
theorem toNat_lt_of_toInt (x : BitVec 32) (h0 : (0 : Int) ≤ x.toInt) (h1 : x.toInt ≤ 4095) : x.toNat < 4096 := by
  rw [BitVec.toInt_eq_toNat_cond] at h0 h1
  have := x.isLt
  split_ifs at h0 h1 <;> omega

/-- What the precondition says of the first two arguments: every hidden state is a real number and every token id
    is below 4096. -/
theorem pre_facts (a0 : FVec Ideal Cert.Pre_input_domain.S4x4096x1024 .f32) (a1 : IVec Cert.Pre_input_domain.S4x32 32)
    (a2 : FVec Ideal Cert.Pre_input_domain.S1024x1024 .f32) (a3 : FVec Ideal Cert.Pre_input_domain.S1024 .f32)
    (h : Cert.Pre_input_domain.fn (F := Ideal) a0 a1 a2 a3 = fun _ => 1#1) :
    (∀ j, ∃ x : ℝ, a0 j = (x : EReal)) ∧ (∀ j, (a1 j).toNat < 4096) := by
  have h0 := congrFun h ix0
  dsimp only [Cert.Pre_input_domain.fn, Cert.Pre_input_domain.fn_part1] at h0
  obtain ⟨h13, h19⟩ := IntOp.andi_eq_one.1 h0
  obtain ⟨h8, -⟩ := IntOp.andi_eq_one.1 h13
  obtain ⟨h3, -⟩ := IntOp.andi_eq_one.1 h8
  refine ⟨fun j => ?_, fun j => ?_⟩
  · have e := Host.reduce_andi_all _ _ _ _ ix0 h3 j
    refine real_of_abs_lt_top (a0 j) ?_
    have e' : Ideal.cmp .olt (max (a0 j) (-(a0 j))) (Ideal.ofBits .f32 0x7F800000#32) = 1#1 := e
    rw [ofBits_pos_inf] at e'
    unfold Ideal.cmp at e'
    exact of_decide_eq_true (ofBool_eq_one'.1 e')
  · have e := Host.reduce_andi_all _ _ _ _ ix0 h19 j
    obtain ⟨e1, e2⟩ := IntOp.andi_eq_one.1 e
    have f1 : (0#32 : BitVec 32).toInt ≤ (a1 j).toInt := IntOp.cmpi_sge.1 e1
    have f2 : (a1 j).toInt ≤ (4095#32 : BitVec 32).toInt := IntOp.cmpi_sle.1 e2
    exact toNat_lt_of_toInt _ (by simpa using f1) (by
      have : (4095#32 : BitVec 32).toInt = 4095 := by decide
      omega)

end Cert.ReferenceIdeal.RefValue
-- ==== Proof.KAlgVal.lean ====
/- The kernel program's result term is the specification's result: the output layer's term of the pooled values (the
   sum over the first occurrences times the reciprocal of their number, which is the masked mean), the weights and the
   bias row, read index by index at the ideal instance. -/
import proofs.«217236_g4415226380944_cont_8to1_c_873_25_alg».proof.Proof.KRegion
import proofs.«217236_g4415226380944_cont_8to1_c_873_25_alg».proof.Proof.KTileSpec
import proofs.«217236_g4415226380944_cont_8to1_c_873_25_alg».proof.Proof.SpecLaw
import proofs.«217236_g4415226380944_cont_8to1_c_873_25_alg».proof.Proof.KHostVal
import proofs.«217236_g4415226380944_cont_8to1_c_873_25_alg».proof.Proof.KHeadVal
import proofs.«217236_g4415226380944_cont_8to1_c_873_25_alg».proof.Proof.RefValue

noncomputable section

namespace Cert.Proof.KI

open Cert.KernelIdeal Cert.KernelIdeal.Gen

open Idealize.ShloMosaic Idealize.ShloMosaic.ValueIdx Idealize.SL.Sem Idealize.ShloMosaic.StableHlo

/-- The specification's result from device `c`'s four argument arrays. -/
def specOut (m : (ℓ : Loc nD τ sig) → Buf (Elt Ideal) ℓ) (c : Dev nD) : Buf (Elt Ideal) ((c, b9') : Loc nD τ sig) :=
  fun i => Cert.Spec.out (Cert.Spec.pooledRef (m (c, a0')) (m (c, a1'))) (m (c, a2')) (m (c, a3')) i

/-- The first host line leaves the weights as they were. -/
theorem V1_weights (m : (ℓ : Loc nD τ sig) → Buf (Elt Ideal) ℓ) (d : Dev nD) : V1 m d a2' = m (d, a2') := by
  show StableHlo.after (ops0 (F := Ideal)) (V0 m d) a2' = _
  after_results
  rfl

/-- Under the precondition, the output layer's term of the pooled values, the weights after the first host line and
    the bias row after the second is the specification's result. -/
theorem headOut_eq_specOut (m : (ℓ : Loc nD τ sig) → Buf (Elt Ideal) ℓ)
    (hp : ∀ c : Dev nD, Cert.Pre_input_domain.fn (F := Ideal) (m (c, a0')) (m (c, a1')) (m (c, a2')) (m (c, a3')) = fun _ => 1#1)
    (c : Dev nD) (hids : IdsOK c (gdV m c)) :
    headOut c (poK c (tbV m c) (gdV m c) hids) (V1 m c a2') (StableHlo.after (ops1 (F := Ideal)) (V1 m c) b8') = specOut m c := by
  obtain ⟨hfin, hrange⟩ := Cert.ReferenceIdeal.RefValue.pre_facts _ _ _ _ (hp c)
  have e1 : (fun (b : Fin 4) (k : Fin 1024) => (poK c (tbV m c) (gdV m c) hids : S4x1024.Idx → EReal) (ix2 b k))
      = Cert.Spec.pooledRef (m (c, a0')) (m (c, a1')) := by
    funext b k
    have h := poK_spec c (tbV m c) (gdV m c) hids (m (c, a0')) (m (c, a1'))
      (tbV_apply m c) (gdV_toNat m c hrange) hrange (ix2 b k)
    exact h.trans (Cert.Spec.pooledKer_eq_pooledRef (m (c, a0')) (m (c, a1')) hfin hrange b k)
  have e3 : (fun (j : Cert.Spec.SBias.Idx) =>
      (StableHlo.after (ops1 (F := Ideal)) (V1 m c) b8' : S1x1024.Idx → EReal) (ix2 (0 : Fin 1) (j 0))) = m (c, a3') := by
    funext j
    exact (bias_apply m c (j 0)).trans (congrArg (m (c, a3')) (eq_ix1 j).symm)
  funext i
  unfold headOut headPay specOut
  rw [head_apply, e1, V1_weights, e3]

end Cert.Proof.KI

end
-- ==== Proof.RefRun.lean ====
/- The reference program's @main as a list of its 52 host operations (the call of @nan_to_num and its three
   calls of @_where written out at the call site over the call's buffer records), and its run at the ideal instance:
   every weakly fair execution terminates with the result buffer at the operations' composed pure term of the four
   argument arrays, the arguments unchanged. -/
import proofs.«217236_g4415226380944_cont_8to1_c_873_25_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The operations -/

section
variable {F : FTy → Type} [FloatOps F]

/-- @main's 52 operations, in order; the sixteen of @nan_to_num (three of them its calls of @_where, two operations
    each) over the buffers of the record `main_call0`. -/
abbrev ops : List (HloOp τ sig (Elt F)) :=
  [ nullary main_v0 (iotaInDim S4 32 0),
    unary main_v0 main_v1 (broadcastInDim S4x1 ![0] bcast_S4_S4x1_0 : (⟨S4, .i32⟩ : BufTy).Contents (Elt F) → (⟨S4x1, .i32⟩ : BufTy).Contents (Elt F)),
    nullary main_cst (constant S_ .f32 0x00000000#32),
    unary main_cst main_v2 (broadcastInDim S4x4096x1024 ![] bcast_S_S4x4096x1024 : (⟨S_, .f32⟩ : BufTy).Contents (Elt F) → (⟨S4x4096x1024, .f32⟩ : BufTy).Contents (Elt F)),
    nullary main_c (constantI S_ 32 0#32),
    unary main_c main_v3 (broadcastInDim S4x1 ![] bcast_S_S4x1 : (⟨S_, .i32⟩ : BufTy).Contents (Elt F) → (⟨S4x1, .i32⟩ : BufTy).Contents (Elt F)),
    binary main_v1 main_v3 main_v4 (cmpi .slt : (⟨S4x1, .i32⟩ : BufTy).Contents (Elt F) → (⟨S4x1, .i32⟩ : BufTy).Contents (Elt F) → (⟨S4x1, .i1⟩ : BufTy).Contents (Elt F)),
    nullary main_c_0 (constantI S_ 32 4#32),
    unary main_c_0 main_v5 (broadcastInDim S4x1 ![] bcast_S_S4x1 : (⟨S_, .i32⟩ : BufTy).Contents (Elt F) → (⟨S4x1, .i32⟩ : BufTy).Contents (Elt F)),
    binary main_v1 main_v5 main_v6 (addi : (⟨S4x1, .i32⟩ : BufTy).Contents (Elt F) → (⟨S4x1, .i32⟩ : BufTy).Contents (Elt F) → (⟨S4x1, .i32⟩ : BufTy).Contents (Elt F)),
    ternary main_v4 main_v6 main_v1 main_v7 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_1 (constantI S_ 32 0#32),
    unary main_c_1 main_v8 (broadcastInDim S4x32 ![] bcast_S_S4x32 : (⟨S_, .i32⟩ : BufTy).Contents (Elt F) → (⟨S4x32, .i32⟩ : BufTy).Contents (Elt F)),
    binary main_arg1 main_v8 main_v9 (cmpi .slt : (⟨S4x32, .i32⟩ : BufTy).Contents (Elt F) → (⟨S4x32, .i32⟩ : BufTy).Contents (Elt F) → (⟨S4x32, .i1⟩ : BufTy).Contents (Elt F)),
    nullary main_c_2 (constantI S_ 32 4096#32),
    unary main_c_2 main_v10 (broadcastInDim S4x32 ![] bcast_S_S4x32 : (⟨S_, .i32⟩ : BufTy).Contents (Elt F) → (⟨S4x32, .i32⟩ : BufTy).Contents (Elt F)),
    binary main_arg1 main_v10 main_v11 (addi : (⟨S4x32, .i32⟩ : BufTy).Contents (Elt F) → (⟨S4x32, .i32⟩ : BufTy).Contents (Elt F) → (⟨S4x32, .i32⟩ : BufTy).Contents (Elt F)),
    ternary main_v9 main_v11 main_arg1 main_v12 (select : (⟨S4x32, .i1⟩ : BufTy).Contents (Elt F) → (⟨S4x32, .i32⟩ : BufTy).Contents (Elt F) → (⟨S4x32, .i32⟩ : BufTy).Contents (Elt F) → (⟨S4x32, .i32⟩ : BufTy).Contents (Elt F)),
    unary main_v7 main_v13 (broadcastInDim S4x32 ![0, 1] bcast_S4x1_S4x32_0_1 : (⟨S4x1, .i32⟩ : BufTy).Contents (Elt F) → (⟨S4x32, .i32⟩ : BufTy).Contents (Elt F)),
    unary main_v13 main_v14 (broadcastInDim S4x32x1 ![0, 1] bcast_S4x32_S4x32x1_0_1 : (⟨S4x32, .i32⟩ : BufTy).Contents (Elt F) → (⟨S4x32x1, .i32⟩ : BufTy).Contents (Elt F)),
    unary main_v12 main_v15 (broadcastInDim S4x32x1 ![0, 1] bcast_S4x32_S4x32x1_0_1 : (⟨S4x32, .i32⟩ : BufTy).Contents (Elt F) → (⟨S4x32x1, .i32⟩ : BufTy).Contents (Elt F)),
    binary main_v14 main_v15 main_v16 ((fun a b => concatenate S4x32x2 2 [⟨S4x32x1, a⟩, ⟨S4x32x1, b⟩] concatenates_S4x32x1_S4x32x1_S4x32x2_d2) : (⟨S4x32x1, .i32⟩ : BufTy).Contents (Elt F) → (⟨S4x32x1, .i32⟩ : BufTy).Contents (Elt F) → (⟨S4x32x2, .i32⟩ : BufTy).Contents (Elt F)),
    nullary main_cst_3 (constant S_ .f32 0x3F800000#32),
    unary main_cst_3 main_v17 (broadcastInDim S4x32x1024 ![] bcast_S_S4x32x1024 : (⟨S_, .f32⟩ : BufTy).Contents (Elt F) → (⟨S4x32x1024, .f32⟩ : BufTy).Contents (Elt F)),
    ternary main_v2 main_v16 main_v17 main_v18 ((fun x i u => Host.scatter scatter_S4x4096x1024_S4x32x2_S4x32x1024_2_01_01_2 (fun _ b => b) x i u) : (⟨S4x4096x1024, .f32⟩ : BufTy).Contents (Elt F) → (⟨S4x32x2, .i32⟩ : BufTy).Contents (Elt F) → (⟨S4x32x1024, .f32⟩ : BufTy).Contents (Elt F) → (⟨S4x4096x1024, .f32⟩ : BufTy).Contents (Elt F)),
    binary main_arg0 main_v18 main_v19 (mulf : (⟨S4x4096x1024, .f32⟩ : BufTy).Contents (Elt F) → (⟨S4x4096x1024, .f32⟩ : BufTy).Contents (Elt F) → (⟨S4x4096x1024, .f32⟩ : BufTy).Contents (Elt F)),
    nullary main_cst_4 (constant S_ .f32 0x00000000#32),
    binary main_v19 main_cst_4 main_v20 ((fun x v => Host.reduceAdd x v reducesTo_S4x4096x1024_S4x1024_d1 h_S_) : (⟨S4x4096x1024, .f32⟩ : BufTy).Contents (Elt F) → (⟨S_, .f32⟩ : BufTy).Contents (Elt F) → (⟨S4x1024, .f32⟩ : BufTy).Contents (Elt F)),
    nullary main_cst_5 (constant S_ .f32 0x00000000#32),
    binary main_v18 main_cst_5 main_v21 ((fun x v => Host.reduceAdd x v reducesTo_S4x4096x1024_S4x1024_d1 h_S_) : (⟨S4x4096x1024, .f32⟩ : BufTy).Contents (Elt F) → (⟨S_, .f32⟩ : BufTy).Contents (Elt F) → (⟨S4x1024, .f32⟩ : BufTy).Contents (Elt F)),
    binary main_v20 main_v21 main_v22 (Host.divf : (⟨S4x1024, .f32⟩ : BufTy).Contents (Elt F) → (⟨S4x1024, .f32⟩ : BufTy).Contents (Elt F) → (⟨S4x1024, .f32⟩ : BufTy).Contents (Elt F)),
    TRef.binary (.of main_v22 : TRef sig ⟨S4x1024, .f32⟩) (.of main_v22 : TRef sig ⟨S4x1024, .f32⟩) main_call0.v0 (cmpf .une),
    TRef.nullary main_call0.cst (constant S_ .f32 0x00000000#32),
    TRef.unary main_call0.cst main_call0.call0.v0 (broadcastInDim S4x1024 ![] bcast_S_S4x1024),
    TRef.ternary main_call0.v0 main_call0.call0.v0 (.of main_v22 : TRef sig ⟨S4x1024, .f32⟩) main_call0.call0.v1 select,
    TRef.nullary main_call0.cst_0 (constant S_ .f32 0x7F800000#32),
    TRef.unary main_call0.cst_0 main_call0.v2 (broadcastInDim S4x1024 ![] bcast_S_S4x1024),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S4x1024 ![] bcast_S_S4x1024),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S4x1024 ![] bcast_S_S4x1024),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S4x1024 ![] bcast_S_S4x1024),
    TRef.ternary main_call0.v6 main_call0.call2.v0 main_call0.call1.v1 main_call0.call2.v1 select,
    binary main_v23 main_arg2 main_v24 ((fun l r => Host.dotGeneral dot_S4x1024_S1024x1024_S4x1024_1_0_0_1_n_n none l r) : (⟨S4x1024, .f32⟩ : BufTy).Contents (Elt F) → (⟨S1024x1024, .f32⟩ : BufTy).Contents (Elt F) → (⟨S4x1024, .f32⟩ : BufTy).Contents (Elt F)),
    unary main_arg3 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S4x1024 ![0, 1] bcast_S1x1024_S4x1024_0_1 : (⟨S1x1024, .f32⟩ : BufTy).Contents (Elt F) → (⟨S4x1024, .f32⟩ : BufTy).Contents (Elt F)),
    binary main_v24 main_v26 main_v27 (addf : (⟨S4x1024, .f32⟩ : BufTy).Contents (Elt F) → (⟨S4x1024, .f32⟩ : BufTy).Contents (Elt F) → (⟨S4x1024, .f32⟩ : BufTy).Contents (Elt F)),
    unary main_v27 main_v28 (Host.tanh : (⟨S4x1024, .f32⟩ : BufTy).Contents (Elt F) → (⟨S4x1024, .f32⟩ : BufTy).Contents (Elt F)) ]

set_option maxRecDepth 4096 in
/-- @main is that straight line: the two functions' definitions unfolded at their calls, sequencing reassociated. -/
theorem main_eq (c : Dev nD) : main (F := F) c = seq ops := by
  simp only [main, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., binary_bufs_sub .., nullary_bufs_sub .., binary_bufs_sub .., nullary_bufs_sub .., binary_bufs_sub .., binary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., unary_bufs_sub .., binary_bufs_sub .., unary_bufs_sub ..⟩

end

set_option maxHeartbeats 4000000 in
/-- The fold of the operations at the result buffer is the composed term. -/
theorem out_eq (V : Valuation τ sig (Elt Ideal)) :
    after (ops (F := Ideal)) V (main_v28 : DevRef τ sig)
      = refTerm (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp

/-- On every device, at the ideal instance, from any memory with zero counters: every weakly fair execution of
    @main terminates with the result at the composed term of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops (F := Ideal)) main_eq (fun _ => ops_sub) m ρ)

/-- The same statement spelt at the ideal instance with the program's names in full. -/
theorem run_ideal (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v28)
          = refTerm (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  run m ρ

end Cert.ReferenceIdeal.RefRun

end
-- ==== Proof.RefLeg.lean ====
/- The reference side, assembled: what the precondition gives on a device's argument buffers (every hidden state a
   real number, every token id below 4096), and the reference's run with its result stated as the specification's
   function of the argument buffers. -/
import proofs.«217236_g4415226380944_cont_8to1_c_873_25_alg».proof.Defs
import proofs.«217236_g4415226380944_cont_8to1_c_873_25_alg».proof.Proof.Gen.ReferenceIdeal
import proofs.«217236_g4415226380944_cont_8to1_c_873_25_alg».proof.Proof.Gen.Pre_input_domain
import proofs.«217236_g4415226380944_cont_8to1_c_873_25_alg».proof.Proof.RefRun
import proofs.«217236_g4415226380944_cont_8to1_c_873_25_alg».proof.Proof.RefValue

namespace Cert.ReferenceIdeal.RefValue

open Idealize.ShloMosaic Idealize.SL.Sem

/-- From the reference's precondition: on every device the first argument's entries are real numbers and the second's
    are below 4096. -/
theorem of_pre (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ j, ∃ x : ℝ, m ((c.tc : Thread Cert.ReferenceIdeal.nD Cert.ReferenceIdeal.τ).loc Cert.ReferenceIdeal.main_arg0) j = (x : EReal))
    ∧ (∀ j, (m ((c.tc : Thread Cert.ReferenceIdeal.nD Cert.ReferenceIdeal.τ).loc Cert.ReferenceIdeal.main_arg1) j).toNat < 4096) :=
  pre_facts _ _ _ _ (h c)

/-- The reference's run with the result read index by index: from a memory whose hidden states are real numbers and
    whose token ids are below 4096, every weakly fair execution terminates with the result buffer at the
    specification's output layer of the masked mean of the argument buffers, the arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg)
    (hfin : ∀ (c : Dev Cert.ReferenceIdeal.nD) j, ∃ x : ℝ,
      m ((c.tc : Thread Cert.ReferenceIdeal.nD Cert.ReferenceIdeal.τ).loc Cert.ReferenceIdeal.main_arg0) j = (x : EReal))
    (hrange : ∀ (c : Dev Cert.ReferenceIdeal.nD) j,
      (m ((c.tc : Thread Cert.ReferenceIdeal.nD Cert.ReferenceIdeal.τ).loc Cert.ReferenceIdeal.main_arg1) j).toNat < 4096) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v28)
          = (fun i => Cert.Spec.out
              (Cert.Spec.pooledRef (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3)) i)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (refTerm_eq _ _ _ _ (hfin c) (hrange c)), (h c).2⟩)
    (Cert.ReferenceIdeal.RefRun.run_ideal m ρ)

/-- The reference's frame: under its precondition it runs to the end and leaves its arguments unchanged. -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun _ h c => (h c).2) (Cert.ReferenceIdeal.RefRun.run_ideal m ρ)

/-- The claim's third conjunct. -/
theorem frame_ReferenceIdeal : Cert.frame_ReferenceIdeal (hReferenceIdeal := Cert.ReferenceIdeal.Gen.facts)
    (hPre_input_domain := Cert.Pre_input_domain.Gen.facts) :=
  fun m g _ => frame m g

end Cert.ReferenceIdeal.RefValue
-- ==== Proof.KAlg.lean ====
/- The kernel program and the reference compute the same function at the ideal instance: both results are the
   specification's output layer of the mean over the selected positions. The kernel's run ends with the result array at
   the output layer's term, which is the specification's result; the reference's run states its result as that
   function already, over arguments that agree with the kernel's. -/
import proofs.«217236_g4415226380944_cont_8to1_c_873_25_alg».proof.Proof.KRun
import proofs.«217236_g4415226380944_cont_8to1_c_873_25_alg».proof.Proof.KAlgVal
import proofs.«217236_g4415226380944_cont_8to1_c_873_25_alg».proof.Proof.RefLeg

noncomputable section

namespace Cert.Proof.KI

open Cert.KernelIdeal Cert.KernelIdeal.Gen

open Idealize.ShloMosaic Idealize.ShloMosaic.ValueIdx Idealize.SL.Sem

/-- Under the precondition the kernel program's result term is the specification's result. -/
theorem resV_eq (m : (ℓ : Loc nD τ sig) → Buf (Elt Ideal) ℓ)
    (hp : ∀ c : Dev nD, Cert.Pre_input_domain.fn (F := Ideal) (m (c, a0')) (m (c, a1')) (m (c, a2')) (m (c, a3')) = fun _ => 1#1)
    (c : Dev nD) :
    resV m (poV m (ids_of_pre m hp)) c = specOut m c :=
  headOut_eq_specOut m hp c (ids_of_pre m hp c)

/-- `KernelIdeal` and `ReferenceIdeal` end with equal results. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hp : ∀ c : Dev nD, Cert.Pre_input_domain.fn (F := Ideal) (m (c, a0')) (m (c, a1')) (m (c, a2')) (m (c, a3')) = fun _ => 1#1 := hpre
  refine ⟨fun c => specOut m c, ?_, ?_⟩
  · exact (θ_run (Cert.KernelIdeal.defs (F := Ideal)) _ _).mono
      (fun _ h c => ⟨(h c).1.trans (resV_eq m hp c), (h c).2⟩) (Cert.Proof.KI.run_main (F := Ideal) m ρ (ids_of_pre m hp))
  · have hfr : ∀ c : Dev Cert.ReferenceIdeal.nD,
        (∀ j, ∃ x : ℝ, m' ((c.tc : Thread Cert.ReferenceIdeal.nD Cert.ReferenceIdeal.τ).loc Cert.ReferenceIdeal.main_arg0) j = (x : EReal))
        ∧ (∀ j, (m' ((c.tc : Thread Cert.ReferenceIdeal.nD Cert.ReferenceIdeal.τ).loc Cert.ReferenceIdeal.main_arg1) j).toNat < 4096) := by
      intro c
      obtain ⟨hf, hr⟩ := Cert.ReferenceIdeal.RefValue.pre_facts _ _ _ _ (hp c)
      rw [(hagree c).1, (hagree c).2.1]
      exact ⟨hf, hr⟩
    refine (θ_run (Cert.ReferenceIdeal.defs (F := Ideal)) _ _).mono (fun _ h c => ⟨(h c).1.trans ?_, (h c).2⟩)
      (Cert.ReferenceIdeal.RefValue.run_spec m' ρ' (fun c => (hfr c).1) (fun c => (hfr c).2))
    rw [(hagree c).1, (hagree c).2.1, (hagree c).2.2.1, (hagree c).2.2.2]
    rfl

/-- `KernelIdeal` runs and leaves its arguments unchanged. -/
theorem frame_KernelIdeal : Cert.frame_KernelIdeal (hKernelIdeal := Cert.KernelIdeal.Gen.facts)
    (hPre_input_domain := Cert.Pre_input_domain.Gen.facts) :=
  fun m ρ hpre => Cert.Proof.KI.frame (F := Ideal) m ρ hpre

end Cert.Proof.KI

end
-- ==== Proof.BSetup.lean ====
/-
  The kernel program as the SparseCore launch theorem sees it, and the ghost state its proof uses: the launch
  handshakes' rounds, the TensorCore pipeline's rounds (the staging cells of the output layer's call), and the
  counters of the tiles' local copies. Shared by the modules that prove the tile's task, the launch and @main.
-/
import proofs.«217236_g4415226380944_cont_8to1_c_873_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«217236_g4415226380944_cont_8to1_c_873_25_alg».proof.Proof.Gen.Kernel
import proofs.«217236_g4415226380944_cont_8to1_c_873_25_alg».proof.Proof.Gen.Kernel.Launch
import proofs.«217236_g4415226380944_cont_8to1_c_873_25_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The launch handshakes' rounds: the left factor. -/
abbrev EH : Emb UH (MT nD τ sig (HIx 1) (Elt F) ℕ UU ℕ) := embL

/-- The TensorCore pipeline's rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays the SparseCore call works on, as locations of device `d` -/

/-- The row table (the hidden states, one row per position of every batch), the row ids, the pooled result. -/
abbrev tLoc (d : Dev nD) : Loc nD τ sig := (SparseCore.T d).loc main_v0
abbrev gLoc (d : Dev nD) : Loc nD τ sig := (SparseCore.T d).loc main_v6
abbrev oLoc (d : Dev nD) : Loc nD τ sig := (SparseCore.T d).loc main_v7

/-- Every row id the tiles read names a row of the table. -/
def IdsOK (d : Dev nD) (gid : Buf (Elt F) (gLoc d)) : Prop := ∀ j, (gid j).toNat < 16384

end Cert.Proof.KB

end
-- ==== Proof.BHost.lean ====
/-
  @main of the kernel program as two host lines around the pooling call, then the output layer's call; the TensorCore's
  unscoped buffers one by one; the contents of the table, the row ids and the result array when the pooling call starts.
-/
import proofs.«217236_g4415226380944_cont_8to1_c_873_25_alg».proof.Proof.BSetup
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (ucRefs unscopedBufs_held sub_ucRefs)

variable (m : (ℓ : Loc nD τ sig) → Buf (Elt F) ℓ) (ρ : Dev nD → PrngReg)

variable [FloatOps F]
/-! ## @main as two host lines around the pooling call, then the output layer's call -/

/-- The host line before the pooling call: the table (a reshape of the hidden states) and the row ids
    (`token position + 4096 · batch`). -/
abbrev ops0 : List (HloOp τ sig (Elt F)) :=
  [StableHlo.reshape main_arg0 main_v0 rfl shapeCasts_S4x4096x1024_S16384x1024,
   StableHlo.nullary main_v1 (iotaInDim S4 32 0),
   StableHlo.unary main_v1 main_v2 (broadcastInDim S4x1 ![0] bcast_S4_S4x1_0 : (⟨S4, .i32⟩ : BufTy).Contents (Elt F) → (⟨S4x1, .i32⟩ : BufTy).Contents (Elt F)),
   StableHlo.nullary main_c (constantI S_ 32 4096#32),
   StableHlo.unary main_c main_v3 (broadcastInDim S4x1 ![] bcast_S_S4x1 : (⟨S_, .i32⟩ : BufTy).Contents (Elt F) → (⟨S4x1, .i32⟩ : BufTy).Contents (Elt F)),
   StableHlo.binary main_v2 main_v3 main_v4 (muli : (⟨S4x1, .i32⟩ : BufTy).Contents (Elt F) → (⟨S4x1, .i32⟩ : BufTy).Contents (Elt F) → (⟨S4x1, .i32⟩ : BufTy).Contents (Elt F)),
   StableHlo.unary main_v4 main_v5 (broadcastInDim S4x32 ![0, 1] bcast_S4x1_S4x32_0_1 : (⟨S4x1, .i32⟩ : BufTy).Contents (Elt F) → (⟨S4x32, .i32⟩ : BufTy).Contents (Elt F)),
   StableHlo.binary main_arg1 main_v5 main_v6 (addi : (⟨S4x32, .i32⟩ : BufTy).Contents (Elt F) → (⟨S4x32, .i32⟩ : BufTy).Contents (Elt F) → (⟨S4x32, .i32⟩ : BufTy).Contents (Elt F))]

/-- The host line after it: the bias as a one-row matrix. -/
abbrev ops1 : List (HloOp τ sig (Elt F)) :=
  [StableHlo.reshape main_arg3 main_v8 rfl shapeCasts_S1024_S1x1024]

set_option maxRecDepth 4096 in
theorem main_eq (d : Dev nD) :
    main (F := F) d = (StableHlo.seq (ops0 (F := F)) >>= fun _ => ((K (F := F)).run d 0 >>= fun _ =>
      (StableHlo.seq (ops1 (F := F)) >>= fun _ => (Prog.lift (.customCall (SparseCore.inner (Pipeline.entry 0)) ()) >>= fun _ => pure ⟨⟩)))) := rfl

/-! ## The TensorCore's unscoped buffers, one by one -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)
abbrev bc' : DevRef τ sig := Proc.devRef .tc (main_c : Ref sig .tc)
abbrev b3' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)
abbrev b6' : DevRef τ sig := Proc.devRef .tc (main_v6 : Ref sig .tc)
abbrev b7' : DevRef τ sig := Proc.devRef .tc (main_v7 : Ref sig .tc)
abbrev b8' : DevRef τ sig := Proc.devRef .tc (main_v8 : Ref sig .tc)
abbrev b9' : DevRef τ sig := Proc.devRef .tc (main_v9 : Ref sig .tc)

/-- Buffer `b` of device `d` held whole at the valuation's contents. -/
abbrev pt (d : Dev nD) (W : Valuation τ sig (Elt F)) (b : DevRef τ sig) : sProp 𝕄 := ((d, b) : Loc nD τ sig) ↦{fullShare} W b

omit [FloatOps F] in
theorem held_all (d : Dev nD) (W : Valuation τ sig (Elt F)) :
    (held (SparseCore.T d) (ucRefs τ sig) W : sProp 𝕄)
      = iprop(pt d W a0' ∗ pt d W a1' ∗ pt d W a2' ∗ pt d W a3' ∗ pt d W b0' ∗ pt d W b1' ∗ pt d W b2' ∗ pt d W bc' ∗ pt d W b3'
          ∗ pt d W b4' ∗ pt d W b5' ∗ pt d W b6' ∗ pt d W b7' ∗ pt d W b8' ∗ pt d W b9') :=
  bigSep_eq_bigSepL_of_eq [a0', a1', a2', a3', b0', b1', b2', bc', b3', b4', b5', b6', b7', b8', b9'] (by decide) (by decide) _

/-- The launch valuation, and the one after the first host line. -/
def V0 (d : Dev nD) : Valuation τ sig (Elt F) := fun b => m (d, b)
abbrev V1 (d : Dev nD) : Valuation τ sig (Elt F) := StableHlo.after (ops0 (F := F)) (V0 m d)

/-- The table, the row ids and the result array's contents when the pooling call starts. -/
abbrev tbV (d : Dev nD) : Buf (Elt F) (tLoc d) := V1 m d b0'
abbrev gdV (d : Dev nD) : Buf (Elt F) (gLoc d) := V1 m d b6'
abbrev o0V (d : Dev nD) : Buf (Elt F) (oLoc d) := V1 m d b7'

theorem ops0_sub : (ops0 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub ..,
    StableHlo.binary_bufs_sub .., StableHlo.unary_bufs_sub .., StableHlo.binary_bufs_sub ..⟩
theorem ops1_sub : (ops1 : List (HloOp τ sig (Elt F))).Forall fun op => op.bufs ⊆ StableHlo.tcRefs τ sig :=
  StableHlo.reshape_bufs_sub ..
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h

end Cert.Proof.KB

end
-- ==== Proof.BBody.lean ====
/-
  One tile's task of the pooling call, at a symbolic tile. Tile (core, subcore) has number `2 · subcore + core`; it
  serves batch `number / 8` and the 128 columns starting at `128 · (number mod 8)`. Its task reads the id row of its
  batch and the table (read shares suffice), uses three scratch buffers and three DMA semaphores of its own, and
  writes one 128-column strip of the result.
-/
import proofs.«217236_g4415226380944_cont_8to1_c_873_25_alg».proof.Proof.BSetup
import proofs.«217236_g4415226380944_cont_8to1_c_873_25_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The tile's number among the thirty-two: `2 · subcore + core`. -/
def wid (L : grid0.Coords) : Fin 32 := ⟨2 * (L 1).val + (L 0).val, by
  have h0 : (L 0).val < 2 := (L 0).isLt
  have h1 : (L 1).val < 16 := (L 1).isLt
  omega⟩

/-- The tile's strip of the result: 128 columns of one batch row, as the body slices it for the copy-out. -/
abbrev oRowK (L : grid0.Coords) : Memref sig .scVector .hbm S128 .f32 :=
  ((outV).slice (Rect.unit (s := S4x1024) (k0_off3 L) S1x128.size (k0_off3_inb L)) (fun _ => rfl)).squeeze S128 squeezes_S1x128_S128

/-- The tile's id row: the thirty-two row ids of its batch, as the body slices it for the copy-in. -/
abbrev gRowK (L : grid0.Coords) : Memref sig .scVector .hbm S32 .i32 :=
  ((gidV).slice (Rect.unit (s := S4x32) (k0_off1 L) S1x32.size (k0_off1_inb L)) (fun _ => rfl)).squeeze S32 squeezes_S1x32_S32

/-- The tile's read share of an array every tile reads: the full share dealt first among the SparseCores, each
    SparseCore's part then among its tiles. -/
abbrev tShare (L : grid0.Coords) : PosShare TreeShare :=
  Transfers.shareTokN (Transfers.shareTokN fullShare (L 0).val) (L 1).val

abbrev tPts (q : PosShare TreeShare) (f : Buf (Elt F) (tLoc d)) : sProp 𝕄 := tLoc d ↦{q} f
abbrev gPts (q : PosShare TreeShare) (f : Buf (Elt F) (gLoc d)) : sProp 𝕄 := gLoc d ↦{q} f
abbrev oRowPts (f : Buf (Elt F) (oLoc d)) : sProp 𝕄 := oLoc d ↦[(oRowK L).view.set]{fullShare} f

abbrev cGcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_t (q : PosShare TreeShare) (f : Buf (Elt F) (tLoc d)) :
    ((tblV).view.loc (V d (cV L) (jV L)) ↦{q} f : sProp 𝕄) = tLoc d ↦{q} f := by
  simp only [Memref.view_whole, View.set_whole]
omit [FloatOps F] in
theorem pts_g (q : PosShare TreeShare) (f : Buf (Elt F) (gLoc d)) :
    ((gidV).view.loc (V d (cV L) (jV L)) ↦{q} f : sProp 𝕄) = gLoc d ↦{q} f := by
  simp only [Memref.view_whole, View.set_whole]
omit [FloatOps F] in
theorem pts_o (f : Buf (Elt F) (oLoc d)) :
    ((oRowK L).view.loc (V d (cV L) (jV L)) ↦[(oRowK L).view.set]{fullShare} f : sProp 𝕄) = oLoc d ↦[(oRowK L).view.set]{fullShare} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- What the id scratch holds once the id row has been copied in is that row, so every word of it names a row of the
    table. -/
theorem ids_in_range (gid : Buf (Elt F) (gLoc d)) (hpre : IdsOK d gid) (fi : Buf (Elt F) ((V d (cV L) (jV L)).loc cc0_scratch0)) (x : S32.Idx) :
    ((sI).view.read (Elt F) (View.write (Elt F) (sI).view fi (ReadAs.same.apply ((gRowK L).view.read (Elt F) gid)) Finset.univ) x).toNat < 16384 := by
  have hw : View.write (Elt F) (sI).view fi (ReadAs.same.apply ((gRowK L).view.read (Elt F) gid)) Finset.univ = ReadAs.same.apply ((gRowK L).view.read (Elt F) gid) := View.write_whole_univ _ _ _
  rw [hw]
  have e : ReadAs.same.apply ((gRowK L).view.read (Elt F) gid) x = gid ((gRowK L).view.emb x) := (View.read_apply _ _).trans (cast_eq _ _)
  simp only [Memref.view_whole, View.read_whole]
  exact lt_of_eq_of_lt (congrArg BitVec.toNat e) (hpre _)

/-- One tile's task, at a symbolic tile: the id row copied in and waited for; the gather issued on one share of the id
    scratch while the other share serves the two index loads; the weights, the gather's wait, the 256 row loads and eight
    stores; the copy-out of the 128-lane result strip and its wait. The table and the id array are only read (the tile's
    read shares come back), the three scratch buffers and the three DMA semaphores come back (the semaphores at zero),
    and the tile's strip of the result comes back at what the copy-out wrote. -/
theorem tile_body (hF : (K (F := F)).Facts) (tbl : Buf (Elt F) (tLoc d)) (gid : Buf (Elt F) (gLoc d)) (o0 : Buf (Elt F) (oLoc d))
    (hpre : IdsOK d gid)
    (O : CellTallies nD τ sig (HIx 1)) (W : Waits sig (HIx 1)) (hO : ∀ g, O g none = 0) :
    iprop(levAts (K (F := F)).L (K (F := F)).lev ∗ emp
        ∗ (tPts d (tShare L) tbl ∗ gPts d (tShare L) gid ∗ oRowPts d L o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) tbl ∗ gPts d (tShare L) gid ∗ ∃ f, oRowPts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Ht, Hg, Ho⟩, ⟨⟨%fi, Hi⟩, ⟨%fr, Hr⟩, ⟨%fo, Hso⟩, Hbufs⟩, ⟨HsemG, HsemA, HsemB, Hsems⟩, HO⟩
  ihave Hmw := ((K (F := F)).mayWaits_none (thr := V d (cV L) (jV L)) hO) $$ Hlv
  ihave Ht' := (Entails.of_eq (pts_t (F := F) d L _ _).symm) $$ Ht
  ihave Hg' := (Entails.of_eq (pts_g (F := F) d L _ _).symm) $$ Hg
  ihave Ho' := (Entails.of_eq (pts_o (F := F) d L _).symm) $$ Ho
  ihave Hi' := (Entails.of_eq (pts_sI (F := F) d L _).symm) $$ Hi
  ihave Hr' := (Entails.of_eq (pts_sR (F := F) d L _).symm) $$ Hr
  ihave Hso' := (Entails.of_eq (pts_sO (F := F) d L _).symm) $$ Hso
  sl_exec_parts
  -- the ids the gather reads are the id row just copied in: in range by the precondition
  have hin : ∀ x, ((sI).view.read (Elt F) (View.write (Elt F) (sI).view fi (tile_body.sl.dma0 d L gid) Finset.univ) x).toNat < S16384x128.size (gathers_S16384x128_S32x128).axis :=
    fun x => ids_in_range d L gid hpre fi x
  -- one share of the id scratch goes with the gather, the other serves the index loads while it is in flight
  ihave Hsp := ((pointsTo_share (PosShare.mem_left_op_right fullShare)).1) $$ Hi'
  icases Hsp with ⟨HiL, HiR⟩
  sl_exec_parts
  sl_step
  isplitl [Ht' Hg' Ho']
  · isplitl [Ht']; · iapply (Entails.of_eq (pts_t (F := F) d L _ _)); iexact Ht'
    isplitl [Hg']; · iapply (Entails.of_eq (pts_g (F := F) d L _ _)); iexact Hg'
    iexists _; iapply (Entails.of_eq (pts_o (F := F) d L _)); iexact Ho'
  isplitl [HiL HiR Hr' Hso' Hbufs]
  · isplitl [HiL HiR]
    · iexists _; iapply (Entails.of_eq (pts_sI (F := F) d L _))
      iapply ((pointsTo_share (PosShare.mem_left_op_right fullShare)).2)
      isplitl [HiL]; · iexact HiL
      iexact HiR
    isplitl [Hr']; · iexists _; iapply (Entails.of_eq (pts_sR (F := F) d L _)); iexact Hr'
    isplitl [Hso']; · iexists _; iapply (Entails.of_eq (pts_sO (F := F) d L _)); iexact Hso'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, none) (insert (SemLoc.dma cc0_scratch3.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KB

end
-- ==== Proof.BLaunch.lean ====
/-
  The pooling call's obligations to the SparseCore launch theorem: what the call hands each SparseCore and each tile and
  takes back (every tile a read share of the table and of the id array, and its own strip of the result), the tile
  obligation from the tile's task, the split of a SparseCore's operands among its tiles (the SparseCore's operands
  ARE its tiles' operands side by side), and the launch element of the ghost state: the handshakes' rounds and the
  output layer's pipeline cells; the tiles' copies need nothing of it.
-/
import proofs.«217236_g4415226380944_cont_8to1_c_873_25_alg».proof.Proof.BBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (tb : (d : Dev nD) → Buf (Elt F) (tLoc d)) (gd : (d : Dev nD) → Buf (Elt F) (gLoc d)) (o0 po : (d : Dev nD) → Buf (Elt F) (oLoc d))

variable [FloatOps F]

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

/-! ## Tiles by coordinates -/

def coordsV (c : Fin (grid0.bound 0)) (s : Fin (grid0.bound 1)) : grid0.Coords :=
  fun | 0 => c | 1 => s | ⟨_ + 2, h⟩ => absurd h (Nat.not_lt.2 (Nat.le_add_left _ _))

/-- Tile `i` of SparseCore `c` of the call, as grid coordinates. -/
abbrev LK (c : Fin ((K (F := F)).nCore 0)) (i : Fin ((K (F := F)).nSub 0)) : grid0.Coords := coordsV ⟨c.val, c.isLt⟩ ⟨i.val, i.isLt⟩

theorem defs₀_vector (c : Fin τ.nSC) (s : Fin τ.nSub) :
    defs₀ (F := F) (.scVector c s) 0 ()
      = SparseCore.onTile hcore0 hsub0 (fun c s => cc0_body (coordsV c s)
          tblV (Memref.isWhole_whole _) gidV (Memref.isWhole_whole _) outV (Memref.isWhole_whole _)
          sI (Memref.isWhole_whole _) sR (Memref.isWhole_whole _) sO (Memref.isWhole_whole _) cc0_scratch3 cc0_scoped0 cc0_scoped1) ⟨⟩ c s := rfl

/-! ## What the call carries -/

/-- A tile's operands: its read shares of the table and of the id array, its strip of the result as the call found it. -/
def tileIn (d : Dev nD) (L : grid0.Coords) : sProp 𝕄 :=
  iprop(tPts d (tShare L) (tb d) ∗ gPts d (tShare L) (gd d) ∗ oRowPts d L (o0 d))
/-- What it hands back: the two read shares, its strip at the pooled values `po` (one function of the whole array,
    of which every tile writes its own strip). -/
def tileOut (d : Dev nD) (L : grid0.Coords) : sProp 𝕄 :=
  iprop(tPts d (tShare L) (tb d) ∗ gPts d (tShare L) (gd d) ∗ oRowPts d L (po d))

/-- The tile's task with its result named: from its operands, its scratch and semaphores and what it owes, tile `L`
    of device `d` runs to the end and leaves its strip at `po d`. -/
def TileTask : Prop :=
  ∀ (d : Dev nD) (L : grid0.Coords) (O : CellTallies nD τ sig (HIx 1)) (W : Waits sig (HIx 1)), (∀ g, O g none = 0) →
    iprop(levAts (K (F := F)).L (K (F := F)).lev ∗ emp
        ∗ (tPts d (tShare L) (tb d) ∗ gPts d (tShare L) (gd d) ∗ oRowPts d L (o0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) (tb d) ∗ gPts d (tShare L) (gd d) ∗ oRowPts d L (po d))
            ∗ scopedBufs (V d (cV L) (jV L)) ∗ scopedSems0 (V d (cV L) (jV L))
            ∗ ∃ W', ⌜∀ p ∈ W', p ∈ W ∨ p.2 = none⌝ ∗ owes (V d (cV L) (jV L)) O W')

/-- A SparseCore's operands are its sixteen tiles' side by side, and so are its results. -/
def P : (K (F := F)).Pay (nD := nD) (Val := Elt F) (Name := ℕ) (U := UU) where
  st := fun q d c => match q with | 0 => bigSep Finset.univ fun i : Fin ((K (F := F)).nSub 0) => tileIn tb gd o0 d (LK c i)
  dn := fun q d c => match q with | 0 => bigSep Finset.univ fun i : Fin ((K (F := F)).nSub 0) => tileOut tb gd po d (LK c i)
  go := fun q d c i => match q with | 0 => tileIn tb gd o0 d (LK c i)
  td := fun q d c i => match q with | 0 => tileOut tb gd po d (LK c i)
  x := fun _ _ => iprop(emp)

instance tileIn_storable (d : Dev nD) (L : grid0.Coords) : BI.Storable (upEmb : UEmb _ 𝕄) (tileIn tb gd o0 d L) := by
  unfold tileIn; infer_instance
instance tileOut_storable (d : Dev nD) (L : grid0.Coords) : BI.Storable (upEmb : UEmb _ 𝕄) (tileOut tb gd po d L) := by
  unfold tileOut; infer_instance

instance P_storable : (P (F := F) tb gd o0 po).IsStorable where
  st q d c := match q with
    | 0 => (inferInstance : BI.Storable (upEmb : UEmb _ 𝕄) (bigSep Finset.univ fun i : Fin ((K (F := F)).nSub 0) => tileIn tb gd o0 d (LK c i)))
  dn q d c := match q with
    | 0 => (inferInstance : BI.Storable (upEmb : UEmb _ 𝕄) (bigSep Finset.univ fun i : Fin ((K (F := F)).nSub 0) => tileOut tb gd po d (LK c i)))
  go q d c i := match q with
    | 0 => (inferInstance : BI.Storable (upEmb : UEmb _ 𝕄) (tileIn tb gd o0 d (LK c i)))
  td q d c i := match q with
    | 0 => (inferInstance : BI.Storable (upEmb : UEmb _ 𝕄) (tileOut tb gd po d (LK c i)))

/-! ## The launch theorem's obligations -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hT : TileTask tb gd o0 po) : (K (F := F)).TileObl (D (F := F)) 𝒱 (P tb gd o0 po) v₀ 0 := by
  intro d c i O W hO _ _
  -- the tiles owe nothing for a protocol of their own
  simp only [show (P tb gd o0 po).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT d (coordsV ⟨_, hc.1⟩ ⟨_, hc.2⟩) O W hO).trans (wp_mono frame _ _ fun _ => obl_post)

theorem vecSplit : (K (F := F)).VecSplit' (P tb gd o0 po) 0 := by
  intro d c
  show (bigSep Finset.univ fun i : Fin ((K (F := F)).nSub 0) => tileIn tb gd o0 d (LK c i)) ⊢ |={Set.univ}=> iprop(
      (bigSep Finset.univ fun i : Fin ((K (F := F)).nSub 0) => tileIn tb gd o0 d (LK c i))
      ∗ ((bigSep Finset.univ fun i : Fin ((K (F := F)).nSub 0) => tileOut tb gd po d (LK c i))
          -∗ bigSep Finset.univ fun i : Fin ((K (F := F)).nSub 0) => tileOut tb gd po d (LK c i)))
  iintro H; imodintro
  isplitl [H]; · iexact H
  iintro H; iexact H

/-! ## The launch element: the handshakes' rounds and the output layer's pipeline cells -/

/-- What every device's TensorCore is dealt besides the launch's own: the ghost state of the output layer's staging
    cells. -/
def G (d : Dev nD) : sProp 𝕄 := iprop(Pipeline.cellsGhost cfgs EP 0 d ∗ Pipeline.toksInit cfgs EP 0 d)

def u₀ : UU := (initOf (K (F := F)).hsCells (K (F := F)).hsToks, (initOf (Pipeline.cells (nD := nD) cfgs cellOf_inj) (Pipeline.launchToks (nD := nD) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tb gd o0 po).x q thr) := by
  unfold u₀
  iintro Hu
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans embR) (initOf (Pipeline.cells (nD := nD) cfgs cellOf_inj) (Pipeline.launchToks (nD := nD) cfgs cellOf_inj))) : sProp 𝕄)
      = BI.own (EP (initOf (Pipeline.cells (nD := nD) cfgs cellOf_inj) (Pipeline.launchToks (nD := nD) cfgs cellOf_inj))) from rfl)) $$ HP
  imod (Pipeline.fund_ghost (nD := nD) cfgs EP cellOf_inj) $$ HP' with ⟨Hg, Ht⟩
  imodintro
  isplitl [HH]; · iexact HH
  have e1 : (bigSep Finset.univ fun c : Dev nD => bigSep Finset.univ fun p : Fin 1 => (Pipeline.cellsGhost cfgs EP p c : sProp 𝕄))
      = bigSep Finset.univ fun c : Dev nD => (Pipeline.cellsGhost cfgs EP 0 c : sProp 𝕄) :=
    bigSep_congr fun c _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => (Pipeline.toksInit cfgs EP 0 c : sProp 𝕄) :=
    bigSep_congr fun c _ => bigSep_univ_of_subsingleton (0 : Fin 1)
  isplitl [Hg Ht]
  · unfold G
    rw [bigSep_sep']
    isplitl [Hg]
    · iapply (Entails.of_eq e1); iexact Hg
    · iapply (Entails.of_eq e2); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.BStrips.lean ====
/-
  The thirty-two strips of the result. Tile number `w = 2 · subcore + core` writes row `w / 8`, columns
  `128 · (w mod 8)` to `128 · (w mod 8) + 127`: as `w` runs over 0..31 the pair (`w / 8`, `w mod 8`) runs over all of
  4 × 8, so the strips are pairwise disjoint and cover the 4 × 1024 array.
-/
import proofs.«217236_g4415226380944_cont_8to1_c_873_25_alg».proof.Proof.BLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

/-- The copy-out's offsets in closed form: row `w / 8`, column `128 · (w mod 8)`, `w` the tile's number. -/
theorem k0_off3_eq : ∀ i : grid0.Coords, k0_off3 i = ![(2 * (i 1).val + (i 0).val) / 8, 128 * ((2 * (i 1).val + (i 0).val) % 8)] := by
  decide +kernel

theorem set_oRowK (L : grid0.Coords) :
    (oRowK L).view.set = (Rect.unit (s := S4x1024) (k0_off3 L) S1x128.size (k0_off3_inb L)).set := by
  show (((outV).view.slice (Rect.unit (s := S4x1024) (k0_off3 L) S1x128.size (k0_off3_inb L))).reshape S128 squeezes_S1x128_S128.numel_eq).set = _
  rw [View.set_reshape]
  show ((View.whole (main_v7_scv : Ref sig .scVector)).slice (Rect.unit (s := S4x1024) (k0_off3 L) S1x128.size (k0_off3_inb L))).set = _
  rw [View.set_slice]; exact Finset.map_refl

/-- An index lies in tile `L`'s strip exactly when its row is `w / 8` and its column is in the 128 from `128 · (w mod 8)`. -/
theorem mem_strip (L : grid0.Coords) (j : S4x1024.Idx) :
    j ∈ (oRowK L).view.set ↔ (j 0).val = (wid L).val / 8 ∧ 128 * ((wid L).val % 8) ≤ (j 1).val ∧ (j 1).val < 128 * ((wid L).val % 8) + 128 := by
  rw [set_oRowK, Rect.mem_set_unit, k0_off3_eq]
  have hw : (wid L).val = 2 * (L 1).val + (L 0).val := rfl
  rw [hw]
  constructor
  · intro h
    have h0 := h 0; have h1 := h 1
    simp only [Matrix.cons_val_zero, Matrix.cons_val_one, Matrix.head_cons, S1x128] at h0 h1
    exact ⟨by omega, h1⟩
  · intro h a
    fin_cases a <;> simp [S1x128] <;> omega

/-- The strip of tile (core `c`, subcore `i`). -/
def strip (ci : Fin 2 × Fin 16) : Finset S4x1024.Idx := (oRowK (coordsV ci.1 ci.2)).view.set

theorem wid_coordsV (c : Fin 2) (i : Fin 16) : (wid (coordsV c i)).val = 2 * i.val + c.val := rfl

theorem strips_disjoint : ∀ a ∈ (Finset.univ : Finset (Fin 2 × Fin 16)), ∀ b ∈ (Finset.univ : Finset (Fin 2 × Fin 16)), a ≠ b → Disjoint (strip a) (strip b) := by
  intro a _ b _ hab
  refine Finset.disjoint_left.mpr fun j ha hb => hab ?_
  unfold strip at ha hb
  rw [mem_strip, wid_coordsV] at ha hb
  have ha1 := a.1.isLt; have ha2 := a.2.isLt; have hb1 := b.1.isLt; have hb2 := b.2.isLt
  exact Prod.ext (Fin.ext (by omega)) (Fin.ext (by omega))

theorem strips_cover : (Finset.univ : Finset (Fin 2 × Fin 16)).biUnion strip = Finset.univ := by
  refine Finset.eq_univ_of_forall fun j => Finset.mem_biUnion.mpr ?_
  have h0 : (j 0).val < 4 := (j 0).isLt
  have h1 : (j 1).val < 1024 := (j 1).isLt
  refine ⟨(⟨(8 * (j 0).val + (j 1).val / 128) % 2, by omega⟩, ⟨(8 * (j 0).val + (j 1).val / 128) / 2, by omega⟩), Finset.mem_univ _, ?_⟩
  unfold strip
  rw [mem_strip, wid_coordsV]
  dsimp only
  omega

/-! ## The whole array as its strips, and a read share for every tile -/

variable [FloatOps F]

/-- The result array held whole is its thirty-two strips held side by side. -/
theorem oPts_strips (d : Dev nD) (f : Buf (Elt F) (oLoc d)) :
    (oLoc d ↦{fullShare} f : sProp 𝕄)
      = bigSep Finset.univ fun c : Fin 2 => bigSep Finset.univ fun i : Fin 16 => (oLoc d ↦[strip (c, i)]{fullShare} f : sProp 𝕄) := by
  rw [← bigSep_univ_prod (fun ci : Fin 2 × Fin 16 => (oLoc d ↦[strip ci]{fullShare} f : sProp 𝕄)),
    ← pointsTo_biUnion Finset.univ (ℓ := oLoc d) strip strips_disjoint, strips_cover]; try rfl

/-- What is left of a full share once every tile has its read share: kept aside during the call. -/
def Rem (ℓ : Loc nD τ sig) (f : Buf (Elt F) ℓ) : sProp 𝕄 :=
  iprop((ℓ ↦{Transfers.shareDrop fullShare 2} f)
    ∗ bigSep Finset.univ fun c : Fin 2 => (ℓ ↦{Transfers.shareDrop (Transfers.shareTok fullShare 2 c) 16} f : sProp 𝕄))

/-- A full share dealt: first among the two SparseCores, each part then among its sixteen tiles. -/
theorem deal_split (ℓ : Loc nD τ sig) (f : Buf (Elt F) ℓ) :
    (ℓ ↦{fullShare} f : sProp 𝕄) ⊢ iprop(Rem ℓ f
      ∗ bigSep Finset.univ fun c : Fin 2 => bigSep Finset.univ fun i : Fin 16 => (ℓ ↦{Transfers.shareTok (Transfers.shareTok fullShare 2 c) 16 i} f : sProp 𝕄)) := by
  refine (Transfers.pointsTo_toks_split fullShare 2).trans ?_
  refine (sep_mono .rfl (bigSep_mono fun c _ => Transfers.pointsTo_toks_split (Transfers.shareTok fullShare 2 c) 16)).trans ?_
  rw [bigSep_sep']
  unfold Rem
  iintro ⟨H0, H1, H2⟩
  isplitl [H0 H1]; · isplitl [H0] <;> iassumption
  iexact H2

/-- and gathered again. -/
theorem deal_join (ℓ : Loc nD τ sig) (f : Buf (Elt F) ℓ) :
    iprop(Rem ℓ f
      ∗ bigSep Finset.univ fun c : Fin 2 => bigSep Finset.univ fun i : Fin 16 => (ℓ ↦{Transfers.shareTok (Transfers.shareTok fullShare 2 c) 16 i} f : sProp 𝕄))
      ⊢ (ℓ ↦{fullShare} f : sProp 𝕄) := by
  have h1 : iprop((bigSep Finset.univ fun c : Fin 2 => (ℓ ↦{Transfers.shareDrop (Transfers.shareTok fullShare 2 c) 16} f : sProp 𝕄))
        ∗ (bigSep Finset.univ fun c : Fin 2 => bigSep Finset.univ fun i : Fin 16 => (ℓ ↦{Transfers.shareTok (Transfers.shareTok fullShare 2 c) 16 i} f : sProp 𝕄)))
      ⊢ (bigSep Finset.univ fun c : Fin 2 => (ℓ ↦{Transfers.shareTok fullShare 2 c} f : sProp 𝕄)) := by
    rw [← bigSep_sep']
    exact bigSep_mono fun c _ => Transfers.pointsTo_toks_join (Transfers.shareTok fullShare 2 c) 16
  unfold Rem
  iintro ⟨⟨H0, H1⟩, H2⟩
  iapply (Transfers.pointsTo_toks_join fullShare 2)
  isplitl [H0]; · iexact H0
  iapply h1
  isplitl [H1] <;> iassumption

omit [FloatOps F] in
/-- Three families over the tiles, side by side tile by tile, are the three families side by side. -/
theorem nest3 (A B C : Fin 2 → Fin 16 → sProp 𝕄) :
    (bigSep Finset.univ fun c : Fin 2 => bigSep Finset.univ fun i : Fin 16 => iprop(A c i ∗ B c i ∗ C c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)) := by
  rw [← bigSep_sep', ← bigSep_sep']
  exact bigSep_congr fun c _ => by rw [← bigSep_sep', ← bigSep_sep']

end Cert.Proof.KB

end
-- ==== Proof.BRegion.lean ====
/-
  The output layer's call of the kernel program: one pass of the pipeline over four whole arrays. The body loads the
  pooled values, the weight matrix and the bias row, multiplies, adds the bias along the rows, applies tanh and stores
  the result. This module gives the result as one pure term of the three operands' contents, runs the body, and states
  the rule of the call inside a larger program: from the three operands held at given contents and the result's
  array held at anything, the call runs to the continuation holding the operands unchanged and the result at that term.
-/
import proofs.«217236_g4415226380944_cont_8to1_c_873_25_alg».proof.Proof.BSetup
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses and its result -/

/-- The whole-buffer rectangles the body loads and stores through. -/
abbrev rP : Rect S4x1024 := Rect.unit (s := S4x1024) ![0, 0] S4x1024.size inb_S4x1024_S4x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the body stores, from the three values it loads: tanh (x · w + b), the bias row repeated down the rows. -/
def headPay (v0 : Vec F S4x1024 .f32) (v2 : Vec F S1024x1024 .f32) (v4 : Vec F S1x1024 .f32) : FVec F S4x1024 .f32 :=
  tanh (addf
    (matmul dot_S4x1024_S1024x1024_S4x1024_1_0_0_1_n_n none (shapeCast S4x1024 v0 shapeCasts_S4x1024_S4x1024) v2 (constant S4x1024 .f32 0x00000000#32))
    (broadcastTo S4x1024 (shapeCast S1x1024 v4 shapeCasts_S1x1024_S1x1024) broadcasts_S1x1024_S4x1024))

/-- The result's staging buffer after the body, from the three operands' buffers: its one store as a piece. -/
def headVal (x0 : Vec F S4x1024 .f32) (x1 : Vec F S1024x1024 .f32) (x2 : Vec F S1x1024 .f32) : Vec F S4x1024 .f32 :=
  View.canon [⟨rP, headPay (View.ld x0 rP) (View.ld x1 rW) (View.ld x2 rB)⟩]

/-- The one store covers the buffer. -/
theorem headCover (p0 : Vec F S4x1024 .f32) (y : S4x1024.Idx) :
    ∃ pc ∈ ([⟨rP, p0⟩] : List (View.Piece (Elt F) S4x1024 .f32)), y ∈ pc.1.set :=
  View.cover_of_tiled [⟨rP, p0⟩] S4x1024.size (by rfl) y

/-! ## The body's triple -/

set_option maxHeartbeats 1000000 in
/-- The body on whole staging memrefs, the operands' at read contents `x0 x1 x2` and the result's at anything, runs to
    the continuation holding the operands' as they were and the result's at `headVal` of them. -/
theorem sound_head (c : Dev nD) (E : Set ℕ) (arg0 : Memref sig .tc .vmem S4x1024 .f32) (harg0 : arg0.IsWhole)
    (arg1 : Memref sig .tc .vmem S1024x1024 .f32) (harg1 : arg1.IsWhole) (arg2 : Memref sig .tc .vmem S1x1024 .f32) (harg2 : arg2.IsWhole)
    (arg3 : Memref sig .tc .vmem S4x1024 .f32) (harg3 : arg3.IsWhole)
    (x0 : Vec F S4x1024 .f32) (x1 : Vec F S1024x1024 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (headVal x0 x1 x2)) -∗ K ⟨⟩))
      ⊢ wp frame (wpE (defs₀ (F := F)) Variants.none c none) E (cc1__tc_head arg0 harg0 arg1 harg1 arg2 harg2 arg3 harg3) K := by
  unfold cc1__tc_head
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (headCover _)

/-! ## The windows' blocks: each window is its whole array -/

/-- A window's block, read off its array, is the array's contents: the one block is the whole array. -/
theorem blk_read0 (t : Fin cfg1.N) (f : Vec F S4x1024 .f32) : ((cfg1.win 0).blk t).view.read (Elt F) f = f := by
  funext y
  rw [View.read_apply, cast_eq]
  refine congrArg f (funext fun a => Fin.ext ?_)
  show 0 * _ + 1 * (y a).val = (y a).val
  omega
theorem blk_read1 (t : Fin cfg1.N) (f : Vec F S1024x1024 .f32) : ((cfg1.win 1).blk t).view.read (Elt F) f = f := by
  funext y
  rw [View.read_apply, cast_eq]
  refine congrArg f (funext fun a => Fin.ext ?_)
  show 0 * _ + 1 * (y a).val = (y a).val
  omega
theorem blk_read2 (t : Fin cfg1.N) (f : Vec F S1x1024 .f32) : ((cfg1.win 2).blk t).view.read (Elt F) f = f := by
  funext y
  rw [View.read_apply, cast_eq]
  refine congrArg f (funext fun a => Fin.ext ?_)
  show 0 * _ + 1 * (y a).val = (y a).val
  omega
theorem blk_read3 (t : Fin cfg1.N) (f : Vec F S4x1024 .f32) : ((cfg1.win 3).blk t).view.read (Elt F) f = f := by
  funext y
  rw [View.read_apply, cast_eq]
  refine congrArg f (funext fun a => Fin.ext ?_)
  show 0 * _ + 1 * (y a).val = (y a).val
  omega

/-- Every element of the result's array is in its one block. -/
theorem blk_cover3 (t : Fin cfg1.N) (i : S4x1024.Idx) : i ∈ ((cfg1.win 3).blk t).view.set := by
  rw [View.set_slice_whole, Rect.mem_set_unit]
  intro a
  have := (i a).isLt
  refine ⟨?_, ?_⟩
  · show 0 * _ ≤ (i a).val
    omega
  · show (i a).val < 0 * _ + S4x1024.size a
    omega

/-- One store through the whole buffer leaves its payload, the loads reading the operands' buffers whole. -/
theorem headVal_eq (x0 : Vec F S4x1024 .f32) (x1 : Vec F S1024x1024 .f32) (x2 : Vec F S1x1024 .f32) :
    headVal x0 x1 x2 = headPay x0 x1 x2 := by
  have hz2 : (![0, 0] : Fin 2 → Nat) = fun _ => 0 := by funext a; match a with | ⟨0, _⟩ => rfl | ⟨1, _⟩ => rfl
  unfold headVal
  rw [View.canon_unit_zero hz2]
  simp only [View.ld_unit_zero (S := S4x1024) hz2, View.ld_unit_zero (S := S1024x1024) hz2, View.ld_unit_zero (S := S1x1024) hz2]

/-! ## The pipeline's proof data -/

/-- The proof data on core `c`: the operands' arrays at `pv wv bv` and the result's at `ov` on entry; after the body
    each operand's buffer at its array and the result's at `headVal` of them; the invariant the scoped buffers no
    window stages; nothing owed; full shares; the pairs recorded before the call within `W`. -/
def dat (c : Dev nD) (W : Waits sig (HIx 1)) (pv : Vec F S4x1024 .f32) (wv : Vec F S1024x1024 .f32) (bv : Vec F S1x1024 .f32) (ov : Vec F S4x1024 .f32) :
    Dat τ (Elt F) (HIx 1) ℕ UU ℕ cfg1 c where
  A w := match w with
    | ⟨0, _⟩ => pv
    | ⟨1, _⟩ => wv
    | ⟨2, _⟩ => bv
    | ⟨3, _⟩ => ov
  after w _ := match w with
    | ⟨0, _⟩ => pv
    | ⟨1, _⟩ => wv
    | ⟨2, _⟩ => bv
    | ⟨3, _⟩ => headVal pv wv bv
  Φ _ := Pipeline.scopedRest (Ix := HIx 1) (Name := ℕ) (U := UU) (Lvl := ℕ) (Val := Elt F) spec1 c
  q _ := fullShare
  owed _ := 0
  recorded _ := ↑W

section Data

variable (c : Dev nD) (W : Waits sig (HIx 1)) (pv : Vec F S4x1024 .f32) (wv : Vec F S1024x1024 .f32) (bv : Vec F S1x1024 .f32) (ov : Vec F S4x1024 .f32)

theorem A0 : (dat c W pv wv bv ov).A 0 = pv := by dsimp only [dat]
theorem A1 : (dat c W pv wv bv ov).A 1 = wv := by dsimp only [dat]
theorem A2 : (dat c W pv wv bv ov).A 2 = bv := by dsimp only [dat]
theorem A3 : (dat c W pv wv bv ov).A 3 = ov := by dsimp only [dat]
theorem after0 (t : Fin cfg1.N) : (dat c W pv wv bv ov).after 0 t = pv := by dsimp only [dat]
theorem after1 (t : Fin cfg1.N) : (dat c W pv wv bv ov).after 1 t = wv := by dsimp only [dat]
theorem after2 (t : Fin cfg1.N) : (dat c W pv wv bv ov).after 2 t = bv := by dsimp only [dat]
theorem after3 (t : Fin cfg1.N) : (dat c W pv wv bv ov).after 3 t = headVal pv wv bv := by dsimp only [dat]

/-- Each operand's staging buffer holds its array when the body runs: the window is fetched at the point. -/
theorem before0 (t : Fin cfg1.N) (d) : (dat c W pv wv bv ov).before 0 t d = pv :=
  ((dat c W pv wv bv ov).before_fetched 0 t (fetch1_0 t) d).trans
    (by unfold Dat.fetched Dat.blockOf; rw [A0]; exact blk_read0 t pv)
theorem before1 (t : Fin cfg1.N) (d) : (dat c W pv wv bv ov).before 1 t d = wv :=
  ((dat c W pv wv bv ov).before_fetched 1 t (fetch1_1 t) d).trans
    (by unfold Dat.fetched Dat.blockOf; rw [A1]; exact blk_read1 t wv)
theorem before2 (t : Fin cfg1.N) (d) : (dat c W pv wv bv ov).before 2 t d = bv :=
  ((dat c W pv wv bv ov).before_fetched 2 t (fetch1_2 t) d).trans
    (by unfold Dat.fetched Dat.blockOf; rw [A2]; exact blk_read2 t bv)

end Data

/-! ## The body obligation -/

section Body

variable (c : Dev nD) (W : Waits sig (HIx 1)) (pv : Vec F S4x1024 .f32) (wv : Vec F S1024x1024 .f32) (bv : Vec F S1x1024 .f32) (ov : Vec F S4x1024 .f32)

/-- What the body is called with at point `t`, the windows one by one, -/
def bodyPre (t : Fin cfg1.N) : sProp 𝕄 :=
  iprop((dat c W pv wv bv ov).Φ t.castSucc ∗ (dat c W pv wv bv ov).owesAt none t.castSucc
    ∗ (∃ d, owns (c : Thread nD τ) (st1_0 t) fullShare ((dat c W pv wv bv ov).before 0 t d))
    ∗ (∃ d, owns (c : Thread nD τ) (st1_1 t) fullShare ((dat c W pv wv bv ov).before 1 t d))
    ∗ (∃ d, owns (c : Thread nD τ) (st1_2 t) fullShare ((dat c W pv wv bv ov).before 2 t d))
    ∗ (∃ d, owns (c : Thread nD τ) (st1_3 t) fullShare ((dat c W pv wv bv ov).before 3 t d)))

/-- and what it returns. -/
def bodyPost (t : Fin cfg1.N) : sProp 𝕄 :=
  iprop((dat c W pv wv bv ov).Φ t.succ ∗ (dat c W pv wv bv ov).owesAt none t.succ
    ∗ owns (c : Thread nD τ) (st1_0 t) fullShare ((dat c W pv wv bv ov).after 0 t)
    ∗ owns (c : Thread nD τ) (st1_1 t) fullShare ((dat c W pv wv bv ov).after 1 t)
    ∗ owns (c : Thread nD τ) (st1_2 t) fullShare ((dat c W pv wv bv ov).after 2 t)
    ∗ owns (c : Thread nD τ) (st1_3 t) fullShare ((dat c W pv wv bv ov).after 3 t))

/-- The body at the point: the operands' buffers hold their arrays, so `sound_head` applies; the invariant and the
    core's `owes` pass through unread. -/
theorem sound_body (t : Fin cfg1.N) :
    bodyPre c W pv wv bv ov t ⊢ wp frame (wpE (defs₀ (F := F)) Variants.none c none) Set.univ (bodyAt1 t) (fun _ => bodyPost c W pv wv bv ov t) := by
  unfold bodyPre bodyPost bodyAt1
  simp only [before0, before1, before2]
  rw [show (dat c W pv wv bv ov).Φ t.succ = (dat c W pv wv bv ov).Φ t.castSucc from rfl,
    show (dat c W pv wv bv ov).owesAt none t.succ = (dat c W pv wv bv ov).owesAt none t.castSucc from rfl,
    after0, after1, after2, after3]
  iintro ⟨HΦ, Ho, ⟨%d0, H0⟩, ⟨%d1, H1⟩, ⟨%d2, H2⟩, ⟨%d3, H3⟩⟩
  iapply (sound_head c Set.univ _ _ _ _ _ _ _ _ pv wv bv _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation : BodyObligation (dat (F := F) c W pv wv bv ov) (defs₀ (F := F)) Variants.none (none : HIx 1) Set.univ := fun t => by
  rw [bigSep_W1, bigSep_W1]
  exact sound_body c W pv wv bv ov t

end Body

/-! ## The arrays before and after the call -/

section Arrays

variable (c : Dev nD) (W : Waits sig (HIx 1)) (pv : Vec F S4x1024 .f32) (wv : Vec F S1024x1024 .f32) (bv : Vec F S1x1024 .f32) (ov : Vec F S4x1024 .f32)

/-- The pipeline's arrays at contents `G` are the four buffers behind them, each whole at the full share. -/
theorem arrays_chain (G : (w : Fin cfg1.W) → Buf (Elt F) ((cfg1.win w).arr.view.loc (c : Thread nD τ))) :
    ((dat c W pv wv bv ov).arrays G : sProp 𝕄)
      = iprop((((c : Thread nD τ).loc main_v7) ↦{fullShare} G 0) ∗ (((c : Thread nD τ).loc main_arg2) ↦{fullShare} G 1)
          ∗ (((c : Thread nD τ).loc main_v8) ↦{fullShare} G 2) ∗ (((c : Thread nD τ).loc main_v9) ↦{fullShare} G 3)) := by
  rw [Pipeline.arrays_eq cfgs (fun _ c => dat c W pv wv bv ov) 0 c arr_whole1
    (fun w => (dat c W pv wv bv ov).share_full (fun _ => rfl) w) G, bigSep_W1]

/-- The operands' arrays are never written; -/
theorem arrAt0 (n : Nat) : (dat c W pv wv bv ov).arrAt 0 n = pv := ((dat c W pv wv bv ov).arrAt_in 0 rfl n).trans (A0 c W pv wv bv ov)
theorem arrAt1 (n : Nat) : (dat c W pv wv bv ov).arrAt 1 n = wv := ((dat c W pv wv bv ov).arrAt_in 1 rfl n).trans (A1 c W pv wv bv ov)
theorem arrAt2 (n : Nat) : (dat c W pv wv bv ov).arrAt 2 n = bv := ((dat c W pv wv bv ov).arrAt_in 2 rfl n).trans (A2 c W pv wv bv ov)

/-- the result's array ends holding the body's result, whatever it held: its one block, written back, is all of it. -/
theorem arrAt3 : (dat c W pv wv bv ov).arrAt 3 cfg1.N = headPay pv wv bv :=
  (dat c W pv wv bv ov).arrAt_eq_of_cover 3 (headPay pv wv bv)
    (fun t _ => by
      show (dat c W pv wv bv ov).after 3 t = _
      rw [after3, headVal_eq]; exact (blk_read3 t _).symm)
    (fun i => ⟨t1_0, flush1_3 t1_0, blk_cover3 t1_0 i⟩)

end Arrays

/-! ## The call as a region of the program -/

/-- The prefetched tables' admissible contents: no table. -/
abbrev adm : (p : Fin 1) → (pcfgs (F := F) p).Adm := fun p => (cfgs p).toPCfg_adm

/-- The result of the call as one pure term of its three operands' contents: tanh (x · w + b). -/
def headOut (d : Dev nD) (pv : Buf (Elt F) ((SparseCore.T d : Thread nD τ).loc main_v7)) (wv : Buf (Elt F) ((SparseCore.T d : Thread nD τ).loc main_arg2)) (bv : Buf (Elt F) ((SparseCore.T d : Thread nD τ).loc main_v8)) :
    Buf (Elt F) ((SparseCore.T d : Thread nD τ).loc main_v9) := headPay pv wv bv

section Region

variable (W : Waits sig (HIx 1)) (pv : Vec F S4x1024 .f32) (wv : Vec F S1024x1024 .f32) (bv : Vec F S1x1024 .f32) (ov : Vec F S4x1024 .f32)

/-- The proof data of the program's one pipeline, on every core. -/
abbrev dats : (p : Fin 1) → (c : Dev nD) → Dat τ (Elt F) (HIx 1) ℕ UU ℕ (Pipeline.pin (pcfgs (F := F)) adm p) c :=
  fun _ c => dat c W pv wv bv ov

/-- What the call is entered with: the four arrays, the result's at `ov`, and the core owing nothing. -/
def regPre (c : Dev nD) : sProp 𝕄 :=
  iprop((((c : Thread nD τ).loc main_v7) ↦{fullShare} pv) ∗ (((c : Thread nD τ).loc main_arg2) ↦{fullShare} wv)
    ∗ (((c : Thread nD τ).loc main_v8) ↦{fullShare} bv) ∗ (((c : Thread nD τ).loc main_v9) ↦{fullShare} ov)
    ∗ owes (c : Thread nD τ) (0 : CellTallies nD τ sig (HIx 1)) W)

/-- What it leaves: the operands as they were, the result at the body's, the core owing nothing, its recorded pairs
    those it had and pairs of the pipeline's own waits. -/
def regPost (c : Dev nD) : sProp 𝕄 :=
  iprop((((c : Thread nD τ).loc main_v7) ↦{fullShare} pv) ∗ (((c : Thread nD τ).loc main_arg2) ↦{fullShare} wv)
    ∗ (((c : Thread nD τ).loc main_v8) ↦{fullShare} bv) ∗ (((c : Thread nD τ).loc main_v9) ↦{fullShare} headPay pv wv bv)
    ∗ ∃ W', ⌜∀ p ∈ W', p ∈ W ∨ p.2 = none⌝ ∗ owes (c : Thread nD τ) (0 : CellTallies nD τ sig (HIx 1)) W')

set_option maxHeartbeats 1000000 in
set_option backward.isDefEq.respectTransparency.types false in
/-- THE REGION: the decided layout, no semaphore of the kernel's own, the body obligation; entered with the four arrays
    handed to the pipeline, left with them at their final contents. -/
def reg : Pipeline.RegionSeg (pcfgs (F := F)) adm (dats W pv wv bv ov) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation c W pv wv bv ov).loose
  hwaits := Pipeline.hwaits_of_owed_zero _ _ _ _ _ _ 0 fun _ _ => rfl
  pre := regPre W pv wv bv ov
  post := regPost W pv wv bv
  X _ := iprop(emp)
  Y _ := iprop(emp)
  Z _ := iprop(emp)
  hentry c := by
    rw [arrays_chain]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl hp
      iexact HO
    isplitl []; · iempintro
    iempintro
  hin c := by
    rw [show (dats W pv wv bv ov 0 c).Φ 0 = Pipeline.scopedRest (Pipeline.pin (pcfgs (F := F)) adm 0).spec c from rfl]
    iintro ⟨-, -, Hr⟩
    iexact Hr
  hout c := by
    rw [Pipeline.ownSems0_none,
      show (dats W pv wv bv ov 0 c).Φ (Fin.last (Pipeline.pin (pcfgs (F := F)) adm 0).N) = Pipeline.scopedRest (Pipeline.pin (pcfgs (F := F)) adm 0).spec c from rfl]
    iintro Hr
    isplitl []; · iempintro
    isplitl []; · iempintro
    iexact Hr
  hexit c := by
    rw [arrays_chain,
      show (dats W pv wv bv ov 0 c).arrAt 0 (Pipeline.pin (pcfgs (F := F)) adm 0).N = pv from arrAt0 c W pv wv bv ov _,
      show (dats W pv wv bv ov 0 c).arrAt 1 (Pipeline.pin (pcfgs (F := F)) adm 0).N = wv from arrAt1 c W pv wv bv ov _,
      show (dats W pv wv bv ov 0 c).arrAt 2 (Pipeline.pin (pcfgs (F := F)) adm 0).N = bv from arrAt2 c W pv wv bv ov _,
      show (dats W pv wv bv ov 0 c).arrAt 3 (Pipeline.pin (pcfgs (F := F)) adm 0).N = headPay pv wv bv from arrAt3 c W pv wv bv ov]
    unfold regPost
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

theorem reg_pre (c : Dev nD) : (reg W pv wv bv ov).pre c = regPre W pv wv bv ov c := rfl
theorem reg_post (c : Dev nD) : (reg W pv wv bv ov).post c = regPost W pv wv bv c := rfl

end Region

/-! ## The rule of the call -/

set_option maxHeartbeats 1000000 in
set_option backward.isDefEq.respectTransparency.types false in
/-- THE CALL inside the program, on device `d`'s TensorCore: from the region boundary, the three operands' arrays at
    `pv wv bv`, the result's array at anything, the core owing nothing with recorded pairs `W`, the level facts and the
    pipeline's ghost state as the launch deals it, the call runs to the continuation, which finds the boundary, the
    operands unchanged, the result at `headOut` of them, and the core owing nothing, its recorded pairs those of `W` and
    pairs at the index `none` (the pipeline's own waits). -/
theorem tc_region (d : Dev nD) (pv : Buf (Elt F) ((SparseCore.T d : Thread nD τ).loc main_v7))
    (wv : Buf (Elt F) ((SparseCore.T d : Thread nD τ).loc main_arg2)) (bv : Buf (Elt F) ((SparseCore.T d : Thread nD τ).loc main_v8))
    (W : Waits sig (HIx 1)) {α : Type} (k : PUnit → Prog (TpuEff nD τ sig (Elt F) (ΛP (F := F)) .tc) α) (Q : α → sProp 𝕄) :
    iprop((iprop(boundary (SparseCore.T d : Thread nD τ)
            ∗ (((SparseCore.T d : Thread nD τ).loc main_v7) ↦{fullShare} pv) ∗ (((SparseCore.T d : Thread nD τ).loc main_arg2) ↦{fullShare} wv)
            ∗ (((SparseCore.T d : Thread nD τ).loc main_v8) ↦{fullShare} bv) ∗ (((SparseCore.T d : Thread nD τ).loc main_v9) ↦{fullShare} headOut d pv wv bv)
            ∗ ∃ W', ⌜∀ p ∈ W', p ∈ W ∨ p.2 = none⌝ ∗ owes (SparseCore.T d : Thread nD τ) (0 : CellTallies nD τ sig (HIx 1)) W')
          -∗ wp frame (wpE (D (F := F)) 𝒱 (SparseCore.T d : Thread nD τ) none) Set.univ (k ⟨⟩) Q)
        ∗ boundary (SparseCore.T d : Thread nD τ)
        ∗ (((SparseCore.T d : Thread nD τ).loc main_v7) ↦{fullShare} pv) ∗ (((SparseCore.T d : Thread nD τ).loc main_arg2) ↦{fullShare} wv)
        ∗ (((SparseCore.T d : Thread nD τ).loc main_v8) ↦{fullShare} bv)
        ∗ (∃ f : Buf (Elt F) ((SparseCore.T d : Thread nD τ).loc main_v9), ((SparseCore.T d : Thread nD τ).loc main_v9) ↦{fullShare} f)
        ∗ owes (SparseCore.T d : Thread nD τ) (0 : CellTallies nD τ sig (HIx 1)) W
        ∗ levAts (K (F := F)).L (K (F := F)).lev
        ∗ Pipeline.cellsGhost (nD := nD) (τ := τ) cfgs (EP (F := F)) 0 d ∗ Pipeline.toksInit (nD := nD) (τ := τ) cfgs (EP (F := F)) 0 d)
      ⊢ wp frame (wpE (D (F := F)) 𝒱 (SparseCore.T d : Thread nD τ) none) Set.univ (.op (.customCall (Pipeline.entry 0) ()) k) Q := by
  iintro ⟨Hk, Hb, H0, H1, H2, ⟨%f, H3⟩, HO, Hlev, Hg, Ht⟩
  have hreg := Pipeline.RegionSeg.wp (pcfgs (F := F)) adm (dats W pv wv bv f) (none : HIx 1) cellOf_inj EP defs₀ 𝒱₀ (K (F := F)).L (K (F := F)).lev
    (reg W pv wv bv f) d none (fun _ h => nomatch h) k Q
  rw [reg_pre, reg_post] at hreg
  unfold regPre regPost at hreg
  unfold headOut
  iapply hreg
  isplitl [Hk]
  · iintro ⟨Hb, Hp⟩
    iapply Hk
    isplitl [Hb]; · iexact Hb
    iexact Hp
  isplitl [Hb]; · iexact Hb
  isplitl [H0 H1 H2 H3 HO]
  · isplitl [H0]; · iexact H0
    isplitl [H1]; · iexact H1
    isplitl [H2]; · iexact H2
    isplitl [H3]; · iexact H3
    iexact HO
  isplitl [Hlev]; · iexact Hlev
  isplitl [Hg]; · iexact Hg
  iexact Ht

/-- info: 'Cert.Proof.KB.tc_region' depends on axioms: [propext, Classical.choice, Quot.sound] -/
#guard_msgs in #print axioms tc_region

end Cert.Proof.KB

end
-- ==== Proof.BCall.lean ====
/-
  The output layer's call as @main spells it (the call lifted to the extended body table, then the return).
-/
import proofs.«217236_g4415226380944_cont_8to1_c_873_25_alg».proof.Proof.BRegion

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The call in the certificate's own signature, then the return. -/
abbrev callP : Prog (TpuEff nD τ sig (Elt F) (ΛP (F := F)) .tc) PUnit :=
  .op (.customCall (Pipeline.entry (0 : Fin 1)) ()) fun _ => .ret ⟨⟩

/-- @main's spelling of it is that program lifted to the launch's signature. -/
theorem call_eq :
    (Prog.lift (.customCall (SparseCore.inner (Pipeline.entry 0)) ()) >>= fun _ => (pure ⟨⟩ : Prog (TpuEff nD τ sig (Elt F) (SparseCore.Sig (ΛP (F := F)) 1) .tc) PUnit))
      = SparseCore.liftProg (Q := 1) (callP (F := F)) := rfl

/-- The output layer's call as @main's last statement: the rule of the call, lifted to the launch's body table, with the
    return after it. -/
theorem tc_call (d : Dev nD) (pv : Buf (Elt F) ((SparseCore.T d : Thread nD τ).loc main_v7))
    (wv : Buf (Elt F) ((SparseCore.T d : Thread nD τ).loc main_arg2)) (bv : Buf (Elt F) ((SparseCore.T d : Thread nD τ).loc main_v8))
    (W : Waits sig (HIx 1)) (Φ : PUnit → sProp 𝕄) :
    iprop((iprop(boundary (SparseCore.T d : Thread nD τ)
            ∗ (((SparseCore.T d : Thread nD τ).loc main_v7) ↦{fullShare} pv) ∗ (((SparseCore.T d : Thread nD τ).loc main_arg2) ↦{fullShare} wv)
            ∗ (((SparseCore.T d : Thread nD τ).loc main_v8) ↦{fullShare} bv) ∗ (((SparseCore.T d : Thread nD τ).loc main_v9) ↦{fullShare} headOut d pv wv bv)
            ∗ ∃ W', ⌜∀ p ∈ W', p ∈ W ∨ p.2 = none⌝ ∗ owes (SparseCore.T d : Thread nD τ) (0 : CellTallies nD τ sig (HIx 1)) W')
          -∗ Φ ⟨⟩)
        ∗ boundary (SparseCore.T d : Thread nD τ)
        ∗ (((SparseCore.T d : Thread nD τ).loc main_v7) ↦{fullShare} pv) ∗ (((SparseCore.T d : Thread nD τ).loc main_arg2) ↦{fullShare} wv)
        ∗ (((SparseCore.T d : Thread nD τ).loc main_v8) ↦{fullShare} bv)
        ∗ (∃ f : Buf (Elt F) ((SparseCore.T d : Thread nD τ).loc main_v9), ((SparseCore.T d : Thread nD τ).loc main_v9) ↦{fullShare} f)
        ∗ owes (SparseCore.T d : Thread nD τ) (0 : CellTallies nD τ sig (HIx 1)) W
        ∗ levAts (K (F := F)).L (K (F := F)).lev
        ∗ Pipeline.cellsGhost (nD := nD) (τ := τ) cfgs (EP (F := F)) 0 d ∗ Pipeline.toksInit (nD := nD) (τ := τ) cfgs (EP (F := F)) 0 d)
      ⊢ wp frame (wpE ((K (F := F)).defs (D (F := F))) 𝒱 (SparseCore.T d : Thread nD τ) none) Set.univ
          (Prog.lift (.customCall (SparseCore.inner (Pipeline.entry 0)) ()) >>= fun _ => (pure ⟨⟩ : Prog (TpuEff nD τ sig (Elt F) (SparseCore.Sig (ΛP (F := F)) 1) .tc) PUnit)) Φ := by
  rw [call_eq]
  have h := (K (F := F)).wp_liftProg (D (F := F)) 𝒱 (SparseCore.T d) Set.univ none (callP (F := F)) Φ
  have hr := tc_region d pv wv bv W (fun _ => (.ret ⟨⟩ : Prog (TpuEff nD τ sig (Elt F) (ΛP (F := F)) .tc) PUnit)) Φ
  iintro ⟨Hk, Hrest⟩
  iapply h
  iapply hr
  isplitl [Hk]
  · iintro H
    rw [wp_ret]; imodintro
    iapply Hk; iexact H
  iexact Hrest

end Cert.Proof.KB

end
-- ==== Proof.BMain.lean ====
/-
  @main on the TensorCore, run: the first host line, the pooling call (the table and the row ids dealt to the tiles as
  read shares, the result as strips, all gathered again after it), the second host line, the output layer's call.
-/
import proofs.«217236_g4415226380944_cont_8to1_c_873_25_alg».proof.Proof.BHost
import proofs.«217236_g4415226380944_cont_8to1_c_873_25_alg».proof.Proof.BStrips
import proofs.«217236_g4415226380944_cont_8to1_c_873_25_alg».proof.Proof.BCall

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.Pipeline (ucRefs unscopedBufs_held sub_ucRefs)

variable (m : (ℓ : Loc nD τ sig) → Buf (Elt F) ℓ) (ρ : Dev nD → PrngReg)

variable [FloatOps F]

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

omit [FloatOps F] in
theorem held_S2 (d : Dev nD) (W : Valuation τ sig (Elt F)) :
    (held (SparseCore.T d) ({a3', b8'} : Finset (DevRef τ sig)) W : sProp 𝕄) = iprop(pt d W a3' ∗ pt d W b8') := by
  unfold held
  rw [SparseCore.bigSep_insert' (by decide), bigSep_singleton]

theorem ops1_in : ∀ op ∈ (ops1 : List (HloOp τ sig (Elt F))), op.bufs ⊆ ({a3', b8'} : Finset (DevRef τ sig)) := by
  intro op h
  cases h with
  | head => rw [StableHlo.reshape_bufs]; try decide
  | tail _ h => exact nomatch h

/-- The valuation after the second host line. -/
abbrev V3 (d : Dev nD) : Valuation τ sig (Elt F) := StableHlo.after (ops1 (F := F)) (V1 m d)

variable (tb : (d : Dev nD) → Buf (Elt F) (tLoc d)) (gd : (d : Dev nD) → Buf (Elt F) (gLoc d)) (o0 po : (d : Dev nD) → Buf (Elt F) (oLoc d))

/-- What the call takes for the two SparseCores: every tile's read shares and its strip, tile by tile. -/
theorem st_all (d : Dev nD) :
    (bigSep Finset.univ fun c : Fin ((K (F := F)).nCore 0) => (P tb gd o0 po).st 0 d c)
      = bigSep (Finset.univ : Finset (Fin 2)) fun c => bigSep (Finset.univ : Finset (Fin 16)) fun i =>
          iprop((tLoc d ↦{Transfers.shareTok (Transfers.shareTok fullShare 2 c) 16 i} tb d : sProp 𝕄)
            ∗ (gLoc d ↦{Transfers.shareTok (Transfers.shareTok fullShare 2 c) 16 i} gd d : sProp 𝕄)
            ∗ (oLoc d ↦[strip (c, i)]{fullShare} o0 d : sProp 𝕄)) := by
  unfold P tileIn strip; rfl
/-- What it hands back. -/
theorem dn_all (d : Dev nD) :
    (bigSep Finset.univ fun c : Fin ((K (F := F)).nCore 0) => (P tb gd o0 po).dn 0 d c)
      = bigSep (Finset.univ : Finset (Fin 2)) fun c => bigSep (Finset.univ : Finset (Fin 16)) fun i =>
          iprop((tLoc d ↦{Transfers.shareTok (Transfers.shareTok fullShare 2 c) 16 i} tb d : sProp 𝕄)
            ∗ (gLoc d ↦{Transfers.shareTok (Transfers.shareTok fullShare 2 c) 16 i} gd d : sProp 𝕄)
            ∗ (oLoc d ↦[strip (c, i)]{fullShare} po d : sProp 𝕄)) := by
  unfold P tileOut strip; rfl

/-! ## What @main leaves, read at the end -/

variable (res : (d : Dev nD) → Buf (Elt F) ((d, b9') : Loc nD τ sig))

/-- What @main leaves the claim: the four argument arrays and the result, each whole. -/
def FIN (d : Dev nD) : sProp 𝕄 :=
  iprop(pt d (V1 m d) a0' ∗ pt d (V1 m d) a1' ∗ pt d (V1 m d) a2' ∗ pt d (V3 m d) a3' ∗ (((d, b9') : Loc nD τ sig) ↦{fullShare} res d))

/-- No host operation writes an argument array. -/
theorem V1_a0 (d : Dev nD) : V1 m d a0' = m (d, a0') := by
  show StableHlo.after (ops0 (F := F)) (fun b => m (d, b)) a0' = m (d, a0'); after_results
theorem V1_a1 (d : Dev nD) : V1 m d a1' = m (d, a1') := by
  show StableHlo.after (ops0 (F := F)) (fun b => m (d, b)) a1' = m (d, a1'); after_results
theorem V1_a2 (d : Dev nD) : V1 m d a2' = m (d, a2') := by
  show StableHlo.after (ops0 (F := F)) (fun b => m (d, b)) a2' = m (d, a2'); after_results
theorem V3_a3 (d : Dev nD) : V3 m d a3' = m (d, a3') := by
  show StableHlo.after (ops1 (F := F)) (StableHlo.after (ops0 (F := F)) (fun b => m (d, b))) a3' = m (d, a3'); after_results

def fq (d : Dev nD) (s' : Phys nD τ sig (Elt F)) : Prop :=
  s'.mem.mem (d, b9') = res d ∧ s'.mem.mem (d, a0') = m (d, a0') ∧ s'.mem.mem (d, a1') = m (d, a1')
    ∧ s'.mem.mem (d, a2') = m (d, a2') ∧ s'.mem.mem (d, a3') = m (d, a3')

omit [FloatOps F] in
/-- A buffer held whole beside the state's interpretation is what the state's memory holds there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

theorem hfin (d : Dev nD) (s' : Phys nD τ sig (Elt F)) : iprop(FIN m res d ∗ SI s') ⊢ (⌜fq m res d s'⌝ : sProp 𝕄) := by
  unfold FIN
  iintro ⟨⟨H0, H1, H2, H3, H9⟩, HSI⟩
  ihave R0 := (read_one (F := F) _ _ s') $$ [H0 HSI]
  · isplitl [H0] <;> iassumption
  icases R0 with ⟨%h0, HSI⟩
  ihave R1 := (read_one (F := F) _ _ s') $$ [H1 HSI]
  · isplitl [H1] <;> iassumption
  icases R1 with ⟨%h1, HSI⟩
  ihave R2 := (read_one (F := F) _ _ s') $$ [H2 HSI]
  · isplitl [H2] <;> iassumption
  icases R2 with ⟨%h2, HSI⟩
  ihave R3 := (read_one (F := F) _ _ s') $$ [H3 HSI]
  · isplitl [H3] <;> iassumption
  icases R3 with ⟨%h3, HSI⟩
  ihave R9 := (read_one (F := F) _ _ s') $$ [H9 HSI]
  · isplitl [H9] <;> iassumption
  icases R9 with ⟨%h9, -⟩
  ipureintro
  exact ⟨h9, h0.trans (V1_a0 m d), h1.trans (V1_a1 m d), h2.trans (V1_a2 m d), h3.trans (V3_a3 m d)⟩

/-- The claim's reading of a final state: the result named, the four arguments unchanged. -/
def QC : PUnit × MemSt nD τ sig (Elt F) → Prop := fun r => ∀ c : Dev nD,
  r.2.mem (c, b9') = res c ∧ r.2.mem (c, a0') = m (c, a0') ∧ r.2.mem (c, a1') = m (c, a1') ∧ r.2.mem (c, a2') = m (c, a2') ∧ r.2.mem (c, a3') = m (c, a3')

variable (po : (d : Dev nD) → Buf (Elt F) (oLoc d))

/-- The program's result: the output layer's term of the pooled values, the weights and the bias row. -/
abbrev resV (d : Dev nD) : Buf (Elt F) ((d, b9') : Loc nD τ sig) := headOut d (po d) (V1 m d a2') (V3 m d b8')

set_option backward.isDefEq.respectTransparency.types false in
/-- @main on device `d`'s TensorCore. -/
theorem hmain (κ : GSem nD τ sig → ℕ) (d : Dev nD) :
    iprop((K (F := F)).ctx EH (P (tbV m) (gdV m) (o0V m) po) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (resV m po) d) := by
  unfold SparseCore.Cfg.tcRes
  rw [main_eq, show (unscopedBufs d (fun b => m ((SparseCore.T d).loc b)) : sProp 𝕄) = held (SparseCore.T d) (ucRefs τ sig) (V0 m d)
    from unscopedBufs_held (Ix := HIx 1) (Name := ℕ) (U := UU) (Lvl := ℕ) d (V0 m d)]
  iintro ⟨#Hctx, Hst, ⟨Hb, Hheld, Hsems, Hprng⟩, HG⟩
  -- the first host line
  iapply (StableHlo.wp_seq 𝒱 none Set.univ d (ucRefs τ sig) _ (ops0 (F := F))
    (fun op h => sub_ucRefs op ((List.forall_iff_forall_mem.mp ops0_sub) op h)) ops0_fresh (V0 m d)) $$ [Hb Hheld]
  · isplitl [Hb] <;> iassumption
  iintro ⟨Hb, Hheld⟩
  ihave Hall := (Entails.of_eq (held_all (F := F) d _)) $$ Hheld
  icases Hall with ⟨Ha0, Ha1, Ha2, Ha3, Hb0, Hb1, Hb2, Hbc, Hb3, Hb4, Hb5, Hb6, Hb7, Hb8, Hb9⟩
  -- the pooling call: the table and the ids dealt as read shares, the result as strips
  ihave Ht2 := (deal_split (F := F) (tLoc d) (tbV m d)) $$ Hb0
  icases Ht2 with ⟨HRt, Htt⟩
  ihave Hg2 := (deal_split (F := F) (gLoc d) (gdV m d)) $$ Hb6
  icases Hg2 with ⟨HRg, Hgg⟩
  ihave Hoo := (Entails.of_eq (oPts_strips (F := F) d (o0V m d))) $$ Hb7
  rw [wp_bind]
  iapply ((K (F := F)).wp_run (D (F := F)) 𝒱 (EH := EH) (P := P (tbV m) (gdV m) (o0V m) po) κ d 0) $$ [Hst Htt Hgg Hoo HRt HRg Hb Ha0 Ha1 Ha2 Ha3 Hb8 Hb9 HG]
  isplitr; · iexact Hctx
  isplitl [Hst]; · iexact Hst
  isplitl [Htt Hgg Hoo]
  · rw [st_all, nest3]
    isplitl [Htt]; · iexact Htt
    isplitl [Hgg]; · iexact Hgg
    iexact Hoo
  iintro ⟨Hst, Hdn⟩
  ihave Hdn' := (Entails.of_eq ((dn_all (F := F) (tbV m) (gdV m) (o0V m) po d).trans (nest3 _ _ _))) $$ Hdn
  icases Hdn' with ⟨Htt, Hgg, Hoo⟩
  ihave Hb7 := (Entails.of_eq (oPts_strips (F := F) d (po d)).symm) $$ Hoo
  -- the second host line: the bias as a one-row matrix
  iapply (StableHlo.wp_seq 𝒱 none Set.univ d ({a3', b8'} : Finset (DevRef τ sig)) _ (ops1 (F := F)) ops1_in ops1_fresh (V1 m d)) $$ [Hb Ha3 Hb8]
  · isplitl [Hb]; · iexact Hb
    rw [held_S2]; isplitl [Ha3] <;> iassumption
  iintro ⟨Hb, Hheld⟩
  ihave Hh := (Entails.of_eq (held_S2 (F := F) d _)) $$ Hheld
  icases Hh with ⟨Ha3, Hb8⟩
  -- the output layer's call: nothing is owed after the one SparseCore call
  unfold SparseCore.Cfg.tcSt
  icases Hst with ⟨⟨%W, %hW, HO⟩, Hat, Hrd, Hrs, Htoks⟩
  ihave HO' := (Entails.of_eq (congrArg (fun O => (owes (SparseCore.T d) O W : sProp 𝕄)) ((K (F := F)).Otc_end d (n := (0 : Fin 1).val + 1) le_rfl))) $$ HO
  ihave Hlev := ((K (F := F)).ctx_levAts κ) $$ Hctx
  unfold G
  icases HG with ⟨Hcg, Hti⟩
  iapply (tc_call (F := F) d (po d) (V1 m d a2') (V3 m d b8') W _) $$ [Hb Hb7 Ha2 Hb8 Hb9 HO' Hlev Hcg Hti Hat Hrd Hrs Htoks Ha0 Ha1 Ha3]
  isplitl [Hat Hrd Hrs Htoks Ha0 Ha1 Ha3]
  · iintro ⟨Hb, Hb7, Ha2, Hb8, Hb9, %W', %hW', HO⟩
    isplitl [HO Hat Hrd Hrs Htoks]
    · isplitl [HO]
      · iexists W'; isplitr
        · ipureintro; intro p hp
          rcases hW' p hp with h | h
          · exact hW p h
          · show (K (F := F)).lev (SparseCore.T d, p.1) p.2 ≤ _
            rw [h]; exact Nat.zero_le _
        · iapply (Entails.of_eq (congrArg (fun O => (owes (SparseCore.T d) O W' : sProp 𝕄)) ((K (F := F)).Otc_end d (n := 1) le_rfl).symm)); iexact HO
      isplitl [Hat]; · iexact Hat
      isplitl [Hrd]; · iexact Hrd
      isplitl [Hrs]; · iexact Hrs
      iexact Htoks
    · unfold FIN
      isplitl [Ha0]; · iexact Ha0
      isplitl [Ha1]; · iexact Ha1
      isplitl [Ha2]; · iexact Ha2
      isplitl [Ha3]; · iexact Ha3
      iexact Hb9
  isplitl [Hb]; · iexact Hb
  isplitl [Hb7]; · iexact Hb7
  isplitl [Ha2]; · iexact Ha2
  isplitl [Hb8]; · iexact Hb8
  isplitl [Hb9]; · iexists _; iexact Hb9
  isplitl [HO']; · iexact HO'
  isplitl [Hlev]; · iexact Hlev
  isplitl [Hcg]; · iexact Hcg
  iexact Hti

end Cert.Proof.KB

end
-- ==== Proof.BTileFn.lean ====
/-
  One tile's dataflow, as pure functions of what the tile loads.

  A tile loads thirty-two words in two 16-lane vectors `i0`, `i1` (entries 0 … 15 and 16 … 31) and, for each entry
  `k` and each of the eight 16-lane groups `v` of its 128 columns, the vector `ld k v` of row `k`, lanes
  `16 v … 16 v + 15`. From the words it computes, lane by lane, a flag "an earlier entry holds the same word"
  (sixteen compare-and-accumulate steps for the first vector, thirty-two for the second), the weight vectors
  (0 where the flag is set, 1 elsewhere), their thirty-two lanes as scalars `w k`, the count
  `w 0 + w 1 + … + w 31` and the vector `1 / (1 · count)`; for each lane group it stores
  `(ld 0 v · w 0 + ld 1 v · w 1 + … + ld 31 v · w 31) · (1 / (1 · count))`.

  Each definition below is one value `%N` of the printed body, named `tN`, written as the generated payload of that
  value applied to the values it reads, in the order the printed body threads them; `stored v` is the value of the
  store into lanes `16 v … 16 v + 15` of the tile's 128-lane result.
-/
import proofs.«217236_g4415226380944_cont_8to1_c_873_25_alg».proof.Proof.Gen.Kernel.Skeleton

noncomputable section

namespace Cert.Kernel.Tile

open Idealize.ShloMosaic Idealize.SL.Sem Cert.Kernel Cert.Kernel.Gen

variable {F : FTy → Type} [FloatOps F]

/-! ## The words, the lane numbers, and the flags "an earlier entry holds the same word"

`t24`, `t26`: the two word vectors. `t28`: the all-clear flag vector both chains start from. `t80`, `t135`, `t190`,
`t201`: the first vector's flags after comparing with entries 0 … 4, … 9, … 14, … 15 (each step: same word AND
lane number greater than the entry's). `t83`, `t138`, `t193`: the second vector's flags after comparing with
entries 0 … 4, … 9, … 14 (same word, any lane); `t244`: after entry 15 and entries 16 … 20; `t300`: after
entries 21 … 27 (from entry 16 on: same word AND lane number greater than the entry's lane). `t29`, `t84`,
`t139`, `t194`, `t301`: one-lane slices the next step compares with; `t248`: a comparison carried to the next
step. -/

noncomputable def t24 (i0 i1 : Vec F S16 .i32) : IVec S16 32 :=
  k0_pay1 i0
noncomputable def t26 (i0 i1 : Vec F S16 .i32) : IVec S16 32 :=
  k0_pay2 i1
/-- `%27`: the lane numbers 0 … 15. -/
noncomputable def t27 : IVec S16 32 := iota .scVector S16 32 [0] Facts₀.iota_S16_d0_w32_scVector
noncomputable def t28 (i0 i1 : Vec F S16 .i32) : IVec S16 1 :=
  k0_pay3 i0
noncomputable def t29 (i0 i1 : Vec F S16 .i32) : IVec S1 32 :=
  k0_pay4 i0
noncomputable def t80 (i0 i1 : Vec F S16 .i32) : IVec S16 1 :=
  k0_pay5 (t24 i0 i1) t27 (t28 i0 i1) (t29 i0 i1)
noncomputable def t83 (i0 i1 : Vec F S16 .i32) : IVec S16 1 :=
  k0_pay6 (t24 i0 i1) (t26 i0 i1) (t28 i0 i1) (t29 i0 i1)
noncomputable def t84 (i0 i1 : Vec F S16 .i32) : IVec S1 32 :=
  k0_pay7 (t24 i0 i1)
noncomputable def t135 (i0 i1 : Vec F S16 .i32) : IVec S16 1 :=
  k0_pay8 (t24 i0 i1) t27 (t80 i0 i1) (t84 i0 i1)
noncomputable def t138 (i0 i1 : Vec F S16 .i32) : IVec S16 1 :=
  k0_pay9 (t24 i0 i1) (t26 i0 i1) (t83 i0 i1) (t84 i0 i1)
noncomputable def t139 (i0 i1 : Vec F S16 .i32) : IVec S1 32 :=
  k0_pay10 (t24 i0 i1)
noncomputable def t190 (i0 i1 : Vec F S16 .i32) : IVec S16 1 :=
  k0_pay11 (t24 i0 i1) t27 (t135 i0 i1) (t139 i0 i1)
noncomputable def t193 (i0 i1 : Vec F S16 .i32) : IVec S16 1 :=
  k0_pay12 (t24 i0 i1) (t26 i0 i1) (t138 i0 i1) (t139 i0 i1)
noncomputable def t194 (i0 i1 : Vec F S16 .i32) : IVec S1 32 :=
  k0_pay13 (t24 i0 i1)
noncomputable def t201 (i0 i1 : Vec F S16 .i32) : IVec S16 1 :=
  k0_pay14 (t24 i0 i1) t27 (t190 i0 i1) (t194 i0 i1)
noncomputable def t244 (i0 i1 : Vec F S16 .i32) : IVec S16 1 :=
  k0_pay15 (t26 i0 i1) t27 (t193 i0 i1) (t194 i0 i1)
noncomputable def t248 (i0 i1 : Vec F S16 .i32) : IVec S16 1 :=
  k0_pay16 (t26 i0 i1)
noncomputable def t300 (i0 i1 : Vec F S16 .i32) : IVec S16 1 :=
  k0_pay17 (t26 i0 i1) t27 (t244 i0 i1) (t248 i0 i1)
noncomputable def t301 (i0 i1 : Vec F S16 .i32) : IVec S1 32 :=
  k0_pay18 (t26 i0 i1)

/-! ## The weight vectors and their lanes

`t335`, `t338`: 0 where the flag is set and 1 elsewhere, for entries 0 … 15 and 16 … 31 (the second vector's last
four comparison steps happen inside `t338`). `t340`, `t342`, …, `t402`: the thirty-two lanes as scalars, entry `k`
being `t(340 + 2k)`. -/

noncomputable def t335 (i0 i1 : Vec F S16 .i32) : FVec F S16 .f32 :=
  k0_pay19 (F := F) (t201 i0 i1)
noncomputable def t338 (i0 i1 : Vec F S16 .i32) : FVec F S16 .f32 :=
  k0_pay20 (F := F) (t26 i0 i1) t27 (t300 i0 i1) (t301 i0 i1)
noncomputable def t340 (i0 i1 : Vec F S16 .i32) : F .f32 :=
  k0_pay21 (F := F) (t201 i0 i1)
noncomputable def t342 (i0 i1 : Vec F S16 .i32) : F .f32 :=
  k0_pay22 (F := F) (t201 i0 i1)
noncomputable def t344 (i0 i1 : Vec F S16 .i32) : F .f32 :=
  k0_pay23 (F := F) (t201 i0 i1)
noncomputable def t346 (i0 i1 : Vec F S16 .i32) : F .f32 :=
  k0_pay24 (F := F) (t201 i0 i1)
noncomputable def t348 (i0 i1 : Vec F S16 .i32) : F .f32 :=
  k0_pay25 (F := F) (t201 i0 i1)
noncomputable def t350 (i0 i1 : Vec F S16 .i32) : F .f32 :=
  k0_pay26 (F := F) (t201 i0 i1)
noncomputable def t352 (i0 i1 : Vec F S16 .i32) : F .f32 :=
  k0_pay27 (F := F) (t201 i0 i1)
noncomputable def t353 (i0 i1 : Vec F S16 .i32) : FVec F S1 .f32 :=
  k0_pay28 (F := F) (t201 i0 i1)
noncomputable def t354 (i0 i1 : Vec F S16 .i32) : F .f32 :=
  k0_pay29 (t353 i0 i1)
noncomputable def t356 (i0 i1 : Vec F S16 .i32) : F .f32 :=
  k0_pay30 (t335 i0 i1)
noncomputable def t358 (i0 i1 : Vec F S16 .i32) : F .f32 :=
  k0_pay31 (t335 i0 i1)
noncomputable def t360 (i0 i1 : Vec F S16 .i32) : F .f32 :=
  k0_pay32 (t335 i0 i1)
noncomputable def t362 (i0 i1 : Vec F S16 .i32) : F .f32 :=
  k0_pay33 (t335 i0 i1)
noncomputable def t364 (i0 i1 : Vec F S16 .i32) : F .f32 :=
  k0_pay34 (t335 i0 i1)
noncomputable def t366 (i0 i1 : Vec F S16 .i32) : F .f32 :=
  k0_pay35 (t335 i0 i1)
noncomputable def t368 (i0 i1 : Vec F S16 .i32) : F .f32 :=
  k0_pay36 (t335 i0 i1)
noncomputable def t370 (i0 i1 : Vec F S16 .i32) : F .f32 :=
  k0_pay37 (t335 i0 i1)
noncomputable def t372 (i0 i1 : Vec F S16 .i32) : F .f32 :=
  k0_pay38 (t338 i0 i1)
noncomputable def t374 (i0 i1 : Vec F S16 .i32) : F .f32 :=
  k0_pay39 (t338 i0 i1)
noncomputable def t376 (i0 i1 : Vec F S16 .i32) : F .f32 :=
  k0_pay40 (t338 i0 i1)
noncomputable def t378 (i0 i1 : Vec F S16 .i32) : F .f32 :=
  k0_pay41 (t338 i0 i1)
noncomputable def t380 (i0 i1 : Vec F S16 .i32) : F .f32 :=
  k0_pay42 (t338 i0 i1)
noncomputable def t382 (i0 i1 : Vec F S16 .i32) : F .f32 :=
  k0_pay43 (t338 i0 i1)
noncomputable def t384 (i0 i1 : Vec F S16 .i32) : F .f32 :=
  k0_pay44 (t338 i0 i1)
noncomputable def t386 (i0 i1 : Vec F S16 .i32) : F .f32 :=
  k0_pay45 (t338 i0 i1)
noncomputable def t388 (i0 i1 : Vec F S16 .i32) : F .f32 :=
  k0_pay46 (t338 i0 i1)
noncomputable def t390 (i0 i1 : Vec F S16 .i32) : F .f32 :=
  k0_pay47 (t338 i0 i1)
noncomputable def t392 (i0 i1 : Vec F S16 .i32) : F .f32 :=
  k0_pay48 (t338 i0 i1)
noncomputable def t394 (i0 i1 : Vec F S16 .i32) : F .f32 :=
  k0_pay49 (t338 i0 i1)
noncomputable def t396 (i0 i1 : Vec F S16 .i32) : F .f32 :=
  k0_pay50 (t338 i0 i1)
noncomputable def t398 (i0 i1 : Vec F S16 .i32) : F .f32 :=
  k0_pay51 (t338 i0 i1)
noncomputable def t400 (i0 i1 : Vec F S16 .i32) : F .f32 :=
  k0_pay52 (t338 i0 i1)
noncomputable def t402 (i0 i1 : Vec F S16 .i32) : F .f32 :=
  k0_pay53 (t338 i0 i1)

/-! ## The count and its reciprocal

`t413`: the sum of the weights of entries 0 … 11, from the left. `t438`: the vector `1 / (1 · count)`, the count
being `t413` plus the weights of entries 12 … 31, from the left. -/

noncomputable def t413 (i0 i1 : Vec F S16 .i32) : F .f32 :=
  k0_pay54 (t335 i0 i1) (t340 i0 i1) (t342 i0 i1) (t344 i0 i1) (t346 i0 i1) (t348 i0 i1) (t350 i0 i1) (t352 i0 i1) (t353 i0 i1)
noncomputable def t438 (i0 i1 : Vec F S16 .i32) : FVec F S16 .f32 :=
  k0_pay55 (t364 i0 i1) (t366 i0 i1) (t368 i0 i1) (t370 i0 i1) (t372 i0 i1) (t374 i0 i1) (t376 i0 i1) (t378 i0 i1) (t380 i0 i1) (t382 i0 i1) (t384 i0 i1) (t386 i0 i1) (t388 i0 i1) (t390 i0 i1) (t392 i0 i1) (t394 i0 i1) (t396 i0 i1) (t398 i0 i1) (t400 i0 i1) (t402 i0 i1) (t413 i0 i1)

/-! ## The weighted sums, lane group by lane group

For each lane group the running sum `ld 0 v · w 0 + ld 1 v · w 1 + …` (from the left) is carried through several
values; a value may also be a single product, a single reshaped row or a single broadcast weight that the next
value adds in. The value stored for the group is the finished sum times `t438`. -/

noncomputable def t456 (i0 i1 : Vec F S16 .i32) (ld : Fin 32 → Fin 8 → Vec F S1x16 .f32) : FVec F S16 .f32 :=
  k0_pay56 (t340 i0 i1) (t342 i0 i1) (t344 i0 i1) (ld 0 0) (ld 1 0) (ld 2 0)
noncomputable def t461 (i0 i1 : Vec F S16 .i32) (ld : Fin 32 → Fin 8 → Vec F S1x16 .f32) : FVec F S16 .f32 :=
  k0_pay57 (t346 i0 i1) (ld 3 0)
noncomputable def t504 (i0 i1 : Vec F S16 .i32) (ld : Fin 32 → Fin 8 → Vec F S1x16 .f32) : FVec F S16 .f32 :=
  k0_pay58 (t348 i0 i1) (t350 i0 i1) (t352 i0 i1) (t354 i0 i1) (t356 i0 i1) (t358 i0 i1) (t360 i0 i1) (t456 i0 i1 ld) (t461 i0 i1 ld) (ld 4 0) (ld 5 0) (ld 6 0) (ld 7 0) (ld 8 0) (ld 9 0) (ld 10 0)
noncomputable def t546 (i0 i1 : Vec F S16 .i32) (ld : Fin 32 → Fin 8 → Vec F S1x16 .f32) : FVec F S16 .f32 :=
  k0_pay59 (t362 i0 i1) (t364 i0 i1) (t366 i0 i1) (t368 i0 i1) (t370 i0 i1) (t372 i0 i1) (t374 i0 i1) (t504 i0 i1 ld) (ld 11 0) (ld 12 0) (ld 13 0) (ld 14 0) (ld 15 0) (ld 16 0) (ld 17 0)
noncomputable def t551 (i0 i1 : Vec F S16 .i32) (ld : Fin 32 → Fin 8 → Vec F S1x16 .f32) : FVec F S16 .f32 :=
  k0_pay60 (t376 i0 i1) (ld 18 0)
noncomputable def t594 (i0 i1 : Vec F S16 .i32) (ld : Fin 32 → Fin 8 → Vec F S1x16 .f32) : FVec F S16 .f32 :=
  k0_pay61 (t378 i0 i1) (t380 i0 i1) (t382 i0 i1) (t384 i0 i1) (t386 i0 i1) (t388 i0 i1) (t390 i0 i1) (t546 i0 i1 ld) (t551 i0 i1 ld) (ld 19 0) (ld 20 0) (ld 21 0) (ld 22 0) (ld 23 0) (ld 24 0) (ld 25 0)
noncomputable def t639 (i0 i1 : Vec F S16 .i32) (ld : Fin 32 → Fin 8 → Vec F S1x16 .f32) : FVec F S16 .f32 :=
  k0_pay63 (t340 i0 i1) (ld 0 1)
noncomputable def t681 (i0 i1 : Vec F S16 .i32) (ld : Fin 32 → Fin 8 → Vec F S1x16 .f32) : FVec F S16 .f32 :=
  k0_pay64 (t342 i0 i1) (t344 i0 i1) (t346 i0 i1) (t348 i0 i1) (t350 i0 i1) (t352 i0 i1) (t354 i0 i1) (t639 i0 i1 ld) (ld 1 1) (ld 2 1) (ld 3 1) (ld 4 1) (ld 5 1) (ld 6 1) (ld 7 1)
noncomputable def t684 (i0 i1 : Vec F S16 .i32) (ld : Fin 32 → Fin 8 → Vec F S1x16 .f32) : FVec F S16 .f32 :=
  k0_pay65 (ld 8 1)
noncomputable def t685 (i0 i1 : Vec F S16 .i32) : FVec F S16 .f32 :=
  k0_pay66 (t356 i0 i1)
noncomputable def t729 (i0 i1 : Vec F S16 .i32) (ld : Fin 32 → Fin 8 → Vec F S1x16 .f32) : FVec F S16 .f32 :=
  k0_pay67 (t358 i0 i1) (t360 i0 i1) (t362 i0 i1) (t364 i0 i1) (t366 i0 i1) (t368 i0 i1) (t370 i0 i1) (t681 i0 i1 ld) (t684 i0 i1 ld) (t685 i0 i1) (ld 9 1) (ld 10 1) (ld 11 1) (ld 12 1) (ld 13 1) (ld 14 1) (ld 15 1)
noncomputable def t771 (i0 i1 : Vec F S16 .i32) (ld : Fin 32 → Fin 8 → Vec F S1x16 .f32) : FVec F S16 .f32 :=
  k0_pay68 (t372 i0 i1) (t374 i0 i1) (t376 i0 i1) (t378 i0 i1) (t380 i0 i1) (t382 i0 i1) (t384 i0 i1) (t729 i0 i1 ld) (ld 16 1) (ld 17 1) (ld 18 1) (ld 19 1) (ld 20 1) (ld 21 1) (ld 22 1)
noncomputable def t774 (i0 i1 : Vec F S16 .i32) (ld : Fin 32 → Fin 8 → Vec F S1x16 .f32) : FVec F S16 .f32 :=
  k0_pay69 (ld 23 1)
noncomputable def t775 (i0 i1 : Vec F S16 .i32) : FVec F S16 .f32 :=
  k0_pay70 (t386 i0 i1)
noncomputable def t819 (i0 i1 : Vec F S16 .i32) (ld : Fin 32 → Fin 8 → Vec F S1x16 .f32) : FVec F S16 .f32 :=
  k0_pay71 (t388 i0 i1) (t390 i0 i1) (t392 i0 i1) (t394 i0 i1) (t396 i0 i1) (t398 i0 i1) (t400 i0 i1) (t771 i0 i1 ld) (t774 i0 i1 ld) (t775 i0 i1) (ld 24 1) (ld 25 1) (ld 26 1) (ld 27 1) (ld 28 1) (ld 29 1) (ld 30 1)
noncomputable def t864 (i0 i1 : Vec F S16 .i32) (ld : Fin 32 → Fin 8 → Vec F S1x16 .f32) : FVec F S16 .f32 :=
  k0_pay73 (t340 i0 i1) (t342 i0 i1) (t344 i0 i1) (t346 i0 i1) (t348 i0 i1) (t350 i0 i1) (ld 0 2) (ld 1 2) (ld 2 2) (ld 3 2) (ld 4 2) (ld 5 2)
noncomputable def t906 (i0 i1 : Vec F S16 .i32) (ld : Fin 32 → Fin 8 → Vec F S1x16 .f32) : FVec F S16 .f32 :=
  k0_pay74 (t352 i0 i1) (t354 i0 i1) (t356 i0 i1) (t358 i0 i1) (t360 i0 i1) (t362 i0 i1) (t364 i0 i1) (t864 i0 i1 ld) (ld 6 2) (ld 7 2) (ld 8 2) (ld 9 2) (ld 10 2) (ld 11 2) (ld 12 2)
noncomputable def t909 (i0 i1 : Vec F S16 .i32) (ld : Fin 32 → Fin 8 → Vec F S1x16 .f32) : FVec F S16 .f32 :=
  k0_pay75 (ld 13 2)
noncomputable def t954 (i0 i1 : Vec F S16 .i32) (ld : Fin 32 → Fin 8 → Vec F S1x16 .f32) : FVec F S16 .f32 :=
  k0_pay76 (t366 i0 i1) (t368 i0 i1) (t370 i0 i1) (t372 i0 i1) (t374 i0 i1) (t376 i0 i1) (t378 i0 i1) (t380 i0 i1) (t906 i0 i1 ld) (t909 i0 i1 ld) (ld 14 2) (ld 15 2) (ld 16 2) (ld 17 2) (ld 18 2) (ld 19 2) (ld 20 2)
noncomputable def t996 (i0 i1 : Vec F S16 .i32) (ld : Fin 32 → Fin 8 → Vec F S1x16 .f32) : FVec F S16 .f32 :=
  k0_pay77 (t382 i0 i1) (t384 i0 i1) (t386 i0 i1) (t388 i0 i1) (t390 i0 i1) (t392 i0 i1) (t394 i0 i1) (t954 i0 i1 ld) (ld 21 2) (ld 22 2) (ld 23 2) (ld 24 2) (ld 25 2) (ld 26 2) (ld 27 2)
noncomputable def t999 (i0 i1 : Vec F S16 .i32) (ld : Fin 32 → Fin 8 → Vec F S1x16 .f32) : FVec F S16 .f32 :=
  k0_pay78 (ld 28 2)
noncomputable def t1041 (i0 i1 : Vec F S16 .i32) (ld : Fin 32 → Fin 8 → Vec F S1x16 .f32) : FVec F S16 .f32 :=
  k0_pay80 (t340 i0 i1) (t342 i0 i1) (t344 i0 i1) (ld 0 3) (ld 1 3) (ld 2 3)
noncomputable def t1089 (i0 i1 : Vec F S16 .i32) (ld : Fin 32 → Fin 8 → Vec F S1x16 .f32) : FVec F S16 .f32 :=
  k0_pay81 (t346 i0 i1) (t348 i0 i1) (t350 i0 i1) (t352 i0 i1) (t354 i0 i1) (t356 i0 i1) (t358 i0 i1) (t360 i0 i1) (t1041 i0 i1 ld) (ld 3 3) (ld 4 3) (ld 5 3) (ld 6 3) (ld 7 3) (ld 8 3) (ld 9 3) (ld 10 3)
noncomputable def t1131 (i0 i1 : Vec F S16 .i32) (ld : Fin 32 → Fin 8 → Vec F S1x16 .f32) : FVec F S16 .f32 :=
  k0_pay82 (t362 i0 i1) (t364 i0 i1) (t366 i0 i1) (t368 i0 i1) (t370 i0 i1) (t372 i0 i1) (t374 i0 i1) (t1089 i0 i1 ld) (ld 11 3) (ld 12 3) (ld 13 3) (ld 14 3) (ld 15 3) (ld 16 3) (ld 17 3)
noncomputable def t1179 (i0 i1 : Vec F S16 .i32) (ld : Fin 32 → Fin 8 → Vec F S1x16 .f32) : FVec F S16 .f32 :=
  k0_pay83 (t376 i0 i1) (t378 i0 i1) (t380 i0 i1) (t382 i0 i1) (t384 i0 i1) (t386 i0 i1) (t388 i0 i1) (t390 i0 i1) (t1131 i0 i1 ld) (ld 18 3) (ld 19 3) (ld 20 3) (ld 21 3) (ld 22 3) (ld 23 3) (ld 24 3) (ld 25 3)
noncomputable def t1222 (i0 i1 : Vec F S16 .i32) (ld : Fin 32 → Fin 8 → Vec F S1x16 .f32) : FVec F S16 .f32 :=
  k0_pay85 (ld 0 4)
noncomputable def t1223 (i0 i1 : Vec F S16 .i32) : FVec F S16 .f32 :=
  k0_pay86 (t340 i0 i1)
noncomputable def t1266 (i0 i1 : Vec F S16 .i32) (ld : Fin 32 → Fin 8 → Vec F S1x16 .f32) : FVec F S16 .f32 :=
  k0_pay87 (t342 i0 i1) (t344 i0 i1) (t346 i0 i1) (t348 i0 i1) (t350 i0 i1) (t352 i0 i1) (t354 i0 i1) (t1222 i0 i1 ld) (t1223 i0 i1) (ld 1 4) (ld 2 4) (ld 3 4) (ld 4 4) (ld 5 4) (ld 6 4) (ld 7 4)
noncomputable def t1308 (i0 i1 : Vec F S16 .i32) (ld : Fin 32 → Fin 8 → Vec F S1x16 .f32) : FVec F S16 .f32 :=
  k0_pay88 (t356 i0 i1) (t358 i0 i1) (t360 i0 i1) (t362 i0 i1) (t364 i0 i1) (t366 i0 i1) (t368 i0 i1) (t1266 i0 i1 ld) (ld 8 4) (ld 9 4) (ld 10 4) (ld 11 4) (ld 12 4) (ld 13 4) (ld 14 4)
noncomputable def t1313 (i0 i1 : Vec F S16 .i32) (ld : Fin 32 → Fin 8 → Vec F S1x16 .f32) : FVec F S16 .f32 :=
  k0_pay89 (t370 i0 i1) (ld 15 4)
noncomputable def t1356 (i0 i1 : Vec F S16 .i32) (ld : Fin 32 → Fin 8 → Vec F S1x16 .f32) : FVec F S16 .f32 :=
  k0_pay90 (t372 i0 i1) (t374 i0 i1) (t376 i0 i1) (t378 i0 i1) (t380 i0 i1) (t382 i0 i1) (t384 i0 i1) (t1308 i0 i1 ld) (t1313 i0 i1 ld) (ld 16 4) (ld 17 4) (ld 18 4) (ld 19 4) (ld 20 4) (ld 21 4) (ld 22 4)
noncomputable def t1398 (i0 i1 : Vec F S16 .i32) (ld : Fin 32 → Fin 8 → Vec F S1x16 .f32) : FVec F S16 .f32 :=
  k0_pay91 (t386 i0 i1) (t388 i0 i1) (t390 i0 i1) (t392 i0 i1) (t394 i0 i1) (t396 i0 i1) (t398 i0 i1) (t1356 i0 i1 ld) (ld 23 4) (ld 24 4) (ld 25 4) (ld 26 4) (ld 27 4) (ld 28 4) (ld 29 4)
noncomputable def t1403 (i0 i1 : Vec F S16 .i32) (ld : Fin 32 → Fin 8 → Vec F S1x16 .f32) : FVec F S16 .f32 :=
  k0_pay92 (t400 i0 i1) (ld 30 4)
noncomputable def t1443 (i0 i1 : Vec F S16 .i32) (ld : Fin 32 → Fin 8 → Vec F S1x16 .f32) : FVec F S16 .f32 :=
  k0_pay94 (t340 i0 i1) (t342 i0 i1) (t344 i0 i1) (t346 i0 i1) (t348 i0 i1) (ld 0 5) (ld 1 5) (ld 2 5) (ld 3 5) (ld 4 5)
noncomputable def t1446 (i0 i1 : Vec F S16 .i32) (ld : Fin 32 → Fin 8 → Vec F S1x16 .f32) : FVec F S16 .f32 :=
  k0_pay95 (ld 5 5)
noncomputable def t1447 (i0 i1 : Vec F S16 .i32) : FVec F S16 .f32 :=
  k0_pay96 (t350 i0 i1)
noncomputable def t1491 (i0 i1 : Vec F S16 .i32) (ld : Fin 32 → Fin 8 → Vec F S1x16 .f32) : FVec F S16 .f32 :=
  k0_pay97 (t352 i0 i1) (t354 i0 i1) (t356 i0 i1) (t358 i0 i1) (t360 i0 i1) (t362 i0 i1) (t364 i0 i1) (t1443 i0 i1 ld) (t1446 i0 i1 ld) (t1447 i0 i1) (ld 6 5) (ld 7 5) (ld 8 5) (ld 9 5) (ld 10 5) (ld 11 5) (ld 12 5)
noncomputable def t1533 (i0 i1 : Vec F S16 .i32) (ld : Fin 32 → Fin 8 → Vec F S1x16 .f32) : FVec F S16 .f32 :=
  k0_pay98 (t366 i0 i1) (t368 i0 i1) (t370 i0 i1) (t372 i0 i1) (t374 i0 i1) (t376 i0 i1) (t378 i0 i1) (t1491 i0 i1 ld) (ld 13 5) (ld 14 5) (ld 15 5) (ld 16 5) (ld 17 5) (ld 18 5) (ld 19 5)
noncomputable def t1536 (i0 i1 : Vec F S16 .i32) (ld : Fin 32 → Fin 8 → Vec F S1x16 .f32) : FVec F S16 .f32 :=
  k0_pay99 (ld 20 5)
noncomputable def t1537 (i0 i1 : Vec F S16 .i32) : FVec F S16 .f32 :=
  k0_pay100 (t380 i0 i1)
noncomputable def t1581 (i0 i1 : Vec F S16 .i32) (ld : Fin 32 → Fin 8 → Vec F S1x16 .f32) : FVec F S16 .f32 :=
  k0_pay101 (t382 i0 i1) (t384 i0 i1) (t386 i0 i1) (t388 i0 i1) (t390 i0 i1) (t392 i0 i1) (t394 i0 i1) (t1533 i0 i1 ld) (t1536 i0 i1 ld) (t1537 i0 i1) (ld 21 5) (ld 22 5) (ld 23 5) (ld 24 5) (ld 25 5) (ld 26 5) (ld 27 5)
noncomputable def t1626 (i0 i1 : Vec F S16 .i32) (ld : Fin 32 → Fin 8 → Vec F S1x16 .f32) : FVec F S16 .f32 :=
  k0_pay103 (t340 i0 i1) (t342 i0 i1) (t344 i0 i1) (ld 0 6) (ld 1 6) (ld 2 6)
noncomputable def t1668 (i0 i1 : Vec F S16 .i32) (ld : Fin 32 → Fin 8 → Vec F S1x16 .f32) : FVec F S16 .f32 :=
  k0_pay104 (t346 i0 i1) (t348 i0 i1) (t350 i0 i1) (t352 i0 i1) (t354 i0 i1) (t356 i0 i1) (t358 i0 i1) (t1626 i0 i1 ld) (ld 3 6) (ld 4 6) (ld 5 6) (ld 6 6) (ld 7 6) (ld 8 6) (ld 9 6)
noncomputable def t1671 (i0 i1 : Vec F S16 .i32) (ld : Fin 32 → Fin 8 → Vec F S1x16 .f32) : FVec F S16 .f32 :=
  k0_pay105 (ld 10 6)
noncomputable def t1716 (i0 i1 : Vec F S16 .i32) (ld : Fin 32 → Fin 8 → Vec F S1x16 .f32) : FVec F S16 .f32 :=
  k0_pay106 (t360 i0 i1) (t362 i0 i1) (t364 i0 i1) (t366 i0 i1) (t368 i0 i1) (t370 i0 i1) (t372 i0 i1) (t374 i0 i1) (t1668 i0 i1 ld) (t1671 i0 i1 ld) (ld 11 6) (ld 12 6) (ld 13 6) (ld 14 6) (ld 15 6) (ld 16 6) (ld 17 6)
noncomputable def t1758 (i0 i1 : Vec F S16 .i32) (ld : Fin 32 → Fin 8 → Vec F S1x16 .f32) : FVec F S16 .f32 :=
  k0_pay107 (t376 i0 i1) (t378 i0 i1) (t380 i0 i1) (t382 i0 i1) (t384 i0 i1) (t386 i0 i1) (t388 i0 i1) (t1716 i0 i1 ld) (ld 18 6) (ld 19 6) (ld 20 6) (ld 21 6) (ld 22 6) (ld 23 6) (ld 24 6)
noncomputable def t1761 (i0 i1 : Vec F S16 .i32) (ld : Fin 32 → Fin 8 → Vec F S1x16 .f32) : FVec F S16 .f32 :=
  k0_pay108 (ld 25 6)
noncomputable def t1851 (i0 i1 : Vec F S16 .i32) (ld : Fin 32 → Fin 8 → Vec F S1x16 .f32) : FVec F S16 .f32 :=
  k0_pay110 (t340 i0 i1) (t342 i0 i1) (t344 i0 i1) (t346 i0 i1) (t348 i0 i1) (t350 i0 i1) (t352 i0 i1) (t354 i0 i1) (ld 0 7) (ld 1 7) (ld 2 7) (ld 3 7) (ld 4 7) (ld 5 7) (ld 6 7) (ld 7 7)
noncomputable def t1893 (i0 i1 : Vec F S16 .i32) (ld : Fin 32 → Fin 8 → Vec F S1x16 .f32) : FVec F S16 .f32 :=
  k0_pay111 (t356 i0 i1) (t358 i0 i1) (t360 i0 i1) (t362 i0 i1) (t364 i0 i1) (t366 i0 i1) (t368 i0 i1) (t1851 i0 i1 ld) (ld 8 7) (ld 9 7) (ld 10 7) (ld 11 7) (ld 12 7) (ld 13 7) (ld 14 7)
noncomputable def t1941 (i0 i1 : Vec F S16 .i32) (ld : Fin 32 → Fin 8 → Vec F S1x16 .f32) : FVec F S16 .f32 :=
  k0_pay112 (t370 i0 i1) (t372 i0 i1) (t374 i0 i1) (t376 i0 i1) (t378 i0 i1) (t380 i0 i1) (t382 i0 i1) (t384 i0 i1) (t1893 i0 i1 ld) (ld 15 7) (ld 16 7) (ld 17 7) (ld 18 7) (ld 19 7) (ld 20 7) (ld 21 7) (ld 22 7)
noncomputable def t1983 (i0 i1 : Vec F S16 .i32) (ld : Fin 32 → Fin 8 → Vec F S1x16 .f32) : FVec F S16 .f32 :=
  k0_pay113 (t386 i0 i1) (t388 i0 i1) (t390 i0 i1) (t392 i0 i1) (t394 i0 i1) (t396 i0 i1) (t398 i0 i1) (t1941 i0 i1 ld) (ld 23 7) (ld 24 7) (ld 25 7) (ld 26 7) (ld 27 7) (ld 28 7) (ld 29 7)
noncomputable def t1999 (i0 i1 : Vec F S16 .i32) (ld : Fin 32 → Fin 8 → Vec F S1x16 .f32) : FVec F S16 .f32 :=
  k0_pay114 (t400 i0 i1) (t402 i0 i1) (t438 i0 i1) (t1983 i0 i1 ld) (ld 30 7) (ld 31 7)

/-! ## The eight stored vectors -/

noncomputable def stored0 (i0 i1 : Vec F S16 .i32) (ld : Fin 32 → Fin 8 → Vec F S1x16 .f32) : FVec F S16 .f32 :=
  k0_pay62 (t392 i0 i1) (t394 i0 i1) (t396 i0 i1) (t398 i0 i1) (t400 i0 i1) (t402 i0 i1) (t438 i0 i1) (t594 i0 i1 ld) (ld 26 0) (ld 27 0) (ld 28 0) (ld 29 0) (ld 30 0) (ld 31 0)
noncomputable def stored1 (i0 i1 : Vec F S16 .i32) (ld : Fin 32 → Fin 8 → Vec F S1x16 .f32) : FVec F S16 .f32 :=
  k0_pay72 (t402 i0 i1) (t438 i0 i1) (t819 i0 i1 ld) (ld 31 1)
noncomputable def stored2 (i0 i1 : Vec F S16 .i32) (ld : Fin 32 → Fin 8 → Vec F S1x16 .f32) : FVec F S16 .f32 :=
  k0_pay79 (t396 i0 i1) (t398 i0 i1) (t400 i0 i1) (t402 i0 i1) (t438 i0 i1) (t996 i0 i1 ld) (t999 i0 i1 ld) (ld 29 2) (ld 30 2) (ld 31 2)
noncomputable def stored3 (i0 i1 : Vec F S16 .i32) (ld : Fin 32 → Fin 8 → Vec F S1x16 .f32) : FVec F S16 .f32 :=
  k0_pay84 (t392 i0 i1) (t394 i0 i1) (t396 i0 i1) (t398 i0 i1) (t400 i0 i1) (t402 i0 i1) (t438 i0 i1) (t1179 i0 i1 ld) (ld 26 3) (ld 27 3) (ld 28 3) (ld 29 3) (ld 30 3) (ld 31 3)
noncomputable def stored4 (i0 i1 : Vec F S16 .i32) (ld : Fin 32 → Fin 8 → Vec F S1x16 .f32) : FVec F S16 .f32 :=
  k0_pay93 (t402 i0 i1) (t438 i0 i1) (t1398 i0 i1 ld) (t1403 i0 i1 ld) (ld 31 4)
noncomputable def stored5 (i0 i1 : Vec F S16 .i32) (ld : Fin 32 → Fin 8 → Vec F S1x16 .f32) : FVec F S16 .f32 :=
  k0_pay102 (t396 i0 i1) (t398 i0 i1) (t400 i0 i1) (t402 i0 i1) (t438 i0 i1) (t1581 i0 i1 ld) (ld 28 5) (ld 29 5) (ld 30 5) (ld 31 5)
noncomputable def stored6 (i0 i1 : Vec F S16 .i32) (ld : Fin 32 → Fin 8 → Vec F S1x16 .f32) : FVec F S16 .f32 :=
  k0_pay109 (t390 i0 i1) (t392 i0 i1) (t394 i0 i1) (t396 i0 i1) (t398 i0 i1) (t400 i0 i1) (t402 i0 i1) (t438 i0 i1) (t1758 i0 i1 ld) (t1761 i0 i1 ld) (ld 26 6) (ld 27 6) (ld 28 6) (ld 29 6) (ld 30 6) (ld 31 6)
noncomputable def stored7 (i0 i1 : Vec F S16 .i32) (ld : Fin 32 → Fin 8 → Vec F S1x16 .f32) : FVec F S16 .f32 :=
  t1999 i0 i1 ld

/-- The vector stored into lanes `16 v … 16 v + 15` of the tile's result. -/
noncomputable def stored (v : Fin 8) (i0 i1 : Vec F S16 .i32) (ld : Fin 32 → Fin 8 → Vec F S1x16 .f32) :
    FVec F S16 .f32 :=
  match v with
  | 0 => stored0 i0 i1 ld
  | 1 => stored1 i0 i1 ld
  | 2 => stored2 i0 i1 ld
  | 3 => stored3 i0 i1 ld
  | 4 => stored4 i0 i1 ld
  | 5 => stored5 i0 i1 ld
  | 6 => stored6 i0 i1 ld
  | 7 => stored7 i0 i1 ld

end Cert.Kernel.Tile

end
-- ==== Proof.BBodyVal.lean ====
/-
  One tile's task of the pooling call with the value it leaves: the tile's 128-lane strip of the result holds, lane
  by lane, the tile's dataflow applied to what the tile loads, the loads being functions of the id array and the
  table alone (the id row of the tile's batch, and the rows of the tile's 128-column slice of the table that the id
  row names).
-/
import proofs.«217236_g4415226380944_cont_8to1_c_873_25_alg».proof.Proof.BBody
import proofs.«217236_g4415226380944_cont_8to1_c_873_25_alg».proof.Proof.BTileFn
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

section Tile

variable (d : Dev nD) (L : grid0.Coords)

/-! ## The tile's loads as functions of the arrays -/

/-- The tile's id row, as the id scratch holds it after the copy-in. -/
def idRow (gid : Buf (Elt F) (gLoc d)) : Buf (Elt F) ((V d (cV L) (jV L)).loc cc0_scratch0) :=
  ReadAs.same.apply ((gRowK L).view.read (Elt F) gid)

omit [FloatOps F] in
/-- Every word of the id row names a row of the table. -/
theorem idRow_in_range (gid : Buf (Elt F) (gLoc d)) (hpre : IdsOK d gid) (x : S32.Idx) :
    ((sI).view.read (Elt F) (idRow d L gid) x).toNat < 16384 := by
  have e : idRow d L gid x = gid ((gRowK L).view.emb x) := (View.read_apply _ _).trans (cast_eq _ _)
  simp only [Memref.view_whole, View.read_whole]
  exact lt_of_eq_of_lt (congrArg BitVec.toNat e) (hpre _)

/-- The two index vectors the tile loads: entries 0 … 15 and 16 … 31 of its id row. -/
def tI0 (gid : Buf (Elt F) (gLoc d)) : Vec F S16 .i32 :=
  View.readAt (Elt F) (sI).view (Rect.unit (s := S32) ![0] S16.size inb_S32_S16_0).toLoadRect (idRow d L gid)
def tI1 (gid : Buf (Elt F) (gLoc d)) : Vec F S16 .i32 :=
  View.readAt (Elt F) (sI).view (Rect.unit (s := S32) ![16] S16.size inb_S32_S16_16).toLoadRect (idRow d L gid)

/-- What the gather leaves in the row scratch: row `k` is the row of the tile's 128-column slice of the table that
    entry `k` of the id row names. -/
def tRows (tbl : Buf (Elt F) (tLoc d)) (gid : Buf (Elt F) (gLoc d)) (hpre : IdsOK d gid) : S32x128.Idx → Elt F .f32 :=
  SparseCore.gatherPayload gathers_S16384x128_S32x128
    (((tblV).slice (Rect.unit (s := S16384x1024) (k0_off2 L) S16384x128.size (k0_off2_inb L)) (fun _ => rfl)).view.read (Elt F) tbl)
    (SparseCore.rows ((sI).view.read (Elt F) (idRow d L gid)) (by decide) (fun x => idRow_in_range d L gid hpre x))

theorem inb_ld (k : Fin 32) (v : Fin 8) : ∀ a, (![k.val, 16 * v.val] : Fin 2 → ℕ) a + S1x16.size a ≤ S32x128.size a := by
  intro a
  have hk := k.isLt
  have hv := v.isLt
  match a with
  | ⟨0, _⟩ => show k.val + 1 ≤ 32; omega
  | ⟨1, _⟩ => show 16 * v.val + 16 ≤ 128; omega

/-- The 256 pieces the tile loads from the row scratch: row `k`, lanes `16 v … 16 v + 15`. -/
def tLd (tbl : Buf (Elt F) (tLoc d)) (gid : Buf (Elt F) (gLoc d)) (hpre : IdsOK d gid) (k : Fin 32) (v : Fin 8) :
    Vec F S1x16 .f32 :=
  (sR).view.readCov [⟨Rect.whole S32x128, tRows d L tbl gid hpre⟩]
    (Rect.unit (s := S32x128) ![k.val, 16 * v.val] S1x16.size (inb_ld k v)).toLoadRect

/-- The tile's 128 result lanes as a function of the arrays: lane `j` is lane `j mod 16` of the vector stored for lane
    group `j / 16`. -/
def tileVal (tbl : Buf (Elt F) (tLoc d)) (gid : Buf (Elt F) (gLoc d)) (hpre : IdsOK d gid) (j : S128.Idx) : Elt F .f32 :=
  Tile.stored ⟨(j 0).val / 16, by have h : (j 0).val < 128 := (j 0).isLt; show (j 0).val / 16 < 8; omega⟩ (tI0 d L gid) (tI1 d L gid)
    (tLd d L tbl gid hpre) (ValueIdx.ix1 ⟨(j 0).val % 16, Nat.mod_lt _ (by norm_num)⟩)

/-- At the lanes of one store: lane group `v`'s stored vector. -/
theorem tileVal_unit (tbl : Buf (Elt F) (tLoc d)) (gid : Buf (Elt F) (gLoc d)) (hpre : IdsOK d gid) (v : Fin 8) (off : ℕ)
    (hoff : off = 16 * v.val) (inb : ∀ a, (![off] : Fin 1 → ℕ) a + S16.size a ≤ S128.size a)
    (x : (Rect.unit (s := S128) ![off] S16.size inb).shape.Idx) :
    tileVal d L tbl gid hpre ((Rect.unit (s := S128) ![off] S16.size inb).emb x)
      = Tile.stored v (tI0 d L gid) (tI1 d L gid) (tLd d L tbl gid hpre) x := by
  subst hoff
  have hx : (x 0).val < 16 := (x 0).isLt
  have h0 : (((Rect.unit (s := S128) ![16 * v.val] S16.size inb).emb x) 0).val = 16 * v.val + (x 0).val := by
    rw [Rect.emb_apply]
    show 16 * v.val + 1 * (x 0).val = _
    omega
  unfold tileVal
  congr 1
  · exact Fin.ext (by show _ / 16 = v.val; rw [h0]; omega)
  · funext a
    match a with
    | ⟨0, _⟩ => exact Fin.ext (by show _ % 16 = (x 0).val; rw [h0]; omega)

/-- One tile's task, at a symbolic tile, with its value: as the frame-strength statement, and the tile's strip of the
    result comes back holding the one whole-array function `po` that is the tile's value on the strip. -/
theorem tile_body_val (hF : (K (F := F)).Facts) (tbl : Buf (Elt F) (tLoc d)) (gid : Buf (Elt F) (gLoc d)) (o0 : Buf (Elt F) (oLoc d))
    (hpre : IdsOK d gid) (po : Buf (Elt F) (oLoc d))
    (hpo : ∀ j : S128.Idx, po ((oRowK L).view.emb j) = tileVal d L tbl gid hpre j)
    (O : CellTallies nD τ sig (HIx 1)) (W : Waits sig (HIx 1)) (hO : ∀ g, O g none = 0) :
    iprop(levAts (K (F := F)).L (K (F := F)).lev ∗ emp
        ∗ (tPts d (tShare L) tbl ∗ gPts d (tShare L) gid ∗ oRowPts d L o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tblV (Memref.isWhole_whole _) gidV (Memref.isWhole_whole _) outV (Memref.isWhole_whole _)
            sI (Memref.isWhole_whole _) sR (Memref.isWhole_whole _) sO (Memref.isWhole_whole _) cc0_scratch3 cc0_scoped0 cc0_scoped1)
          fun _ => iprop((tPts d (tShare L) tbl ∗ gPts d (tShare L) gid ∗ oRowPts d L po)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  iintro ⟨#Hlv, -, ⟨Ht, Hg, Ho⟩, ⟨⟨%fi, Hi⟩, ⟨%fr, Hr⟩, ⟨%fo, Hso⟩, Hbufs⟩, ⟨HsemG, HsemA, HsemB, Hsems⟩, HO⟩
  ihave Hmw := ((K (F := F)).mayWaits_none (thr := V d (cV L) (jV L)) hO) $$ Hlv
  ihave Ht' := (Entails.of_eq (pts_t (F := F) d L _ _).symm) $$ Ht
  ihave Hg' := (Entails.of_eq (pts_g (F := F) d L _ _).symm) $$ Hg
  ihave Ho' := (Entails.of_eq (pts_o (F := F) d L _).symm) $$ Ho
  ihave Hi' := (Entails.of_eq (pts_sI (F := F) d L _).symm) $$ Hi
  ihave Hr' := (Entails.of_eq (pts_sR (F := F) d L _).symm) $$ Hr
  ihave Hso' := (Entails.of_eq (pts_sO (F := F) d L _).symm) $$ Hso
  sl_exec_parts
  -- the id scratch now holds the tile's id row, whatever it held before
  have hw : View.write (Elt F) (sI).view fi (tile_body_val.sl.dma0 d L gid) Finset.univ = idRow d L gid :=
    View.write_whole_univ _ _ _
  ihave Hi2 := (Entails.of_eq (congrArg (fun f => (((sI).view.loc (V d (cV L) (jV L)) ↦{fullShare} f : sProp 𝕄))) hw)) $$ Hi'
  -- the ids the gather reads are the id row just copied in: in range by the precondition
  have hin : ∀ x, ((sI).view.read (Elt F) (idRow d L gid) x).toNat < S16384x128.size (gathers_S16384x128_S32x128).axis :=
    fun x => idRow_in_range d L gid hpre x
  -- one share of the id scratch goes with the gather, the other serves the index loads while it is in flight
  ihave Hsp := ((pointsTo_share (PosShare.mem_left_op_right fullShare)).1) $$ Hi2
  icases Hsp with ⟨HiL, HiR⟩
  sl_exec_parts
  -- what the copy-out wrote on the strip is the tile's value there
  have hval : ∀ i ∈ (oRowK L).view.set,
      ((oRowK L).view.writes (Elt F) o0 [⟨Rect.whole S128, tile_body_val.sl.dma274 d L tbl gid fo hin⟩]) i = po i := by
    intro i hi
    obtain ⟨j, -, rfl⟩ := Finset.mem_map.mp hi
    rw [hpo j]
    -- the strip's element under lane `j` holds what the copy-out's payload has at `j`
    have h1 : ((oRowK L).view.writes (Elt F) o0 [⟨Rect.whole S128, tile_body_val.sl.dma274 d L tbl gid fo hin⟩])
          ((oRowK L).view.emb j)
        = tile_body_val.sl.dma274 d L tbl gid fo hin j := by
      have e := View.read_writes_cons_emb (oRowK L).view o0 (Rect.whole S128) (tile_body_val.sl.dma274 d L tbl gid fo hin) [] j
      rw [Rect.emb_whole_apply] at e
      exact ((View.read_apply _ _).trans (cast_eq _ _)).symm.trans e
    rw [h1]
    -- the payload is the output scratch read back after the eight stores: one function of the lane
    show (sO).view.read (Elt F) ((sO).view.writes (Elt F) fo (tile_body_val.sl.Hso'_8 d L tbl gid hin)) j = _
    unfold tile_body_val.sl.Hso'_8 tile_body_val.sl.Hso'_7 tile_body_val.sl.Hso'_6 tile_body_val.sl.Hso'_5
      tile_body_val.sl.Hso'_4 tile_body_val.sl.Hso'_3 tile_body_val.sl.Hso'_2 tile_body_val.sl.Hso'_1
    refine View.read_writes_apply_of_pieces (sO).view fo (tileVal d L tbl gid hpre) _ ?_ j ?_
    · intro p hp
      simp only [List.mem_cons, List.not_mem_nil, or_false] at hp
      rcases hp with rfl | rfl | rfl | rfl | rfl | rfl | rfl | rfl
      · intro x
        refine Eq.trans ?_ (tileVal_unit d L tbl gid hpre 7 112 rfl inb_S128_S16_112 x).symm
        rfl
      · intro x
        refine Eq.trans ?_ (tileVal_unit d L tbl gid hpre 6 96 rfl inb_S128_S16_96 x).symm
        rfl
      · intro x
        refine Eq.trans ?_ (tileVal_unit d L tbl gid hpre 5 80 rfl inb_S128_S16_80 x).symm
        rfl
      · intro x
        refine Eq.trans ?_ (tileVal_unit d L tbl gid hpre 4 64 rfl inb_S128_S16_64 x).symm
        rfl
      · intro x
        refine Eq.trans ?_ (tileVal_unit d L tbl gid hpre 3 48 rfl inb_S128_S16_48 x).symm
        rfl
      · intro x
        refine Eq.trans ?_ (tileVal_unit d L tbl gid hpre 2 32 rfl inb_S128_S16_32 x).symm
        rfl
      · intro x
        refine Eq.trans ?_ (tileVal_unit d L tbl gid hpre 1 16 rfl inb_S128_S16_16 x).symm
        rfl
      · intro x
        refine Eq.trans ?_ (tileVal_unit d L tbl gid hpre 0 0 rfl inb_S128_S16_0 x).symm
        rfl
    · exact View.cover_of_tiled _ ![16] rfl j
  ihave Ho2 := (Entails.of_eq (pointsTo_congr (q := fullShare) hval)) $$ Ho'
  sl_step
  isplitl [Ht' Hg' Ho2]
  · isplitl [Ht']; · iapply (Entails.of_eq (pts_t (F := F) d L _ _)); iexact Ht'
    isplitl [Hg']; · iapply (Entails.of_eq (pts_g (F := F) d L _ _)); iexact Hg'
    iapply (Entails.of_eq (pts_o (F := F) d L _)); iexact Ho2
  isplitl [HiL HiR Hr' Hso' Hbufs]
  · isplitl [HiL HiR]
    · iexists _; iapply (Entails.of_eq (pts_sI (F := F) d L _))
      iapply ((pointsTo_share (PosShare.mem_left_op_right fullShare)).2)
      isplitl [HiL]; · iexact HiL
      iexact HiR
    isplitl [Hr']; · iexists _; iapply (Entails.of_eq (pts_sR (F := F) d L _)); iexact Hr'
    isplitl [Hso']; · iexists _; iapply (Entails.of_eq (pts_sO (F := F) d L _)); iexact Hso'
    iexact Hbufs
  isplitl [HsemG HsemA HsemB Hsems]
  · isplitl [HsemG]; · iexact HsemG
    isplitl [HsemA]; · iexact HsemA
    isplitl [HsemB]; · iexact HsemB
    iexact Hsems
  iexists (insert (SemLoc.dma cc0_scoped1.sem, none) (insert (SemLoc.dma cc0_scratch3.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KB

end
-- ==== Proof.BPooled.lean ====
/-
  The one whole-array function every tile writes a strip of. Index `(r, c)` of the 4 × 1024 result lies in the strip
  of the tile with number `8 r + c / 128`, at lane `c mod 128` of that tile's 128 lanes; the function's value there is
  that tile's value at that lane. On the strip of tile `L` it is `L`'s value lane by lane: lane `j` of the strip is the
  index (`w / 8`, `128 · (w mod 8) + j`), `w` the tile's number, and the tile recovered from that index is `L`.
-/
import proofs.«217236_g4415226380944_cont_8to1_c_873_25_alg».proof.Proof.BBodyVal
import proofs.«217236_g4415226380944_cont_8to1_c_873_25_alg».proof.Proof.BStrips
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tblV" => (Memref.whole Cert.Kernel.main_v0_scv : Memref Cert.Kernel.sig Kind.scVector Space.hbm Cert.Kernel.S16384x1024 EltTy.f32)
local notation "gidV" => (Memref.whole Cert.Kernel.main_v6_scv : Memref Cert.Kernel.sig Kind.scVector Space.hbm Cert.Kernel.S4x32 EltTy.i32)
local notation "outV" => (Memref.whole Cert.Kernel.main_v7_scv : Memref Cert.Kernel.sig Kind.scVector Space.hbm Cert.Kernel.S4x1024 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)
local notation "sO" => (Memref.whole Cert.Kernel.cc0_scratch2 : Memref Cert.Kernel.sig Kind.scVector Space.vmem Cert.Kernel.S128 EltTy.f32)

open Idealize.ShloMosaic.ValueIdx

/-- The tile whose strip holds index `i` of the result. -/
def tileOf (i : S4x1024.Idx) : grid0.Coords :=
  coordsV ⟨(8 * (i 0).val + (i 1).val / 128) % 2, Nat.mod_lt _ (by norm_num)⟩
    ⟨(8 * (i 0).val + (i 1).val / 128) / 2, by
      have h0 : (i 0).val < 4 := (i 0).isLt
      have h1 : (i 1).val < 1024 := (i 1).isLt
      show (8 * (i 0).val + (i 1).val / 128) / 2 < 16
      omega⟩

/-- Lane `j` of tile `L`'s strip, as an index of the result: row `w / 8`, column `128 · (w mod 8) + j`. -/
theorem oRow_emb (L : grid0.Coords) (j : S128.Idx) :
    (((oRowK L).view.emb j : S4x1024.Idx) 0).val = (wid L).val / 8
      ∧ (((oRowK L).view.emb j : S4x1024.Idx) 1).val = 128 * ((wid L).val % 8) + (j 0).val := by
  have hr : Shape.reshapeEquiv (squeezes_S1x128_S128).numel_eq j = (ix2 (0 : Fin 1) (j 0) : S1x128.Idx) :=
    Shape.reshapeEquiv_eq_of_rowMajor _ (by
      rw [Shape.rowMajor_val_two, Shape.rowMajor_val_one]
      show 0 * 128 + (j 0).val = (j 0).val
      omega)
  have he : ((oRowK L).view.emb j : S4x1024.Idx)
      = (Rect.unit (s := S4x1024) (k0_off3 L) S1x128.size (k0_off3_inb L)).emb (Shape.reshapeEquiv (squeezes_S1x128_S128).numel_eq j) := rfl
  rw [he, hr]
  have hw : (wid L).val = 2 * (L 1).val + (L 0).val := rfl
  constructor
  · rw [Rect.emb_apply]
    show k0_off3 L 0 + 1 * 0 = (wid L).val / 8
    rw [k0_off3_eq, hw]
    show (2 * (L 1).val + (L 0).val) / 8 + 1 * 0 = _
    omega
  · rw [Rect.emb_apply]
    show k0_off3 L 1 + 1 * (j 0).val = 128 * ((wid L).val % 8) + (j 0).val
    rw [k0_off3_eq, hw]
    show 128 * ((2 * (L 1).val + (L 0).val) % 8) + 1 * (j 0).val = _
    omega

/-- The tile recovered from an index of tile `L`'s strip is `L`. -/
theorem tileOf_emb (L : grid0.Coords) (j : S128.Idx) : tileOf ((oRowK L).view.emb j) = L := by
  obtain ⟨h0, h1⟩ := oRow_emb L j
  have hw : (wid L).val = 2 * (L 1).val + (L 0).val := rfl
  have hL0 : (L 0).val < 2 := (L 0).isLt
  have hL1 : (L 1).val < 16 := (L 1).isLt
  have hj : (j 0).val < 128 := (j 0).isLt
  funext a
  match a with
  | ⟨0, _⟩ =>
    refine Fin.ext ?_
    show (8 * (((oRowK L).view.emb j : S4x1024.Idx) 0).val + (((oRowK L).view.emb j : S4x1024.Idx) 1).val / 128) % 2 = (L 0).val
    rw [h0, h1, hw]
    omega
  | ⟨1, _⟩ =>
    refine Fin.ext ?_
    show (8 * (((oRowK L).view.emb j : S4x1024.Idx) 0).val + (((oRowK L).view.emb j : S4x1024.Idx) 1).val / 128) / 2 = (L 1).val
    rw [h0, h1, hw]
    omega

variable [FloatOps F]

/-- The whole result as one function of the table and the id array: at each index, the value of the tile whose strip
    holds it, at the index's lane of that strip. -/
noncomputable def poK (d : Dev nD) (tbl : Buf (Elt F) (tLoc d)) (gid : Buf (Elt F) (gLoc d)) (hpre : IdsOK d gid) :
    Buf (Elt F) (oLoc d) :=
  fun i => tileVal d (tileOf i) tbl gid hpre (ix1 ⟨((i : S4x1024.Idx) 1).val % 128, Nat.mod_lt _ (by norm_num)⟩)

/-- On tile `L`'s strip it is `L`'s value, lane by lane. -/
theorem poK_strip (d : Dev nD) (L : grid0.Coords) (tbl : Buf (Elt F) (tLoc d)) (gid : Buf (Elt F) (gLoc d))
    (hpre : IdsOK d gid) (j : S128.Idx) :
    poK d tbl gid hpre ((oRowK L).view.emb j) = tileVal d L tbl gid hpre j := by
  obtain ⟨h0, h1⟩ := oRow_emb L j
  have hj : (j 0).val < 128 := (j 0).isLt
  have hlane : (ix1 ⟨(((oRowK L).view.emb j : S4x1024.Idx) 1).val % 128, Nat.mod_lt _ (by norm_num)⟩ : S128.Idx) = j := by
    funext a
    match a with
    | ⟨0, _⟩ => exact Fin.ext (by show (((oRowK L).view.emb j : S4x1024.Idx) 1).val % 128 = (j 0).val; rw [h1]; omega)
  show tileVal d (tileOf ((oRowK L).view.emb j)) tbl gid hpre _ = _
  rw [tileOf_emb L j, hlane]

/-- Every tile's task leaves its strip of that one function. -/
theorem tileTask_poK (hF : (K (F := F)).Facts) (tb : (d : Dev nD) → Buf (Elt F) (tLoc d)) (gd : (d : Dev nD) → Buf (Elt F) (gLoc d))
    (o0 : (d : Dev nD) → Buf (Elt F) (oLoc d)) (hpre : ∀ d, IdsOK d (gd d)) :
    TileTask tb gd o0 (fun d => poK d (tb d) (gd d) (hpre d)) :=
  fun d L O W hO => tile_body_val d L hF (tb d) (gd d) (o0 d) (hpre d) _ (poK_strip d L (tb d) (gd d) (hpre d)) O W hO

end Cert.Proof.KB

end
-- ==== Proof.BHostVal.lean ====
/- The kernel program's host values read at an index: the row table is the hidden states with the batch and the
   position folded into one row number, a row id is the token id plus 4096 times the batch, the bias row is the
   bias; and the integer half of the precondition (every token id below 4096) at any float instance. -/
import proofs.«217236_g4415226380944_cont_8to1_c_873_25_alg».proof.Proof.BHost
import proofs.«217236_g4415226380944_cont_8to1_c_873_25_alg».proof.Proof.Gen.Pre_input_domain
import Idealize.ShloMosaic.Lib.ValueIdx
import Idealize.ShloMosaic.Lib.IdealHost
import Idealize.ShloMosaic.Lib.Pipeline.Value
import Idealize.ShloMosaic.Lib.ReduceAll
import Idealize.ShloMosaic.Lib.Affine

noncomputable section

namespace Cert.Proof.KB

open Cert.Kernel Cert.Kernel.Gen

open Idealize.ShloMosaic Idealize.ShloMosaic.ValueIdx Idealize.ShloMosaic.StableHlo Idealize.SL.Sem

variable {F : FTy → Type} [FloatOps F]

variable (m : (ℓ : Loc nD τ sig) → Buf (Elt F) ℓ)

/-! ## The row table -/

/-- The table is the hidden states reshaped. -/
theorem tbV_eq (d : Dev nD) :
    tbV m d = fun i => shapeCast S16384x1024 (m (d, a0')) shapeCasts_S4x4096x1024_S16384x1024 i := by
  show StableHlo.after (ops0 (F := F)) (V0 m d) b0' = _
  after_results
  rfl

/-- Row `4096 · b + s` of the table is position `s` of batch `b`. -/
theorem tbV_apply (d : Dev nD) (b : Fin 4) (s : Fin 4096) (c : Fin 1024) :
    tbV m d (ix2 (⟨4096 * b.val + s.val, by have := b.isLt; have := s.isLt; omega⟩ : Fin 16384) c) = m (d, a0') (ix3 b s c) := by
  rw [tbV_eq]
  refine shapeCast_apply _ _ _ (ix3 b s c) ?_
  rw [Shape.rowMajor_val_three, Shape.rowMajor_val_two]
  show (b.val * 4096 + s.val) * 1024 + c.val = (4096 * b.val + s.val) * 1024 + c.val
  omega

/-! ## The row ids -/

/-- The offset column: 4096 times the batch number, as a word. -/
def offCol : IVec S4x1 32 :=
  muli (broadcastInDim S4x1 ![0] bcast_S4_S4x1_0 (iotaInDim S4 32 0)) (broadcastInDim S4x1 ![] bcast_S_S4x1 (constantI S_ 32 4096#32))

theorem offCol_apply (b : Fin 4) : offCol (ix2 b (0 : Fin 1)) = BitVec.ofNat 32 (4096 * b.val) := by
  fin_cases b <;> decide

/-- The row ids are the token ids plus the offset column broadcast along the entries. -/
theorem gdV_eq (d : Dev nD) :
    gdV m d = addi (m (d, a1')) (broadcastInDim S4x32 ![0, 1] bcast_S4x1_S4x32_0_1 offCol) := by
  show StableHlo.after (ops0 (F := F)) (V0 m d) b6' = _
  after_results
  rfl

/-- The row id of entry (b, k), for a token id below 4096: the token id plus 4096 times the batch, without wrapping. -/
theorem gdV_toNat (d : Dev nD) (hr : ∀ j, (m (d, a1') j).toNat < 4096) (b : Fin 4) (k : Fin 32) :
    (gdV m d (ix2 b k)).toNat = (m (d, a1') (ix2 b k)).toNat + 4096 * b.val := by
  rw [gdV_eq]
  show (IntOp.addi (m (d, a1') (ix2 b k)) (broadcastInDim S4x32 ![0, 1] bcast_S4x1_S4x32_0_1 offCol (ix2 b k))).toNat = _
  rw [broadcastInDim_apply _ _ _ _ (ix2 b (0 : Fin 1)) (fun a => by match a with | ⟨0, _⟩ => rfl | ⟨1, _⟩ => rfl),
    offCol_apply]
  have hb := b.isLt
  have h1 := hr (ix2 b k)
  unfold IntOp.addi
  rw [BitVec.toNat_add, BitVec.toNat_ofNat]
  omega

/-- Every row id names a row of the table. -/
theorem idsOK (d : Dev nD) (hr : ∀ j, (m (d, a1') j).toNat < 4096) : IdsOK d (gdV m d) := by
  intro j
  obtain ⟨b, k, rfl⟩ : ∃ (b : Fin 4) (k : Fin 32), j = ix2 b k := ⟨j 0, j 1, eq_ix2 j⟩
  have := gdV_toNat m d hr b k
  have hb := b.isLt
  have h1 := hr (ix2 b k)
  omega

/-! ## The bias row -/

/-- After the second host line the one-row matrix holds the bias. -/
theorem bias_apply (d : Dev nD) (c : Fin 1024) :
    StableHlo.after (ops1 (F := F)) (V1 m d) b8' (ix2 (0 : Fin 1) c) = m (d, a3') (ix1 c) := by
  have e : StableHlo.after (ops1 (F := F)) (V1 m d) b8'
      = fun i => shapeCast S1x1024 (m (d, a3')) shapeCasts_S1024_S1x1024 i := by
    after_results
    rfl
  rw [e]
  refine shapeCast_apply _ _ _ (ix1 c) ?_
  rw [Shape.rowMajor_val_one, Shape.rowMajor_val_two]
  show c.val = 0 * 1024 + c.val
  omega

/-! ## The integer half of the precondition -/

instance : Subsingleton Cert.Pre_input_domain.S_.Idx := ⟨fun _ _ => funext fun d => d.elim0⟩

/-- A 32-bit word between 0 and 4095 as a signed integer is below 4096 as an unsigned one. -/
theorem toNat_lt_of_toInt (x : BitVec 32) (h0 : (0 : Int) ≤ x.toInt) (h1 : x.toInt ≤ 4095) : x.toNat < 4096 := by
  rw [BitVec.toInt_eq_toNat_cond] at h0 h1
  have := x.isLt
  split_ifs at h0 h1 <;> omega

/-- At any float instance the precondition says every token id is below 4096. -/
theorem pre_range (a0 : FVec F Cert.Pre_input_domain.S4x4096x1024 .f32) (a1 : IVec Cert.Pre_input_domain.S4x32 32)
    (a2 : FVec F Cert.Pre_input_domain.S1024x1024 .f32) (a3 : FVec F Cert.Pre_input_domain.S1024 .f32)
    (h : Cert.Pre_input_domain.fn (F := F) a0 a1 a2 a3 = fun _ => 1#1) : ∀ j, (a1 j).toNat < 4096 := by
  have h0 := congrFun h ix0
  dsimp only [Cert.Pre_input_domain.fn, Cert.Pre_input_domain.fn_part1] at h0
  obtain ⟨-, h19⟩ := IntOp.andi_eq_one.1 h0
  intro j
  have e := Host.reduce_andi_all _ _ _ _ ix0 h19 j
  obtain ⟨e1, e2⟩ := IntOp.andi_eq_one.1 e
  have f1 : (0#32 : BitVec 32).toInt ≤ (a1 j).toInt := IntOp.cmpi_sge.1 e1
  have f2 : (a1 j).toInt ≤ (4095#32 : BitVec 32).toInt := IntOp.cmpi_sle.1 e2
  exact toNat_lt_of_toInt _ (by simpa using f1) (by
    have : (4095#32 : BitVec 32).toInt = 4095 := by decide
    omega)

end Cert.Proof.KB

end
-- ==== Proof.BRun.lean ====
/-
  The kernel program's run, for any float instance: from any memory whose row ids name rows of the table, every weakly
  fair execution of all the device's threads terminates, the four argument arrays end unchanged, and the result array
  ends at the output layer's term of the pooled values every tile wrote a strip of. The frame is that run with the
  result's value dropped.
-/
import proofs.«217236_g4415226380944_cont_8to1_c_873_25_alg».proof.Proof.BMain
import proofs.«217236_g4415226380944_cont_8to1_c_873_25_alg».proof.Proof.BPooled
import proofs.«217236_g4415226380944_cont_8to1_c_873_25_alg».proof.Proof.BHostVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The pooled values when the row ids are in range: every tile's strip of one whole-array function. -/
abbrev poV (hpre : ∀ d, IdsOK d (gdV m d)) (d : Dev nD) : Buf (Elt F) (oLoc d) := poK d (tbV m d) (gdV m d) (hpre d)

theorem run_main [∀ e, Nonempty (Elt F e)] (hpre : ∀ d, IdsOK d (gdV m d)) :
    θ_run (Cert.Kernel.defs (F := F)) (Cert.Kernel.threads (F := F)) ⟨m, fun _ => 0, ρ⟩ (QC m (resV m (poV m hpre))) :=
  SparseCore.Cfg.θ_run_sc (K := K (F := F)) (D := D (F := F)) (𝒱 := 𝒱) (EH := EH) (P := P (tbV m) (gdV m) (o0V m) (poV m hpre)) facts v₀
    (fun q hq => match q with | 0 => nomatch hq)
    (fun q _ => match q with | 0 => tileObl (tbV m) (gdV m) (o0V m) (poV m hpre) (tileTask_poK facts (tbV m) (gdV m) (o0V m) hpre))
    (fun q _ => match q with | 0 => SparseCore.Cfg.VecSplit.of_plain (vecSplit (tbV m) (gdV m) (o0V m) (poV m hpre)))
    m ρ main (G (F := F)) (FIN m (resV m (poV m hpre))) (u₀ (F := F)) (sep_elim_left.trans (hu₀ (tbV m) (gdV m) (o0V m) (poV m hpre)))
    (hmain m ρ (poV m hpre)) (fq m (resV m (poV m hpre))) (hfin m (resV m (poV m hpre))) (QC m (resV m (poV m hpre))) (fun _ h => h)

/-- The precondition's integer half gives the tiles' row ids in range, on every device. -/
theorem ids_of_pre (hp : ∀ c : Dev nD, Cert.Pre_input_domain.fn (F := F) (m (c, a0')) (m (c, a1')) (m (c, a2')) (m (c, a3')) = fun _ => 1#1) :
    ∀ d, IdsOK d (gdV m d) :=
  fun d => idsOK m d (pre_range _ _ _ _ (hp d))

/-- The frame: the run with the result's value dropped. -/
theorem frame [∀ e, Nonempty (Elt F e)]
    (hp : ∀ c : Dev nD, Cert.Pre_input_domain.fn (F := F) (m (c, a0')) (m (c, a1')) (m (c, a2')) (m (c, a3')) = fun _ => 1#1) :
    θ_run (Cert.Kernel.defs (F := F)) (Cert.Kernel.threads (F := F)) ⟨m, fun _ => 0, ρ⟩ (fun r => ∀ c : Dev nD,
      r.2.mem (c, a0') = m (c, a0') ∧ r.2.mem (c, a1') = m (c, a1') ∧ r.2.mem (c, a2') = m (c, a2') ∧ r.2.mem (c, a3') = m (c, a3')) :=
  (θ_run Cert.Kernel.defs _ _).mono (fun _ h c => (h c).2) (run_main m ρ (ids_of_pre m hp))

end Cert.Proof.KB

end
-- ==== Proof.lean ====
/-
  The kernel pools hidden states over a batch's token positions and applies a linear layer with tanh; the reference
  does the same with a 0/1 mask over the whole sequence axis.

  For batch `b` the thirty-two token positions select rows of `hidden[b]`. The reference scatters ones into a zero
  mask at the selected positions, so a position named twice is still counted once; it sums `hidden · mask` and `mask`
  over the sequence axis and divides. The kernel gathers the thirty-two named rows and gives entry `k` the weight 1 when
  no earlier entry names the same row and 0 otherwise; it sums the weighted rows, and multiplies by the reciprocal of
  the sum of the weights. The first occurrences are a set of representatives of the selected positions, so the two
  numerators are the same sum re-indexed and the two denominators the same count (a whole number, at least 1); the
  quotient by it is the product with its reciprocal. The reference's NaN / infinity guards after the quotient choose
  their argument, the quotient of a finite sum by a positive whole number being finite (this is where the
  precondition's finiteness of the hidden states is used). The output layers agree term by term: a matrix product into
  a zero accumulator against the host's dot product, the bias broadcast, tanh.

  On the machine the pooling runs on the thirty-two vector subcores of the two SparseCores (tile `2 · subcore + core`
  serves batch `tile / 8` and 128 columns), each tile copying its batch's row ids in, gathering the rows while it
  computes the weights, and copying its strip of the result out; the output layer is one TensorCore call. The frames
  say that every weakly fair execution of all these threads terminates with the arguments unchanged; they hold when
  the row ids name rows of the table, which the precondition's range of the token positions gives.
-/
import proofs.«217236_g4415226380944_cont_8to1_c_873_25_alg».proof.Defs
import proofs.«217236_g4415226380944_cont_8to1_c_873_25_alg».proof.Proof.Gen.Kernel
import proofs.«217236_g4415226380944_cont_8to1_c_873_25_alg».proof.Proof.Gen.Kernel.Skeleton
import proofs.«217236_g4415226380944_cont_8to1_c_873_25_alg».proof.Proof.Gen.Kernel.Launch
import proofs.«217236_g4415226380944_cont_8to1_c_873_25_alg».proof.Proof.Gen.Kernel.Points
import proofs.«217236_g4415226380944_cont_8to1_c_873_25_alg».proof.Proof.Gen.KernelIdeal
import proofs.«217236_g4415226380944_cont_8to1_c_873_25_alg».proof.Proof.Gen.KernelIdeal.Skeleton
import proofs.«217236_g4415226380944_cont_8to1_c_873_25_alg».proof.Proof.Gen.KernelIdeal.Launch
import proofs.«217236_g4415226380944_cont_8to1_c_873_25_alg».proof.Proof.Gen.KernelIdeal.Points
import proofs.«217236_g4415226380944_cont_8to1_c_873_25_alg».proof.Proof.Gen.ReferenceIdeal
import proofs.«217236_g4415226380944_cont_8to1_c_873_25_alg».proof.Proof.Gen.Pre_input_domain
import proofs.«217236_g4415226380944_cont_8to1_c_873_25_alg».proof.Proof.KAlg
import proofs.«217236_g4415226380944_cont_8to1_c_873_25_alg».proof.Proof.BRun
import Idealize.ShloMosaic.Adequacy
import Idealize.ShloMosaic.Init

noncomputable section

namespace Cert.Proof

open Idealize.ShloMosaic Idealize.SL.Sem

/-- The word-level kernel's frame: its run with the result's value dropped. -/
theorem frame_Kernel : Cert.frame_Kernel (hKernel := Cert.Kernel.Gen.facts) (hPre_input_domain := Cert.Pre_input_domain.Gen.facts) :=
  fun m ρ hpre => Cert.Proof.KB.frame (F := Bits) m ρ hpre

theorem claim : Cert.Claim :=
  ⟨Cert.Kernel.Gen.facts, Cert.KernelIdeal.Gen.facts, Cert.ReferenceIdeal.Gen.facts, Cert.Pre_input_domain.Gen.facts,
    frame_Kernel, Cert.Proof.KI.frame_KernelIdeal, Cert.ReferenceIdeal.RefValue.frame_ReferenceIdeal, trivial, Cert.Proof.KI.algebraic⟩

end Cert.Proof

end
